-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S2x2x512x256 : Shape := ⟨4, ![2, 2, 512, 256]⟩
abbrev S2x2x256 : Shape := ⟨3, ![2, 2, 256]⟩
abbrev S2x512x512 : Shape := ⟨3, ![2, 512, 512]⟩
abbrev S2x512 : Shape := ⟨2, ![2, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S2x2x512x256 : S_.BroadcastsInDim S2x2x512x256 (![] : Fin 0 → Fin S2x2x512x256.rank)
  reducesTo_S2x2x512x256_S_d0_1_2_3 : S2x2x512x256.ReducesTo [0, 1, 2, 3] S_
  bcast_S_S2x2x256 : S_.BroadcastsInDim S2x2x256 (![] : Fin 0 → Fin S2x2x256.rank)
  reducesTo_S2x2x256_S_d0_1_2 : S2x2x256.ReducesTo [0, 1, 2] S_
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_

variable [Facts]

def fn_part3 {F : FTy → Type} [FloatOps F] (main_v48 : IVec S_ 1) (main_v49 : FVec F S2x512 .f32) (main_v50 : FVec F S2x512 .f32) : IVec S_ 1 :=
  let main_v51 : IVec S2x512 1 := cmpf .olt main_v49 main_v50
  let main_c_19 : IVec S_ 1 := constantI S_ 1 1#1
  let main_v52 : IVec S_ 1 := (fun x v => Host.reduce IntOp.andi x v reducesTo_S2x512_S_d0_1 h_S_) main_v51 main_c_19
  let main_v53 : IVec S_ 1 := andi main_v48 main_v52
  main_v53

def fn_part2 {F : FTy → Type} [FloatOps F] (main_arg7 : FVec F S2x2x512x256 .f32) (main_arg8 : FVec F S2x2x256 .f32) (main_arg9 : FVec F S2x512x512 .f32) (main_arg10 : FVec F S2x512 .f32) (main_v33 : IVec S_ 1) : IVec S_ 1 :=
  let main_v34 : FVec F S2x2x512x256 .f32 := Host.absf main_arg7
  let main_cst_12 : FVec F S_ .f32 := constant S_ .f32 0x7F800000#32
  let main_v35 : FVec F S2x2x512x256 .f32 := broadcastInDim S2x2x512x256 ![] bcast_S_S2x2x512x256 main_cst_12
  let main_v36 : IVec S2x2x512x256 1 := cmpf .olt main_v34 main_v35
  let main_c_13 : IVec S_ 1 := constantI S_ 1 1#1
  let main_v37 : IVec S_ 1 := (fun x v => Host.reduce IntOp.andi x v reducesTo_S2x2x512x256_S_d0_1_2_3 h_S_) main_v36 main_c_13
  let main_v38 : IVec S_ 1 := andi main_v33 main_v37
  let main_v39 : FVec F S2x2x256 .f32 := Host.absf main_arg8
  let main_cst_14 : FVec F S_ .f32 := constant S_ .f32 0x7F800000#32
  let main_v40 : FVec F S2x2x256 .f32 := broadcastInDim S2x2x256 ![] bcast_S_S2x2x256 main_cst_14
  let main_v41 : IVec S2x2x256 1 := cmpf .olt main_v39 main_v40
  let main_c_15 : IVec S_ 1 := constantI S_ 1 1#1
  let main_v42 : IVec S_ 1 := (fun x v => Host.reduce IntOp.andi x v reducesTo_S2x2x256_S_d0_1_2 h_S_) main_v41 main_c_15
  let main_v43 : IVec S_ 1 := andi main_v38 main_v42
  let main_v44 : FVec F S2x512x512 .f32 := Host.absf main_arg9
  let main_cst_16 : FVec F S_ .f32 := constant S_ .f32 0x7F800000#32
  let main_v45 : FVec F S2x512x512 .f32 := broadcastInDim S2x512x512 ![] bcast_S_S2x512x512 main_cst_16
  let main_v46 : IVec S2x512x512 1 := cmpf .olt main_v44 main_v45
  let main_c_17 : IVec S_ 1 := constantI S_ 1 1#1
  let main_v47 : IVec S_ 1 := (fun x v => Host.reduce IntOp.andi x v reducesTo_S2x512x512_S_d0_1_2 h_S_) main_v46 main_c_17
  let main_v48 : IVec S_ 1 := andi main_v43 main_v47
  let main_v49 : FVec F S2x512 .f32 := Host.absf main_arg10
  let main_cst_18 : FVec F S_ .f32 := constant S_ .f32 0x7F800000#32
  let main_v50 : FVec F S2x512 .f32 := broadcastInDim S2x512 ![] bcast_S_S2x512 main_cst_18
  fn_part3 (F := F) main_v48 main_v49 main_v50

def fn_part1 {F : FTy → Type} [FloatOps F] (main_arg4 : FVec F S4096x4096 .f32) (main_arg5 : FVec F S2x2x512x256 .f32) (main_arg6 : FVec F S2x2x256 .f32) (main_arg7 : FVec F S2x2x512x256 .f32) (main_arg8 : FVec F S2x2x256 .f32) (main_arg9 : FVec F S2x512x512 .f32) (main_arg10 : FVec F S2x512 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S2x2x512x256 .f32 := Host.absf main_arg5
  let main_cst_8 : FVec F S_ .f32 := constant S_ .f32 0x7F800000#32
  let main_v25 : FVec F S2x2x512x256 .f32 := broadcastInDim S2x2x512x256 ![] bcast_S_S2x2x512x256 main_cst_8
  let main_v26 : IVec S2x2x512x256 1 := cmpf .olt main_v24 main_v25
  let main_c_9 : IVec S_ 1 := constantI S_ 1 1#1
  let main_v27 : IVec S_ 1 := (fun x v => Host.reduce IntOp.andi x v reducesTo_S2x2x512x256_S_d0_1_2_3 h_S_) main_v26 main_c_9
  let main_v28 : IVec S_ 1 := andi main_v23 main_v27
  let main_v29 : FVec F S2x2x256 .f32 := Host.absf main_arg6
  let main_cst_10 : FVec F S_ .f32 := constant S_ .f32 0x7F800000#32
  let main_v30 : FVec F S2x2x256 .f32 := broadcastInDim S2x2x256 ![] bcast_S_S2x2x256 main_cst_10
  let main_v31 : IVec S2x2x256 1 := cmpf .olt main_v29 main_v30
  let main_c_11 : IVec S_ 1 := constantI S_ 1 1#1
  let main_v32 : IVec S_ 1 := (fun x v => Host.reduce IntOp.andi x v reducesTo_S2x2x256_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x512 .f32) (main_arg1 : FVec F S4096x4096 .f32) (main_arg2 : FVec F S4096x4096 .f32) (main_arg3 : FVec F S4096x4096 .f32) (main_arg4 : FVec F S4096x4096 .f32) (main_arg5 : FVec F S2x2x512x256 .f32) (main_arg6 : FVec F S2x2x256 .f32) (main_arg7 : FVec F S2x2x512x256 .f32) (main_arg8 : FVec F S2x2x256 .f32) (main_arg9 : FVec F S2x512x512 .f32) (main_arg10 : FVec F S2x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_v13 main_v16
-- ==== Kernel.lean ====
abbrev S4096x512 : Shape := ⟨2, ![4096, 512]⟩
abbrev S4096x4096 : Shape := ⟨2, ![4096, 4096]⟩
abbrev S2x2x512x256 : Shape := ⟨4, ![2, 2, 512, 256]⟩
abbrev S2x2x256 : Shape := ⟨3, ![2, 2, 256]⟩
abbrev S2x512x512 : Shape := ⟨3, ![2, 512, 512]⟩
abbrev S2x512 : Shape := ⟨2, ![2, 512]⟩
abbrev S1x1x512x256 : Shape := ⟨4, ![1, 1, 512, 256]⟩
abbrev S512x256 : Shape := ⟨2, ![512, 256]⟩
abbrev S512x1024 : Shape := ⟨2, ![512, 1024]⟩
abbrev S1x1x256 : Shape := ⟨3, ![1, 1, 256]⟩
abbrev S256 : Shape := ⟨1, ![256]⟩
abbrev S512 : Shape := ⟨1, ![512]⟩
abbrev S1x512 : Shape := ⟨2, ![1, 512]⟩
abbrev S4096x1024 : Shape := ⟨2, ![4096, 1024]⟩
abbrev S2048x512 : Shape := ⟨2, ![2048, 512]⟩
abbrev S2048x1024 : Shape := ⟨2, ![2048, 1024]⟩
abbrev S1x512x512 : Shape := ⟨3, ![1, 512, 512]⟩
abbrev S512x512 : Shape := ⟨2, ![512, 512]⟩
abbrev S2048x256 : Shape := ⟨2, ![2048, 256]⟩
abbrev S256x1024 : Shape := ⟨2, ![256, 1024]⟩
abbrev S256x256 : Shape := ⟨2, ![256, 256]⟩

abbrev nBuf : Space → Nat
  | .hbm => 67
  | .vmem => 44
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S2x2x512x256, .f32⟩
  | .hbm, ⟨6, _⟩ => ⟨S2x2x256, .f32⟩
  | .hbm, ⟨7, _⟩ => ⟨S2x2x512x256, .f32⟩
  | .hbm, ⟨8, _⟩ => ⟨S2x2x256, .f32⟩
  | .hbm, ⟨9, _⟩ => ⟨S2x512x512, .f32⟩
  | .hbm, ⟨10, _⟩ => ⟨S2x512, .f32⟩
  | .hbm, ⟨11, _⟩ => ⟨S1x1x512x256, .f32⟩
  | .hbm, ⟨12, _⟩ => ⟨S512x256, .f32⟩
  | .hbm, ⟨13, _⟩ => ⟨S1x1x512x256, .f32⟩
  | .hbm, ⟨14, _⟩ => ⟨S512x256, .f32⟩
  | .hbm, ⟨15, _⟩ => ⟨S1x1x512x256, .f32⟩
  | .hbm, ⟨16, _⟩ => ⟨S512x256, .f32⟩
  | .hbm, ⟨17, _⟩ => ⟨S1x1x512x256, .f32⟩
  | .hbm, ⟨18, _⟩ => ⟨S512x256, .f32⟩
  | .hbm, ⟨19, _⟩ => ⟨S512x1024, .f32⟩
  | .hbm, ⟨20, _⟩ => ⟨S1x1x512x256, .f32⟩
  | .hbm, ⟨21, _⟩ => ⟨S512x256, .f32⟩
  | .hbm, ⟨22, _⟩ => ⟨S1x1x512x256, .f32⟩
  | .hbm, ⟨23, _⟩ => ⟨S512x256, .f32⟩
  | .hbm, ⟨24, _⟩ => ⟨S1x1x512x256, .f32⟩
  | .hbm, ⟨25, _⟩ => ⟨S512x256, .f32⟩
  | .hbm, ⟨26, _⟩ => ⟨S1x1x512x256, .f32⟩
  | .hbm, ⟨27, _⟩ => ⟨S512x256, .f32⟩
  | .hbm, ⟨28, _⟩ => ⟨S512x1024, .f32⟩
  | .hbm, ⟨29, _⟩ => ⟨S1x1x256, .f32⟩
  | .hbm, ⟨30, _⟩ => ⟨S256, .f32⟩
  | .hbm, ⟨31, _⟩ => ⟨S1x1x256, .f32⟩
  | .hbm, ⟨32, _⟩ => ⟨S256, .f32⟩
  | .hbm, ⟨33, _⟩ => ⟨S256, .f32⟩
  | .hbm, ⟨34, _⟩ => ⟨S1x1x256, .f32⟩
  | .hbm, ⟨35, _⟩ => ⟨S256, .f32⟩
  | .hbm, ⟨36, _⟩ => ⟨S1x1x256, .f32⟩
  | .hbm, ⟨37, _⟩ => ⟨S256, .f32⟩
  | .hbm, ⟨38, _⟩ => ⟨S256, .f32⟩
  | .hbm, ⟨39, _⟩ => ⟨S512, .f32⟩
  | .hbm, ⟨40, _⟩ => ⟨S1x512, .f32⟩
  | .hbm, ⟨41, _⟩ => ⟨S1x1x256, .f32⟩
  | .hbm, ⟨42, _⟩ => ⟨S256, .f32⟩
  | .hbm, ⟨43, _⟩ => ⟨S1x1x256, .f32⟩
  | .hbm, ⟨44, _⟩ => ⟨S256, .f32⟩
  | .hbm, ⟨45, _⟩ => ⟨S256, .f32⟩
  | .hbm, ⟨46, _⟩ => ⟨S1x1x256, .f32⟩
  | .hbm, ⟨47, _⟩ => ⟨S256, .f32⟩
  | .hbm, ⟨48, _⟩ => ⟨S1x1x256, .f32⟩
  | .hbm, ⟨49, _⟩ => ⟨S256, .f32⟩
  | .hbm, ⟨50, _⟩ => ⟨S256, .f32⟩
  | .hbm, ⟨51, _⟩ => ⟨S512, .f32⟩
  | .hbm, ⟨52, _⟩ => ⟨S1x512, .f32⟩
  | .hbm, ⟨53, _⟩ => ⟨S1x512, .f32⟩
  | .hbm, ⟨54, _⟩ => ⟨S512, .f32⟩
  | .hbm, ⟨55, _⟩ => ⟨S1x512, .f32⟩
  | .hbm, ⟨56, _⟩ => ⟨S1x512, .f32⟩
  | .hbm, ⟨57, _⟩ => ⟨S512, .f32⟩
  | .hbm, ⟨58, _⟩ => ⟨S1x512, .f32⟩
  | .hbm, ⟨59, _⟩ => ⟨S4096x1024, .bf16⟩
  | .hbm, ⟨60, _⟩ => ⟨S1x512x512, .f32⟩
  | .hbm, ⟨61, _⟩ => ⟨S512x512, .f32⟩
  | .hbm, ⟨62, _⟩ => ⟨S4096x512, .f32⟩
  | .hbm, ⟨63, _⟩ => ⟨S4096x1024, .bf16⟩
  | .hbm, ⟨64, _⟩ => ⟨S1x512x512, .f32⟩
  | .hbm, ⟨65, _⟩ => ⟨S512x512, .f32⟩
  | .hbm, ⟨66, _⟩ => ⟨S4096x512, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S2048x1024, .bf16⟩
  | .local _ .vmem, ⟨4, _⟩ => ⟨S2048x1024, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S256x1024, .bf16⟩
  | .local _ .vmem, ⟨14, _⟩ => ⟨S256x1024, .bf16⟩
  | .local _ .vmem, ⟨15, _⟩ => ⟨S512x512, .f32⟩
  | .local _ .vmem, ⟨16, _⟩ => ⟨S1x512, .f32⟩
  | .local _ .vmem, ⟨17, _⟩ => ⟨S1x512, .f32⟩
  | .local _ .vmem, ⟨18, _⟩ => ⟨S2048x512, .f32⟩
  | .local _ .vmem, ⟨19, _⟩ => ⟨S2048x512, .f32⟩
  | .local _ .vmem, ⟨20, _⟩ => ⟨S512x1024, .f32⟩
  | .local _ .vmem, ⟨21, _⟩ => ⟨S2048x512, .f32⟩
  | .local _ .vmem, ⟨22, _⟩ => ⟨S2048x512, .f32⟩
  | .local _ .vmem, ⟨23, _⟩ => ⟨S2048x1024, .bf16⟩
  | .local _ .vmem, ⟨24, _⟩ => ⟨S2048x1024, .bf16⟩
  | .local _ .vmem, ⟨25, _⟩ => ⟨S2048x512, .f32⟩
  | .local _ .vmem, ⟨26, _⟩ => ⟨S2048x256, .f32⟩
  | .local _ .vmem, ⟨27, _⟩ => ⟨S2048x256, .f32⟩
  | .local _ .vmem, ⟨28, _⟩ => ⟨S2048x256, .f32⟩
  | .local _ .vmem, ⟨29, _⟩ => ⟨S2048x256, .f32⟩
  | .local _ .vmem, ⟨30, _⟩ => ⟨S2048x256, .f32⟩
  | .local _ .vmem, ⟨31, _⟩ => ⟨S2048x256, .f32⟩
  | .local _ .vmem, ⟨32, _⟩ => ⟨S2048x256, .f32⟩
  | .local _ .vmem, ⟨33, _⟩ => ⟨S2048x256, .f32⟩
  | .local _ .vmem, ⟨34, _⟩ => ⟨S256x1024, .bf16⟩
  | .local _ .vmem, ⟨35, _⟩ => ⟨S256x1024, .bf16⟩
  | .local _ .vmem, ⟨36, _⟩ => ⟨S512x512, .f32⟩
  | .local _ .vmem, ⟨37, _⟩ => ⟨S1x512, .f32⟩
  | .local _ .vmem, ⟨38, _⟩ => ⟨S1x512, .f32⟩
  | .local _ .vmem, ⟨39, _⟩ => ⟨S2048x512, .f32⟩
  | .local _ .vmem, ⟨40, _⟩ => ⟨S2048x512, .f32⟩
  | .local _ .vmem, ⟨41, _⟩ => ⟨S2048x512, .f32⟩
  | .local _ .vmem, ⟨42, _⟩ => ⟨S2048x512, .f32⟩
  | .local _ .vmem, ⟨43, _⟩ => ⟨S2048x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51_0 : Ref sig .tc := ⟨.hbm, 62, rfl⟩
abbrev main_v51_1 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg8_1 : Ref sig .tc := ⟨.vmem, 40, rfl⟩
abbrev cc2_stg9_0 : Ref sig .tc := ⟨.vmem, 41, rfl⟩
abbrev cc2_stg9_1 : Ref sig .tc := ⟨.vmem, 42, rfl⟩
abbrev cc2_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem10_0 : DmaSem sig := 21
abbrev cc1_sem10_1 : DmaSem sig := 22
abbrev cc1_sem11_0 : DmaSem sig := 23
abbrev cc1_sem11_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem4_1 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem8_1 : DmaSem sig := 39
abbrev cc2_sem9_0 : DmaSem sig := 40
abbrev cc2_sem9_1 : DmaSem sig := 41

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_20 : BitVec 32 := 0#32
  let v35 : BitVec 1 := Scalar.cmpi .ne v34 c0_i32_20
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S2048x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 1 → Memref sig .tc .vmem S512x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S2048x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S2048x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨2, ![2, 16], ![false, false]⟩

def k2_cond2 (i : grid2.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_20 : BitVec 32 := 0#32
  let v35 : BitVec 1 := Scalar.cmpi .ne v34 c0_i32_20
  v35

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S256x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 1 → Memref sig .tc .vmem S512x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S2048x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S2048x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

class Facts₀ : Prop where
  slices_S2x2x512x256_S1x1x512x256_0_0_0_0 : S2x2x512x256.Slices ![0, 0, 0, 0] S1x1x512x256
  shapeCasts_S1x1x512x256_S512x256 : S1x1x512x256.ShapeCasts S512x256
  slices_S2x2x512x256_S1x1x512x256_0_1_0_0 : S2x2x512x256.Slices ![0, 1, 0, 0] S1x1x512x256
  concatenates_S512x256_S512x256_S512x256_S512x256_S512x1024_d1 : Shape.Concatenates [S512x256, S512x256, S512x256, S512x256] S512x1024 1
  slices_S2x2x512x256_S1x1x512x256_1_0_0_0 : S2x2x512x256.Slices ![1, 0, 0, 0] S1x1x512x256
  slices_S2x2x512x256_S1x1x512x256_1_1_0_0 : S2x2x512x256.Slices ![1, 1, 0, 0] S1x1x512x256
  slices_S2x2x256_S1x1x256_0_0_0 : S2x2x256.Slices ![0, 0, 0] S1x1x256
  shapeCasts_S1x1x256_S256 : S1x1x256.ShapeCasts S256
  slices_S2x2x256_S1x1x256_0_1_0 : S2x2x256.Slices ![0, 1, 0] S1x1x256
  concatenates_S256_S256_S512_d0 : Shape.Concatenates [S256, S256] S512 0
  bcast_S512_S1x512_1 : S512.BroadcastsInDim S1x512 (![1] : Fin 1 → Fin S1x512.rank)
  slices_S2x2x256_S1x1x256_1_0_0 : S2x2x256.Slices ![1, 0, 0] S1x1x256
  slices_S2x2x256_S1x1x256_1_1_0 : S2x2x256.Slices ![1, 1, 0] S1x1x256
  slices_S2x512_S1x512_0_0 : S2x512.Slices ![0, 0] S1x512
  shapeCasts_S1x512_S512 : S1x512.ShapeCasts S512
  slices_S2x512_S1x512_1_0 : S2x512.Slices ![1, 0] S1x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  packedbf16_S2048x1024_S2048x1024_0_0 : (Rect.unit (s := S2048x1024) ![0, 0] S2048x1024.size inb_S2048x1024_S2048x1024_0_0).PackedRows (EltTy.packing .bf16)
  slices_S2x512x512_S1x512x512_0_0_0 : S2x512x512.Slices ![0, 0, 0] S1x512x512
  shapeCasts_S1x512x512_S512x512 : S1x512x512.ShapeCasts S512x512
  shapeCasts_S2048x512_S2048x512 : S2048x512.ShapeCasts S2048x512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2048x256_S2048x256_0_0 : ∀ a, (![0, 0] : Fin 2 → Nat) a + S2048x256.size a ≤ S2048x256.size a
  h_S2048x256 : 0 < S2048x256.numel
  inb_S2048x512_S2048x256_0_0 : ∀ a, (![0, 0] : Fin 2 → Nat) a + S2048x256.size a ≤ S2048x512.size a
  slices_S256x1024_o0_0_S256x256 : S256x1024.Slices ![0, 0] S256x256
  slices_S256x1024_o0_256_S256x256 : S256x1024.Slices ![0, 256] S256x256
  shapeCasts_S2048x256_S2048x256 : S2048x256.ShapeCasts S2048x256
  inb_S2048x512_S2048x256_0_256 : ∀ a, (![0, 256] : Fin 2 → Nat) a + S2048x256.size a ≤ S2048x512.size a
  slices_S256x1024_o0_512_S256x256 : S256x1024.Slices ![0, 512] S256x256
  slices_S256x1024_o0_768_S256x256 : S256x1024.Slices ![0, 768] S256x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S2x512x512_S1x512x512_1_0_0 : S2x512x512.Slices ![1, 0, 0] S1x512x512
  dot_S2048x512_S512x1024_S2048x1024_1_0_0_1_n_n_wf : DotDims.WF S2048x512 S512x1024 S2048x1024 [1] [0] [0] [1] [] []
  dot_S2048x256_S256x256_S2048x256_1_0_0_1_n_n_wf : DotDims.WF S2048x256 S256x256 S2048x256 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .f32 = 32 ∨ (Rect.block (s := S4096x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x1024.size a
  hwx0_2 : ∀ i : grid0.Coords, EltTy.bits .bf16 = 32 ∨ (Rect.block (s := S4096x1024) S2048x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S4096x4096.size a
  hwx1_0 : ∀ i : grid1.Coords, EltTy.bits .f32 = 32 ∨ (Rect.block (s := S4096x4096) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .f32 = 32 ∨ (Rect.block (s := S4096x4096) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S4096x4096.size a
  hwx1_2 : ∀ i : grid1.Coords, EltTy.bits .f32 = 32 ∨ (Rect.block (s := S4096x4096) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S4096x4096.size a
  hwx1_3 : ∀ i : grid1.Coords, EltTy.bits .f32 = 32 ∨ (Rect.block (s := S4096x4096) S2048x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S4096x1024.size a
  hwx1_4 : ∀ i : grid1.Coords, EltTy.bits .bf16 = 32 ∨ (Rect.block (s := S4096x1024) S256x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x512.size a ≤ S4096x512.size a
  hwx1_8 : ∀ i : grid1.Coords, EltTy.bits .f32 = 32 ∨ (Rect.block (s := S4096x512) S2048x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x1024.size a ≤ S512x1024.size a
  hwx1_9 : ∀ i : grid1.Coords, EltTy.bits .f32 = 32 ∨ (Rect.block (s := S512x1024) S512x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2048x512.size a ≤ S4096x512.size a
  hwx1_10 : ∀ i : grid1.Coords, EltTy.bits .f32 = 32 ∨ (Rect.block (s := S4096x512) S2048x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2048x1024.size a ≤ S4096x1024.size a
  hwx1_11 : ∀ i : grid1.Coords, EltTy.bits .bf16 = 32 ∨ (Rect.block (s := S4096x1024) S2048x1024.size (cc1_transform_11 i) (hinb1_11 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S4096x4096.size a
  hwx2_0 : ∀ i : grid2.Coords, EltTy.bits .f32 = 32 ∨ (Rect.block (s := S4096x4096) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S4096x4096.size a
  hwx2_1 : ∀ i : grid2.Coords, EltTy.bits .f32 = 32 ∨ (Rect.block (s := S4096x4096) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S4096x4096.size a
  hwx2_2 : ∀ i : grid2.Coords, EltTy.bits .f32 = 32 ∨ (Rect.block (s := S4096x4096) S2048x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S4096x4096.size a
  hwx2_3 : ∀ i : grid2.Coords, EltTy.bits .f32 = 32 ∨ (Rect.block (s := S4096x4096) S2048x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1024.size a ≤ S4096x1024.size a
  hwx2_4 : ∀ i : grid2.Coords, EltTy.bits .bf16 = 32 ∨ (Rect.block (s := S4096x1024) S256x1024.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .f32 = 32 ∨ (Rect.block (s := S512x512) S512x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x512.size a ≤ S1x512.size a
  hwx2_7 : ∀ i : grid2.Coords, EltTy.bits .f32 = 32 ∨ (Rect.block (s := S1x512) S1x512.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x512.size a ≤ S4096x512.size a
  hwx2_8 : ∀ i : grid2.Coords, EltTy.bits .f32 = 32 ∨ (Rect.block (s := S4096x512) S2048x512.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x512.size a ≤ S4096x512.size a
  hwx2_9 : ∀ i : grid2.Coords, EltTy.bits .f32 = 32 ∨ (Rect.block (s := S4096x512) S2048x512.size (cc2_transform_9 i) (hinb2_9 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S2048x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48) S256x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg0) S2048x512.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v17) S512x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v51_0) S2048x512.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v51_1) S2048x1024.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | 11 => fun i => !(k1_cond2 i == 1#1) | ⟨_ + 12, h⟩ => absurd h (Nat.not_lt.2 (Nat.le_add_left _ _))

abbrev win2_0 : Pipeline.Window sig grid2 :=
  Pipeline.Window.ofSpec (Memref.whole main_arg3) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S2048x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S2048x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v51_1) S256x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v53) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S1x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v51_0) S2048x512.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v54) S2048x512.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | ⟨_ + 10, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S2x2x512x256 : Shape := ⟨4, ![2, 2, 512, 256]⟩
abbrev S2x2x256 : Shape := ⟨3, ![2, 2, 256]⟩
abbrev S2x512x512 : Shape := ⟨3, ![2, 512, 512]⟩
abbrev S2x512 : Shape := ⟨2, ![2, 512]⟩
abbrev S1x1x512x256 : Shape := ⟨4, ![1, 1, 512, 256]⟩
abbrev S512x256 : Shape := ⟨2, ![512, 256]⟩
abbrev S4096x256 : Shape := ⟨2, ![4096, 256]⟩
abbrev S1x1x256 : Shape := ⟨3, ![1, 1, 256]⟩
abbrev S256 : Shape := ⟨1, ![256]⟩
abbrev S1x256 : Shape := ⟨2, ![1, 256]⟩
abbrev S1x4096x512 : Shape := ⟨3, ![1, 4096, 512]⟩
abbrev S2x4096x512 : Shape := ⟨3, ![2, 4096, 512]⟩
abbrev S_ : Shape := ⟨0, ![]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩

abbrev nBuf : Space → Nat
  | .hbm => 121
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S2x2x512x256, .f32⟩
  | .hbm, ⟨6, _⟩ => ⟨S2x2x256, .f32⟩
  | .hbm, ⟨7, _⟩ => ⟨S2x2x512x256, .f32⟩
  | .hbm, ⟨8, _⟩ => ⟨S2x2x256, .f32⟩
  | .hbm, ⟨9, _⟩ => ⟨S2x512x512, .f32⟩
  | .hbm, ⟨10, _⟩ => ⟨S2x512, .f32⟩
  | .hbm, ⟨11, _⟩ => ⟨S1x1x512x256, .f32⟩
  | .hbm, ⟨12, _⟩ => ⟨S512x256, .f32⟩
  | .hbm, ⟨13, _⟩ => ⟨S4096x256, .f32⟩
  | .hbm, ⟨14, _⟩ => ⟨S4096x256, .f32⟩
  | .hbm, ⟨15, _⟩ => ⟨S1x1x256, .f32⟩
  | .hbm, ⟨16, _⟩ => ⟨S256, .f32⟩
  | .hbm, ⟨17, _⟩ => ⟨S1x256, .f32⟩
  | .hbm, ⟨18, _⟩ => ⟨S4096x256, .f32⟩
  | .hbm, ⟨19, _⟩ => ⟨S4096x256, .f32⟩
  | .hbm, ⟨20, _⟩ => ⟨S1x1x512x256, .f32⟩
  | .hbm, ⟨21, _⟩ => ⟨S512x256, .f32⟩
  | .hbm, ⟨22, _⟩ => ⟨S4096x256, .f32⟩
  | .hbm, ⟨23, _⟩ => ⟨S4096x256, .f32⟩
  | .hbm, ⟨24, _⟩ => ⟨S1x1x256, .f32⟩
  | .hbm, ⟨25, _⟩ => ⟨S256, .f32⟩
  | .hbm, ⟨26, _⟩ => ⟨S1x256, .f32⟩
  | .hbm, ⟨27, _⟩ => ⟨S4096x256, .f32⟩
  | .hbm, ⟨28, _⟩ => ⟨S4096x256, .f32⟩
  | .hbm, ⟨29, _⟩ => ⟨S4096x512, .f32⟩
  | .hbm, ⟨30, _⟩ => ⟨S1x1x512x256, .f32⟩
  | .hbm, ⟨31, _⟩ => ⟨S512x256, .f32⟩
  | .hbm, ⟨32, _⟩ => ⟨S4096x256, .f32⟩
  | .hbm, ⟨33, _⟩ => ⟨S4096x256, .f32⟩
  | .hbm, ⟨34, _⟩ => ⟨S1x1x256, .f32⟩
  | .hbm, ⟨35, _⟩ => ⟨S256, .f32⟩
  | .hbm, ⟨36, _⟩ => ⟨S1x256, .f32⟩
  | .hbm, ⟨37, _⟩ => ⟨S4096x256, .f32⟩
  | .hbm, ⟨38, _⟩ => ⟨S4096x256, .f32⟩
  | .hbm, ⟨39, _⟩ => ⟨S1x1x512x256, .f32⟩
  | .hbm, ⟨40, _⟩ => ⟨S512x256, .f32⟩
  | .hbm, ⟨41, _⟩ => ⟨S4096x256, .f32⟩
  | .hbm, ⟨42, _⟩ => ⟨S4096x256, .f32⟩
  | .hbm, ⟨43, _⟩ => ⟨S1x1x256, .f32⟩
  | .hbm, ⟨44, _⟩ => ⟨S256, .f32⟩
  | .hbm, ⟨45, _⟩ => ⟨S1x256, .f32⟩
  | .hbm, ⟨46, _⟩ => ⟨S4096x256, .f32⟩
  | .hbm, ⟨47, _⟩ => ⟨S4096x256, .f32⟩
  | .hbm, ⟨48, _⟩ => ⟨S4096x512, .f32⟩
  | .hbm, ⟨49, _⟩ => ⟨S1x4096x512, .f32⟩
  | .hbm, ⟨50, _⟩ => ⟨S1x4096x512, .f32⟩
  | .hbm, ⟨51, _⟩ => ⟨S2x4096x512, .f32⟩
  | .hbm, ⟨52, _⟩ => ⟨S_, .f32⟩
  | .hbm, ⟨53, _⟩ => ⟨S4096x512, .f32⟩
  | .hbm, ⟨54, _⟩ => ⟨S_, .f32⟩
  | .hbm, ⟨55, _⟩ => ⟨S4096x512, .f32⟩
  | .hbm, ⟨56, _⟩ => ⟨S4096x512, .f32⟩
  | .hbm, ⟨57, _⟩ => ⟨S1x512x512, .f32⟩
  | .hbm, ⟨58, _⟩ => ⟨S512x512, .f32⟩
  | .hbm, ⟨59, _⟩ => ⟨S4096x512, .f32⟩
  | .hbm, ⟨60, _⟩ => ⟨S1x512, .f32⟩
  | .hbm, ⟨61, _⟩ => ⟨S512, .f32⟩
  | .hbm, ⟨62, _⟩ => ⟨S1x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S1x1x512x256, .f32⟩
  | .hbm, ⟨67, _⟩ => ⟨S512x256, .f32⟩
  | .hbm, ⟨68, _⟩ => ⟨S4096x256, .f32⟩
  | .hbm, ⟨69, _⟩ => ⟨S4096x256, .f32⟩
  | .hbm, ⟨70, _⟩ => ⟨S1x1x256, .f32⟩
  | .hbm, ⟨71, _⟩ => ⟨S256, .f32⟩
  | .hbm, ⟨72, _⟩ => ⟨S1x256, .f32⟩
  | .hbm, ⟨73, _⟩ => ⟨S4096x256, .f32⟩
  | .hbm, ⟨74, _⟩ => ⟨S4096x256, .f32⟩
  | .hbm, ⟨75, _⟩ => ⟨S1x1x512x256, .f32⟩
  | .hbm, ⟨76, _⟩ => ⟨S512x256, .f32⟩
  | .hbm, ⟨77, _⟩ => ⟨S4096x256, .f32⟩
  | .hbm, ⟨78, _⟩ => ⟨S4096x256, .f32⟩
  | .hbm, ⟨79, _⟩ => ⟨S1x1x256, .f32⟩
  | .hbm, ⟨80, _⟩ => ⟨S256, .f32⟩
  | .hbm, ⟨81, _⟩ => ⟨S1x256, .f32⟩
  | .hbm, ⟨82, _⟩ => ⟨S4096x256, .f32⟩
  | .hbm, ⟨83, _⟩ => ⟨S4096x256, .f32⟩
  | .hbm, ⟨84, _⟩ => ⟨S4096x512, .f32⟩
  | .hbm, ⟨85, _⟩ => ⟨S1x1x512x256, .f32⟩
  | .hbm, ⟨86, _⟩ => ⟨S512x256, .f32⟩
  | .hbm, ⟨87, _⟩ => ⟨S4096x256, .f32⟩
  | .hbm, ⟨88, _⟩ => ⟨S4096x256, .f32⟩
  | .hbm, ⟨89, _⟩ => ⟨S1x1x256, .f32⟩
  | .hbm, ⟨90, _⟩ => ⟨S256, .f32⟩
  | .hbm, ⟨91, _⟩ => ⟨S1x256, .f32⟩
  | .hbm, ⟨92, _⟩ => ⟨S4096x256, .f32⟩
  | .hbm, ⟨93, _⟩ => ⟨S4096x256, .f32⟩
  | .hbm, ⟨94, _⟩ => ⟨S1x1x512x256, .f32⟩
  | .hbm, ⟨95, _⟩ => ⟨S512x256, .f32⟩
  | .hbm, ⟨96, _⟩ => ⟨S4096x256, .f32⟩
  | .hbm, ⟨97, _⟩ => ⟨S4096x256, .f32⟩
  | .hbm, ⟨98, _⟩ => ⟨S1x1x256, .f32⟩
  | .hbm, ⟨99, _⟩ => ⟨S256, .f32⟩
  | .hbm, ⟨100, _⟩ => ⟨S1x256, .f32⟩
  | .hbm, ⟨101, _⟩ => ⟨S4096x256, .f32⟩
  | .hbm, ⟨102, _⟩ => ⟨S4096x256, .f32⟩
  | .hbm, ⟨103, _⟩ => ⟨S4096x512, .f32⟩
  | .hbm, ⟨104, _⟩ => ⟨S1x4096x512, .f32⟩
  | .hbm, ⟨105, _⟩ => ⟨S1x4096x512, .f32⟩
  | .hbm, ⟨106, _⟩ => ⟨S2x4096x512, .f32⟩
  | .hbm, ⟨107, _⟩ => ⟨S_, .f32⟩
  | .hbm, ⟨108, _⟩ => ⟨S4096x512, .f32⟩
  | .hbm, ⟨109, _⟩ => ⟨S_, .f32⟩
  | .hbm, ⟨110, _⟩ => ⟨S4096x512, .f32⟩
  | .hbm, ⟨111, _⟩ => ⟨S4096x512, .f32⟩
  | .hbm, ⟨112, _⟩ => ⟨S1x512x512, .f32⟩
  | .hbm, ⟨113, _⟩ => ⟨S512x512, .f32⟩
  | .hbm, ⟨114, _⟩ => ⟨S4096x512, .f32⟩
  | .hbm, ⟨115, _⟩ => ⟨S1x512, .f32⟩
  | .hbm, ⟨116, _⟩ => ⟨S512, .f32⟩
  | .hbm, ⟨117, _⟩ => ⟨S1x512, .f32⟩
  | .hbm, ⟨118, _⟩ => ⟨S4096x512, .f32⟩
  | .hbm, ⟨119, _⟩ => ⟨S4096x512, .f32⟩
  | .hbm, ⟨120, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_v41 : Ref sig .tc := ⟨.hbm, 53, rfl⟩
abbrev main_call0_cst : Ref sig .tc := ⟨.hbm, 54, rfl⟩
abbrev main_call0_v0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_cst_0 : Ref sig .tc := ⟨.hbm, 107, rfl⟩
abbrev main_v93 : Ref sig .tc := ⟨.hbm, 108, rfl⟩
abbrev main_call1_cst : Ref sig .tc := ⟨.hbm, 109, rfl⟩
abbrev main_call1_v0 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩

abbrev nD : Nat := 1
abbrev τ : Topo := Topo.v7x

variable {F : FTy → Type} [FloatOps F]

class Facts₀ : Prop where
  slices_S2x2x512x256_S1x1x512x256_0_0_0_0 : S2x2x512x256.Slices ![0, 0, 0, 0] S1x1x512x256
  shapeCasts_S1x1x512x256_S512x256 : S1x1x512x256.ShapeCasts S512x256
  slices_S2x2x256_S1x1x256_0_0_0 : S2x2x256.Slices ![0, 0, 0] S1x1x256
  shapeCasts_S1x1x256_S256 : S1x1x256.ShapeCasts S256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x256_S4096x256_S4096x512_d1 : Shape.Concatenates [S4096x256, S4096x256] S4096x512 1
  slices_S2x2x512x256_S1x1x512x256_0_1_0_0 : S2x2x512x256.Slices ![0, 1, 0, 0] S1x1x512x256
  slices_S2x2x256_S1x1x256_0_1_0 : S2x2x256.Slices ![0, 1, 0] S1x1x256
  bcast_S4096x512_S1x4096x512_1_2 : S4096x512.BroadcastsInDim S1x4096x512 (![1, 2] : Fin 2 → Fin S1x4096x512.rank)
  concatenates_S1x4096x512_S1x4096x512_S2x4096x512_d0 : Shape.Concatenates [S1x4096x512, S1x4096x512] S2x4096x512 0
  reducesTo_S2x4096x512_S4096x512_d0 : S2x4096x512.ReducesTo [0] S4096x512
  h_S_ : 0 < S_.numel
  bcast_S_S4096x512 : S_.BroadcastsInDim S4096x512 (![] : Fin 0 → Fin S4096x512.rank)
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  slices_S2x2x512x256_S1x1x512x256_1_0_0_0 : S2x2x512x256.Slices ![1, 0, 0, 0] S1x1x512x256
  slices_S2x2x256_S1x1x256_1_0_0 : S2x2x256.Slices ![1, 0, 0] S1x1x256
  slices_S2x2x512x256_S1x1x512x256_1_1_0_0 : S2x2x512x256.Slices ![1, 1, 0, 0] S1x1x512x256
  slices_S2x2x256_S1x1x256_1_1_0 : S2x2x256.Slices ![1, 1, 0] S1x1x256
  slices_S2x512x512_S1x512x512_1_0_0 : S2x512x512.Slices ![1, 0, 0] S1x512x512
  slices_S2x512_S1x512_1_0 : S2x512.Slices ![1, 0] S1x512
  dot_S4096x512_S512x256_S4096x256_1_0_0_1_n_n_wf : DotDims.WF S4096x512 S512x256 S4096x256 [1] [0] [0] [1] [] []
  dot_S4096x4096_S4096x256_S4096x256_1_0_0_1_n_n_wf : DotDims.WF S4096x4096 S4096x256 S4096x256 [1] [0] [0] [1] [] []
  dot_S4096x512_S512x512_S4096x512_1_0_0_1_n_n_wf : DotDims.WF S4096x512 S512x512 S4096x512 [1] [0] [0] [1] [] []

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.FrameB.Proj.lean ====
/- The first of the three kernel regions: the projection XW = embs · [W_bw0 | W_bw1 | W_fw0 | W_fw1], one block of 2048 rows
   per grid point. This module states what the body leaves in its staging buffers at a point (the product of the row block
   with the whole weight matrix), proves the body's triple, and packages the region's proof data and body obligation,
   all at an arbitrary contents `V` of the TensorCore's buffers at the region's entry and at any float interpretation. -/
import proofs.«161264_g10471130268016_week1_w2_219_12_alg».proof.Proof.Gen.Kernel.Launch
import proofs.«161264_g10471130268016_week1_w2_219_12_alg».proof.Proof.Gen.Kernel.Skeleton
import proofs.«161264_g10471130268016_week1_w2_219_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, cut out of the window's array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rEmb : Rect S2048x512 := Rect.unit (s := S2048x512) ![0, 0] S2048x512.size inb_S2048x512_S2048x512_0_0
abbrev rW : Rect S512x1024 := Rect.unit (s := S512x1024) ![0, 0] S512x1024.size inb_S512x1024_S512x1024_0_0
abbrev rXW : Rect S2048x1024 := Rect.unit (s := S2048x1024) ![0, 0] S2048x1024.size inb_S2048x1024_S2048x1024_0_0

/-- What the body leaves in the output window's staging buffer: its one store, of the row block times the weights. -/
def projOut (x0 : Vec F S2048x512 .f32) (x1 : Vec F S512x1024 .f32) : Vec F S2048x1024 .bf16 :=
  View.canon [⟨rXW, k0_pay1 (View.ld x0 rEmb) (View.ld x1 rW)⟩]

/-- The store covers the buffer. -/
theorem projCover (p0 : Vec F S2048x1024 .bf16) (y : S2048x1024.Idx) :
    ∃ pc ∈ ([⟨rXW, p0⟩] : List (View.Piece (Elt F) S2048x1024 .bf16)), y ∈ pc.1.set :=
  View.cover_of_tiled [⟨rXW, p0⟩] S2048x1024.size (by rfl) y

end

set_option maxHeartbeats 1000000 in
/-- The body on whole staging buffers: with the two inputs at `x0`, `x1` and the output at anything, it runs to the end,
    leaves the inputs as they were and the output at `projOut x0 x1`. -/
theorem projTriple (c : Dev nD) (E : Set ℕ) (i : grid0.Coords)
    (arg1 : Memref sig .tc .vmem S2048x512 .f32) (harg1 : arg1.IsWhole)
    (arg2 : Memref sig .tc .vmem S512x1024 .f32) (harg2 : arg2.IsWhole)
    (arg3 : Memref sig .tc .vmem S2048x1024 .bf16) (harg3 : arg3.IsWhole)
    (x0 : Vec F S2048x512 .f32) (x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

section
variable (V : (c : Dev nD) → (b : Ref sig .tc) → Buf (Elt F) ((c : Thread nD τ).loc b))

/-- The projection region's proof data on core `c`: the arrays as the region finds them; after the body at point `t` each
    input's buffer at its block and the output's at the block's product with the weights; the class's invariant; nothing
    owed; full shares. -/
def projData (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => projOut (pblk V c 0 t) (pblk V c 1 t)
  Φ _ := Pipeline.ΦA spec0 c
  q _ := fullShare
  owed _ := 0

theorem projA_eq (c : Dev nD) (w : Fin cfg0.W) : (projData V c).A w = V c (Pipeline.arrRef spec0 w) := by
  dsimp only [projData]
theorem projAfter_0 (c : Dev nD) (t : Fin cfg0.N) : (projData V c).after 0 t = pblk V c 0 t := by dsimp only [projData]
theorem projAfter_1 (c : Dev nD) (t : Fin cfg0.N) : (projData V c).after 1 t = pblk V c 1 t := by dsimp only [projData]
theorem projAfter_2 (c : Dev nD) (t : Fin cfg0.N) :
    (projData V c).after 2 t = projOut (pblk V c 0 t) (pblk V c 1 t) := by dsimp only [projData]

/-- Each input's staging buffer holds its block at every point, fetched there or not. -/
theorem projBefore_0 (c : Dev nD) (t : Fin cfg0.N) (d) : (projData V c).before 0 t d = pblk V c 0 t :=
  ((projData V c).before_in_eq_fetched 0 rfl (fun _ => rfl) (fun _ _ _ => rfl)
    (fun t => by rw [projAfter_0]; unfold Dat.blockOf pblk; rw [projA_eq]; try rfl) t d).trans
    (by unfold Dat.fetched Dat.blockOf pblk; rw [projA_eq]; try rfl)
theorem projBefore_1 (c : Dev nD) (t : Fin cfg0.N) (d) : (projData V c).before 1 t d = pblk V c 1 t :=
  ((projData V c).before_in_eq_fetched 1 rfl (fun _ => rfl) (fun _ _ _ => rfl)
    (fun t => by rw [projAfter_1]; unfold Dat.blockOf pblk; rw [projA_eq]; try rfl) t d).trans
    (by unfold Dat.fetched Dat.blockOf pblk; rw [projA_eq]; try rfl)

/-- What the body is called with at point `t`, the windows one by one, -/
def projPre (c : Dev nD) (t : Fin cfg0.N) : sProp 𝕄 :=
  iprop((projData V c).Φ t.castSucc ∗ (projData V c).owesAt () t.castSucc
    ∗ (∃ d, owns (c : Thread nD τ) (st0_0 t) fullShare ((projData V c).before 0 t d))
    ∗ (∃ d, owns (c : Thread nD τ) (st0_1 t) fullShare ((projData V c).before 1 t d))
    ∗ (∃ d, owns (c : Thread nD τ) (st0_2 t) fullShare ((projData V c).before 2 t d)))
/-- and what it returns. -/
def projPost (c : Dev nD) (t : Fin cfg0.N) : sProp 𝕄 :=
  iprop((projData V c).Φ t.succ ∗ (projData V c).owesAt () t.succ
    ∗ owns (c : Thread nD τ) (st0_0 t) fullShare ((projData V c).after 0 t)
    ∗ owns (c : Thread nD τ) (st0_1 t) fullShare ((projData V c).after 1 t)
    ∗ owns (c : Thread nD τ) (st0_2 t) fullShare ((projData V c).after 2 t))

/-- The body at any point: the inputs' buffers hold their blocks, so the body's triple applies; the invariant and the
    core's dues pass through unread. -/
theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore_0, projBefore_1]
  rw [show (projData V c).Φ t.succ = (projData V c).Φ t.castSucc from rfl,
    show (projData V c).owesAt () t.succ = (projData V c).owesAt () t.castSucc from rfl,
    projAfter_0, projAfter_1, projAfter_2]
  iintro ⟨HΦ, Ho, ⟨%d0, H0⟩, ⟨%d1, H1⟩, ⟨%d2, H2⟩⟩
  iapply (projTriple c Set.univ _ _ _ _ _ _ _ (pblk V c 0 t) (pblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem projObligation (c : Dev nD) : BodyObligation (projData (F := F) V c) (defs₀ (F := F)) Variants.none () Set.univ := fun t => by
  rw [bigSep_W0, bigSep_W0]
  exact projBody V c t

end

end Cert.Kernel.Frame

end
-- ==== Proof.FrameB.AggMidCases.lean ====
/- The second kernel region (the first aggregation layer): shared facts about its body's two branches and its windows.
   The grid is 2 row blocks × 16 contraction blocks, point t = 16·i + k. The first branch (k = 0) clears the accumulator;
   the second (k = 15) runs the epilogue that writes the two outputs. So a point is of one of three kinds:
   first (k = 0), middle (0 < k < 15), last (k = 15). -/
import proofs.«161264_g10471130268016_week1_w2_219_12_alg».proof.Proof.Gen.Kernel.Launch
import proofs.«161264_g10471130268016_week1_w2_219_12_alg».proof.Proof.Gen.Kernel.Skeleton
import proofs.«161264_g10471130268016_week1_w2_219_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch condition (the accumulator is cleared), as the scalar chain the part computes from the
    second grid coordinate. -/
abbrev isFirst1 (i : grid1.Coords) : Prop :=
  (Scalar.cmpi .ne (Scalar.extui (Scalar.cmpi .eq (BitVec.ofNat 32 (i 1).val) 0#32)) 0#32) = 1#1
/-- It holds exactly at the points with k = 0. -/
theorem isFirst1_iff : ∀ t : Fin cfg1.N, isFirst1 (grid1.coords t) ↔ t.val % 16 = 0 :=
  (by decide +kernel : ∀ t : Fin grid1.N, isFirst1 (grid1.coords t) ↔ t.val % 16 = 0)

/-- The body's second branch condition (the epilogue runs). -/
abbrev isLast1 (i : grid1.Coords) : Prop := k1_cond2 i = 1#1
/-- It holds exactly at the points with k = 15. -/
theorem isLast1_iff : ∀ t : Fin cfg1.N, isLast1 (grid1.coords t) ↔ t.val % 16 = 15 :=
  (by decide +kernel : ∀ t : Fin grid1.N, isLast1 (grid1.coords t) ↔ t.val % 16 = 15)

/-- The ten input windows are never idle. -/
theorem live1_in : ∀ w : Fin 12, w.val < 10 → ∀ i, cfg1.idle w i = false := by
  intro w hw i
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl | ⟨9, _⟩, _ => rfl
/-- Away from the last contraction block both outputs are idle and not written back. -/
theorem idle1_10 : ∀ t : Fin cfg1.N, ¬isLast1 (grid1.coords t) → cfg1.idle 10 (grid1.coords t) = true := by decide +kernel
theorem idle1_11 : ∀ t : Fin cfg1.N, ¬isLast1 (grid1.coords t) → cfg1.idle 11 (grid1.coords t) = true := by decide +kernel
theorem noFlush1_10 : ∀ t : Fin cfg1.N, ¬isLast1 (grid1.coords t) → (cfg1.win 10).flush t = false := by decide +kernel
theorem noFlush1_11 : ∀ t : Fin cfg1.N, ¬isLast1 (grid1.coords t) → (cfg1.win 11).flush t = false := by decide +kernel
/-- At the last contraction block both outputs are live. -/
theorem live1_10 : ∀ t : Fin cfg1.N, isLast1 (grid1.coords t) → cfg1.idle 10 (grid1.coords t) = false := by decide +kernel
theorem live1_11 : ∀ t : Fin cfg1.N, isLast1 (grid1.coords t) → cfg1.idle 11 (grid1.coords t) = false := by decide +kernel

/-- The accumulator: a whole scoped buffer of the kernel's own, carried from one grid point to the next. -/
abbrev acc1 : Memref sig .tc .vmem S2048x512 .f32 := Memref.whole cc1_scratch0
/-- The view through which the accumulator's contents are stated. -/
abbrev accV1 : View sig .tc .vmem S2048x512 .f32 := acc1.view
/-- One staging buffer of each output window, through which its contents are stated. -/
abbrev outV1_10 : View sig .tc .vmem S2048x512 .f32 := (Memref.whole cc1_stg10_0 : Memref sig .tc .vmem S2048x512 .f32).view
abbrev outV1_11 : View sig .tc .vmem S2048x1024 .bf16 := (Memref.whole cc1_stg11_0 : Memref sig .tc .vmem S2048x1024 .bf16).view

/-- The scoped buffers no window of this region stages, split at the accumulator. -/
theorem scopedRest1_acc {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f))
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The class invariant with the accumulator as a memref owned at some contents. -/
theorem PhiA1_eq (c : Dev nD) :
    (Pipeline.ΦA spec1 c : sProp 𝕄)
      = iprop(iprop(iprop((∃ d, owns (c : Thread nD τ) acc1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_acc]; simp only [acc1, owns_whole]; try rfl

end Cert.Kernel.Frame

end
-- ==== Proof.FrameB.AggMidFirst.lean ====
/- The second kernel region: the body's run at a FIRST (k = 0) point of the contraction, on whole staging buffers.
   What the stores leave in a buffer is a list of pieces (rectangle and value, last store first); the lists are found
   by running the body symbolically, and are the first components of the definition below. -/
import proofs.«161264_g10471130268016_week1_w2_219_12_alg».proof.Proof.FrameB.AggMidCases

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a first point the accumulator is cleared and then receives the first block's products; the two outputs are not
    touched. With the inputs at `x·`, the outputs at `xi·` and the accumulator at anything, the body runs to the end,
    the inputs and outputs as they were and the accumulator with the pieces `LS` written. -/
noncomputable def runFirst1 (c : Dev nD) (i : grid1.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S512x1024 .f32) (harg11 : arg11.IsWhole) (arg12 : Memref sig .tc .vmem S2048x512 .f32) (harg12 : arg12.IsWhole) (arg13 : Memref sig .tc .vmem S2048x1024 .bf16) (harg13 : arg13.IsWhole) (arg14 : Memref sig .tc .vmem S2048x512 .f32) (harg14 : arg14.IsWhole) (hc0 : isFirst1 i) (hc1 : ¬isLast1 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) (x9 : Vec F S512x1024 .f32) :
    { LS : List (View.Piece (Elt F) S2048x512 .f32) //
      ∀ (xi10 : Vec F S2048x512 .f32) (xi11 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS)) -∗ K ⟨⟩))
          ⊢ wp frame (wpE (defs₀ (F := F)) Variants.none c none) E (cc1__agg_mid_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi10 xi11 E K => ?run⟩
  case run =>
    simp only [cc1__agg_mid_kernel_eq_skeleton]; unfold cc1__agg_mid_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS

end Cert.Kernel.Frame

end
-- ==== Proof.FrameB.AggMidMiddle.lean ====
/- The second kernel region: the body's run at a MIDDLE (0 < k < 15) point of the contraction, on whole staging buffers.
   What the stores leave in a buffer is a list of pieces (rectangle and value, last store first); the lists are found
   by running the body symbolically, and are the first components of the definition below. -/
import proofs.«161264_g10471130268016_week1_w2_219_12_alg».proof.Proof.FrameB.AggMidCases

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a middle point the accumulator, found at `xs`, receives the block's products; the two outputs are not touched. -/
noncomputable def runMiddle1 (c : Dev nD) (i : grid1.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S512x1024 .f32) (harg11 : arg11.IsWhole) (arg12 : Memref sig .tc .vmem S2048x512 .f32) (harg12 : arg12.IsWhole) (arg13 : Memref sig .tc .vmem S2048x1024 .bf16) (harg13 : arg13.IsWhole) (arg14 : Memref sig .tc .vmem S2048x512 .f32) (harg14 : arg14.IsWhole) (hc0 : ¬isFirst1 i) (hc1 : ¬isLast1 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) (x9 : Vec F S512x1024 .f32) (xs : Vec F S2048x512 .f32) :
    { LS : List (View.Piece (Elt F) S2048x512 .f32) //
      ∀ (xi10 : Vec F S2048x512 .f32) (xi11 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS)) -∗ K ⟨⟩))
          ⊢ wp frame (wpE (defs₀ (F := F)) Variants.none c none) E (cc1__agg_mid_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi10 xi11 E K => ?run⟩
  case run =>
    simp only [cc1__agg_mid_kernel_eq_skeleton]; unfold cc1__agg_mid_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg12.eq_unread hf10; obtain rfl := harg13.eq_unread hf11; obtain rfl := harg14.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS

end Cert.Kernel.Frame

end
-- ==== Proof.FrameB.AggMidLast.lean ====
/- The second kernel region: the body's run at a LAST (k = 15) point of the contraction, on whole staging buffers.
   What the stores leave in a buffer is a list of pieces (rectangle and value, last store first); the lists are found
   by running the body symbolically, and are the first components of the definition below. -/
import proofs.«161264_g10471130268016_week1_w2_219_12_alg».proof.Proof.FrameB.AggMidCases

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a last point the accumulator, found at `xs`, receives the last block's products and the epilogue stores the layer's
    output and the next layer's projection: with the outputs at anything, the body runs to the end, the inputs as they were,
    the outputs with the pieces `L10`, `L11` written and the accumulator with `LS`. -/
noncomputable def runLast1 (c : Dev nD) (i : grid1.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S512x1024 .f32) (harg11 : arg11.IsWhole) (arg12 : Memref sig .tc .vmem S2048x512 .f32) (harg12 : arg12.IsWhole) (arg13 : Memref sig .tc .vmem S2048x1024 .bf16) (harg13 : arg13.IsWhole) (arg14 : Memref sig .tc .vmem S2048x512 .f32) (harg14 : arg14.IsWhole) (hc0 : ¬isFirst1 i) (hc1 : isLast1 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) (x9 : Vec F S512x1024 .f32) (xs : Vec F S2048x512 .f32) :
    Σ' (L10 : List (View.Piece (Elt F) S2048x512 .f32)) (L11 : List (View.Piece (Elt F) S2048x1024 .bf16)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS)) -∗ K ⟨⟩))
          ⊢ wp frame (wpE (defs₀ (F := F)) Variants.none c none) E (cc1__agg_mid_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1__agg_mid_kernel_eq_skeleton]; unfold cc1__agg_mid_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg14.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; iexact HS

end Cert.Kernel.Frame

end
-- ==== Proof.FrameB.AggMid.lean ====
/- The second kernel region (the first aggregation layer), assembled: the blocks of its twelve windows, what its two
   outputs and its accumulator hold after every grid point (by recursion on the point: a first point starts the
   accumulator afresh, a middle point adds to what the point before left, a last point also writes the outputs),
   the region's invariant (the accumulator at those contents), its proof data and its body obligation. Everything is
   stated at an arbitrary contents `V` of the TensorCore's buffers at the region's entry. -/
import proofs.«161264_g10471130268016_week1_w2_219_12_alg».proof.Proof.FrameB.AggMidFirst
import proofs.«161264_g10471130268016_week1_w2_219_12_alg».proof.Proof.FrameB.AggMidMiddle
import proofs.«161264_g10471130268016_week1_w2_219_12_alg».proof.Proof.FrameB.AggMidLast

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S2048x512 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S2048x1024 .bf16 := win1_11.stage (cfg1.slots t 11)
abbrev hs1_11 (t : Fin cfg1.N) : (ms1_11 t).IsWhole := hstage1_11 ((cfg1.slots t 11).cast nbuf1_11)

section
variable (V : (c : Dev nD) → (b : Ref sig .tc) → Buf (Elt F) ((c : Thread nD τ).loc b))

/-- The block of window `w` at grid point `t`, cut out of the window's array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a first point leaves in the accumulator. -/
def accFirst (c : Dev nD) (t : Fin cfg1.N) (h0 : t.val % 16 = 0) (h1 : ¬t.val % 16 = 15) : Vec F S2048x512 .f32 :=
  accV1.read (Elt F) (accV1.writes (Elt F) accV1.junk
    (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) ((isFirst1_iff t).mpr h0) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t)).1)
theorem accFirst_cover (c : Dev nD) (t : Fin cfg1.N) (h0 : t.val % 16 = 0) (h1 : ¬t.val % 16 = 15) (y : S2048x512.Idx) :
    ∃ pc ∈ (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) ((isFirst1_iff t).mpr h0) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t)).1, y ∈ pc.1.set :=
  View.cover_of_tiledL _ S2048x512.size (by sl_kernel_rfl) y

/-- What a middle point leaves in the accumulator, from what it found there. -/
def accMiddle (c : Dev nD) (t : Fin cfg1.N) (h0 : ¬t.val % 16 = 0) (h1 : ¬t.val % 16 = 15) (xs : Vec F S2048x512 .f32) : Vec F S2048x512 .f32 :=
  accV1.read (Elt F) (accV1.writes (Elt F) accV1.junk
    (runMiddle1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t) xs).1)
theorem accMiddle_cover (c : Dev nD) (t : Fin cfg1.N) (h0 : ¬t.val % 16 = 0) (h1 : ¬t.val % 16 = 15) (xs : Vec F S2048x512 .f32) (y : S2048x512.Idx) :
    ∃ pc ∈ (runMiddle1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t) xs).1, y ∈ pc.1.set :=
  View.cover_of_tiledL (s := S2048x512) _ S2048x256.size (by sl_kernel_rfl) y

/-- What a last point leaves in the outputs' staging buffers and in the accumulator. -/
def outLast10 (c : Dev nD) (t : Fin cfg1.N) (h0 : ¬t.val % 16 = 0) (h1 : t.val % 16 = 15) (xs : Vec F S2048x512 .f32) : Vec F S2048x512 .f32 :=
  outV1_10.read (Elt F) (outV1_10.writes (Elt F) outV1_10.junk
    (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).1)
def outLast11 (c : Dev nD) (t : Fin cfg1.N) (h0 : ¬t.val % 16 = 0) (h1 : t.val % 16 = 15) (xs : Vec F S2048x512 .f32) : Vec F S2048x1024 .bf16 :=
  outV1_11.read (Elt F) (outV1_11.writes (Elt F) outV1_11.junk
    (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).2.1)
def accLast (c : Dev nD) (t : Fin cfg1.N) (h0 : ¬t.val % 16 = 0) (h1 : t.val % 16 = 15) (xs : Vec F S2048x512 .f32) : Vec F S2048x512 .f32 :=
  accV1.read (Elt F) (accV1.writes (Elt F) accV1.junk
    (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).2.2.1)
theorem outLast10_cover (c : Dev nD) (t : Fin cfg1.N) (h0 : ¬t.val % 16 = 0) (h1 : t.val % 16 = 15) (xs : Vec F S2048x512 .f32) (y : S2048x512.Idx) :
    ∃ pc ∈ (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).1, y ∈ pc.1.set :=
  View.cover_of_tiledL _ S2048x512.size (by sl_kernel_rfl) y
theorem outLast11_cover (c : Dev nD) (t : Fin cfg1.N) (h0 : ¬t.val % 16 = 0) (h1 : t.val % 16 = 15) (xs : Vec F S2048x512 .f32) (y : S2048x1024.Idx) :
    ∃ pc ∈ (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).2.1, y ∈ pc.1.set :=
  View.cover_of_tiledL _ S2048x1024.size (by sl_kernel_rfl) y
theorem accLast_cover (c : Dev nD) (t : Fin cfg1.N) (h0 : ¬t.val % 16 = 0) (h1 : t.val % 16 = 15) (xs : Vec F S2048x512 .f32) (y : S2048x512.Idx) :
    ∃ pc ∈ (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).2.2.1, y ∈ pc.1.set :=
  View.cover_of_tiledL (s := S2048x512) _ S2048x256.size (by sl_kernel_rfl) y

/-- What the outputs' staging buffers and the accumulator hold after the body at position `n`: the kind of point the
    position is of, run on the point's blocks, a middle or last point over the accumulator the position before left. At a
    point that does not write an output the output's component is a placeholder nothing consults. -/
def accAt (c : Dev nD) : (n : ℕ) → n < cfg1.N → Vec F S2048x512 .f32 × Vec F S2048x1024 .bf16 × Vec F S2048x512 .f32
  | 0, hn => (outV1_10.read (Elt F) outV1_10.junk, outV1_11.read (Elt F) outV1_11.junk, accFirst V c ⟨0, hn⟩ (Nat.zero_mod _) (fun h => by (try dsimp only at h); omega))
  | n + 1, hn =>
    if h0 : (n + 1) % 16 = 0 then
      if h1 : (n + 1) % 16 = 15 then False.elim (by omega)
      else (outV1_10.read (Elt F) outV1_10.junk, outV1_11.read (Elt F) outV1_11.junk, accFirst V c ⟨n + 1, hn⟩ h0 h1)
    else
      if h1 : (n + 1) % 16 = 15 then
        (outLast10 V c ⟨n + 1, hn⟩ h0 h1 (accAt c n (Nat.lt_of_succ_lt hn)).2.2, outLast11 V c ⟨n + 1, hn⟩ h0 h1 (accAt c n (Nat.lt_of_succ_lt hn)).2.2, accLast V c ⟨n + 1, hn⟩ h0 h1 (accAt c n (Nat.lt_of_succ_lt hn)).2.2)
      else
        (outV1_10.read (Elt F) outV1_10.junk, outV1_11.read (Elt F) outV1_11.junk, accMiddle V c ⟨n + 1, hn⟩ h0 h1 (accAt c n (Nat.lt_of_succ_lt hn)).2.2)

theorem accAt_first (c : Dev nD) (t : Fin cfg1.N) (h0 : t.val % 16 = 0) (h1 : ¬t.val % 16 = 15) :
    accAt V c t.val t.isLt = (outV1_10.read (Elt F) outV1_10.junk, outV1_11.read (Elt F) outV1_11.junk, accFirst V c t h0 h1) := by
  obtain ⟨n, hn⟩ := t
  cases n with
  | zero => exact rfl
  | succ n => exact (dif_pos h0).trans ((dif_neg h1).trans rfl)
theorem accAt_middle (c : Dev nD) (t : Fin cfg1.N) (h0 : ¬t.val % 16 = 0) (h1 : ¬t.val % 16 = 15) :
    accAt V c t.val t.isLt = (outV1_10.read (Elt F) outV1_10.junk, outV1_11.read (Elt F) outV1_11.junk, accMiddle V c t h0 h1 (accAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem accAt_last (c : Dev nD) (t : Fin cfg1.N) (h0 : ¬t.val % 16 = 0) (h1 : t.val % 16 = 15) :
    accAt V c t.val t.isLt = (outLast10 V c t h0 h1 (accAt V c (t.val - 1) (Nat.lt_of_le_of_lt (Nat.sub_le _ _) t.isLt)).2.2,
      outLast11 V c t h0 h1 (accAt V c (t.val - 1) (Nat.lt_of_le_of_lt (Nat.sub_le _ _) t.isLt)).2.2,
      accLast V c t h0 h1 (accAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer the region does not
    stage at anything, the generator register at some state); afterwards the same with the accumulator at what the point
    before left in it. -/
def PhiS1 (c : Dev nD) : (n : ℕ) → n ≤ cfg1.N → sProp 𝕄
  | 0, _ => Pipeline.ΦA spec1 c
  | n + 1, hn => iprop(iprop(iprop(owns (c : Thread nD τ) acc1 fullShare ((accAt V c n hn).2.2))
      ∗ Pipeline.scopedRestBut (Ix := Unit) (Name := ℕ) (U := UR sig nD τ) (Lvl := ℕ) (Val := Elt F) spec1 c [cc1_scratch0]) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) acc1 fullShare ((accAt V c n hn).2.2))
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(iprop(owns (c : Thread nD τ) acc1 fullShare ((accAt V c (n - 1) (by omega)).2.2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The region's proof data on core `c`: the arrays as the region finds them; after the body at point `t` each input's buffer
    at its block and the outputs' at `accAt`'s components; the invariant above; nothing owed; full shares. -/
def dat1 (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => mblk V c 3 t
    | ⟨4, _⟩ => mblk V c 4 t
    | ⟨5, _⟩ => mblk V c 5 t
    | ⟨6, _⟩ => mblk V c 6 t
    | ⟨7, _⟩ => mblk V c 7 t
    | ⟨8, _⟩ => mblk V c 8 t
    | ⟨9, _⟩ => mblk V c 9 t
    | ⟨10, _⟩ => (accAt V c t.val t.isLt).1
    | ⟨11, _⟩ => (accAt V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = mblk V c 0 t := by dsimp only [dat1]
theorem after1_1 (c : Dev nD) (t : Fin cfg1.N) : (dat1 V c).after 1 t = mblk V c 1 t := by dsimp only [dat1]
theorem after1_2 (c : Dev nD) (t : Fin cfg1.N) : (dat1 V c).after 2 t = mblk V c 2 t := by dsimp only [dat1]
theorem after1_3 (c : Dev nD) (t : Fin cfg1.N) : (dat1 V c).after 3 t = mblk V c 3 t := by dsimp only [dat1]
theorem after1_4 (c : Dev nD) (t : Fin cfg1.N) : (dat1 V c).after 4 t = mblk V c 4 t := by dsimp only [dat1]
theorem after1_5 (c : Dev nD) (t : Fin cfg1.N) : (dat1 V c).after 5 t = mblk V c 5 t := by dsimp only [dat1]
theorem after1_6 (c : Dev nD) (t : Fin cfg1.N) : (dat1 V c).after 6 t = mblk V c 6 t := by dsimp only [dat1]
theorem after1_7 (c : Dev nD) (t : Fin cfg1.N) : (dat1 V c).after 7 t = mblk V c 7 t := by dsimp only [dat1]
theorem after1_8 (c : Dev nD) (t : Fin cfg1.N) : (dat1 V c).after 8 t = mblk V c 8 t := by dsimp only [dat1]
theorem after1_9 (c : Dev nD) (t : Fin cfg1.N) : (dat1 V c).after 9 t = mblk V c 9 t := by dsimp only [dat1]
theorem after1_10 (c : Dev nD) (t : Fin cfg1.N) : (dat1 V c).after 10 t = (accAt V c t.val t.isLt).1 := by dsimp only [dat1]
theorem after1_11 (c : Dev nD) (t : Fin cfg1.N) : (dat1 V c).after 11 t = (accAt V c t.val t.isLt).2.1 := by dsimp only [dat1]

/-- Each input's staging buffer holds its block at every point, fetched there or not. -/
theorem before1_0 (c : Dev nD) (t : Fin cfg1.N) (d) : (dat1 V c).before 0 t d = mblk V c 0 t :=
  ((dat1 V c).before_in_eq_fetched 0 rfl (fun _ => rfl) (fun _ _ _ => rfl)
    (fun t => by rw [show (dat1 V c).after 0 t = mblk V c 0 t from by dsimp only [dat1]]; unfold Dat.blockOf mblk; rw [A_eq1]; try rfl) t d).trans
    (by unfold Dat.fetched Dat.blockOf mblk; rw [A_eq1]; try rfl)
theorem before1_1 (c : Dev nD) (t : Fin cfg1.N) (d) : (dat1 V c).before 1 t d = mblk V c 1 t :=
  ((dat1 V c).before_in_eq_fetched 1 rfl (fun _ => rfl) (fun _ _ _ => rfl)
    (fun t => by rw [show (dat1 V c).after 1 t = mblk V c 1 t from by dsimp only [dat1]]; unfold Dat.blockOf mblk; rw [A_eq1]; try rfl) t d).trans
    (by unfold Dat.fetched Dat.blockOf mblk; rw [A_eq1]; try rfl)
theorem before1_2 (c : Dev nD) (t : Fin cfg1.N) (d) : (dat1 V c).before 2 t d = mblk V c 2 t :=
  ((dat1 V c).before_in_eq_fetched 2 rfl (fun _ => rfl) (fun _ _ _ => rfl)
    (fun t => by rw [show (dat1 V c).after 2 t = mblk V c 2 t from by dsimp only [dat1]]; unfold Dat.blockOf mblk; rw [A_eq1]; try rfl) t d).trans
    (by unfold Dat.fetched Dat.blockOf mblk; rw [A_eq1]; try rfl)
theorem before1_3 (c : Dev nD) (t : Fin cfg1.N) (d) : (dat1 V c).before 3 t d = mblk V c 3 t :=
  ((dat1 V c).before_in_eq_fetched 3 rfl (fun _ => rfl) (fun _ _ _ => rfl)
    (fun t => by rw [show (dat1 V c).after 3 t = mblk V c 3 t from by dsimp only [dat1]]; unfold Dat.blockOf mblk; rw [A_eq1]; try rfl) t d).trans
    (by unfold Dat.fetched Dat.blockOf mblk; rw [A_eq1]; try rfl)
theorem before1_4 (c : Dev nD) (t : Fin cfg1.N) (d) : (dat1 V c).before 4 t d = mblk V c 4 t :=
  ((dat1 V c).before_in_eq_fetched 4 rfl (fun _ => rfl) (fun _ _ _ => rfl)
    (fun t => by rw [show (dat1 V c).after 4 t = mblk V c 4 t from by dsimp only [dat1]]; unfold Dat.blockOf mblk; rw [A_eq1]; try rfl) t d).trans
    (by unfold Dat.fetched Dat.blockOf mblk; rw [A_eq1]; try rfl)
theorem before1_5 (c : Dev nD) (t : Fin cfg1.N) (d) : (dat1 V c).before 5 t d = mblk V c 5 t :=
  ((dat1 V c).before_in_eq_fetched 5 rfl (fun _ => rfl) (fun _ _ _ => rfl)
    (fun t => by rw [show (dat1 V c).after 5 t = mblk V c 5 t from by dsimp only [dat1]]; unfold Dat.blockOf mblk; rw [A_eq1]; try rfl) t d).trans
    (by unfold Dat.fetched Dat.blockOf mblk; rw [A_eq1]; try rfl)
theorem before1_6 (c : Dev nD) (t : Fin cfg1.N) (d) : (dat1 V c).before 6 t d = mblk V c 6 t :=
  ((dat1 V c).before_in_eq_fetched 6 rfl (fun _ => rfl) (fun _ _ _ => rfl)
    (fun t => by rw [show (dat1 V c).after 6 t = mblk V c 6 t from by dsimp only [dat1]]; unfold Dat.blockOf mblk; rw [A_eq1]; try rfl) t d).trans
    (by unfold Dat.fetched Dat.blockOf mblk; rw [A_eq1]; try rfl)
theorem before1_7 (c : Dev nD) (t : Fin cfg1.N) (d) : (dat1 V c).before 7 t d = mblk V c 7 t :=
  ((dat1 V c).before_in_eq_fetched 7 rfl (fun _ => rfl) (fun _ _ _ => rfl)
    (fun t => by rw [show (dat1 V c).after 7 t = mblk V c 7 t from by dsimp only [dat1]]; unfold Dat.blockOf mblk; rw [A_eq1]; try rfl) t d).trans
    (by unfold Dat.fetched Dat.blockOf mblk; rw [A_eq1]; try rfl)
theorem before1_8 (c : Dev nD) (t : Fin cfg1.N) (d) : (dat1 V c).before 8 t d = mblk V c 8 t :=
  ((dat1 V c).before_in_eq_fetched 8 rfl (fun _ => rfl) (fun _ _ _ => rfl)
    (fun t => by rw [show (dat1 V c).after 8 t = mblk V c 8 t from by dsimp only [dat1]]; unfold Dat.blockOf mblk; rw [A_eq1]; try rfl) t d).trans
    (by unfold Dat.fetched Dat.blockOf mblk; rw [A_eq1]; try rfl)
theorem before1_9 (c : Dev nD) (t : Fin cfg1.N) (d) : (dat1 V c).before 9 t d = mblk V c 9 t :=
  ((dat1 V c).before_in_eq_fetched 9 rfl (fun _ => rfl) (fun _ _ _ => rfl)
    (fun t => by rw [show (dat1 V c).after 9 t = mblk V c 9 t from by dsimp only [dat1]]; unfold Dat.blockOf mblk; rw [A_eq1]; try rfl) t d).trans
    (by unfold Dat.fetched Dat.blockOf mblk; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
/-- The body at any point. The inputs' buffers hold their blocks; the point's position decides its kind; the invariant hands
    the body the accumulator at what the point before left (at anything before the very first point) and takes it back at
    this point's contents; at a point that does not write them the outputs' buffers pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
      unfold Dat.leavesExact; rw [live1_in 0 (by decide) (grid1.coords t)], after1_0]
  rw [show (dat1 V c).leavesExact 1 t = owns (c : Thread nD τ) (ms1_1 t) fullShare ((dat1 V c).after 1 t) from by
      unfold Dat.leavesExact; rw [live1_in 1 (by decide) (grid1.coords t)], after1_1]
  rw [show (dat1 V c).leavesExact 2 t = owns (c : Thread nD τ) (ms1_2 t) fullShare ((dat1 V c).after 2 t) from by
      unfold Dat.leavesExact; rw [live1_in 2 (by decide) (grid1.coords t)], after1_2]
  rw [show (dat1 V c).leavesExact 3 t = owns (c : Thread nD τ) (ms1_3 t) fullShare ((dat1 V c).after 3 t) from by
      unfold Dat.leavesExact; rw [live1_in 3 (by decide) (grid1.coords t)], after1_3]
  rw [show (dat1 V c).leavesExact 4 t = owns (c : Thread nD τ) (ms1_4 t) fullShare ((dat1 V c).after 4 t) from by
      unfold Dat.leavesExact; rw [live1_in 4 (by decide) (grid1.coords t)], after1_4]
  rw [show (dat1 V c).leavesExact 5 t = owns (c : Thread nD τ) (ms1_5 t) fullShare ((dat1 V c).after 5 t) from by
      unfold Dat.leavesExact; rw [live1_in 5 (by decide) (grid1.coords t)], after1_5]
  rw [show (dat1 V c).leavesExact 6 t = owns (c : Thread nD τ) (ms1_6 t) fullShare ((dat1 V c).after 6 t) from by
      unfold Dat.leavesExact; rw [live1_in 6 (by decide) (grid1.coords t)], after1_6]
  rw [show (dat1 V c).leavesExact 7 t = owns (c : Thread nD τ) (ms1_7 t) fullShare ((dat1 V c).after 7 t) from by
      unfold Dat.leavesExact; rw [live1_in 7 (by decide) (grid1.coords t)], after1_7]
  rw [show (dat1 V c).leavesExact 8 t = owns (c : Thread nD τ) (ms1_8 t) fullShare ((dat1 V c).after 8 t) from by
      unfold Dat.leavesExact; rw [live1_in 8 (by decide) (grid1.coords t)], after1_8]
  rw [show (dat1 V c).leavesExact 9 t = owns (c : Thread nD τ) (ms1_9 t) fullShare ((dat1 V c).after 9 t) from by
      unfold Dat.leavesExact; rw [live1_in 9 (by decide) (grid1.coords t)], after1_9]
  by_cases h0 : t.val % 16 = 0
  · have h1 : ¬t.val % 16 = 15 := by omega
    rw [Dat.leavesExact_idle (dat1 V c) 10 t (idle1_10 t (fun h => h1 ((isLast1_iff t).mp h))) (noFlush1_10 t (fun h => h1 ((isLast1_iff t).mp h)))]
    rw [Dat.leavesExact_idle (dat1 V c) 11 t (idle1_11 t (fun h => h1 ((isLast1_iff t).mp h))) (noFlush1_11 t (fun h => h1 ((isLast1_iff t).mp h)))]
    rw [accAt_first V c t h0 h1]
    unfold accFirst; (try dsimp only)
    by_cases hz : t.val = 0
    · rw [PhiS1_castSucc V c t, PhiS1_zero V c _ _ hz, PhiA1_eq]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFirst1 c (grid1.coords t) _ _ _ _ _ _ _ _ _ _ _ _ _ _ _ _ _ _ _ _ _ _ _ _ _ _ ((isFirst1_iff t).mpr h0) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, H11, ⟨%es, HS⟩⟩
      isplitl [HS Hg Hr]
      · isplitl [HS Hr]
        · isplitl [HS]
          · unfold owns; iexists _; isplitr
            swap; · iexact HS
            ipureintro; exact View.read_writes_of_cover _ _ _ _ _ (accFirst_cover V c t h0 h1)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
    · rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFirst1 c (grid1.coords t) _ _ _ _ _ _ _ _ _ _ _ _ _ _ _ _ _ _ _ _ _ _ _ _ _ _ ((isFirst1_iff t).mpr h0) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexists _; iexact HS
      iintro ⟨H0, H1, H2, H3, H4, H5, H6, H7, H8, H9, H10, H11, ⟨%es, HS⟩⟩
      isplitl [HS Hg Hr]
      · isplitl [HS Hr]
        · isplitl [HS]
          · unfold owns; iexists _; isplitr
            swap; · iexact HS
            ipureintro; exact View.read_writes_of_cover _ _ _ _ _ (accFirst_cover V c t h0 h1)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · have hz : t.val ≠ 0 := fun e => h0 (by rw [e])
    by_cases h1 : t.val % 16 = 15
    · skip
      rw [show (dat1 V c).leavesExact 10 t = owns (c : Thread nD τ) (ms1_10 t) fullShare ((dat1 V c).after 10 t) from by
        unfold Dat.leavesExact; rw [live1_10 t ((isLast1_iff t).mpr h1)], after1_10]
      rw [show (dat1 V c).leavesExact 11 t = owns (c : Thread nD τ) (ms1_11 t) fullShare ((dat1 V c).after 11 t) from by
        unfold Dat.leavesExact; rw [live1_11 t ((isLast1_iff t).mpr h1)], after1_11]
      rw [accAt_last V c t h0 h1]
      unfold outLast10 outLast11 accLast; (try dsimp only)
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runLast1 c (grid1.coords t) _ _ _ _ _ _ _ _ _ _ _ _ _ _ _ _ _ _ _ _ _ _ _ _ _ _ (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS]; · iexact HS
      iintro ⟨H0, H1, H2, H3, H4, H5, H6, H7, H8, H9, ⟨%e10, H10⟩, ⟨%e11, H11⟩, ⟨%es, HS⟩⟩
      isplitl [HS Hg Hr]
      · isplitl [HS Hr]
        · isplitl [HS]
          · unfold owns; iexists _; isplitr
            swap; · iexact HS
            ipureintro; exact View.read_writes_of_cover _ _ _ _ _ (accLast_cover V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (outLast10_cover V c t h0 h1 _)
      unfold owns; iexists _; isplitr
      swap; · iexact H11
      ipureintro; exact View.read_writes_of_cover _ _ _ _ _ (outLast11_cover V c t h0 h1 _)
    · rw [Dat.leavesExact_idle (dat1 V c) 10 t (idle1_10 t (fun h => h1 ((isLast1_iff t).mp h))) (noFlush1_10 t (fun h => h1 ((isLast1_iff t).mp h)))]
      rw [Dat.leavesExact_idle (dat1 V c) 11 t (idle1_11 t (fun h => h1 ((isLast1_iff t).mp h))) (noFlush1_11 t (fun h => h1 ((isLast1_iff t).mp h)))]
      rw [accAt_middle V c t h0 h1]
      unfold accMiddle; (try dsimp only)
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle1 c (grid1.coords t) _ _ _ _ _ _ _ _ _ _ _ _ _ _ _ _ _ _ _ _ _ _ _ _ _ _ (fun h => h0 ((isFirst1_iff t).mp h)) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, H11, ⟨%es, HS⟩⟩
      isplitl [HS Hg Hr]
      · isplitl [HS Hr]
        · isplitl [HS]
          · unfold owns; iexists _; isplitr
            swap; · iexact HS
            ipureintro; exact View.read_writes_of_cover _ _ _ _ _ (accMiddle_cover V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, Hr⟩, Hg⟩
  isplitl [HS Hr]
  · isplitl [HS]
    · iexists _; iexact HS
    iexact Hr
  iexact Hg

end

end Cert.Kernel.Frame

end
-- ==== Proof.FrameB.AggOutCases.lean ====
/- The third kernel region (the second aggregation layer): shared facts about its body's two branches and its windows.
   The grid is 2 row blocks × 16 contraction blocks, point t = 16·i + k. The first branch (k = 0) clears the accumulator;
   the second (k = 15) runs the epilogue that writes the output. So a point is of one of three kinds:
   first (k = 0), middle (0 < k < 15), last (k = 15). -/
import proofs.«161264_g10471130268016_week1_w2_219_12_alg».proof.Proof.Gen.Kernel.Launch
import proofs.«161264_g10471130268016_week1_w2_219_12_alg».proof.Proof.Gen.Kernel.Skeleton
import proofs.«161264_g10471130268016_week1_w2_219_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch condition (the accumulator is cleared), as the scalar chain the part computes from the
    second grid coordinate. -/
abbrev isFirst2 (i : grid2.Coords) : Prop :=
  (Scalar.cmpi .ne (Scalar.extui (Scalar.cmpi .eq (BitVec.ofNat 32 (i 1).val) 0#32)) 0#32) = 1#1
/-- It holds exactly at the points with k = 0. -/
theorem isFirst2_iff : ∀ t : Fin cfg2.N, isFirst2 (grid2.coords t) ↔ t.val % 16 = 0 :=
  (by decide +kernel : ∀ t : Fin grid2.N, isFirst2 (grid2.coords t) ↔ t.val % 16 = 0)

/-- The body's second branch condition (the epilogue runs). -/
abbrev isLast2 (i : grid2.Coords) : Prop := k2_cond2 i = 1#1
/-- It holds exactly at the points with k = 15. -/
theorem isLast2_iff : ∀ t : Fin cfg2.N, isLast2 (grid2.coords t) ↔ t.val % 16 = 15 :=
  (by decide +kernel : ∀ t : Fin grid2.N, isLast2 (grid2.coords t) ↔ t.val % 16 = 15)

/-- The input windows are never idle. -/
theorem live2_in : ∀ w : Fin 10, w.val < 9 → ∀ i, cfg2.idle w i = false := by
  intro w hw i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl
/-- Away from the last contraction block output 9 is idle and not written back; at it, live. -/
theorem idle2_9 : ∀ t : Fin cfg2.N, ¬isLast2 (grid2.coords t) → cfg2.idle 9 (grid2.coords t) = true := by decide +kernel
theorem noFlush2_9 : ∀ t : Fin cfg2.N, ¬isLast2 (grid2.coords t) → (cfg2.win 9).flush t = false := by decide +kernel
theorem live2_9 : ∀ t : Fin cfg2.N, isLast2 (grid2.coords t) → cfg2.idle 9 (grid2.coords t) = false := by decide +kernel

/-- The accumulator: a whole scoped buffer of the kernel's own, carried from one grid point to the next. -/
abbrev acc2 : Memref sig .tc .vmem S2048x512 .f32 := Memref.whole cc2_scratch0
/-- The view through which the accumulator's contents are stated. -/
abbrev accV2 : View sig .tc .vmem S2048x512 .f32 := acc2.view
/-- One staging buffer of each output window, through which its contents are stated. -/
abbrev outV2_9 : View sig .tc .vmem S2048x512 .f32 := (Memref.whole cc2_stg9_0 : Memref sig .tc .vmem S2048x512 .f32).view

/-- The scoped buffers no window of this region stages, split at the accumulator. -/
theorem scopedRest2_acc {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The class invariant with the accumulator as a memref owned at some contents. -/
theorem PhiA2_eq (c : Dev nD) :
    (Pipeline.ΦA spec2 c : sProp 𝕄)
      = iprop(iprop(iprop((∃ d, owns (c : Thread nD τ) acc2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_acc]; simp only [acc2, owns_whole]; try rfl

end Cert.Kernel.Frame

end
-- ==== Proof.FrameB.AggOutFirst.lean ====
/- The third kernel region (the second aggregation layer): the body's run at a FIRST (k = 0) point of the contraction, on whole staging buffers.
   What the stores leave in a buffer is a list of pieces (rectangle and value, last store first); the lists are found
   by running the body symbolically, and are the first components of the definition below. -/
import proofs.«161264_g10471130268016_week1_w2_219_12_alg».proof.Proof.FrameB.AggOutCases

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a first point the accumulator is cleared and then receives the first block's products; the outputs are not
    touched. With the inputs at `x·`, the outputs at `xi·` and the accumulator at anything, the body runs to the end,
    the inputs and outputs as they were and the accumulator with the pieces `LS` written. -/
noncomputable def runFirst2 (c : Dev nD) (i : grid2.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (hc0 : isFirst2 i) (hc1 : ¬isLast2 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) :
    { LS : List (View.Piece (Elt F) S2048x512 .f32) //
      ∀ (xi9 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS)) -∗ K ⟨⟩))
          ⊢ wp frame (wpE (defs₀ (F := F)) Variants.none c none) E (cc2__agg_last_kernel i arg2 harg2 arg3 harg3 arg4 harg4 arg5 harg5 arg6 harg6 arg7 harg7 arg8 harg8 arg9 harg9 arg10 harg10 arg11 harg11 arg12 harg12) K } := by
  refine ⟨?_, fun xi9 E K => ?run⟩
  case run =>
    simp only [cc2__agg_last_kernel_eq_skeleton]; unfold cc2__agg_last_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS

end Cert.Kernel.Frame

end
-- ==== Proof.FrameB.AggOutMiddle.lean ====
/- The third kernel region (the second aggregation layer): the body's run at a MIDDLE (0 < k < 15) point of the contraction, on whole staging buffers.
   What the stores leave in a buffer is a list of pieces (rectangle and value, last store first); the lists are found
   by running the body symbolically, and are the first components of the definition below. -/
import proofs.«161264_g10471130268016_week1_w2_219_12_alg».proof.Proof.FrameB.AggOutCases

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a middle point the accumulator, found at `xs`, receives the block's products; the outputs are not touched. -/
noncomputable def runMiddle2 (c : Dev nD) (i : grid2.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (hc0 : ¬isFirst2 i) (hc1 : ¬isLast2 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) (xs : Vec F S2048x512 .f32) :
    { LS : List (View.Piece (Elt F) S2048x512 .f32) //
      ∀ (xi9 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS)) -∗ K ⟨⟩))
          ⊢ wp frame (wpE (defs₀ (F := F)) Variants.none c none) E (cc2__agg_last_kernel i arg2 harg2 arg3 harg3 arg4 harg4 arg5 harg5 arg6 harg6 arg7 harg7 arg8 harg8 arg9 harg9 arg10 harg10 arg11 harg11 arg12 harg12) K } := by
  refine ⟨?_, fun xi9 E K => ?run⟩
  case run =>
    simp only [cc2__agg_last_kernel_eq_skeleton]; unfold cc2__agg_last_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg11.eq_unread hf9; obtain rfl := harg12.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS

end Cert.Kernel.Frame

end
-- ==== Proof.FrameB.AggOutLast.lean ====
/- The third kernel region (the second aggregation layer): the body's run at a LAST (k = 15) point of the contraction, on whole staging buffers.
   What the stores leave in a buffer is a list of pieces (rectangle and value, last store first); the lists are found
   by running the body symbolically, and are the first components of the definition below. -/
import proofs.«161264_g10471130268016_week1_w2_219_12_alg».proof.Proof.FrameB.AggOutCases

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a last point the accumulator, found at `xs`, receives the last block's products and the epilogue stores the
    region's output: with the output buffers at anything, the body runs to the end, the inputs as they were,
    the output buffers with their pieces written and the accumulator with `LS`. -/
noncomputable def runLast2 (c : Dev nD) (i : grid2.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (hc0 : ¬isFirst2 i) (hc1 : isLast2 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) (xs : Vec F S2048x512 .f32) :
    Σ' (L9 : List (View.Piece (Elt F) S2048x512 .f32)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS)) -∗ K ⟨⟩))
          ⊢ wp frame (wpE (defs₀ (F := F)) Variants.none c none) E (cc2__agg_last_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc2__agg_last_kernel_eq_skeleton]; unfold cc2__agg_last_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg12.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS

end Cert.Kernel.Frame

end
-- ==== Proof.FrameB.AggOut.lean ====
/- The third kernel region (the second aggregation layer), assembled: the blocks of its ten windows, what its output and
   its accumulator hold after every grid point (by recursion on the point: a first point starts the accumulator afresh,
   a middle point adds to what the point before left, a last point also writes the output), the region's invariant (the
   accumulator at those contents), its proof data and its body obligation. Everything is stated at an arbitrary contents
   `V` of the TensorCore's buffers at the region's entry. -/
import proofs.«161264_g10471130268016_week1_w2_219_12_alg».proof.Proof.FrameB.AggOutFirst
import proofs.«161264_g10471130268016_week1_w2_219_12_alg».proof.Proof.FrameB.AggOutMiddle
import proofs.«161264_g10471130268016_week1_w2_219_12_alg».proof.Proof.FrameB.AggOutLast

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev ms2_0 (t : Fin cfg2.N) : Memref sig .tc .vmem S2048x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x512 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S2048x512 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S2048x512 .f32 := win2_9.stage (cfg2.slots t 9)
abbrev hs2_9 (t : Fin cfg2.N) : (ms2_9 t).IsWhole := hstage2_9 ((cfg2.slots t 9).cast nbuf2_9)

section
variable (V : (c : Dev nD) → (b : Ref sig .tc) → Buf (Elt F) ((c : Thread nD τ).loc b))

/-- The block of window `w` at grid point `t`, cut out of the window's array as the region finds it. -/
def oblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What a first point leaves in the accumulator. -/
def accFirst2 (c : Dev nD) (t : Fin cfg2.N) (h0 : t.val % 16 = 0) (h1 : ¬t.val % 16 = 15) : Vec F S2048x512 .f32 :=
  accV2.read (Elt F) (accV2.writes (Elt F) accV2.junk
    (runFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) ((isFirst2_iff t).mpr h0) (fun h => h1 ((isLast2_iff t).mp h)) (oblk V c 0 t) (oblk V c 1 t) (oblk V c 2 t) (oblk V c 3 t) (oblk V c 4 t) (oblk V c 5 t) (oblk V c 6 t) (oblk V c 7 t) (oblk V c 8 t)).1)
theorem accFirst2_cover (c : Dev nD) (t : Fin cfg2.N) (h0 : t.val % 16 = 0) (h1 : ¬t.val % 16 = 15) (y : S2048x512.Idx) :
    ∃ pc ∈ (runFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) ((isFirst2_iff t).mpr h0) (fun h => h1 ((isLast2_iff t).mp h)) (oblk V c 0 t) (oblk V c 1 t) (oblk V c 2 t) (oblk V c 3 t) (oblk V c 4 t) (oblk V c 5 t) (oblk V c 6 t) (oblk V c 7 t) (oblk V c 8 t)).1, y ∈ pc.1.set :=
  View.cover_of_tiledL _ S2048x512.size (by sl_kernel_rfl) y

/-- What a middle point leaves in the accumulator, from what it found there. -/
def accMiddle2 (c : Dev nD) (t : Fin cfg2.N) (h0 : ¬t.val % 16 = 0) (h1 : ¬t.val % 16 = 15) (xs : Vec F S2048x512 .f32) : Vec F S2048x512 .f32 :=
  accV2.read (Elt F) (accV2.writes (Elt F) accV2.junk
    (runMiddle2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) (fun h => h1 ((isLast2_iff t).mp h)) (oblk V c 0 t) (oblk V c 1 t) (oblk V c 2 t) (oblk V c 3 t) (oblk V c 4 t) (oblk V c 5 t) (oblk V c 6 t) (oblk V c 7 t) (oblk V c 8 t) xs).1)
theorem accMiddle2_cover (c : Dev nD) (t : Fin cfg2.N) (h0 : ¬t.val % 16 = 0) (h1 : ¬t.val % 16 = 15) (xs : Vec F S2048x512 .f32) (y : S2048x512.Idx) :
    ∃ pc ∈ (runMiddle2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) (fun h => h1 ((isLast2_iff t).mp h)) (oblk V c 0 t) (oblk V c 1 t) (oblk V c 2 t) (oblk V c 3 t) (oblk V c 4 t) (oblk V c 5 t) (oblk V c 6 t) (oblk V c 7 t) (oblk V c 8 t) xs).1, y ∈ pc.1.set :=
  View.cover_of_tiledL (s := S2048x512) _ S2048x256.size (by sl_kernel_rfl) y

/-- What a last point leaves in the outputs' staging buffers and in the accumulator. -/
def outLast2_9 (c : Dev nD) (t : Fin cfg2.N) (h0 : ¬t.val % 16 = 0) (h1 : t.val % 16 = 15) (xs : Vec F S2048x512 .f32) : Vec F S2048x512 .f32 :=
  outV2_9.read (Elt F) (outV2_9.writes (Elt F) outV2_9.junk
    (runLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) ((isLast2_iff t).mpr h1) (oblk V c 0 t) (oblk V c 1 t) (oblk V c 2 t) (oblk V c 3 t) (oblk V c 4 t) (oblk V c 5 t) (oblk V c 6 t) (oblk V c 7 t) (oblk V c 8 t) xs).1)
def accLast2 (c : Dev nD) (t : Fin cfg2.N) (h0 : ¬t.val % 16 = 0) (h1 : t.val % 16 = 15) (xs : Vec F S2048x512 .f32) : Vec F S2048x512 .f32 :=
  accV2.read (Elt F) (accV2.writes (Elt F) accV2.junk
    (runLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) ((isLast2_iff t).mpr h1) (oblk V c 0 t) (oblk V c 1 t) (oblk V c 2 t) (oblk V c 3 t) (oblk V c 4 t) (oblk V c 5 t) (oblk V c 6 t) (oblk V c 7 t) (oblk V c 8 t) xs).2.1)
theorem outLast2_9_cover (c : Dev nD) (t : Fin cfg2.N) (h0 : ¬t.val % 16 = 0) (h1 : t.val % 16 = 15) (xs : Vec F S2048x512 .f32) (y : S2048x512.Idx) :
    ∃ pc ∈ (runLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) ((isLast2_iff t).mpr h1) (oblk V c 0 t) (oblk V c 1 t) (oblk V c 2 t) (oblk V c 3 t) (oblk V c 4 t) (oblk V c 5 t) (oblk V c 6 t) (oblk V c 7 t) (oblk V c 8 t) xs).1, y ∈ pc.1.set :=
  View.cover_of_tiledL _ S2048x512.size (by sl_kernel_rfl) y
theorem accLast2_cover (c : Dev nD) (t : Fin cfg2.N) (h0 : ¬t.val % 16 = 0) (h1 : t.val % 16 = 15) (xs : Vec F S2048x512 .f32) (y : S2048x512.Idx) :
    ∃ pc ∈ (runLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) ((isLast2_iff t).mpr h1) (oblk V c 0 t) (oblk V c 1 t) (oblk V c 2 t) (oblk V c 3 t) (oblk V c 4 t) (oblk V c 5 t) (oblk V c 6 t) (oblk V c 7 t) (oblk V c 8 t) xs).2.1, y ∈ pc.1.set :=
  View.cover_of_tiledL (s := S2048x512) _ S2048x256.size (by sl_kernel_rfl) y

/-- What the outputs' staging buffers and the accumulator hold after the body at position `n`: the kind of point the
    position is of, run on the point's blocks, a middle or last point over the accumulator the position before left. At a
    point that does not write an output the output's component is a placeholder nothing consults. -/
def accAt2 (c : Dev nD) : (n : ℕ) → n < cfg2.N → Vec F S2048x512 .f32 × Vec F S2048x512 .f32
  | 0, hn => (outV2_9.read (Elt F) outV2_9.junk, accFirst2 V c ⟨0, hn⟩ (Nat.zero_mod _) (fun h => by (try dsimp only at h); omega))
  | n + 1, hn =>
    if h0 : (n + 1) % 16 = 0 then
      if h1 : (n + 1) % 16 = 15 then False.elim (by omega)
      else (outV2_9.read (Elt F) outV2_9.junk, accFirst2 V c ⟨n + 1, hn⟩ h0 h1)
    else
      if h1 : (n + 1) % 16 = 15 then
        (outLast2_9 V c ⟨n + 1, hn⟩ h0 h1 (accAt2 c n (Nat.lt_of_succ_lt hn)).2, accLast2 V c ⟨n + 1, hn⟩ h0 h1 (accAt2 c n (Nat.lt_of_succ_lt hn)).2)
      else
        (outV2_9.read (Elt F) outV2_9.junk, accMiddle2 V c ⟨n + 1, hn⟩ h0 h1 (accAt2 c n (Nat.lt_of_succ_lt hn)).2)

theorem accAt2_first (c : Dev nD) (t : Fin cfg2.N) (h0 : t.val % 16 = 0) (h1 : ¬t.val % 16 = 15) :
    accAt2 V c t.val t.isLt = (outV2_9.read (Elt F) outV2_9.junk, accFirst2 V c t h0 h1) := by
  obtain ⟨n, hn⟩ := t
  cases n with
  | zero => exact rfl
  | succ n => exact (dif_pos h0).trans ((dif_neg h1).trans rfl)
theorem accAt2_middle (c : Dev nD) (t : Fin cfg2.N) (h0 : ¬t.val % 16 = 0) (h1 : ¬t.val % 16 = 15) :
    accAt2 V c t.val t.isLt = (outV2_9.read (Elt F) outV2_9.junk, accMiddle2 V c t h0 h1 (accAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem accAt2_last (c : Dev nD) (t : Fin cfg2.N) (h0 : ¬t.val % 16 = 0) (h1 : t.val % 16 = 15) :
    accAt2 V c t.val t.isLt = (outLast2_9 V c t h0 h1 (accAt2 V c (t.val - 1) (Nat.lt_of_le_of_lt (Nat.sub_le _ _) t.isLt)).2,
      accLast2 V c t h0 h1 (accAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer the region does not
    stage at anything, the generator register at some state); afterwards the same with the accumulator at what the point
    before left in it. -/
def PhiS2 (c : Dev nD) : (n : ℕ) → n ≤ cfg2.N → sProp 𝕄
  | 0, _ => Pipeline.ΦA spec2 c
  | n + 1, hn => iprop(iprop(iprop(owns (c : Thread nD τ) acc2 fullShare ((accAt2 V c n hn).2))
      ∗ Pipeline.scopedRestBut (Ix := Unit) (Name := ℕ) (U := UR sig nD τ) (Lvl := ℕ) (Val := Elt F) spec2 c [cc2_scratch0]) ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) acc2 fullShare ((accAt2 V c n hn).2))
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(iprop(owns (c : Thread nD τ) acc2 fullShare ((accAt2 V c (n - 1) (by omega)).2))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The region's proof data on core `c`: the arrays as the region finds them; after the body at point `t` each input's buffer
    at its block and the outputs' at `accAt2`'s components; the invariant above; nothing owed; full shares. -/
def dat2 (c : Dev nD) : Dat τ (Elt F) Unit ℕ (UR sig nD τ) ℕ cfg2 c where
  A w := V c (Pipeline.arrRef spec2 w)
  after w t := match w with
    | ⟨0, _⟩ => oblk V c 0 t
    | ⟨1, _⟩ => oblk V c 1 t
    | ⟨2, _⟩ => oblk V c 2 t
    | ⟨3, _⟩ => oblk V c 3 t
    | ⟨4, _⟩ => oblk V c 4 t
    | ⟨5, _⟩ => oblk V c 5 t
    | ⟨6, _⟩ => oblk V c 6 t
    | ⟨7, _⟩ => oblk V c 7 t
    | ⟨8, _⟩ => oblk V c 8 t
    | ⟨9, _⟩ => (accAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = oblk V c 0 t := by dsimp only [dat2]
theorem after2_1 (c : Dev nD) (t : Fin cfg2.N) : (dat2 V c).after 1 t = oblk V c 1 t := by dsimp only [dat2]
theorem after2_2 (c : Dev nD) (t : Fin cfg2.N) : (dat2 V c).after 2 t = oblk V c 2 t := by dsimp only [dat2]
theorem after2_3 (c : Dev nD) (t : Fin cfg2.N) : (dat2 V c).after 3 t = oblk V c 3 t := by dsimp only [dat2]
theorem after2_4 (c : Dev nD) (t : Fin cfg2.N) : (dat2 V c).after 4 t = oblk V c 4 t := by dsimp only [dat2]
theorem after2_5 (c : Dev nD) (t : Fin cfg2.N) : (dat2 V c).after 5 t = oblk V c 5 t := by dsimp only [dat2]
theorem after2_6 (c : Dev nD) (t : Fin cfg2.N) : (dat2 V c).after 6 t = oblk V c 6 t := by dsimp only [dat2]
theorem after2_7 (c : Dev nD) (t : Fin cfg2.N) : (dat2 V c).after 7 t = oblk V c 7 t := by dsimp only [dat2]
theorem after2_8 (c : Dev nD) (t : Fin cfg2.N) : (dat2 V c).after 8 t = oblk V c 8 t := by dsimp only [dat2]
theorem after2_9 (c : Dev nD) (t : Fin cfg2.N) : (dat2 V c).after 9 t = (accAt2 V c t.val t.isLt).1 := by dsimp only [dat2]

/-- Each input's staging buffer holds its block at every point, fetched there or not. -/
theorem before2_0 (c : Dev nD) (t : Fin cfg2.N) (d) : (dat2 V c).before 0 t d = oblk V c 0 t :=
  ((dat2 V c).before_in_eq_fetched 0 rfl (fun _ => rfl) (fun _ _ _ => rfl)
    (fun t => by rw [show (dat2 V c).after 0 t = oblk V c 0 t from by dsimp only [dat2]]; unfold Dat.blockOf oblk; rw [A_eq2]; try rfl) t d).trans
    (by unfold Dat.fetched Dat.blockOf oblk; rw [A_eq2]; try rfl)
theorem before2_1 (c : Dev nD) (t : Fin cfg2.N) (d) : (dat2 V c).before 1 t d = oblk V c 1 t :=
  ((dat2 V c).before_in_eq_fetched 1 rfl (fun _ => rfl) (fun _ _ _ => rfl)
    (fun t => by rw [show (dat2 V c).after 1 t = oblk V c 1 t from by dsimp only [dat2]]; unfold Dat.blockOf oblk; rw [A_eq2]; try rfl) t d).trans
    (by unfold Dat.fetched Dat.blockOf oblk; rw [A_eq2]; try rfl)
theorem before2_2 (c : Dev nD) (t : Fin cfg2.N) (d) : (dat2 V c).before 2 t d = oblk V c 2 t :=
  ((dat2 V c).before_in_eq_fetched 2 rfl (fun _ => rfl) (fun _ _ _ => rfl)
    (fun t => by rw [show (dat2 V c).after 2 t = oblk V c 2 t from by dsimp only [dat2]]; unfold Dat.blockOf oblk; rw [A_eq2]; try rfl) t d).trans
    (by unfold Dat.fetched Dat.blockOf oblk; rw [A_eq2]; try rfl)
theorem before2_3 (c : Dev nD) (t : Fin cfg2.N) (d) : (dat2 V c).before 3 t d = oblk V c 3 t :=
  ((dat2 V c).before_in_eq_fetched 3 rfl (fun _ => rfl) (fun _ _ _ => rfl)
    (fun t => by rw [show (dat2 V c).after 3 t = oblk V c 3 t from by dsimp only [dat2]]; unfold Dat.blockOf oblk; rw [A_eq2]; try rfl) t d).trans
    (by unfold Dat.fetched Dat.blockOf oblk; rw [A_eq2]; try rfl)
theorem before2_4 (c : Dev nD) (t : Fin cfg2.N) (d) : (dat2 V c).before 4 t d = oblk V c 4 t :=
  ((dat2 V c).before_in_eq_fetched 4 rfl (fun _ => rfl) (fun _ _ _ => rfl)
    (fun t => by rw [show (dat2 V c).after 4 t = oblk V c 4 t from by dsimp only [dat2]]; unfold Dat.blockOf oblk; rw [A_eq2]; try rfl) t d).trans
    (by unfold Dat.fetched Dat.blockOf oblk; rw [A_eq2]; try rfl)
theorem before2_5 (c : Dev nD) (t : Fin cfg2.N) (d) : (dat2 V c).before 5 t d = oblk V c 5 t :=
  ((dat2 V c).before_in_eq_fetched 5 rfl (fun _ => rfl) (fun _ _ _ => rfl)
    (fun t => by rw [show (dat2 V c).after 5 t = oblk V c 5 t from by dsimp only [dat2]]; unfold Dat.blockOf oblk; rw [A_eq2]; try rfl) t d).trans
    (by unfold Dat.fetched Dat.blockOf oblk; rw [A_eq2]; try rfl)
theorem before2_6 (c : Dev nD) (t : Fin cfg2.N) (d) : (dat2 V c).before 6 t d = oblk V c 6 t :=
  ((dat2 V c).before_in_eq_fetched 6 rfl (fun _ => rfl) (fun _ _ _ => rfl)
    (fun t => by rw [show (dat2 V c).after 6 t = oblk V c 6 t from by dsimp only [dat2]]; unfold Dat.blockOf oblk; rw [A_eq2]; try rfl) t d).trans
    (by unfold Dat.fetched Dat.blockOf oblk; rw [A_eq2]; try rfl)
theorem before2_7 (c : Dev nD) (t : Fin cfg2.N) (d) : (dat2 V c).before 7 t d = oblk V c 7 t :=
  ((dat2 V c).before_in_eq_fetched 7 rfl (fun _ => rfl) (fun _ _ _ => rfl)
    (fun t => by rw [show (dat2 V c).after 7 t = oblk V c 7 t from by dsimp only [dat2]]; unfold Dat.blockOf oblk; rw [A_eq2]; try rfl) t d).trans
    (by unfold Dat.fetched Dat.blockOf oblk; rw [A_eq2]; try rfl)
theorem before2_8 (c : Dev nD) (t : Fin cfg2.N) (d) : (dat2 V c).before 8 t d = oblk V c 8 t :=
  ((dat2 V c).before_in_eq_fetched 8 rfl (fun _ => rfl) (fun _ _ _ => rfl)
    (fun t => by rw [show (dat2 V c).after 8 t = oblk V c 8 t from by dsimp only [dat2]]; unfold Dat.blockOf oblk; rw [A_eq2]; try rfl) t d).trans
    (by unfold Dat.fetched Dat.blockOf oblk; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))
/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 8000000 in
/-- The body at any point. The inputs' buffers hold their blocks; the point's position decides its kind; the invariant hands
    the body the accumulator at what the point before left (at anything before the very first point) and takes it back at
    this point's contents; at a point that does not write them the outputs' buffers pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
      unfold Dat.leavesExact; rw [live2_in 0 (by decide) (grid2.coords t)], after2_0]
  rw [show (dat2 V c).leavesExact 1 t = owns (c : Thread nD τ) (ms2_1 t) fullShare ((dat2 V c).after 1 t) from by
      unfold Dat.leavesExact; rw [live2_in 1 (by decide) (grid2.coords t)], after2_1]
  rw [show (dat2 V c).leavesExact 2 t = owns (c : Thread nD τ) (ms2_2 t) fullShare ((dat2 V c).after 2 t) from by
      unfold Dat.leavesExact; rw [live2_in 2 (by decide) (grid2.coords t)], after2_2]
  rw [show (dat2 V c).leavesExact 3 t = owns (c : Thread nD τ) (ms2_3 t) fullShare ((dat2 V c).after 3 t) from by
      unfold Dat.leavesExact; rw [live2_in 3 (by decide) (grid2.coords t)], after2_3]
  rw [show (dat2 V c).leavesExact 4 t = owns (c : Thread nD τ) (ms2_4 t) fullShare ((dat2 V c).after 4 t) from by
      unfold Dat.leavesExact; rw [live2_in 4 (by decide) (grid2.coords t)], after2_4]
  rw [show (dat2 V c).leavesExact 5 t = owns (c : Thread nD τ) (ms2_5 t) fullShare ((dat2 V c).after 5 t) from by
      unfold Dat.leavesExact; rw [live2_in 5 (by decide) (grid2.coords t)], after2_5]
  rw [show (dat2 V c).leavesExact 6 t = owns (c : Thread nD τ) (ms2_6 t) fullShare ((dat2 V c).after 6 t) from by
      unfold Dat.leavesExact; rw [live2_in 6 (by decide) (grid2.coords t)], after2_6]
  rw [show (dat2 V c).leavesExact 7 t = owns (c : Thread nD τ) (ms2_7 t) fullShare ((dat2 V c).after 7 t) from by
      unfold Dat.leavesExact; rw [live2_in 7 (by decide) (grid2.coords t)], after2_7]
  rw [show (dat2 V c).leavesExact 8 t = owns (c : Thread nD τ) (ms2_8 t) fullShare ((dat2 V c).after 8 t) from by
      unfold Dat.leavesExact; rw [live2_in 8 (by decide) (grid2.coords t)], after2_8]
  by_cases h0 : t.val % 16 = 0
  · have h1 : ¬t.val % 16 = 15 := by omega
    rw [Dat.leavesExact_idle (dat2 V c) 9 t (idle2_9 t (fun h => h1 ((isLast2_iff t).mp h))) (noFlush2_9 t (fun h => h1 ((isLast2_iff t).mp h)))]
    rw [accAt2_first V c t h0 h1]
    unfold accFirst2; (try dsimp only)
    by_cases hz : t.val = 0
    · rw [PhiS2_castSucc V c t, PhiS2_zero V c _ _ hz, PhiA2_eq]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst2 c (grid2.coords t) _ _ _ _ _ _ _ _ _ _ _ _ _ _ _ _ _ _ _ _ _ _ ((isFirst2_iff t).mpr h0) (fun h => h1 ((isLast2_iff t).mp h)) (oblk V c 0 t) (oblk V c 1 t) (oblk V c 2 t) (oblk V c 3 t) (oblk V c 4 t) (oblk V c 5 t) (oblk V c 6 t) (oblk V c 7 t) (oblk V c 8 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, ⟨%es, HS⟩⟩
      isplitl [HS Hg Hr]
      · isplitl [HS Hr]
        · isplitl [HS]
          · unfold owns; iexists _; isplitr
            swap; · iexact HS
            ipureintro; exact View.read_writes_of_cover _ _ _ _ _ (accFirst2_cover V c t h0 h1)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst2 c (grid2.coords t) _ _ _ _ _ _ _ _ _ _ _ _ _ _ _ _ _ _ _ _ _ _ ((isFirst2_iff t).mpr h0) (fun h => h1 ((isLast2_iff t).mp h)) (oblk V c 0 t) (oblk V c 1 t) (oblk V c 2 t) (oblk V c 3 t) (oblk V c 4 t) (oblk V c 5 t) (oblk V c 6 t) (oblk V c 7 t) (oblk V c 8 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexists _; iexact HS
      iintro ⟨H0, H1, H2, H3, H4, H5, H6, H7, H8, H9, ⟨%es, HS⟩⟩
      isplitl [HS Hg Hr]
      · isplitl [HS Hr]
        · isplitl [HS]
          · unfold owns; iexists _; isplitr
            swap; · iexact HS
            ipureintro; exact View.read_writes_of_cover _ _ _ _ _ (accFirst2_cover V c t h0 h1)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun e => h0 (by rw [e])
    by_cases h1 : t.val % 16 = 15
    · skip
      rw [show (dat2 V c).leavesExact 9 t = owns (c : Thread nD τ) (ms2_9 t) fullShare ((dat2 V c).after 9 t) from by
        unfold Dat.leavesExact; rw [live2_9 t ((isLast2_iff t).mpr h1)], after2_9]
      rw [accAt2_last V c t h0 h1]
      unfold outLast2_9 accLast2; (try dsimp only)
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLast2 c (grid2.coords t) _ _ _ _ _ _ _ _ _ _ _ _ _ _ _ _ _ _ _ _ _ _ (fun h => h0 ((isFirst2_iff t).mp h)) ((isLast2_iff t).mpr h1) (oblk V c 0 t) (oblk V c 1 t) (oblk V c 2 t) (oblk V c 3 t) (oblk V c 4 t) (oblk V c 5 t) (oblk V c 6 t) (oblk V c 7 t) (oblk V c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, ⟨%e9, H9⟩, ⟨%es, HS⟩⟩
      isplitl [HS Hg Hr]
      · isplitl [HS Hr]
        · isplitl [HS]
          · unfold owns; iexists _; isplitr
            swap; · iexact HS
            ipureintro; exact View.read_writes_of_cover _ _ _ _ _ (accLast2_cover V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (outLast2_9_cover V c t h0 h1 _)
    · rw [Dat.leavesExact_idle (dat2 V c) 9 t (idle2_9 t (fun h => h1 ((isLast2_iff t).mp h))) (noFlush2_9 t (fun h => h1 ((isLast2_iff t).mp h)))]
      rw [accAt2_middle V c t h0 h1]
      unfold accMiddle2; (try dsimp only)
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runMiddle2 c (grid2.coords t) _ _ _ _ _ _ _ _ _ _ _ _ _ _ _ _ _ _ _ _ _ _ (fun h => h0 ((isFirst2_iff t).mp h)) (fun h => h1 ((isLast2_iff t).mp h)) (oblk V c 0 t) (oblk V c 1 t) (oblk V c 2 t) (oblk V c 3 t) (oblk V c 4 t) (oblk V c 5 t) (oblk V c 6 t) (oblk V c 7 t) (oblk V c 8 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, ⟨%es, HS⟩⟩
      isplitl [HS Hg Hr]
      · isplitl [HS Hr]
        · isplitl [HS]
          · unfold owns; iexists _; isplitr
            swap; · iexact HS
            ipureintro; exact View.read_writes_of_cover _ _ _ _ _ (accMiddle2_cover V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS, Hr⟩, Hg⟩
  isplitl [HS Hr]
  · isplitl [HS]
    · iexists _; iexact HS
    iexact Hr
  iexact Hg

end

end Cert.Kernel.Frame

end
-- ==== Proof.FrameB.Run.lean ====
/- The whole program as a run. The TensorCore's buffer contents at every boundary between @main's items are a fold from
   the launch memory: a stretch of host operations applies them; a kernel region leaves each of its windows' arrays at what
   its write-backs left and every other buffer as it was. Every argument array is traced back through the fold to its
   launch contents (no host operation writes one, and a region that stages one only reads it). The three regions are the
   segments of the library's several-region launch, each entered from and left at the fold's contents. The conclusion:
   every weakly fair execution terminates without a fault, the result buffer holds the last boundary's contents and the
   arguments are unchanged — at any float interpretation. -/
import proofs.«161264_g10471130268016_week1_w2_219_12_alg».proof.Proof.FrameB.Proj
import proofs.«161264_g10471130268016_week1_w2_219_12_alg».proof.Proof.FrameB.AggMid
import proofs.«161264_g10471130268016_week1_w2_219_12_alg».proof.Proof.FrameB.AggOut
import proofs.«161264_g10471130268016_week1_w2_219_12_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, -/
abbrev Bd0 : Dev nD → Valuation τ sig (Elt F) := fun c b => (s₀ m ρ).mem ((c : Dev nD), b)
/-- after the first stretch of host operations (the weights and biases sliced, concatenated and broadcast). -/
abbrev Bd1 : Dev nD → Valuation τ sig (Elt F) := fun c => StableHlo.after hostOps0 (Bd0 m ρ c)
/-- The contents the region is entered from, read at the TensorCore's references. -/
abbrev En1 : (c : Dev nD) → (b : Ref sig .tc) → Buf (Elt F) ((c : Thread nD τ).loc b) := fun c b => Bd1 m ρ c b
/-- At the region's exit: its arrays at what its write-backs leave, every other buffer as entered. -/
def Bd2 (c : Dev nD) : Valuation τ sig (Elt F) :=
  Pipeline.withArrays spec0 c (Bd1 m ρ c) fun w => (projData (En1 m ρ) c).arrAt w cfg0.N
theorem Bd2_arr (c : Dev nD) (w : Fin cfg0.W) :
    Bd2 m ρ c (Proc.devRef .tc (Pipeline.arrRef spec0 w)) = (projData (En1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m ρ c b
theorem hF0 (c : Dev nD) (w : Fin cfg0.W) : (projData (En1 m ρ) c).arrAt w cfg0.N = Ex2 m ρ c (Pipeline.arrRef spec0 w) :=
  (Bd2_arr m ρ c w).symm
theorem hrest0 (c : Dev nD) : ∀ b, b ∉ Finset.univ.image (Pipeline.arrRef spec0) → Ex2 m ρ c b = En1 m ρ c b :=
  fun b hb => Bd2_of_ne m ρ c b fun w e => hb (Finset.mem_image.mpr ⟨w, Finset.mem_univ _, e⟩)
/-- After the second stretch (the first layer's linear weights sliced). -/
abbrev Bd3 : Dev nD → Valuation τ sig (Elt F) := fun c => StableHlo.after hostOps1 (Bd2 m ρ c)
/-- The contents the region is entered from, read at the TensorCore's references. -/
abbrev En3 : (c : Dev nD) → (b : Ref sig .tc) → Buf (Elt F) ((c : Thread nD τ).loc b) := fun c b => Bd3 m ρ c b
/-- At the region's exit: its arrays at what its write-backs leave, every other buffer as entered. -/
def Bd4 (c : Dev nD) : Valuation τ sig (Elt F) :=
  Pipeline.withArrays spec1 c (Bd3 m ρ c) fun w => (dat1 (En3 m ρ) c).arrAt w cfg1.N
theorem Bd4_arr (c : Dev nD) (w : Fin cfg1.W) :
    Bd4 m ρ c (Proc.devRef .tc (Pipeline.arrRef spec1 w)) = (dat1 (En3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex4 : (c : Dev nD) → (b : Ref sig .tc) → Buf (Elt F) ((c : Thread nD τ).loc b) := fun c b => Bd4 m ρ c b
theorem hF1 (c : Dev nD) (w : Fin cfg1.W) : (dat1 (En3 m ρ) c).arrAt w cfg1.N = Ex4 m ρ c (Pipeline.arrRef spec1 w) :=
  (Bd4_arr m ρ c w).symm
theorem hrest1 (c : Dev nD) : ∀ b, b ∉ Finset.univ.image (Pipeline.arrRef spec1) → Ex4 m ρ c b = En3 m ρ c b :=
  fun b hb => Bd4_of_ne m ρ c b fun w e => hb (Finset.mem_image.mpr ⟨w, Finset.mem_univ _, e⟩)
/-- After the third stretch (the second layer's linear weights sliced). -/
abbrev Bd5 : Dev nD → Valuation τ sig (Elt F) := fun c => StableHlo.after hostOps2 (Bd4 m ρ c)
/-- The contents the region is entered from, read at the TensorCore's references. -/
abbrev En5 : (c : Dev nD) → (b : Ref sig .tc) → Buf (Elt F) ((c : Thread nD τ).loc b) := fun c b => Bd5 m ρ c b
/-- At the region's exit: its arrays at what its write-backs leave, every other buffer as entered. -/
def Bd6 (c : Dev nD) : Valuation τ sig (Elt F) :=
  Pipeline.withArrays spec2 c (Bd5 m ρ c) fun w => (dat2 (En5 m ρ) c).arrAt w cfg2.N
theorem Bd6_arr (c : Dev nD) (w : Fin cfg2.W) :
    Bd6 m ρ c (Proc.devRef .tc (Pipeline.arrRef spec2 w)) = (dat2 (En5 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Ex6 : (c : Dev nD) → (b : Ref sig .tc) → Buf (Elt F) ((c : Thread nD τ).loc b) := fun c b => Bd6 m ρ c b
theorem hF2 (c : Dev nD) (w : Fin cfg2.W) : (dat2 (En5 m ρ) c).arrAt w cfg2.N = Ex6 m ρ c (Pipeline.arrRef spec2 w) :=
  (Bd6_arr m ρ c w).symm
theorem hrest2 (c : Dev nD) : ∀ b, b ∉ Finset.univ.image (Pipeline.arrRef spec2) → Ex6 m ρ c b = En5 m ρ c b :=
  fun b hb => Bd6_of_ne m ρ c b fun w e => hb (Finset.mem_image.mpr ⟨w, Finset.mem_univ _, e⟩)

/-! Every argument array ends as launched. -/
theorem Bd6_arg0 (c : Dev nD) : Bd6 m ρ c (Proc.devRef .tc main_arg0) = m ((c : Thread nD τ).loc main_arg0) :=
  calc Bd6 m ρ c (Proc.devRef .tc main_arg0)
    _ = Bd5 m ρ c (Proc.devRef .tc main_arg0) := Bd6_of_ne m ρ c main_arg0 (by decide)
    _ = Bd4 m ρ c (Proc.devRef .tc main_arg0) := StableHlo.after_of_writes_sub hostOps2 _ hostOps2_writes (by decide)
    _ = Bd3 m ρ c (Proc.devRef .tc main_arg0) := (Bd4_arr m ρ c 8).trans (((dat1 (En3 m ρ) c).arrAt_in 8 rfl _).trans (A_eq1 (En3 m ρ) c 8))
    _ = Bd2 m ρ c (Proc.devRef .tc main_arg0) := StableHlo.after_of_writes_sub hostOps1 _ hostOps1_writes (by decide)
    _ = Bd1 m ρ c (Proc.devRef .tc main_arg0) := (Bd2_arr m ρ c 0).trans (((projData (En1 m ρ) c).arrAt_in 0 rfl _).trans (projA_eq (En1 m ρ) c 0))
    _ = Bd0 m ρ c (Proc.devRef .tc main_arg0) := StableHlo.after_of_writes_sub hostOps0 _ hostOps0_writes (by decide)
    _ = m ((c : Thread nD τ).loc main_arg0) := rfl
theorem Bd6_arg1 (c : Dev nD) : Bd6 m ρ c (Proc.devRef .tc main_arg1) = m ((c : Thread nD τ).loc main_arg1) :=
  calc Bd6 m ρ c (Proc.devRef .tc main_arg1)
    _ = Bd5 m ρ c (Proc.devRef .tc main_arg1) := (Bd6_arr m ρ c 2).trans (((dat2 (En5 m ρ) c).arrAt_in 2 rfl _).trans (A_eq2 (En5 m ρ) c 2))
    _ = Bd4 m ρ c (Proc.devRef .tc main_arg1) := StableHlo.after_of_writes_sub hostOps2 _ hostOps2_writes (by decide)
    _ = Bd3 m ρ c (Proc.devRef .tc main_arg1) := (Bd4_arr m ρ c 2).trans (((dat1 (En3 m ρ) c).arrAt_in 2 rfl _).trans (A_eq1 (En3 m ρ) c 2))
    _ = Bd2 m ρ c (Proc.devRef .tc main_arg1) := StableHlo.after_of_writes_sub hostOps1 _ hostOps1_writes (by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (by decide)
    _ = m ((c : Thread nD τ).loc main_arg1) := rfl
theorem Bd6_arg2 (c : Dev nD) : Bd6 m ρ c (Proc.devRef .tc main_arg2) = m ((c : Thread nD τ).loc main_arg2) :=
  calc Bd6 m ρ c (Proc.devRef .tc main_arg2)
    _ = Bd5 m ρ c (Proc.devRef .tc main_arg2) := (Bd6_arr m ρ c 3).trans (((dat2 (En5 m ρ) c).arrAt_in 3 rfl _).trans (A_eq2 (En5 m ρ) c 3))
    _ = Bd4 m ρ c (Proc.devRef .tc main_arg2) := StableHlo.after_of_writes_sub hostOps2 _ hostOps2_writes (by decide)
    _ = Bd3 m ρ c (Proc.devRef .tc main_arg2) := (Bd4_arr m ρ c 3).trans (((dat1 (En3 m ρ) c).arrAt_in 3 rfl _).trans (A_eq1 (En3 m ρ) c 3))
    _ = Bd2 m ρ c (Proc.devRef .tc main_arg2) := StableHlo.after_of_writes_sub hostOps1 _ hostOps1_writes (by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (by decide)
    _ = m ((c : Thread nD τ).loc main_arg2) := rfl
theorem Bd6_arg3 (c : Dev nD) : Bd6 m ρ c (Proc.devRef .tc main_arg3) = m ((c : Thread nD τ).loc main_arg3) :=
  calc Bd6 m ρ c (Proc.devRef .tc main_arg3)
    _ = Bd5 m ρ c (Proc.devRef .tc main_arg3) := (Bd6_arr m ρ c 0).trans (((dat2 (En5 m ρ) c).arrAt_in 0 rfl _).trans (A_eq2 (En5 m ρ) c 0))
    _ = Bd4 m ρ c (Proc.devRef .tc main_arg3) := StableHlo.after_of_writes_sub hostOps2 _ hostOps2_writes (by decide)
    _ = Bd3 m ρ c (Proc.devRef .tc main_arg3) := (Bd4_arr m ρ c 0).trans (((dat1 (En3 m ρ) c).arrAt_in 0 rfl _).trans (A_eq1 (En3 m ρ) c 0))
    _ = Bd2 m ρ c (Proc.devRef .tc main_arg3) := StableHlo.after_of_writes_sub hostOps1 _ hostOps1_writes (by decide)
    _ = Bd1 m ρ c (Proc.devRef .tc main_arg3) := Bd2_of_ne m ρ c main_arg3 (by decide)
    _ = Bd0 m ρ c (Proc.devRef .tc main_arg3) := StableHlo.after_of_writes_sub hostOps0 _ hostOps0_writes (by decide)
    _ = m ((c : Thread nD τ).loc main_arg3) := rfl
theorem Bd6_arg4 (c : Dev nD) : Bd6 m ρ c (Proc.devRef .tc main_arg4) = m ((c : Thread nD τ).loc main_arg4) :=
  calc Bd6 m ρ c (Proc.devRef .tc main_arg4)
    _ = Bd5 m ρ c (Proc.devRef .tc main_arg4) := (Bd6_arr m ρ c 1).trans (((dat2 (En5 m ρ) c).arrAt_in 1 rfl _).trans (A_eq2 (En5 m ρ) c 1))
    _ = Bd4 m ρ c (Proc.devRef .tc main_arg4) := StableHlo.after_of_writes_sub hostOps2 _ hostOps2_writes (by decide)
    _ = Bd3 m ρ c (Proc.devRef .tc main_arg4) := (Bd4_arr m ρ c 1).trans (((dat1 (En3 m ρ) c).arrAt_in 1 rfl _).trans (A_eq1 (En3 m ρ) c 1))
    _ = Bd2 m ρ c (Proc.devRef .tc main_arg4) := StableHlo.after_of_writes_sub hostOps1 _ hostOps1_writes (by decide)
    _ = Bd1 m ρ c (Proc.devRef .tc main_arg4) := Bd2_of_ne m ρ c main_arg4 (by decide)
    _ = Bd0 m ρ c (Proc.devRef .tc main_arg4) := StableHlo.after_of_writes_sub hostOps0 _ hostOps0_writes (by decide)
    _ = m ((c : Thread nD τ).loc main_arg4) := rfl
theorem Bd6_arg5 (c : Dev nD) : Bd6 m ρ c (Proc.devRef .tc main_arg5) = m ((c : Thread nD τ).loc main_arg5) :=
  calc Bd6 m ρ c (Proc.devRef .tc main_arg5)
    _ = Bd5 m ρ c (Proc.devRef .tc main_arg5) := Bd6_of_ne m ρ c main_arg5 (by decide)
    _ = Bd4 m ρ c (Proc.devRef .tc main_arg5) := StableHlo.after_of_writes_sub hostOps2 _ hostOps2_writes (by decide)
    _ = Bd3 m ρ c (Proc.devRef .tc main_arg5) := Bd4_of_ne m ρ c main_arg5 (by decide)
    _ = Bd2 m ρ c (Proc.devRef .tc main_arg5) := StableHlo.after_of_writes_sub hostOps1 _ hostOps1_writes (by decide)
    _ = Bd1 m ρ c (Proc.devRef .tc main_arg5) := Bd2_of_ne m ρ c main_arg5 (by decide)
    _ = Bd0 m ρ c (Proc.devRef .tc main_arg5) := StableHlo.after_of_writes_sub hostOps0 _ hostOps0_writes (by decide)
    _ = m ((c : Thread nD τ).loc main_arg5) := rfl
theorem Bd6_arg6 (c : Dev nD) : Bd6 m ρ c (Proc.devRef .tc main_arg6) = m ((c : Thread nD τ).loc main_arg6) :=
  calc Bd6 m ρ c (Proc.devRef .tc main_arg6)
    _ = Bd5 m ρ c (Proc.devRef .tc main_arg6) := Bd6_of_ne m ρ c main_arg6 (by decide)
    _ = Bd4 m ρ c (Proc.devRef .tc main_arg6) := StableHlo.after_of_writes_sub hostOps2 _ hostOps2_writes (by decide)
    _ = Bd3 m ρ c (Proc.devRef .tc main_arg6) := Bd4_of_ne m ρ c main_arg6 (by decide)
    _ = Bd2 m ρ c (Proc.devRef .tc main_arg6) := StableHlo.after_of_writes_sub hostOps1 _ hostOps1_writes (by decide)
    _ = Bd1 m ρ c (Proc.devRef .tc main_arg6) := Bd2_of_ne m ρ c main_arg6 (by decide)
    _ = Bd0 m ρ c (Proc.devRef .tc main_arg6) := StableHlo.after_of_writes_sub hostOps0 _ hostOps0_writes (by decide)
    _ = m ((c : Thread nD τ).loc main_arg6) := rfl
theorem Bd6_arg7 (c : Dev nD) : Bd6 m ρ c (Proc.devRef .tc main_arg7) = m ((c : Thread nD τ).loc main_arg7) :=
  calc Bd6 m ρ c (Proc.devRef .tc main_arg7)
    _ = Bd5 m ρ c (Proc.devRef .tc main_arg7) := Bd6_of_ne m ρ c main_arg7 (by decide)
    _ = Bd4 m ρ c (Proc.devRef .tc main_arg7) := StableHlo.after_of_writes_sub hostOps2 _ hostOps2_writes (by decide)
    _ = Bd3 m ρ c (Proc.devRef .tc main_arg7) := Bd4_of_ne m ρ c main_arg7 (by decide)
    _ = Bd2 m ρ c (Proc.devRef .tc main_arg7) := StableHlo.after_of_writes_sub hostOps1 _ hostOps1_writes (by decide)
    _ = Bd1 m ρ c (Proc.devRef .tc main_arg7) := Bd2_of_ne m ρ c main_arg7 (by decide)
    _ = Bd0 m ρ c (Proc.devRef .tc main_arg7) := StableHlo.after_of_writes_sub hostOps0 _ hostOps0_writes (by decide)
    _ = m ((c : Thread nD τ).loc main_arg7) := rfl
theorem Bd6_arg8 (c : Dev nD) : Bd6 m ρ c (Proc.devRef .tc main_arg8) = m ((c : Thread nD τ).loc main_arg8) :=
  calc Bd6 m ρ c (Proc.devRef .tc main_arg8)
    _ = Bd5 m ρ c (Proc.devRef .tc main_arg8) := Bd6_of_ne m ρ c main_arg8 (by decide)
    _ = Bd4 m ρ c (Proc.devRef .tc main_arg8) := StableHlo.after_of_writes_sub hostOps2 _ hostOps2_writes (by decide)
    _ = Bd3 m ρ c (Proc.devRef .tc main_arg8) := Bd4_of_ne m ρ c main_arg8 (by decide)
    _ = Bd2 m ρ c (Proc.devRef .tc main_arg8) := StableHlo.after_of_writes_sub hostOps1 _ hostOps1_writes (by decide)
    _ = Bd1 m ρ c (Proc.devRef .tc main_arg8) := Bd2_of_ne m ρ c main_arg8 (by decide)
    _ = Bd0 m ρ c (Proc.devRef .tc main_arg8) := StableHlo.after_of_writes_sub hostOps0 _ hostOps0_writes (by decide)
    _ = m ((c : Thread nD τ).loc main_arg8) := rfl
theorem Bd6_arg9 (c : Dev nD) : Bd6 m ρ c (Proc.devRef .tc main_arg9) = m ((c : Thread nD τ).loc main_arg9) :=
  calc Bd6 m ρ c (Proc.devRef .tc main_arg9)
    _ = Bd5 m ρ c (Proc.devRef .tc main_arg9) := Bd6_of_ne m ρ c main_arg9 (by decide)
    _ = Bd4 m ρ c (Proc.devRef .tc main_arg9) := StableHlo.after_of_writes_sub hostOps2 _ hostOps2_writes (by decide)
    _ = Bd3 m ρ c (Proc.devRef .tc main_arg9) := Bd4_of_ne m ρ c main_arg9 (by decide)
    _ = Bd2 m ρ c (Proc.devRef .tc main_arg9) := StableHlo.after_of_writes_sub hostOps1 _ hostOps1_writes (by decide)
    _ = Bd1 m ρ c (Proc.devRef .tc main_arg9) := Bd2_of_ne m ρ c main_arg9 (by decide)
    _ = Bd0 m ρ c (Proc.devRef .tc main_arg9) := StableHlo.after_of_writes_sub hostOps0 _ hostOps0_writes (by decide)
    _ = m ((c : Thread nD τ).loc main_arg9) := rfl
theorem Bd6_arg10 (c : Dev nD) : Bd6 m ρ c (Proc.devRef .tc main_arg10) = m ((c : Thread nD τ).loc main_arg10) :=
  calc Bd6 m ρ c (Proc.devRef .tc main_arg10)
    _ = Bd5 m ρ c (Proc.devRef .tc main_arg10) := Bd6_of_ne m ρ c main_arg10 (by decide)
    _ = Bd4 m ρ c (Proc.devRef .tc main_arg10) := StableHlo.after_of_writes_sub hostOps2 _ hostOps2_writes (by decide)
    _ = Bd3 m ρ c (Proc.devRef .tc main_arg10) := Bd4_of_ne m ρ c main_arg10 (by decide)
    _ = Bd2 m ρ c (Proc.devRef .tc main_arg10) := StableHlo.after_of_writes_sub hostOps1 _ hostOps1_writes (by decide)
    _ = Bd1 m ρ c (Proc.devRef .tc main_arg10) := Bd2_of_ne m ρ c main_arg10 (by decide)
    _ = Bd0 m ρ c (Proc.devRef .tc main_arg10) := StableHlo.after_of_writes_sub hostOps0 _ hostOps0_writes (by decide)
    _ = m ((c : Thread nD τ).loc main_arg10) := rfl

/-- No region has a prefetched table. -/
abbrev admT : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) admT p) c
  | ⟨0, _⟩ => fun c => projData (En1 m ρ) c
  | ⟨1, _⟩ => fun c => dat1 (En3 m ρ) c
  | ⟨2, _⟩ => fun c => dat2 (En5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev Rd (c : Dev nD) : sProp 𝕄 := iprop((∃ r, prngReg c r) ∗ ∃ W, owes (c : Thread nD τ) (0 : CellTallies nD τ sig Unit) W)
/-- A stretch of host operations as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Bd6 m ρ c) ∗ ∃ r, prngReg c r)

set_option backward.isDefEq.respectTransparency.types false in
/-- The projection region as a segment: entered from the contents after the first host stretch, left at its exit contents. Its arrays are split out of the unscoped buffers and put back; the generator register goes into the class invariant and out; nothing owed; no semaphore of the kernel's own. -/
def regProj : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (projObligation (En1 m ρ) c).loose
  hwaits := Pipeline.hwaits_of_owed_zero _ _ _ _ L lv 0 fun _ _ => rfl
  pre c := iprop(StableHlo.held (c : Thread nD τ) (Pipeline.ucRefs τ sig) (Bd1 m ρ c) ∗ Rd c)
  post c := iprop(StableHlo.held (c : Thread nD τ) (Pipeline.ucRefs τ sig) (Bd2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first aggregation layer as a segment; its invariant starts as the class's and is given back as the class's at the end (the accumulator's contents forgotten). -/
def regMid : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (Bd3 m ρ c) ∗ Rd c)
  post c := iprop(StableHlo.held (c : Thread nD τ) (Pipeline.ucRefs τ sig) (Bd4 m ρ c) ∗ Rd c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (En3 m ρ) c).Φ 0 from rfl]
    refine (?_ : _ ⊢ (Pipeline.ΦA spec1 c : sProp 𝕄)).trans (hin1 (En3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (En3 m ρ) c).Φ (Fin.last cfg1.N) from rfl]
    refine (hout1 (En3 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second aggregation layer as a segment, in the same way. -/
def regOut : Pipeline.RegionSeg (pcfgs (F := F)) admT (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ L lv 2 fun _ _ => rfl
  pre c := iprop(StableHlo.held (c : Thread nD τ) (Pipeline.ucRefs τ sig) (Bd5 m ρ c) ∗ Rd c)
  post c := iprop(StableHlo.held (c : Thread nD τ) (Pipeline.ucRefs τ sig) (Bd6 m ρ c) ∗ Rd c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) admT (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (En5 m ρ) c).Φ 0 from rfl]
    refine (?_ : _ ⊢ (Pipeline.ΦA spec2 c : sProp 𝕄)).trans (hin2 (En5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (En5 m ρ) c).Φ (Fin.last cfg2.N) from rfl]
    refine (hout2 (En5 m ρ) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six segments in order. -/
abbrev segList : List (Pipeline.Seg (pcfgs (F := F)) admT (pdats m ρ) () defs₀ 𝒱₀ L lv) :=
  [ .host (hostSeg hostOps0 hostOps0_sub hostOps0_fresh (Bd0 m ρ)),
    .region (regProj m ρ),
    .host (hostSeg hostOps1 hostOps1_sub hostOps1_fresh (Bd2 m ρ)),
    .region (regMid m ρ),
    .host (hostSeg hostOps2 hostOps2_sub hostOps2_fresh (Bd4 m ρ)),
    .region (regOut m ρ) ]
theorem main_is_segs (c : Dev nD) : main (F := F) c = Pipeline.Seg.run (segList m ρ) := (main_chain c).trans (by chain_rfl)

set_option backward.isDefEq.respectTransparency.types false in
/-- THE RUN: from any memory with zero counters every weakly fair execution of @main terminates, nothing faulting; the
    result buffer ends at the last boundary's contents and every argument array as launched. -/
theorem run : θ_run defs (onTc (τ := τ) (main (F := F))) ⟨m, fun _ => 0, ρ⟩ (fun r => ∀ c : Dev nD,
      r.2.mem ((c.tc : Thread nD τ).loc main_v54) = Bd6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) admT (pdats m ρ) () cellOf_inj emb₁ defs₀ 𝒱₀ L lv m ρ main (segList m ρ)
    (fun c Q => by rw [main_is_segs m ρ c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ Rd c)) (Tₙ := Tend m ρ)
    (hch := ⟨fun _ => .rfl, fun _ => .rfl, fun _ => .rfl, fun _ => .rfl, fun _ => .rfl, fun _ => .rfl, fun c => by
      show iprop(StableHlo.held (c : Thread nD τ) (Pipeline.ucRefs τ sig) (Bd6 m ρ c) ∗ Rd c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd6 m ρ c) s')
      isplitl [Hh] <;> iassumption)
    (hQ := fun s h c =>
      ⟨h c _ (mem_uc main_v54 (by decide)),
        (h c _ (mem_uc main_arg0 (by decide))).trans (Bd6_arg0 m ρ c),
        (h c _ (mem_uc main_arg1 (by decide))).trans (Bd6_arg1 m ρ c),
        (h c _ (mem_uc main_arg2 (by decide))).trans (Bd6_arg2 m ρ c),
        (h c _ (mem_uc main_arg3 (by decide))).trans (Bd6_arg3 m ρ c),
        (h c _ (mem_uc main_arg4 (by decide))).trans (Bd6_arg4 m ρ c),
        (h c _ (mem_uc main_arg5 (by decide))).trans (Bd6_arg5 m ρ c),
        (h c _ (mem_uc main_arg6 (by decide))).trans (Bd6_arg6 m ρ c),
        (h c _ (mem_uc main_arg7 (by decide))).trans (Bd6_arg7 m ρ c),
        (h c _ (mem_uc main_arg8 (by decide))).trans (Bd6_arg8 m ρ c),
        (h c _ (mem_uc main_arg9 (by decide))).trans (Bd6_arg9 m ρ c),
        (h c _ (mem_uc main_arg10 (by decide))).trans (Bd6_arg10 m ρ c)⟩)

end Cert.Kernel.Frame

end
-- ==== Proof.FrameI.Proj.lean ====
/- The first of the three kernel regions: the projection XW = embs · [W_bw0 | W_bw1 | W_fw0 | W_fw1], one block of 2048 rows
   per grid point. This module states what the body leaves in its staging buffers at a point (the product of the row block
   with the whole weight matrix), proves the body's triple, and packages the region's proof data and body obligation,
   all at an arbitrary contents `V` of the TensorCore's buffers at the region's entry and at any float interpretation. -/
import proofs.«161264_g10471130268016_week1_w2_219_12_alg».proof.Proof.Gen.KernelIdeal.Launch
import proofs.«161264_g10471130268016_week1_w2_219_12_alg».proof.Proof.Gen.KernelIdeal.Skeleton
import proofs.«161264_g10471130268016_week1_w2_219_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w` at grid point `t`, cut out of the window's array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rEmb : Rect S2048x512 := Rect.unit (s := S2048x512) ![0, 0] S2048x512.size inb_S2048x512_S2048x512_0_0
abbrev rW : Rect S512x1024 := Rect.unit (s := S512x1024) ![0, 0] S512x1024.size inb_S512x1024_S512x1024_0_0
abbrev rXW : Rect S2048x1024 := Rect.unit (s := S2048x1024) ![0, 0] S2048x1024.size inb_S2048x1024_S2048x1024_0_0

/-- What the body leaves in the output window's staging buffer: its one store, of the row block times the weights. -/
def projOut (x0 : Vec F S2048x512 .f32) (x1 : Vec F S512x1024 .f32) : Vec F S2048x1024 .bf16 :=
  View.canon [⟨rXW, k0_pay1 (View.ld x0 rEmb) (View.ld x1 rW)⟩]

/-- The store covers the buffer. -/
theorem projCover (p0 : Vec F S2048x1024 .bf16) (y : S2048x1024.Idx) :
    ∃ pc ∈ ([⟨rXW, p0⟩] : List (View.Piece (Elt F) S2048x1024 .bf16)), y ∈ pc.1.set :=
  View.cover_of_tiled [⟨rXW, p0⟩] S2048x1024.size (by rfl) y

end

set_option maxHeartbeats 1000000 in
/-- The body on whole staging buffers: with the two inputs at `x0`, `x1` and the output at anything, it runs to the end,
    leaves the inputs as they were and the output at `projOut x0 x1`. -/
theorem projTriple (c : Dev nD) (E : Set ℕ) (i : grid0.Coords)
    (arg1 : Memref sig .tc .vmem S2048x512 .f32) (harg1 : arg1.IsWhole)
    (arg2 : Memref sig .tc .vmem S512x1024 .f32) (harg2 : arg2.IsWhole)
    (arg3 : Memref sig .tc .vmem S2048x1024 .bf16) (harg3 : arg3.IsWhole)
    (x0 : Vec F S2048x512 .f32) (x1 : Vec F S512x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (projOut x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

section
variable (V : (c : Dev nD) → (b : Ref sig .tc) → Buf (Elt F) ((c : Thread nD τ).loc b))

/-- The projection region's proof data on core `c`: the arrays as the region finds them; after the body at point `t` each
    input's buffer at its block and the output's at the block's product with the weights; the class's invariant; nothing
    owed; full shares. -/
def projData (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => projOut (pblk V c 0 t) (pblk V c 1 t)
  Φ _ := Pipeline.ΦA spec0 c
  q _ := fullShare
  owed _ := 0

theorem projA_eq (c : Dev nD) (w : Fin cfg0.W) : (projData V c).A w = V c (Pipeline.arrRef spec0 w) := by
  dsimp only [projData]
theorem projAfter_0 (c : Dev nD) (t : Fin cfg0.N) : (projData V c).after 0 t = pblk V c 0 t := by dsimp only [projData]
theorem projAfter_1 (c : Dev nD) (t : Fin cfg0.N) : (projData V c).after 1 t = pblk V c 1 t := by dsimp only [projData]
theorem projAfter_2 (c : Dev nD) (t : Fin cfg0.N) :
    (projData V c).after 2 t = projOut (pblk V c 0 t) (pblk V c 1 t) := by dsimp only [projData]

/-- Each input's staging buffer holds its block at every point, fetched there or not. -/
theorem projBefore_0 (c : Dev nD) (t : Fin cfg0.N) (d) : (projData V c).before 0 t d = pblk V c 0 t :=
  ((projData V c).before_in_eq_fetched 0 rfl (fun _ => rfl) (fun _ _ _ => rfl)
    (fun t => by rw [projAfter_0]; unfold Dat.blockOf pblk; rw [projA_eq]; try rfl) t d).trans
    (by unfold Dat.fetched Dat.blockOf pblk; rw [projA_eq]; try rfl)
theorem projBefore_1 (c : Dev nD) (t : Fin cfg0.N) (d) : (projData V c).before 1 t d = pblk V c 1 t :=
  ((projData V c).before_in_eq_fetched 1 rfl (fun _ => rfl) (fun _ _ _ => rfl)
    (fun t => by rw [projAfter_1]; unfold Dat.blockOf pblk; rw [projA_eq]; try rfl) t d).trans
    (by unfold Dat.fetched Dat.blockOf pblk; rw [projA_eq]; try rfl)

/-- What the body is called with at point `t`, the windows one by one, -/
def projPre (c : Dev nD) (t : Fin cfg0.N) : sProp 𝕄 :=
  iprop((projData V c).Φ t.castSucc ∗ (projData V c).owesAt () t.castSucc
    ∗ (∃ d, owns (c : Thread nD τ) (st0_0 t) fullShare ((projData V c).before 0 t d))
    ∗ (∃ d, owns (c : Thread nD τ) (st0_1 t) fullShare ((projData V c).before 1 t d))
    ∗ (∃ d, owns (c : Thread nD τ) (st0_2 t) fullShare ((projData V c).before 2 t d)))
/-- and what it returns. -/
def projPost (c : Dev nD) (t : Fin cfg0.N) : sProp 𝕄 :=
  iprop((projData V c).Φ t.succ ∗ (projData V c).owesAt () t.succ
    ∗ owns (c : Thread nD τ) (st0_0 t) fullShare ((projData V c).after 0 t)
    ∗ owns (c : Thread nD τ) (st0_1 t) fullShare ((projData V c).after 1 t)
    ∗ owns (c : Thread nD τ) (st0_2 t) fullShare ((projData V c).after 2 t))

/-- The body at any point: the inputs' buffers hold their blocks, so the body's triple applies; the invariant and the
    core's dues pass through unread. -/
theorem projBody (c : Dev nD) (t : Fin cfg0.N) :
    projPre V c t ⊢ wp frame (wpE (defs₀ (F := F)) Variants.none c none) Set.univ (bodyAt0 t) (fun _ => projPost V c t) := by
  unfold projPre projPost bodyAt0
  simp only [projBefore_0, projBefore_1]
  rw [show (projData V c).Φ t.succ = (projData V c).Φ t.castSucc from rfl,
    show (projData V c).owesAt () t.succ = (projData V c).owesAt () t.castSucc from rfl,
    projAfter_0, projAfter_1, projAfter_2]
  iintro ⟨HΦ, Ho, ⟨%d0, H0⟩, ⟨%d1, H1⟩, ⟨%d2, H2⟩⟩
  iapply (projTriple c Set.univ _ _ _ _ _ _ _ (pblk V c 0 t) (pblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem projObligation (c : Dev nD) : BodyObligation (projData (F := F) V c) (defs₀ (F := F)) Variants.none () Set.univ := fun t => by
  rw [bigSep_W0, bigSep_W0]
  exact projBody V c t

end

end Cert.KernelIdeal.Frame

end
-- ==== Proof.FrameI.AggMidCases.lean ====
/- The second kernel region (the first aggregation layer): shared facts about its body's two branches and its windows.
   The grid is 2 row blocks × 16 contraction blocks, point t = 16·i + k. The first branch (k = 0) clears the accumulator;
   the second (k = 15) runs the epilogue that writes the two outputs. So a point is of one of three kinds:
   first (k = 0), middle (0 < k < 15), last (k = 15). -/
import proofs.«161264_g10471130268016_week1_w2_219_12_alg».proof.Proof.Gen.KernelIdeal.Launch
import proofs.«161264_g10471130268016_week1_w2_219_12_alg».proof.Proof.Gen.KernelIdeal.Skeleton
import proofs.«161264_g10471130268016_week1_w2_219_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch condition (the accumulator is cleared), as the scalar chain the part computes from the
    second grid coordinate. -/
abbrev isFirst1 (i : grid1.Coords) : Prop :=
  (Scalar.cmpi .ne (Scalar.extui (Scalar.cmpi .eq (BitVec.ofNat 32 (i 1).val) 0#32)) 0#32) = 1#1
/-- It holds exactly at the points with k = 0. -/
theorem isFirst1_iff : ∀ t : Fin cfg1.N, isFirst1 (grid1.coords t) ↔ t.val % 16 = 0 :=
  (by decide +kernel : ∀ t : Fin grid1.N, isFirst1 (grid1.coords t) ↔ t.val % 16 = 0)

/-- The body's second branch condition (the epilogue runs). -/
abbrev isLast1 (i : grid1.Coords) : Prop := k1_cond2 i = 1#1
/-- It holds exactly at the points with k = 15. -/
theorem isLast1_iff : ∀ t : Fin cfg1.N, isLast1 (grid1.coords t) ↔ t.val % 16 = 15 :=
  (by decide +kernel : ∀ t : Fin grid1.N, isLast1 (grid1.coords t) ↔ t.val % 16 = 15)

/-- The ten input windows are never idle. -/
theorem live1_in : ∀ w : Fin 12, w.val < 10 → ∀ i, cfg1.idle w i = false := by
  intro w hw i
  match w, hw with
  | ⟨0, _⟩, _ => rfl | ⟨1, _⟩, _ => rfl | ⟨2, _⟩, _ => rfl | ⟨3, _⟩, _ => rfl | ⟨4, _⟩, _ => rfl
  | ⟨5, _⟩, _ => rfl | ⟨6, _⟩, _ => rfl | ⟨7, _⟩, _ => rfl | ⟨8, _⟩, _ => rfl | ⟨9, _⟩, _ => rfl
/-- Away from the last contraction block both outputs are idle and not written back. -/
theorem idle1_10 : ∀ t : Fin cfg1.N, ¬isLast1 (grid1.coords t) → cfg1.idle 10 (grid1.coords t) = true := by decide +kernel
theorem idle1_11 : ∀ t : Fin cfg1.N, ¬isLast1 (grid1.coords t) → cfg1.idle 11 (grid1.coords t) = true := by decide +kernel
theorem noFlush1_10 : ∀ t : Fin cfg1.N, ¬isLast1 (grid1.coords t) → (cfg1.win 10).flush t = false := by decide +kernel
theorem noFlush1_11 : ∀ t : Fin cfg1.N, ¬isLast1 (grid1.coords t) → (cfg1.win 11).flush t = false := by decide +kernel
/-- At the last contraction block both outputs are live. -/
theorem live1_10 : ∀ t : Fin cfg1.N, isLast1 (grid1.coords t) → cfg1.idle 10 (grid1.coords t) = false := by decide +kernel
theorem live1_11 : ∀ t : Fin cfg1.N, isLast1 (grid1.coords t) → cfg1.idle 11 (grid1.coords t) = false := by decide +kernel

/-- The accumulator: a whole scoped buffer of the kernel's own, carried from one grid point to the next. -/
abbrev acc1 : Memref sig .tc .vmem S2048x512 .f32 := Memref.whole cc1_scratch0
/-- The view through which the accumulator's contents are stated. -/
abbrev accV1 : View sig .tc .vmem S2048x512 .f32 := acc1.view
/-- One staging buffer of each output window, through which its contents are stated. -/
abbrev outV1_10 : View sig .tc .vmem S2048x512 .f32 := (Memref.whole cc1_stg10_0 : Memref sig .tc .vmem S2048x512 .f32).view
abbrev outV1_11 : View sig .tc .vmem S2048x1024 .bf16 := (Memref.whole cc1_stg11_0 : Memref sig .tc .vmem S2048x1024 .bf16).view

/-- The scoped buffers no window of this region stages, split at the accumulator. -/
theorem scopedRest1_acc {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f))
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The class invariant with the accumulator as a memref owned at some contents. -/
theorem PhiA1_eq (c : Dev nD) :
    (Pipeline.ΦA spec1 c : sProp 𝕄)
      = iprop(iprop(iprop((∃ d, owns (c : Thread nD τ) acc1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_acc]; simp only [acc1, owns_whole]; try rfl

end Cert.KernelIdeal.Frame

end
-- ==== Proof.FrameI.AggMidFirst.lean ====
/- The second kernel region: the body's run at a FIRST (k = 0) point of the contraction, on whole staging buffers.
   What the stores leave in a buffer is a list of pieces (rectangle and value, last store first); the lists are found
   by running the body symbolically, and are the first components of the definition below. -/
import proofs.«161264_g10471130268016_week1_w2_219_12_alg».proof.Proof.FrameI.AggMidCases

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At a first point the accumulator is cleared and then receives the first block's products; the two outputs are not
    touched. With the inputs at `x·`, the outputs at `xi·` and the accumulator at anything, the body runs to the end,
    the inputs and outputs as they were and the accumulator with the pieces `LS` written. -/
noncomputable def runFirst1 (c : Dev nD) (i : grid1.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S512x1024 .f32) (harg11 : arg11.IsWhole) (arg12 : Memref sig .tc .vmem S2048x512 .f32) (harg12 : arg12.IsWhole) (arg13 : Memref sig .tc .vmem S2048x1024 .bf16) (harg13 : arg13.IsWhole) (arg14 : Memref sig .tc .vmem S2048x512 .f32) (harg14 : arg14.IsWhole) (hc0 : isFirst1 i) (hc1 : ¬isLast1 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) (x9 : Vec F S512x1024 .f32) :
    { LS : List (View.Piece (Elt F) S2048x512 .f32) //
      ∀ (xi10 : Vec F S2048x512 .f32) (xi11 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS)) -∗ K ⟨⟩))
          ⊢ wp frame (wpE (defs₀ (F := F)) Variants.none c none) E (cc1__agg_mid_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi10 xi11 E K => ?run⟩
  case run =>
    simp only [cc1__agg_mid_kernel_eq_skeleton]; unfold cc1__agg_mid_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg12.eq_unread hf10; obtain rfl := harg13.eq_unread hf11
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS

end Cert.KernelIdeal.Frame

end
-- ==== Proof.FrameI.AggMidMiddle.lean ====
/- The second kernel region: the body's run at a MIDDLE (0 < k < 15) point of the contraction, on whole staging buffers.
   What the stores leave in a buffer is a list of pieces (rectangle and value, last store first); the lists are found
   by running the body symbolically, and are the first components of the definition below. -/
import proofs.«161264_g10471130268016_week1_w2_219_12_alg».proof.Proof.FrameI.AggMidCases

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At a middle point the accumulator, found at `xs`, receives the block's products; the two outputs are not touched. -/
noncomputable def runMiddle1 (c : Dev nD) (i : grid1.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S512x1024 .f32) (harg11 : arg11.IsWhole) (arg12 : Memref sig .tc .vmem S2048x512 .f32) (harg12 : arg12.IsWhole) (arg13 : Memref sig .tc .vmem S2048x1024 .bf16) (harg13 : arg13.IsWhole) (arg14 : Memref sig .tc .vmem S2048x512 .f32) (harg14 : arg14.IsWhole) (hc0 : ¬isFirst1 i) (hc1 : ¬isLast1 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) (x9 : Vec F S512x1024 .f32) (xs : Vec F S2048x512 .f32) :
    { LS : List (View.Piece (Elt F) S2048x512 .f32) //
      ∀ (xi10 : Vec F S2048x512 .f32) (xi11 : Vec F S2048x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS)) -∗ K ⟨⟩))
          ⊢ wp frame (wpE (defs₀ (F := F)) Variants.none c none) E (cc1__agg_mid_kernel i arg2 harg2 arg3 harg3 arg4 harg4 arg5 harg5 arg6 harg6 arg7 harg7 arg8 harg8 arg9 harg9 arg10 harg10 arg11 harg11 arg12 harg12 arg13 harg13 arg14 harg14) K } := by
  refine ⟨?_, fun xi10 xi11 E K => ?run⟩
  case run =>
    simp only [cc1__agg_mid_kernel_eq_skeleton]; unfold cc1__agg_mid_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg12.eq_unread hf10; obtain rfl := harg13.eq_unread hf11; obtain rfl := harg14.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; iexact HS

end Cert.KernelIdeal.Frame

end
-- ==== Proof.FrameI.AggMidLast.lean ====
/- The second kernel region: the body's run at a LAST (k = 15) point of the contraction, on whole staging buffers.
   What the stores leave in a buffer is a list of pieces (rectangle and value, last store first); the lists are found
   by running the body symbolically, and are the first components of the definition below. -/
import proofs.«161264_g10471130268016_week1_w2_219_12_alg».proof.Proof.FrameI.AggMidCases

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At a last point the accumulator, found at `xs`, receives the last block's products and the epilogue stores the layer's
    output and the next layer's projection: with the outputs at anything, the body runs to the end, the inputs as they were,
    the outputs with the pieces `L10`, `L11` written and the accumulator with `LS`. -/
noncomputable def runLast1 (c : Dev nD) (i : grid1.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S512x1024 .f32) (harg11 : arg11.IsWhole) (arg12 : Memref sig .tc .vmem S2048x512 .f32) (harg12 : arg12.IsWhole) (arg13 : Memref sig .tc .vmem S2048x1024 .bf16) (harg13 : arg13.IsWhole) (arg14 : Memref sig .tc .vmem S2048x512 .f32) (harg14 : arg14.IsWhole) (hc0 : ¬isFirst1 i) (hc1 : isLast1 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) (x9 : Vec F S512x1024 .f32) (xs : Vec F S2048x512 .f32) :
    Σ' (L10 : List (View.Piece (Elt F) S2048x512 .f32)) (L11 : List (View.Piece (Elt F) S2048x1024 .bf16)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS)) -∗ K ⟨⟩))
          ⊢ wp frame (wpE (defs₀ (F := F)) Variants.none c none) E (cc1__agg_mid_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1__agg_mid_kernel_eq_skeleton]; unfold cc1__agg_mid_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg14.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexists _; iexact HS

end Cert.KernelIdeal.Frame

end
-- ==== Proof.FrameI.AggMid.lean ====
/- The second kernel region (the first aggregation layer), assembled: the blocks of its twelve windows, what its two
   outputs and its accumulator hold after every grid point (by recursion on the point: a first point starts the
   accumulator afresh, a middle point adds to what the point before left, a last point also writes the outputs),
   the region's invariant (the accumulator at those contents), its proof data and its body obligation. Everything is
   stated at an arbitrary contents `V` of the TensorCore's buffers at the region's entry. -/
import proofs.«161264_g10471130268016_week1_w2_219_12_alg».proof.Proof.FrameI.AggMidFirst
import proofs.«161264_g10471130268016_week1_w2_219_12_alg».proof.Proof.FrameI.AggMidMiddle
import proofs.«161264_g10471130268016_week1_w2_219_12_alg».proof.Proof.FrameI.AggMidLast

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S2048x512 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S2048x1024 .bf16 := win1_11.stage (cfg1.slots t 11)
abbrev hs1_11 (t : Fin cfg1.N) : (ms1_11 t).IsWhole := hstage1_11 ((cfg1.slots t 11).cast nbuf1_11)

section
variable (V : (c : Dev nD) → (b : Ref sig .tc) → Buf (Elt F) ((c : Thread nD τ).loc b))

/-- The block of window `w` at grid point `t`, cut out of the window's array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What a first point leaves in the accumulator. -/
def accFirst (c : Dev nD) (t : Fin cfg1.N) (h0 : t.val % 16 = 0) (h1 : ¬t.val % 16 = 15) : Vec F S2048x512 .f32 :=
  accV1.read (Elt F) (accV1.writes (Elt F) accV1.junk
    (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) ((isFirst1_iff t).mpr h0) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t)).1)
theorem accFirst_cover (c : Dev nD) (t : Fin cfg1.N) (h0 : t.val % 16 = 0) (h1 : ¬t.val % 16 = 15) (y : S2048x512.Idx) :
    ∃ pc ∈ (runFirst1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) ((isFirst1_iff t).mpr h0) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t)).1, y ∈ pc.1.set :=
  View.cover_of_tiledL _ S2048x512.size (by sl_kernel_rfl) y

/-- What a middle point leaves in the accumulator, from what it found there. -/
def accMiddle (c : Dev nD) (t : Fin cfg1.N) (h0 : ¬t.val % 16 = 0) (h1 : ¬t.val % 16 = 15) (xs : Vec F S2048x512 .f32) : Vec F S2048x512 .f32 :=
  accV1.read (Elt F) (accV1.writes (Elt F) accV1.junk
    (runMiddle1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t) xs).1)
theorem accMiddle_cover (c : Dev nD) (t : Fin cfg1.N) (h0 : ¬t.val % 16 = 0) (h1 : ¬t.val % 16 = 15) (xs : Vec F S2048x512 .f32) (y : S2048x512.Idx) :
    ∃ pc ∈ (runMiddle1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t) xs).1, y ∈ pc.1.set :=
  View.cover_of_tiledL (s := S2048x512) _ S2048x256.size (by sl_kernel_rfl) y

/-- What a last point leaves in the outputs' staging buffers and in the accumulator. -/
def outLast10 (c : Dev nD) (t : Fin cfg1.N) (h0 : ¬t.val % 16 = 0) (h1 : t.val % 16 = 15) (xs : Vec F S2048x512 .f32) : Vec F S2048x512 .f32 :=
  outV1_10.read (Elt F) (outV1_10.writes (Elt F) outV1_10.junk
    (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).1)
def outLast11 (c : Dev nD) (t : Fin cfg1.N) (h0 : ¬t.val % 16 = 0) (h1 : t.val % 16 = 15) (xs : Vec F S2048x512 .f32) : Vec F S2048x1024 .bf16 :=
  outV1_11.read (Elt F) (outV1_11.writes (Elt F) outV1_11.junk
    (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).2.1)
def accLast (c : Dev nD) (t : Fin cfg1.N) (h0 : ¬t.val % 16 = 0) (h1 : t.val % 16 = 15) (xs : Vec F S2048x512 .f32) : Vec F S2048x512 .f32 :=
  accV1.read (Elt F) (accV1.writes (Elt F) accV1.junk
    (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).2.2.1)
theorem outLast10_cover (c : Dev nD) (t : Fin cfg1.N) (h0 : ¬t.val % 16 = 0) (h1 : t.val % 16 = 15) (xs : Vec F S2048x512 .f32) (y : S2048x512.Idx) :
    ∃ pc ∈ (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).1, y ∈ pc.1.set :=
  View.cover_of_tiledL _ S2048x512.size (by sl_kernel_rfl) y
theorem outLast11_cover (c : Dev nD) (t : Fin cfg1.N) (h0 : ¬t.val % 16 = 0) (h1 : t.val % 16 = 15) (xs : Vec F S2048x512 .f32) (y : S2048x1024.Idx) :
    ∃ pc ∈ (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).2.1, y ∈ pc.1.set :=
  View.cover_of_tiledL _ S2048x1024.size (by sl_kernel_rfl) y
theorem accLast_cover (c : Dev nD) (t : Fin cfg1.N) (h0 : ¬t.val % 16 = 0) (h1 : t.val % 16 = 15) (xs : Vec F S2048x512 .f32) (y : S2048x512.Idx) :
    ∃ pc ∈ (runLast1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) acc1 (Memref.isWhole_whole _) (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) xs).2.2.1, y ∈ pc.1.set :=
  View.cover_of_tiledL (s := S2048x512) _ S2048x256.size (by sl_kernel_rfl) y

/-- What the outputs' staging buffers and the accumulator hold after the body at position `n`: the kind of point the
    position is of, run on the point's blocks, a middle or last point over the accumulator the position before left. At a
    point that does not write an output the output's component is a placeholder nothing consults. -/
def accAt (c : Dev nD) : (n : ℕ) → n < cfg1.N → Vec F S2048x512 .f32 × Vec F S2048x1024 .bf16 × Vec F S2048x512 .f32
  | 0, hn => (outV1_10.read (Elt F) outV1_10.junk, outV1_11.read (Elt F) outV1_11.junk, accFirst V c ⟨0, hn⟩ (Nat.zero_mod _) (fun h => by (try dsimp only at h); omega))
  | n + 1, hn =>
    if h0 : (n + 1) % 16 = 0 then
      if h1 : (n + 1) % 16 = 15 then False.elim (by omega)
      else (outV1_10.read (Elt F) outV1_10.junk, outV1_11.read (Elt F) outV1_11.junk, accFirst V c ⟨n + 1, hn⟩ h0 h1)
    else
      if h1 : (n + 1) % 16 = 15 then
        (outLast10 V c ⟨n + 1, hn⟩ h0 h1 (accAt c n (Nat.lt_of_succ_lt hn)).2.2, outLast11 V c ⟨n + 1, hn⟩ h0 h1 (accAt c n (Nat.lt_of_succ_lt hn)).2.2, accLast V c ⟨n + 1, hn⟩ h0 h1 (accAt c n (Nat.lt_of_succ_lt hn)).2.2)
      else
        (outV1_10.read (Elt F) outV1_10.junk, outV1_11.read (Elt F) outV1_11.junk, accMiddle V c ⟨n + 1, hn⟩ h0 h1 (accAt c n (Nat.lt_of_succ_lt hn)).2.2)

theorem accAt_first (c : Dev nD) (t : Fin cfg1.N) (h0 : t.val % 16 = 0) (h1 : ¬t.val % 16 = 15) :
    accAt V c t.val t.isLt = (outV1_10.read (Elt F) outV1_10.junk, outV1_11.read (Elt F) outV1_11.junk, accFirst V c t h0 h1) := by
  obtain ⟨n, hn⟩ := t
  cases n with
  | zero => exact rfl
  | succ n => exact (dif_pos h0).trans ((dif_neg h1).trans rfl)
theorem accAt_middle (c : Dev nD) (t : Fin cfg1.N) (h0 : ¬t.val % 16 = 0) (h1 : ¬t.val % 16 = 15) :
    accAt V c t.val t.isLt = (outV1_10.read (Elt F) outV1_10.junk, outV1_11.read (Elt F) outV1_11.junk, accMiddle V c t h0 h1 (accAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)
theorem accAt_last (c : Dev nD) (t : Fin cfg1.N) (h0 : ¬t.val % 16 = 0) (h1 : t.val % 16 = 15) :
    accAt V c t.val t.isLt = (outLast10 V c t h0 h1 (accAt V c (t.val - 1) (Nat.lt_of_le_of_lt (Nat.sub_le _ _) t.isLt)).2.2,
      outLast11 V c t h0 h1 (accAt V c (t.val - 1) (Nat.lt_of_le_of_lt (Nat.sub_le _ _) t.isLt)).2.2,
      accLast V c t h0 h1 (accAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer the region does not
    stage at anything, the generator register at some state); afterwards the same with the accumulator at what the point
    before left in it. -/
def PhiS1 (c : Dev nD) : (n : ℕ) → n ≤ cfg1.N → sProp 𝕄
  | 0, _ => Pipeline.ΦA spec1 c
  | n + 1, hn => iprop(iprop(iprop(owns (c : Thread nD τ) acc1 fullShare ((accAt V c n hn).2.2))
      ∗ Pipeline.scopedRestBut (Ix := Unit) (Name := ℕ) (U := UR sig nD τ) (Lvl := ℕ) (Val := Elt F) spec1 c [cc1_scratch0]) ∗ (∃ r, prngReg c r))
theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) acc1 fullShare ((accAt V c n hn).2.2))
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(iprop(owns (c : Thread nD τ) acc1 fullShare ((accAt V c (n - 1) (by omega)).2.2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The region's proof data on core `c`: the arrays as the region finds them; after the body at point `t` each input's buffer
    at its block and the outputs' at `accAt`'s components; the invariant above; nothing owed; full shares. -/
def dat1 (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => mblk V c 3 t
    | ⟨4, _⟩ => mblk V c 4 t
    | ⟨5, _⟩ => mblk V c 5 t
    | ⟨6, _⟩ => mblk V c 6 t
    | ⟨7, _⟩ => mblk V c 7 t
    | ⟨8, _⟩ => mblk V c 8 t
    | ⟨9, _⟩ => mblk V c 9 t
    | ⟨10, _⟩ => (accAt V c t.val t.isLt).1
    | ⟨11, _⟩ => (accAt V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = mblk V c 0 t := by dsimp only [dat1]
theorem after1_1 (c : Dev nD) (t : Fin cfg1.N) : (dat1 V c).after 1 t = mblk V c 1 t := by dsimp only [dat1]
theorem after1_2 (c : Dev nD) (t : Fin cfg1.N) : (dat1 V c).after 2 t = mblk V c 2 t := by dsimp only [dat1]
theorem after1_3 (c : Dev nD) (t : Fin cfg1.N) : (dat1 V c).after 3 t = mblk V c 3 t := by dsimp only [dat1]
theorem after1_4 (c : Dev nD) (t : Fin cfg1.N) : (dat1 V c).after 4 t = mblk V c 4 t := by dsimp only [dat1]
theorem after1_5 (c : Dev nD) (t : Fin cfg1.N) : (dat1 V c).after 5 t = mblk V c 5 t := by dsimp only [dat1]
theorem after1_6 (c : Dev nD) (t : Fin cfg1.N) : (dat1 V c).after 6 t = mblk V c 6 t := by dsimp only [dat1]
theorem after1_7 (c : Dev nD) (t : Fin cfg1.N) : (dat1 V c).after 7 t = mblk V c 7 t := by dsimp only [dat1]
theorem after1_8 (c : Dev nD) (t : Fin cfg1.N) : (dat1 V c).after 8 t = mblk V c 8 t := by dsimp only [dat1]
theorem after1_9 (c : Dev nD) (t : Fin cfg1.N) : (dat1 V c).after 9 t = mblk V c 9 t := by dsimp only [dat1]
theorem after1_10 (c : Dev nD) (t : Fin cfg1.N) : (dat1 V c).after 10 t = (accAt V c t.val t.isLt).1 := by dsimp only [dat1]
theorem after1_11 (c : Dev nD) (t : Fin cfg1.N) : (dat1 V c).after 11 t = (accAt V c t.val t.isLt).2.1 := by dsimp only [dat1]

/-- Each input's staging buffer holds its block at every point, fetched there or not. -/
theorem before1_0 (c : Dev nD) (t : Fin cfg1.N) (d) : (dat1 V c).before 0 t d = mblk V c 0 t :=
  ((dat1 V c).before_in_eq_fetched 0 rfl (fun _ => rfl) (fun _ _ _ => rfl)
    (fun t => by rw [show (dat1 V c).after 0 t = mblk V c 0 t from by dsimp only [dat1]]; unfold Dat.blockOf mblk; rw [A_eq1]; try rfl) t d).trans
    (by unfold Dat.fetched Dat.blockOf mblk; rw [A_eq1]; try rfl)
theorem before1_1 (c : Dev nD) (t : Fin cfg1.N) (d) : (dat1 V c).before 1 t d = mblk V c 1 t :=
  ((dat1 V c).before_in_eq_fetched 1 rfl (fun _ => rfl) (fun _ _ _ => rfl)
    (fun t => by rw [show (dat1 V c).after 1 t = mblk V c 1 t from by dsimp only [dat1]]; unfold Dat.blockOf mblk; rw [A_eq1]; try rfl) t d).trans
    (by unfold Dat.fetched Dat.blockOf mblk; rw [A_eq1]; try rfl)
theorem before1_2 (c : Dev nD) (t : Fin cfg1.N) (d) : (dat1 V c).before 2 t d = mblk V c 2 t :=
  ((dat1 V c).before_in_eq_fetched 2 rfl (fun _ => rfl) (fun _ _ _ => rfl)
    (fun t => by rw [show (dat1 V c).after 2 t = mblk V c 2 t from by dsimp only [dat1]]; unfold Dat.blockOf mblk; rw [A_eq1]; try rfl) t d).trans
    (by unfold Dat.fetched Dat.blockOf mblk; rw [A_eq1]; try rfl)
theorem before1_3 (c : Dev nD) (t : Fin cfg1.N) (d) : (dat1 V c).before 3 t d = mblk V c 3 t :=
  ((dat1 V c).before_in_eq_fetched 3 rfl (fun _ => rfl) (fun _ _ _ => rfl)
    (fun t => by rw [show (dat1 V c).after 3 t = mblk V c 3 t from by dsimp only [dat1]]; unfold Dat.blockOf mblk; rw [A_eq1]; try rfl) t d).trans
    (by unfold Dat.fetched Dat.blockOf mblk; rw [A_eq1]; try rfl)
theorem before1_4 (c : Dev nD) (t : Fin cfg1.N) (d) : (dat1 V c).before 4 t d = mblk V c 4 t :=
  ((dat1 V c).before_in_eq_fetched 4 rfl (fun _ => rfl) (fun _ _ _ => rfl)
    (fun t => by rw [show (dat1 V c).after 4 t = mblk V c 4 t from by dsimp only [dat1]]; unfold Dat.blockOf mblk; rw [A_eq1]; try rfl) t d).trans
    (by unfold Dat.fetched Dat.blockOf mblk; rw [A_eq1]; try rfl)
theorem before1_5 (c : Dev nD) (t : Fin cfg1.N) (d) : (dat1 V c).before 5 t d = mblk V c 5 t :=
  ((dat1 V c).before_in_eq_fetched 5 rfl (fun _ => rfl) (fun _ _ _ => rfl)
    (fun t => by rw [show (dat1 V c).after 5 t = mblk V c 5 t from by dsimp only [dat1]]; unfold Dat.blockOf mblk; rw [A_eq1]; try rfl) t d).trans
    (by unfold Dat.fetched Dat.blockOf mblk; rw [A_eq1]; try rfl)
theorem before1_6 (c : Dev nD) (t : Fin cfg1.N) (d) : (dat1 V c).before 6 t d = mblk V c 6 t :=
  ((dat1 V c).before_in_eq_fetched 6 rfl (fun _ => rfl) (fun _ _ _ => rfl)
    (fun t => by rw [show (dat1 V c).after 6 t = mblk V c 6 t from by dsimp only [dat1]]; unfold Dat.blockOf mblk; rw [A_eq1]; try rfl) t d).trans
    (by unfold Dat.fetched Dat.blockOf mblk; rw [A_eq1]; try rfl)
theorem before1_7 (c : Dev nD) (t : Fin cfg1.N) (d) : (dat1 V c).before 7 t d = mblk V c 7 t :=
  ((dat1 V c).before_in_eq_fetched 7 rfl (fun _ => rfl) (fun _ _ _ => rfl)
    (fun t => by rw [show (dat1 V c).after 7 t = mblk V c 7 t from by dsimp only [dat1]]; unfold Dat.blockOf mblk; rw [A_eq1]; try rfl) t d).trans
    (by unfold Dat.fetched Dat.blockOf mblk; rw [A_eq1]; try rfl)
theorem before1_8 (c : Dev nD) (t : Fin cfg1.N) (d) : (dat1 V c).before 8 t d = mblk V c 8 t :=
  ((dat1 V c).before_in_eq_fetched 8 rfl (fun _ => rfl) (fun _ _ _ => rfl)
    (fun t => by rw [show (dat1 V c).after 8 t = mblk V c 8 t from by dsimp only [dat1]]; unfold Dat.blockOf mblk; rw [A_eq1]; try rfl) t d).trans
    (by unfold Dat.fetched Dat.blockOf mblk; rw [A_eq1]; try rfl)
theorem before1_9 (c : Dev nD) (t : Fin cfg1.N) (d) : (dat1 V c).before 9 t d = mblk V c 9 t :=
  ((dat1 V c).before_in_eq_fetched 9 rfl (fun _ => rfl) (fun _ _ _ => rfl)
    (fun t => by rw [show (dat1 V c).after 9 t = mblk V c 9 t from by dsimp only [dat1]]; unfold Dat.blockOf mblk; rw [A_eq1]; try rfl) t d).trans
    (by unfold Dat.fetched Dat.blockOf mblk; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 8000000 in
/-- The body at any point. The inputs' buffers hold their blocks; the point's position decides its kind; the invariant hands
    the body the accumulator at what the point before left (at anything before the very first point) and takes it back at
    this point's contents; at a point that does not write them the outputs' buffers pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
      unfold Dat.leavesExact; rw [live1_in 0 (by decide) (grid1.coords t)], after1_0]
  rw [show (dat1 V c).leavesExact 1 t = owns (c : Thread nD τ) (ms1_1 t) fullShare ((dat1 V c).after 1 t) from by
      unfold Dat.leavesExact; rw [live1_in 1 (by decide) (grid1.coords t)], after1_1]
  rw [show (dat1 V c).leavesExact 2 t = owns (c : Thread nD τ) (ms1_2 t) fullShare ((dat1 V c).after 2 t) from by
      unfold Dat.leavesExact; rw [live1_in 2 (by decide) (grid1.coords t)], after1_2]
  rw [show (dat1 V c).leavesExact 3 t = owns (c : Thread nD τ) (ms1_3 t) fullShare ((dat1 V c).after 3 t) from by
      unfold Dat.leavesExact; rw [live1_in 3 (by decide) (grid1.coords t)], after1_3]
  rw [show (dat1 V c).leavesExact 4 t = owns (c : Thread nD τ) (ms1_4 t) fullShare ((dat1 V c).after 4 t) from by
      unfold Dat.leavesExact; rw [live1_in 4 (by decide) (grid1.coords t)], after1_4]
  rw [show (dat1 V c).leavesExact 5 t = owns (c : Thread nD τ) (ms1_5 t) fullShare ((dat1 V c).after 5 t) from by
      unfold Dat.leavesExact; rw [live1_in 5 (by decide) (grid1.coords t)], after1_5]
  rw [show (dat1 V c).leavesExact 6 t = owns (c : Thread nD τ) (ms1_6 t) fullShare ((dat1 V c).after 6 t) from by
      unfold Dat.leavesExact; rw [live1_in 6 (by decide) (grid1.coords t)], after1_6]
  rw [show (dat1 V c).leavesExact 7 t = owns (c : Thread nD τ) (ms1_7 t) fullShare ((dat1 V c).after 7 t) from by
      unfold Dat.leavesExact; rw [live1_in 7 (by decide) (grid1.coords t)], after1_7]
  rw [show (dat1 V c).leavesExact 8 t = owns (c : Thread nD τ) (ms1_8 t) fullShare ((dat1 V c).after 8 t) from by
      unfold Dat.leavesExact; rw [live1_in 8 (by decide) (grid1.coords t)], after1_8]
  rw [show (dat1 V c).leavesExact 9 t = owns (c : Thread nD τ) (ms1_9 t) fullShare ((dat1 V c).after 9 t) from by
      unfold Dat.leavesExact; rw [live1_in 9 (by decide) (grid1.coords t)], after1_9]
  by_cases h0 : t.val % 16 = 0
  · have h1 : ¬t.val % 16 = 15 := by omega
    rw [Dat.leavesExact_idle (dat1 V c) 10 t (idle1_10 t (fun h => h1 ((isLast1_iff t).mp h))) (noFlush1_10 t (fun h => h1 ((isLast1_iff t).mp h)))]
    rw [Dat.leavesExact_idle (dat1 V c) 11 t (idle1_11 t (fun h => h1 ((isLast1_iff t).mp h))) (noFlush1_11 t (fun h => h1 ((isLast1_iff t).mp h)))]
    rw [accAt_first V c t h0 h1]
    unfold accFirst; (try dsimp only)
    by_cases hz : t.val = 0
    · rw [PhiS1_castSucc V c t, PhiS1_zero V c _ _ hz, PhiA1_eq]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFirst1 c (grid1.coords t) _ _ _ _ _ _ _ _ _ _ _ _ _ _ _ _ _ _ _ _ _ _ _ _ _ _ ((isFirst1_iff t).mpr h0) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, H11, ⟨%es, HS⟩⟩
      isplitl [HS Hg Hr]
      · isplitl [HS Hr]
        · isplitl [HS]
          · unfold owns; iexists _; isplitr
            swap; · iexact HS
            ipureintro; exact View.read_writes_of_cover _ _ _ _ _ (accFirst_cover V c t h0 h1)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
    · rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runFirst1 c (grid1.coords t) _ _ _ _ _ _ _ _ _ _ _ _ _ _ _ _ _ _ _ _ _ _ _ _ _ _ ((isFirst1_iff t).mpr h0) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t)).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexists _; iexact HS
      iintro ⟨H0, H1, H2, H3, H4, H5, H6, H7, H8, H9, H10, H11, ⟨%es, HS⟩⟩
      isplitl [HS Hg Hr]
      · isplitl [HS Hr]
        · isplitl [HS]
          · unfold owns; iexists _; isplitr
            swap; · iexact HS
            ipureintro; exact View.read_writes_of_cover _ _ _ _ _ (accFirst_cover V c t h0 h1)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11
  · have hz : t.val ≠ 0 := fun e => h0 (by rw [e])
    by_cases h1 : t.val % 16 = 15
    · skip
      rw [show (dat1 V c).leavesExact 10 t = owns (c : Thread nD τ) (ms1_10 t) fullShare ((dat1 V c).after 10 t) from by
        unfold Dat.leavesExact; rw [live1_10 t ((isLast1_iff t).mpr h1)], after1_10]
      rw [show (dat1 V c).leavesExact 11 t = owns (c : Thread nD τ) (ms1_11 t) fullShare ((dat1 V c).after 11 t) from by
        unfold Dat.leavesExact; rw [live1_11 t ((isLast1_iff t).mpr h1)], after1_11]
      rw [accAt_last V c t h0 h1]
      unfold outLast10 outLast11 accLast; (try dsimp only)
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runLast1 c (grid1.coords t) _ _ _ _ _ _ _ _ _ _ _ _ _ _ _ _ _ _ _ _ _ _ _ _ _ _ (fun h => h0 ((isFirst1_iff t).mp h)) ((isLast1_iff t).mpr h1) (mblk V c 0 t) (mblk V c 1 t) (mblk V c 2 t) (mblk V c 3 t) (mblk V c 4 t) (mblk V c 5 t) (mblk V c 6 t) (mblk V c 7 t) (mblk V c 8 t) (mblk V c 9 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS]; · iexact HS
      iintro ⟨H0, H1, H2, H3, H4, H5, H6, H7, H8, H9, ⟨%e10, H10⟩, ⟨%e11, H11⟩, ⟨%es, HS⟩⟩
      isplitl [HS Hg Hr]
      · isplitl [HS Hr]
        · isplitl [HS]
          · unfold owns; iexists _; isplitr
            swap; · iexact HS
            ipureintro; exact View.read_writes_of_cover _ _ _ _ _ (accLast_cover V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (outLast10_cover V c t h0 h1 _)
      unfold owns; iexists _; isplitr
      swap; · iexact H11
      ipureintro; exact View.read_writes_of_cover _ _ _ _ _ (outLast11_cover V c t h0 h1 _)
    · rw [Dat.leavesExact_idle (dat1 V c) 10 t (idle1_10 t (fun h => h1 ((isLast1_iff t).mp h))) (noFlush1_10 t (fun h => h1 ((isLast1_iff t).mp h)))]
      rw [Dat.leavesExact_idle (dat1 V c) 11 t (idle1_11 t (fun h => h1 ((isLast1_iff t).mp h))) (noFlush1_11 t (fun h => h1 ((isLast1_iff t).mp h)))]
      rw [accAt_middle V c t h0 h1]
      unfold accMiddle; (try dsimp only)
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((runMiddle1 c (grid1.coords t) _ _ _ _ _ _ _ _ _ _ _ _ _ _ _ _ _ _ _ _ _ _ _ _ _ _ (fun h => h0 ((isFirst1_iff t).mp h)) (fun h => h1 ((isLast1_iff t).mp h)) (mblk V c 0 t) (mblk V c 1 t) (mblk V c 2 t) (mblk V c 3 t) (mblk V c 4 t) (mblk V c 5 t) (mblk V c 6 t) (mblk V c 7 t) (mblk V c 8 t) (mblk V c 9 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS]; · iexact HS
      iintro ⟨H0, H1, H2, H3, H4, H5, H6, H7, H8, H9, H10, H11, ⟨%es, HS⟩⟩
      isplitl [HS Hg Hr]
      · isplitl [HS Hr]
        · isplitl [HS]
          · unfold owns; iexists _; isplitr
            swap; · iexact HS
            ipureintro; exact View.read_writes_of_cover _ _ _ _ _ (accMiddle_cover V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, Hr⟩, Hg⟩
  isplitl [HS Hr]
  · isplitl [HS]
    · iexists _; iexact HS
    iexact Hr
  iexact Hg

end

end Cert.KernelIdeal.Frame

end
-- ==== Proof.FrameI.AggOutCases.lean ====
/- The third kernel region (the second aggregation layer): shared facts about its body's two branches and its windows.
   The grid is 2 row blocks × 16 contraction blocks, point t = 16·i + k. The first branch (k = 0) clears the accumulator;
   the second (k = 15) runs the epilogue that writes the output. So a point is of one of three kinds:
   first (k = 0), middle (0 < k < 15), last (k = 15). -/
import proofs.«161264_g10471130268016_week1_w2_219_12_alg».proof.Proof.Gen.KernelIdeal.Launch
import proofs.«161264_g10471130268016_week1_w2_219_12_alg».proof.Proof.Gen.KernelIdeal.Skeleton
import proofs.«161264_g10471130268016_week1_w2_219_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch condition (the accumulator is cleared), as the scalar chain the part computes from the
    second grid coordinate. -/
abbrev isFirst2 (i : grid2.Coords) : Prop :=
  (Scalar.cmpi .ne (Scalar.extui (Scalar.cmpi .eq (BitVec.ofNat 32 (i 1).val) 0#32)) 0#32) = 1#1
/-- It holds exactly at the points with k = 0. -/
theorem isFirst2_iff : ∀ t : Fin cfg2.N, isFirst2 (grid2.coords t) ↔ t.val % 16 = 0 :=
  (by decide +kernel : ∀ t : Fin grid2.N, isFirst2 (grid2.coords t) ↔ t.val % 16 = 0)

/-- The body's second branch condition (the epilogue runs). -/
abbrev isLast2 (i : grid2.Coords) : Prop := k2_cond2 i = 1#1
/-- It holds exactly at the points with k = 15. -/
theorem isLast2_iff : ∀ t : Fin cfg2.N, isLast2 (grid2.coords t) ↔ t.val % 16 = 15 :=
  (by decide +kernel : ∀ t : Fin grid2.N, isLast2 (grid2.coords t) ↔ t.val % 16 = 15)

/-- The input windows are never idle. -/
theorem live2_in : ∀ w : Fin 10, w.val < 9 → ∀ i, cfg2.idle w i = false := by
  intro w hw i
  match w, hw with
  | ⟨0, _⟩, _ => rfl | ⟨1, _⟩, _ => rfl | ⟨2, _⟩, _ => rfl | ⟨3, _⟩, _ => rfl | ⟨4, _⟩, _ => rfl | ⟨5, _⟩, _ => rfl | ⟨6, _⟩, _ => rfl | ⟨7, _⟩, _ => rfl | ⟨8, _⟩, _ => rfl
/-- Away from the last contraction block output 9 is idle and not written back; at it, live. -/
theorem idle2_9 : ∀ t : Fin cfg2.N, ¬isLast2 (grid2.coords t) → cfg2.idle 9 (grid2.coords t) = true := by decide +kernel
theorem noFlush2_9 : ∀ t : Fin cfg2.N, ¬isLast2 (grid2.coords t) → (cfg2.win 9).flush t = false := by decide +kernel
theorem live2_9 : ∀ t : Fin cfg2.N, isLast2 (grid2.coords t) → cfg2.idle 9 (grid2.coords t) = false := by decide +kernel

/-- The accumulator: a whole scoped buffer of the kernel's own, carried from one grid point to the next. -/
abbrev acc2 : Memref sig .tc .vmem S2048x512 .f32 := Memref.whole cc2_scratch0
/-- The view through which the accumulator's contents are stated. -/
abbrev accV2 : View sig .tc .vmem S2048x512 .f32 := acc2.view
/-- One staging buffer of each output window, through which its contents are stated. -/
abbrev outV2_9 : View sig .tc .vmem S2048x512 .f32 := (Memref.whole cc2_stg9_0 : Memref sig .tc .vmem S2048x512 .f32).view

/-- The scoped buffers no window of this region stages, split at the accumulator. -/
theorem scopedRest2_acc {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The class invariant with the accumulator as a memref owned at some contents. -/
theorem PhiA2_eq (c : Dev nD) :
    (Pipeline.ΦA spec2 c : sProp 𝕄)
      = iprop(iprop(iprop((∃ d, owns (c : Thread nD τ) acc2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_acc]; simp only [acc2, owns_whole]; try rfl

end Cert.KernelIdeal.Frame

end
-- ==== Proof.FrameI.AggOutFirst.lean ====
/- The third kernel region (the second aggregation layer): the body's run at a FIRST (k = 0) point of the contraction, on whole staging buffers.
   What the stores leave in a buffer is a list of pieces (rectangle and value, last store first); the lists are found
   by running the body symbolically, and are the first components of the definition below. -/
import proofs.«161264_g10471130268016_week1_w2_219_12_alg».proof.Proof.FrameI.AggOutCases

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At a first point the accumulator is cleared and then receives the first block's products; the outputs are not
    touched. With the inputs at `x·`, the outputs at `xi·` and the accumulator at anything, the body runs to the end,
    the inputs and outputs as they were and the accumulator with the pieces `LS` written. -/
noncomputable def runFirst2 (c : Dev nD) (i : grid2.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (hc0 : isFirst2 i) (hc1 : ¬isLast2 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) :
    { LS : List (View.Piece (Elt F) S2048x512 .f32) //
      ∀ (xi9 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS)) -∗ K ⟨⟩))
          ⊢ wp frame (wpE (defs₀ (F := F)) Variants.none c none) E (cc2__agg_last_kernel i arg2 harg2 arg3 harg3 arg4 harg4 arg5 harg5 arg6 harg6 arg7 harg7 arg8 harg8 arg9 harg9 arg10 harg10 arg11 harg11 arg12 harg12) K } := by
  refine ⟨?_, fun xi9 E K => ?run⟩
  case run =>
    simp only [cc2__agg_last_kernel_eq_skeleton]; unfold cc2__agg_last_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS

end Cert.KernelIdeal.Frame

end
-- ==== Proof.FrameI.AggOutMiddle.lean ====
/- The third kernel region (the second aggregation layer): the body's run at a MIDDLE (0 < k < 15) point of the contraction, on whole staging buffers.
   What the stores leave in a buffer is a list of pieces (rectangle and value, last store first); the lists are found
   by running the body symbolically, and are the first components of the definition below. -/
import proofs.«161264_g10471130268016_week1_w2_219_12_alg».proof.Proof.FrameI.AggOutCases

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At a middle point the accumulator, found at `xs`, receives the block's products; the outputs are not touched. -/
noncomputable def runMiddle2 (c : Dev nD) (i : grid2.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (hc0 : ¬isFirst2 i) (hc1 : ¬isLast2 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) (xs : Vec F S2048x512 .f32) :
    { LS : List (View.Piece (Elt F) S2048x512 .f32) //
      ∀ (xi9 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS)) -∗ K ⟨⟩))
          ⊢ wp frame (wpE (defs₀ (F := F)) Variants.none c none) E (cc2__agg_last_kernel i arg2 harg2 arg3 harg3 arg4 harg4 arg5 harg5 arg6 harg6 arg7 harg7 arg8 harg8 arg9 harg9 arg10 harg10 arg11 harg11 arg12 harg12) K } := by
  refine ⟨?_, fun xi9 E K => ?run⟩
  case run =>
    simp only [cc2__agg_last_kernel_eq_skeleton]; unfold cc2__agg_last_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg11.eq_unread hf9; obtain rfl := harg12.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HS

end Cert.KernelIdeal.Frame

end
-- ==== Proof.FrameI.AggOutLast.lean ====
/- The third kernel region (the second aggregation layer): the body's run at a LAST (k = 15) point of the contraction, on whole staging buffers.
   What the stores leave in a buffer is a list of pieces (rectangle and value, last store first); the lists are found
   by running the body symbolically, and are the first components of the definition below. -/
import proofs.«161264_g10471130268016_week1_w2_219_12_alg».proof.Proof.FrameI.AggOutCases

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At a last point the accumulator, found at `xs`, receives the last block's products and the epilogue stores the
    region's output: with the output buffers at anything, the body runs to the end, the inputs as they were,
    the output buffers with their pieces written and the accumulator with `LS`. -/
noncomputable def runLast2 (c : Dev nD) (i : grid2.Coords) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S256x1024 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S2048x512 .f32) (harg10 : arg10.IsWhole) (arg11 : Memref sig .tc .vmem S2048x512 .f32) (harg11 : arg11.IsWhole) (arg12 : Memref sig .tc .vmem S2048x512 .f32) (harg12 : arg12.IsWhole) (hc0 : ¬isFirst2 i) (hc1 : isLast2 i)
    (x0 : Vec F S2048x256 .f32) (x1 : Vec F S2048x256 .f32) (x2 : Vec F S2048x256 .f32) (x3 : Vec F S2048x256 .f32) (x4 : Vec F S256x1024 .bf16) (x5 : Vec F S512x512 .f32) (x6 : Vec F S1x512 .f32) (x7 : Vec F S1x512 .f32) (x8 : Vec F S2048x512 .f32) (xs : Vec F S2048x512 .f32) :
    Σ' (L9 : List (View.Piece (Elt F) S2048x512 .f32)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS)) -∗ K ⟨⟩))
          ⊢ wp frame (wpE (defs₀ (F := F)) Variants.none c none) E (cc2__agg_last_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc2__agg_last_kernel_eq_skeleton]; unfold cc2__agg_last_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg12.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; iexact HS

end Cert.KernelIdeal.Frame

end
-- ==== Proof.FrameI.AggOut.lean ====
/- The third kernel region (the second aggregation layer), assembled: the blocks of its ten windows, what its output and
   its accumulator hold after every grid point (by recursion on the point: a first point starts the accumulator afresh,
   a middle point adds to what the point before left, a last point also writes the output), the region's invariant (the
   accumulator at those contents), its proof data and its body obligation. Everything is stated at an arbitrary contents
   `V` of the TensorCore's buffers at the region's entry. -/
import proofs.«161264_g10471130268016_week1_w2_219_12_alg».proof.Proof.FrameI.AggOutFirst
import proofs.«161264_g10471130268016_week1_w2_219_12_alg».proof.Proof.FrameI.AggOutMiddle
import proofs.«161264_g10471130268016_week1_w2_219_12_alg».proof.Proof.FrameI.AggOutLast

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev ms2_0 (t : Fin cfg2.N) : Memref sig .tc .vmem S2048x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x512 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x512 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S2048x512 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S2048x512 .f32 := win2_9.stage (cfg2.slots t 9)
abbrev hs2_9 (t : Fin cfg2.N) : (ms2_9 t).IsWhole := hstage2_9 ((cfg2.slots t 9).cast nbuf2_9)

section
variable (V : (c : Dev nD) → (b : Ref sig .tc) → Buf (Elt F) ((c : Thread nD τ).loc b))

/-- The block of window `w` at grid point `t`, cut out of the window's array as the region finds it. -/
def oblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What a first point leaves in the accumulator. -/
def accFirst2 (c : Dev nD) (t : Fin cfg2.N) (h0 : t.val % 16 = 0) (h1 : ¬t.val % 16 = 15) : Vec F S2048x512 .f32 :=
  accV2.read (Elt F) (accV2.writes (Elt F) accV2.junk
    (runFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) ((isFirst2_iff t).mpr h0) (fun h => h1 ((isLast2_iff t).mp h)) (oblk V c 0 t) (oblk V c 1 t) (oblk V c 2 t) (oblk V c 3 t) (oblk V c 4 t) (oblk V c 5 t) (oblk V c 6 t) (oblk V c 7 t) (oblk V c 8 t)).1)
theorem accFirst2_cover (c : Dev nD) (t : Fin cfg2.N) (h0 : t.val % 16 = 0) (h1 : ¬t.val % 16 = 15) (y : S2048x512.Idx) :
    ∃ pc ∈ (runFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) ((isFirst2_iff t).mpr h0) (fun h => h1 ((isLast2_iff t).mp h)) (oblk V c 0 t) (oblk V c 1 t) (oblk V c 2 t) (oblk V c 3 t) (oblk V c 4 t) (oblk V c 5 t) (oblk V c 6 t) (oblk V c 7 t) (oblk V c 8 t)).1, y ∈ pc.1.set :=
  View.cover_of_tiledL _ S2048x512.size (by sl_kernel_rfl) y

/-- What a middle point leaves in the accumulator, from what it found there. -/
def accMiddle2 (c : Dev nD) (t : Fin cfg2.N) (h0 : ¬t.val % 16 = 0) (h1 : ¬t.val % 16 = 15) (xs : Vec F S2048x512 .f32) : Vec F S2048x512 .f32 :=
  accV2.read (Elt F) (accV2.writes (Elt F) accV2.junk
    (runMiddle2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) (fun h => h1 ((isLast2_iff t).mp h)) (oblk V c 0 t) (oblk V c 1 t) (oblk V c 2 t) (oblk V c 3 t) (oblk V c 4 t) (oblk V c 5 t) (oblk V c 6 t) (oblk V c 7 t) (oblk V c 8 t) xs).1)
theorem accMiddle2_cover (c : Dev nD) (t : Fin cfg2.N) (h0 : ¬t.val % 16 = 0) (h1 : ¬t.val % 16 = 15) (xs : Vec F S2048x512 .f32) (y : S2048x512.Idx) :
    ∃ pc ∈ (runMiddle2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) (fun h => h1 ((isLast2_iff t).mp h)) (oblk V c 0 t) (oblk V c 1 t) (oblk V c 2 t) (oblk V c 3 t) (oblk V c 4 t) (oblk V c 5 t) (oblk V c 6 t) (oblk V c 7 t) (oblk V c 8 t) xs).1, y ∈ pc.1.set :=
  View.cover_of_tiledL (s := S2048x512) _ S2048x256.size (by sl_kernel_rfl) y

/-- What a last point leaves in the outputs' staging buffers and in the accumulator. -/
def outLast2_9 (c : Dev nD) (t : Fin cfg2.N) (h0 : ¬t.val % 16 = 0) (h1 : t.val % 16 = 15) (xs : Vec F S2048x512 .f32) : Vec F S2048x512 .f32 :=
  outV2_9.read (Elt F) (outV2_9.writes (Elt F) outV2_9.junk
    (runLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) ((isLast2_iff t).mpr h1) (oblk V c 0 t) (oblk V c 1 t) (oblk V c 2 t) (oblk V c 3 t) (oblk V c 4 t) (oblk V c 5 t) (oblk V c 6 t) (oblk V c 7 t) (oblk V c 8 t) xs).1)
def accLast2 (c : Dev nD) (t : Fin cfg2.N) (h0 : ¬t.val % 16 = 0) (h1 : t.val % 16 = 15) (xs : Vec F S2048x512 .f32) : Vec F S2048x512 .f32 :=
  accV2.read (Elt F) (accV2.writes (Elt F) accV2.junk
    (runLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) ((isLast2_iff t).mpr h1) (oblk V c 0 t) (oblk V c 1 t) (oblk V c 2 t) (oblk V c 3 t) (oblk V c 4 t) (oblk V c 5 t) (oblk V c 6 t) (oblk V c 7 t) (oblk V c 8 t) xs).2.1)
theorem outLast2_9_cover (c : Dev nD) (t : Fin cfg2.N) (h0 : ¬t.val % 16 = 0) (h1 : t.val % 16 = 15) (xs : Vec F S2048x512 .f32) (y : S2048x512.Idx) :
    ∃ pc ∈ (runLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) ((isLast2_iff t).mpr h1) (oblk V c 0 t) (oblk V c 1 t) (oblk V c 2 t) (oblk V c 3 t) (oblk V c 4 t) (oblk V c 5 t) (oblk V c 6 t) (oblk V c 7 t) (oblk V c 8 t) xs).1, y ∈ pc.1.set :=
  View.cover_of_tiledL _ S2048x512.size (by sl_kernel_rfl) y
theorem accLast2_cover (c : Dev nD) (t : Fin cfg2.N) (h0 : ¬t.val % 16 = 0) (h1 : t.val % 16 = 15) (xs : Vec F S2048x512 .f32) (y : S2048x512.Idx) :
    ∃ pc ∈ (runLast2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) acc2 (Memref.isWhole_whole _) (fun h => h0 ((isFirst2_iff t).mp h)) ((isLast2_iff t).mpr h1) (oblk V c 0 t) (oblk V c 1 t) (oblk V c 2 t) (oblk V c 3 t) (oblk V c 4 t) (oblk V c 5 t) (oblk V c 6 t) (oblk V c 7 t) (oblk V c 8 t) xs).2.1, y ∈ pc.1.set :=
  View.cover_of_tiledL (s := S2048x512) _ S2048x256.size (by sl_kernel_rfl) y

/-- What the outputs' staging buffers and the accumulator hold after the body at position `n`: the kind of point the
    position is of, run on the point's blocks, a middle or last point over the accumulator the position before left. At a
    point that does not write an output the output's component is a placeholder nothing consults. -/
def accAt2 (c : Dev nD) : (n : ℕ) → n < cfg2.N → Vec F S2048x512 .f32 × Vec F S2048x512 .f32
  | 0, hn => (outV2_9.read (Elt F) outV2_9.junk, accFirst2 V c ⟨0, hn⟩ (Nat.zero_mod _) (fun h => by (try dsimp only at h); omega))
  | n + 1, hn =>
    if h0 : (n + 1) % 16 = 0 then
      if h1 : (n + 1) % 16 = 15 then False.elim (by omega)
      else (outV2_9.read (Elt F) outV2_9.junk, accFirst2 V c ⟨n + 1, hn⟩ h0 h1)
    else
      if h1 : (n + 1) % 16 = 15 then
        (outLast2_9 V c ⟨n + 1, hn⟩ h0 h1 (accAt2 c n (Nat.lt_of_succ_lt hn)).2, accLast2 V c ⟨n + 1, hn⟩ h0 h1 (accAt2 c n (Nat.lt_of_succ_lt hn)).2)
      else
        (outV2_9.read (Elt F) outV2_9.junk, accMiddle2 V c ⟨n + 1, hn⟩ h0 h1 (accAt2 c n (Nat.lt_of_succ_lt hn)).2)

theorem accAt2_first (c : Dev nD) (t : Fin cfg2.N) (h0 : t.val % 16 = 0) (h1 : ¬t.val % 16 = 15) :
    accAt2 V c t.val t.isLt = (outV2_9.read (Elt F) outV2_9.junk, accFirst2 V c t h0 h1) := by
  obtain ⟨n, hn⟩ := t
  cases n with
  | zero => exact rfl
  | succ n => exact (dif_pos h0).trans ((dif_neg h1).trans rfl)
theorem accAt2_middle (c : Dev nD) (t : Fin cfg2.N) (h0 : ¬t.val % 16 = 0) (h1 : ¬t.val % 16 = 15) :
    accAt2 V c t.val t.isLt = (outV2_9.read (Elt F) outV2_9.junk, accMiddle2 V c t h0 h1 (accAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem accAt2_last (c : Dev nD) (t : Fin cfg2.N) (h0 : ¬t.val % 16 = 0) (h1 : t.val % 16 = 15) :
    accAt2 V c t.val t.isLt = (outLast2_9 V c t h0 h1 (accAt2 V c (t.val - 1) (Nat.lt_of_le_of_lt (Nat.sub_le _ _) t.isLt)).2,
      accLast2 V c t h0 h1 (accAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (every scoped buffer the region does not
    stage at anything, the generator register at some state); afterwards the same with the accumulator at what the point
    before left in it. -/
def PhiS2 (c : Dev nD) : (n : ℕ) → n ≤ cfg2.N → sProp 𝕄
  | 0, _ => Pipeline.ΦA spec2 c
  | n + 1, hn => iprop(iprop(iprop(owns (c : Thread nD τ) acc2 fullShare ((accAt2 V c n hn).2))
      ∗ Pipeline.scopedRestBut (Ix := Unit) (Name := ℕ) (U := UR sig nD τ) (Lvl := ℕ) (Val := Elt F) spec2 c [cc2_scratch0]) ∗ (∃ r, prngReg c r))
theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) acc2 fullShare ((accAt2 V c n hn).2))
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(iprop(owns (c : Thread nD τ) acc2 fullShare ((accAt2 V c (n - 1) (by omega)).2))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The region's proof data on core `c`: the arrays as the region finds them; after the body at point `t` each input's buffer
    at its block and the outputs' at `accAt2`'s components; the invariant above; nothing owed; full shares. -/
def dat2 (c : Dev nD) : Dat τ (Elt F) Unit ℕ (UR sig nD τ) ℕ cfg2 c where
  A w := V c (Pipeline.arrRef spec2 w)
  after w t := match w with
    | ⟨0, _⟩ => oblk V c 0 t
    | ⟨1, _⟩ => oblk V c 1 t
    | ⟨2, _⟩ => oblk V c 2 t
    | ⟨3, _⟩ => oblk V c 3 t
    | ⟨4, _⟩ => oblk V c 4 t
    | ⟨5, _⟩ => oblk V c 5 t
    | ⟨6, _⟩ => oblk V c 6 t
    | ⟨7, _⟩ => oblk V c 7 t
    | ⟨8, _⟩ => oblk V c 8 t
    | ⟨9, _⟩ => (accAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = oblk V c 0 t := by dsimp only [dat2]
theorem after2_1 (c : Dev nD) (t : Fin cfg2.N) : (dat2 V c).after 1 t = oblk V c 1 t := by dsimp only [dat2]
theorem after2_2 (c : Dev nD) (t : Fin cfg2.N) : (dat2 V c).after 2 t = oblk V c 2 t := by dsimp only [dat2]
theorem after2_3 (c : Dev nD) (t : Fin cfg2.N) : (dat2 V c).after 3 t = oblk V c 3 t := by dsimp only [dat2]
theorem after2_4 (c : Dev nD) (t : Fin cfg2.N) : (dat2 V c).after 4 t = oblk V c 4 t := by dsimp only [dat2]
theorem after2_5 (c : Dev nD) (t : Fin cfg2.N) : (dat2 V c).after 5 t = oblk V c 5 t := by dsimp only [dat2]
theorem after2_6 (c : Dev nD) (t : Fin cfg2.N) : (dat2 V c).after 6 t = oblk V c 6 t := by dsimp only [dat2]
theorem after2_7 (c : Dev nD) (t : Fin cfg2.N) : (dat2 V c).after 7 t = oblk V c 7 t := by dsimp only [dat2]
theorem after2_8 (c : Dev nD) (t : Fin cfg2.N) : (dat2 V c).after 8 t = oblk V c 8 t := by dsimp only [dat2]
theorem after2_9 (c : Dev nD) (t : Fin cfg2.N) : (dat2 V c).after 9 t = (accAt2 V c t.val t.isLt).1 := by dsimp only [dat2]

/-- Each input's staging buffer holds its block at every point, fetched there or not. -/
theorem before2_0 (c : Dev nD) (t : Fin cfg2.N) (d) : (dat2 V c).before 0 t d = oblk V c 0 t :=
  ((dat2 V c).before_in_eq_fetched 0 rfl (fun _ => rfl) (fun _ _ _ => rfl)
    (fun t => by rw [show (dat2 V c).after 0 t = oblk V c 0 t from by dsimp only [dat2]]; unfold Dat.blockOf oblk; rw [A_eq2]; try rfl) t d).trans
    (by unfold Dat.fetched Dat.blockOf oblk; rw [A_eq2]; try rfl)
theorem before2_1 (c : Dev nD) (t : Fin cfg2.N) (d) : (dat2 V c).before 1 t d = oblk V c 1 t :=
  ((dat2 V c).before_in_eq_fetched 1 rfl (fun _ => rfl) (fun _ _ _ => rfl)
    (fun t => by rw [show (dat2 V c).after 1 t = oblk V c 1 t from by dsimp only [dat2]]; unfold Dat.blockOf oblk; rw [A_eq2]; try rfl) t d).trans
    (by unfold Dat.fetched Dat.blockOf oblk; rw [A_eq2]; try rfl)
theorem before2_2 (c : Dev nD) (t : Fin cfg2.N) (d) : (dat2 V c).before 2 t d = oblk V c 2 t :=
  ((dat2 V c).before_in_eq_fetched 2 rfl (fun _ => rfl) (fun _ _ _ => rfl)
    (fun t => by rw [show (dat2 V c).after 2 t = oblk V c 2 t from by dsimp only [dat2]]; unfold Dat.blockOf oblk; rw [A_eq2]; try rfl) t d).trans
    (by unfold Dat.fetched Dat.blockOf oblk; rw [A_eq2]; try rfl)
theorem before2_3 (c : Dev nD) (t : Fin cfg2.N) (d) : (dat2 V c).before 3 t d = oblk V c 3 t :=
  ((dat2 V c).before_in_eq_fetched 3 rfl (fun _ => rfl) (fun _ _ _ => rfl)
    (fun t => by rw [show (dat2 V c).after 3 t = oblk V c 3 t from by dsimp only [dat2]]; unfold Dat.blockOf oblk; rw [A_eq2]; try rfl) t d).trans
    (by unfold Dat.fetched Dat.blockOf oblk; rw [A_eq2]; try rfl)
theorem before2_4 (c : Dev nD) (t : Fin cfg2.N) (d) : (dat2 V c).before 4 t d = oblk V c 4 t :=
  ((dat2 V c).before_in_eq_fetched 4 rfl (fun _ => rfl) (fun _ _ _ => rfl)
    (fun t => by rw [show (dat2 V c).after 4 t = oblk V c 4 t from by dsimp only [dat2]]; unfold Dat.blockOf oblk; rw [A_eq2]; try rfl) t d).trans
    (by unfold Dat.fetched Dat.blockOf oblk; rw [A_eq2]; try rfl)
theorem before2_5 (c : Dev nD) (t : Fin cfg2.N) (d) : (dat2 V c).before 5 t d = oblk V c 5 t :=
  ((dat2 V c).before_in_eq_fetched 5 rfl (fun _ => rfl) (fun _ _ _ => rfl)
    (fun t => by rw [show (dat2 V c).after 5 t = oblk V c 5 t from by dsimp only [dat2]]; unfold Dat.blockOf oblk; rw [A_eq2]; try rfl) t d).trans
    (by unfold Dat.fetched Dat.blockOf oblk; rw [A_eq2]; try rfl)
theorem before2_6 (c : Dev nD) (t : Fin cfg2.N) (d) : (dat2 V c).before 6 t d = oblk V c 6 t :=
  ((dat2 V c).before_in_eq_fetched 6 rfl (fun _ => rfl) (fun _ _ _ => rfl)
    (fun t => by rw [show (dat2 V c).after 6 t = oblk V c 6 t from by dsimp only [dat2]]; unfold Dat.blockOf oblk; rw [A_eq2]; try rfl) t d).trans
    (by unfold Dat.fetched Dat.blockOf oblk; rw [A_eq2]; try rfl)
theorem before2_7 (c : Dev nD) (t : Fin cfg2.N) (d) : (dat2 V c).before 7 t d = oblk V c 7 t :=
  ((dat2 V c).before_in_eq_fetched 7 rfl (fun _ => rfl) (fun _ _ _ => rfl)
    (fun t => by rw [show (dat2 V c).after 7 t = oblk V c 7 t from by dsimp only [dat2]]; unfold Dat.blockOf oblk; rw [A_eq2]; try rfl) t d).trans
    (by unfold Dat.fetched Dat.blockOf oblk; rw [A_eq2]; try rfl)
theorem before2_8 (c : Dev nD) (t : Fin cfg2.N) (d) : (dat2 V c).before 8 t d = oblk V c 8 t :=
  ((dat2 V c).before_in_eq_fetched 8 rfl (fun _ => rfl) (fun _ _ _ => rfl)
    (fun t => by rw [show (dat2 V c).after 8 t = oblk V c 8 t from by dsimp only [dat2]]; unfold Dat.blockOf oblk; rw [A_eq2]; try rfl) t d).trans
    (by unfold Dat.fetched Dat.blockOf oblk; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))
/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 8000000 in
/-- The body at any point. The inputs' buffers hold their blocks; the point's position decides its kind; the invariant hands
    the body the accumulator at what the point before left (at anything before the very first point) and takes it back at
    this point's contents; at a point that does not write them the outputs' buffers pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
      unfold Dat.leavesExact; rw [live2_in 0 (by decide) (grid2.coords t)], after2_0]
  rw [show (dat2 V c).leavesExact 1 t = owns (c : Thread nD τ) (ms2_1 t) fullShare ((dat2 V c).after 1 t) from by
      unfold Dat.leavesExact; rw [live2_in 1 (by decide) (grid2.coords t)], after2_1]
  rw [show (dat2 V c).leavesExact 2 t = owns (c : Thread nD τ) (ms2_2 t) fullShare ((dat2 V c).after 2 t) from by
      unfold Dat.leavesExact; rw [live2_in 2 (by decide) (grid2.coords t)], after2_2]
  rw [show (dat2 V c).leavesExact 3 t = owns (c : Thread nD τ) (ms2_3 t) fullShare ((dat2 V c).after 3 t) from by
      unfold Dat.leavesExact; rw [live2_in 3 (by decide) (grid2.coords t)], after2_3]
  rw [show (dat2 V c).leavesExact 4 t = owns (c : Thread nD τ) (ms2_4 t) fullShare ((dat2 V c).after 4 t) from by
      unfold Dat.leavesExact; rw [live2_in 4 (by decide) (grid2.coords t)], after2_4]
  rw [show (dat2 V c).leavesExact 5 t = owns (c : Thread nD τ) (ms2_5 t) fullShare ((dat2 V c).after 5 t) from by
      unfold Dat.leavesExact; rw [live2_in 5 (by decide) (grid2.coords t)], after2_5]
  rw [show (dat2 V c).leavesExact 6 t = owns (c : Thread nD τ) (ms2_6 t) fullShare ((dat2 V c).after 6 t) from by
      unfold Dat.leavesExact; rw [live2_in 6 (by decide) (grid2.coords t)], after2_6]
  rw [show (dat2 V c).leavesExact 7 t = owns (c : Thread nD τ) (ms2_7 t) fullShare ((dat2 V c).after 7 t) from by
      unfold Dat.leavesExact; rw [live2_in 7 (by decide) (grid2.coords t)], after2_7]
  rw [show (dat2 V c).leavesExact 8 t = owns (c : Thread nD τ) (ms2_8 t) fullShare ((dat2 V c).after 8 t) from by
      unfold Dat.leavesExact; rw [live2_in 8 (by decide) (grid2.coords t)], after2_8]
  by_cases h0 : t.val % 16 = 0
  · have h1 : ¬t.val % 16 = 15 := by omega
    rw [Dat.leavesExact_idle (dat2 V c) 9 t (idle2_9 t (fun h => h1 ((isLast2_iff t).mp h))) (noFlush2_9 t (fun h => h1 ((isLast2_iff t).mp h)))]
    rw [accAt2_first V c t h0 h1]
    unfold accFirst2; (try dsimp only)
    by_cases hz : t.val = 0
    · rw [PhiS2_castSucc V c t, PhiS2_zero V c _ _ hz, PhiA2_eq]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst2 c (grid2.coords t) _ _ _ _ _ _ _ _ _ _ _ _ _ _ _ _ _ _ _ _ _ _ ((isFirst2_iff t).mpr h0) (fun h => h1 ((isLast2_iff t).mp h)) (oblk V c 0 t) (oblk V c 1 t) (oblk V c 2 t) (oblk V c 3 t) (oblk V c 4 t) (oblk V c 5 t) (oblk V c 6 t) (oblk V c 7 t) (oblk V c 8 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, ⟨%es, HS⟩⟩
      isplitl [HS Hg Hr]
      · isplitl [HS Hr]
        · isplitl [HS]
          · unfold owns; iexists _; isplitr
            swap; · iexact HS
            ipureintro; exact View.read_writes_of_cover _ _ _ _ _ (accFirst2_cover V c t h0 h1)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst2 c (grid2.coords t) _ _ _ _ _ _ _ _ _ _ _ _ _ _ _ _ _ _ _ _ _ _ ((isFirst2_iff t).mpr h0) (fun h => h1 ((isLast2_iff t).mp h)) (oblk V c 0 t) (oblk V c 1 t) (oblk V c 2 t) (oblk V c 3 t) (oblk V c 4 t) (oblk V c 5 t) (oblk V c 6 t) (oblk V c 7 t) (oblk V c 8 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexists _; iexact HS
      iintro ⟨H0, H1, H2, H3, H4, H5, H6, H7, H8, H9, ⟨%es, HS⟩⟩
      isplitl [HS Hg Hr]
      · isplitl [HS Hr]
        · isplitl [HS]
          · unfold owns; iexists _; isplitr
            swap; · iexact HS
            ipureintro; exact View.read_writes_of_cover _ _ _ _ _ (accFirst2_cover V c t h0 h1)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun e => h0 (by rw [e])
    by_cases h1 : t.val % 16 = 15
    · skip
      rw [show (dat2 V c).leavesExact 9 t = owns (c : Thread nD τ) (ms2_9 t) fullShare ((dat2 V c).after 9 t) from by
        unfold Dat.leavesExact; rw [live2_9 t ((isLast2_iff t).mpr h1)], after2_9]
      rw [accAt2_last V c t h0 h1]
      unfold outLast2_9 accLast2; (try dsimp only)
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLast2 c (grid2.coords t) _ _ _ _ _ _ _ _ _ _ _ _ _ _ _ _ _ _ _ _ _ _ (fun h => h0 ((isFirst2_iff t).mp h)) ((isLast2_iff t).mpr h1) (oblk V c 0 t) (oblk V c 1 t) (oblk V c 2 t) (oblk V c 3 t) (oblk V c 4 t) (oblk V c 5 t) (oblk V c 6 t) (oblk V c 7 t) (oblk V c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, ⟨%e9, H9⟩, ⟨%es, HS⟩⟩
      isplitl [HS Hg Hr]
      · isplitl [HS Hr]
        · isplitl [HS]
          · unfold owns; iexists _; isplitr
            swap; · iexact HS
            ipureintro; exact View.read_writes_of_cover _ _ _ _ _ (accLast2_cover V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (outLast2_9_cover V c t h0 h1 _)
    · rw [Dat.leavesExact_idle (dat2 V c) 9 t (idle2_9 t (fun h => h1 ((isLast2_iff t).mp h))) (noFlush2_9 t (fun h => h1 ((isLast2_iff t).mp h)))]
      rw [accAt2_middle V c t h0 h1]
      unfold accMiddle2; (try dsimp only)
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runMiddle2 c (grid2.coords t) _ _ _ _ _ _ _ _ _ _ _ _ _ _ _ _ _ _ _ _ _ _ (fun h => h0 ((isFirst2_iff t).mp h)) (fun h => h1 ((isLast2_iff t).mp h)) (oblk V c 0 t) (oblk V c 1 t) (oblk V c 2 t) (oblk V c 3 t) (oblk V c 4 t) (oblk V c 5 t) (oblk V c 6 t) (oblk V c 7 t) (oblk V c 8 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS]; · iexact HS
      iintro ⟨H0, H1, H2, H3, H4, H5, H6, H7, H8, H9, ⟨%es, HS⟩⟩
      isplitl [HS Hg Hr]
      · isplitl [HS Hr]
        · isplitl [HS]
          · unfold owns; iexists _; isplitr
            swap; · iexact HS
            ipureintro; exact View.read_writes_of_cover _ _ _ _ _ (accMiddle2_cover V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS, Hr⟩, Hg⟩
  isplitl [HS Hr]
  · isplitl [HS]
    · iexists _; iexact HS
    iexact Hr
  iexact Hg

end

end Cert.KernelIdeal.Frame

end
-- ==== Proof.FrameI.Run.lean ====
/- The whole program as a run. The TensorCore's buffer contents at every boundary between @main's items are a fold from
   the launch memory: a stretch of host operations applies them; a kernel region leaves each of its windows' arrays at what
   its write-backs left and every other buffer as it was. Every argument array is traced back through the fold to its
   launch contents (no host operation writes one, and a region that stages one only reads it). The three regions are the
   segments of the library's several-region launch, each entered from and left at the fold's contents. The conclusion:
   every weakly fair execution terminates without a fault, the result buffer holds the last boundary's contents and the
   arguments are unchanged — at any float interpretation. -/
import proofs.«161264_g10471130268016_week1_w2_219_12_alg».proof.Proof.FrameI.Proj
import proofs.«161264_g10471130268016_week1_w2_219_12_alg».proof.Proof.FrameI.AggMid
import proofs.«161264_g10471130268016_week1_w2_219_12_alg».proof.Proof.FrameI.AggOut
import proofs.«161264_g10471130268016_week1_w2_219_12_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, -/
abbrev Bd0 : Dev nD → Valuation τ sig (Elt F) := fun c b => (s₀ m ρ).mem ((c : Dev nD), b)
/-- after the first stretch of host operations (the weights and biases sliced, concatenated and broadcast). -/
abbrev Bd1 : Dev nD → Valuation τ sig (Elt F) := fun c => StableHlo.after hostOps0 (Bd0 m ρ c)
/-- The contents the region is entered from, read at the TensorCore's references. -/
abbrev En1 : (c : Dev nD) → (b : Ref sig .tc) → Buf (Elt F) ((c : Thread nD τ).loc b) := fun c b => Bd1 m ρ c b
/-- At the region's exit: its arrays at what its write-backs leave, every other buffer as entered. -/
def Bd2 (c : Dev nD) : Valuation τ sig (Elt F) :=
  Pipeline.withArrays spec0 c (Bd1 m ρ c) fun w => (projData (En1 m ρ) c).arrAt w cfg0.N
theorem Bd2_arr (c : Dev nD) (w : Fin cfg0.W) :
    Bd2 m ρ c (Proc.devRef .tc (Pipeline.arrRef spec0 w)) = (projData (En1 m ρ) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
abbrev Ex2 : (c : Dev nD) → (b : Ref sig .tc) → Buf (Elt F) ((c : Thread nD τ).loc b) := fun c b => Bd2 m ρ c b
theorem hF0 (c : Dev nD) (w : Fin cfg0.W) : (projData (En1 m ρ) c).arrAt w cfg0.N = Ex2 m ρ c (Pipeline.arrRef spec0 w) :=
  (Bd2_arr m ρ c w).symm
theorem hrest0 (c : Dev nD) : ∀ b, b ∉ Finset.univ.image (Pipeline.arrRef spec0) → Ex2 m ρ c b = En1 m ρ c b :=
  fun b hb => Bd2_of_ne m ρ c b fun w e => hb (Finset.mem_image.mpr ⟨w, Finset.mem_univ _, e⟩)
/-- After the second stretch (the first layer's linear weights sliced). -/
abbrev Bd3 : Dev nD → Valuation τ sig (Elt F) := fun c => StableHlo.after hostOps1 (Bd2 m ρ c)
/-- The contents the region is entered from, read at the TensorCore's references. -/
abbrev En3 : (c : Dev nD) → (b : Ref sig .tc) → Buf (Elt F) ((c : Thread nD τ).loc b) := fun c b => Bd3 m ρ c b
/-- At the region's exit: its arrays at what its write-backs leave, every other buffer as entered. -/
def Bd4 (c : Dev nD) : Valuation τ sig (Elt F) :=
  Pipeline.withArrays spec1 c (Bd3 m ρ c) fun w => (dat1 (En3 m ρ) c).arrAt w cfg1.N
theorem Bd4_arr (c : Dev nD) (w : Fin cfg1.W) :
    Bd4 m ρ c (Proc.devRef .tc (Pipeline.arrRef spec1 w)) = (dat1 (En3 m ρ) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
abbrev Ex4 : (c : Dev nD) → (b : Ref sig .tc) → Buf (Elt F) ((c : Thread nD τ).loc b) := fun c b => Bd4 m ρ c b
theorem hF1 (c : Dev nD) (w : Fin cfg1.W) : (dat1 (En3 m ρ) c).arrAt w cfg1.N = Ex4 m ρ c (Pipeline.arrRef spec1 w) :=
  (Bd4_arr m ρ c w).symm
theorem hrest1 (c : Dev nD) : ∀ b, b ∉ Finset.univ.image (Pipeline.arrRef spec1) → Ex4 m ρ c b = En3 m ρ c b :=
  fun b hb => Bd4_of_ne m ρ c b fun w e => hb (Finset.mem_image.mpr ⟨w, Finset.mem_univ _, e⟩)
/-- After the third stretch (the second layer's linear weights sliced). -/
abbrev Bd5 : Dev nD → Valuation τ sig (Elt F) := fun c => StableHlo.after hostOps2 (Bd4 m ρ c)
/-- The contents the region is entered from, read at the TensorCore's references. -/
abbrev En5 : (c : Dev nD) → (b : Ref sig .tc) → Buf (Elt F) ((c : Thread nD τ).loc b) := fun c b => Bd5 m ρ c b
/-- At the region's exit: its arrays at what its write-backs leave, every other buffer as entered. -/
def Bd6 (c : Dev nD) : Valuation τ sig (Elt F) :=
  Pipeline.withArrays spec2 c (Bd5 m ρ c) fun w => (dat2 (En5 m ρ) c).arrAt w cfg2.N
theorem Bd6_arr (c : Dev nD) (w : Fin cfg2.W) :
    Bd6 m ρ c (Proc.devRef .tc (Pipeline.arrRef spec2 w)) = (dat2 (En5 m ρ) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb
abbrev Ex6 : (c : Dev nD) → (b : Ref sig .tc) → Buf (Elt F) ((c : Thread nD τ).loc b) := fun c b => Bd6 m ρ c b
theorem hF2 (c : Dev nD) (w : Fin cfg2.W) : (dat2 (En5 m ρ) c).arrAt w cfg2.N = Ex6 m ρ c (Pipeline.arrRef spec2 w) :=
  (Bd6_arr m ρ c w).symm
theorem hrest2 (c : Dev nD) : ∀ b, b ∉ Finset.univ.image (Pipeline.arrRef spec2) → Ex6 m ρ c b = En5 m ρ c b :=
  fun b hb => Bd6_of_ne m ρ c b fun w e => hb (Finset.mem_image.mpr ⟨w, Finset.mem_univ _, e⟩)

/-! Every argument array ends as launched. -/
theorem Bd6_arg0 (c : Dev nD) : Bd6 m ρ c (Proc.devRef .tc main_arg0) = m ((c : Thread nD τ).loc main_arg0) :=
  calc Bd6 m ρ c (Proc.devRef .tc main_arg0)
    _ = Bd5 m ρ c (Proc.devRef .tc main_arg0) := Bd6_of_ne m ρ c main_arg0 (by decide)
    _ = Bd4 m ρ c (Proc.devRef .tc main_arg0) := StableHlo.after_of_writes_sub hostOps2 _ hostOps2_writes (by decide)
    _ = Bd3 m ρ c (Proc.devRef .tc main_arg0) := (Bd4_arr m ρ c 8).trans (((dat1 (En3 m ρ) c).arrAt_in 8 rfl _).trans (A_eq1 (En3 m ρ) c 8))
    _ = Bd2 m ρ c (Proc.devRef .tc main_arg0) := StableHlo.after_of_writes_sub hostOps1 _ hostOps1_writes (by decide)
    _ = Bd1 m ρ c (Proc.devRef .tc main_arg0) := (Bd2_arr m ρ c 0).trans (((projData (En1 m ρ) c).arrAt_in 0 rfl _).trans (projA_eq (En1 m ρ) c 0))
    _ = Bd0 m ρ c (Proc.devRef .tc main_arg0) := StableHlo.after_of_writes_sub hostOps0 _ hostOps0_writes (by decide)
    _ = m ((c : Thread nD τ).loc main_arg0) := rfl
theorem Bd6_arg1 (c : Dev nD) : Bd6 m ρ c (Proc.devRef .tc main_arg1) = m ((c : Thread nD τ).loc main_arg1) :=
  calc Bd6 m ρ c (Proc.devRef .tc main_arg1)
    _ = Bd5 m ρ c (Proc.devRef .tc main_arg1) := (Bd6_arr m ρ c 2).trans (((dat2 (En5 m ρ) c).arrAt_in 2 rfl _).trans (A_eq2 (En5 m ρ) c 2))
    _ = Bd4 m ρ c (Proc.devRef .tc main_arg1) := StableHlo.after_of_writes_sub hostOps2 _ hostOps2_writes (by decide)
    _ = Bd3 m ρ c (Proc.devRef .tc main_arg1) := (Bd4_arr m ρ c 2).trans (((dat1 (En3 m ρ) c).arrAt_in 2 rfl _).trans (A_eq1 (En3 m ρ) c 2))
    _ = Bd2 m ρ c (Proc.devRef .tc main_arg1) := StableHlo.after_of_writes_sub hostOps1 _ hostOps1_writes (by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (by decide)
    _ = m ((c : Thread nD τ).loc main_arg1) := rfl
theorem Bd6_arg2 (c : Dev nD) : Bd6 m ρ c (Proc.devRef .tc main_arg2) = m ((c : Thread nD τ).loc main_arg2) :=
  calc Bd6 m ρ c (Proc.devRef .tc main_arg2)
    _ = Bd5 m ρ c (Proc.devRef .tc main_arg2) := (Bd6_arr m ρ c 3).trans (((dat2 (En5 m ρ) c).arrAt_in 3 rfl _).trans (A_eq2 (En5 m ρ) c 3))
    _ = Bd4 m ρ c (Proc.devRef .tc main_arg2) := StableHlo.after_of_writes_sub hostOps2 _ hostOps2_writes (by decide)
    _ = Bd3 m ρ c (Proc.devRef .tc main_arg2) := (Bd4_arr m ρ c 3).trans (((dat1 (En3 m ρ) c).arrAt_in 3 rfl _).trans (A_eq1 (En3 m ρ) c 3))
    _ = Bd2 m ρ c (Proc.devRef .tc main_arg2) := StableHlo.after_of_writes_sub hostOps1 _ hostOps1_writes (by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (by decide)
    _ = m ((c : Thread nD τ).loc main_arg2) := rfl
theorem Bd6_arg3 (c : Dev nD) : Bd6 m ρ c (Proc.devRef .tc main_arg3) = m ((c : Thread nD τ).loc main_arg3) :=
  calc Bd6 m ρ c (Proc.devRef .tc main_arg3)
    _ = Bd5 m ρ c (Proc.devRef .tc main_arg3) := (Bd6_arr m ρ c 0).trans (((dat2 (En5 m ρ) c).arrAt_in 0 rfl _).trans (A_eq2 (En5 m ρ) c 0))
    _ = Bd4 m ρ c (Proc.devRef .tc main_arg3) := StableHlo.after_of_writes_sub hostOps2 _ hostOps2_writes (by decide)
    _ = Bd3 m ρ c (Proc.devRef .tc main_arg3) := (Bd4_arr m ρ c 0).trans (((dat1 (En3 m ρ) c).arrAt_in 0 rfl _).trans (A_eq1 (En3 m ρ) c 0))
    _ = Bd2 m ρ c (Proc.devRef .tc main_arg3) := StableHlo.after_of_writes_sub hostOps1 _ hostOps1_writes (by decide)
    _ = Bd1 m ρ c (Proc.devRef .tc main_arg3) := Bd2_of_ne m ρ c main_arg3 (by decide)
    _ = Bd0 m ρ c (Proc.devRef .tc main_arg3) := StableHlo.after_of_writes_sub hostOps0 _ hostOps0_writes (by decide)
    _ = m ((c : Thread nD τ).loc main_arg3) := rfl
theorem Bd6_arg4 (c : Dev nD) : Bd6 m ρ c (Proc.devRef .tc main_arg4) = m ((c : Thread nD τ).loc main_arg4) :=
  calc Bd6 m ρ c (Proc.devRef .tc main_arg4)
    _ = Bd5 m ρ c (Proc.devRef .tc main_arg4) := (Bd6_arr m ρ c 1).trans (((dat2 (En5 m ρ) c).arrAt_in 1 rfl _).trans (A_eq2 (En5 m ρ) c 1))
    _ = Bd4 m ρ c (Proc.devRef .tc main_arg4) := StableHlo.after_of_writes_sub hostOps2 _ hostOps2_writes (by decide)
    _ = Bd3 m ρ c (Proc.devRef .tc main_arg4) := (Bd4_arr m ρ c 1).trans (((dat1 (En3 m ρ) c).arrAt_in 1 rfl _).trans (A_eq1 (En3 m ρ) c 1))
    _ = Bd2 m ρ c (Proc.devRef .tc main_arg4) := StableHlo.after_of_writes_sub hostOps1 _ hostOps1_writes (by decide)
    _ = Bd1 m ρ c (Proc.devRef .tc main_arg4) := Bd2_of_ne m ρ c main_arg4 (by decide)
    _ = Bd0 m ρ c (Proc.devRef .tc main_arg4) := StableHlo.after_of_writes_sub hostOps0 _ hostOps0_writes (by decide)
    _ = m ((c : Thread nD τ).loc main_arg4) := rfl
theorem Bd6_arg5 (c : Dev nD) : Bd6 m ρ c (Proc.devRef .tc main_arg5) = m ((c : Thread nD τ).loc main_arg5) :=
  calc Bd6 m ρ c (Proc.devRef .tc main_arg5)
    _ = Bd5 m ρ c (Proc.devRef .tc main_arg5) := Bd6_of_ne m ρ c main_arg5 (by decide)
    _ = Bd4 m ρ c (Proc.devRef .tc main_arg5) := StableHlo.after_of_writes_sub hostOps2 _ hostOps2_writes (by decide)
    _ = Bd3 m ρ c (Proc.devRef .tc main_arg5) := Bd4_of_ne m ρ c main_arg5 (by decide)
    _ = Bd2 m ρ c (Proc.devRef .tc main_arg5) := StableHlo.after_of_writes_sub hostOps1 _ hostOps1_writes (by decide)
    _ = Bd1 m ρ c (Proc.devRef .tc main_arg5) := Bd2_of_ne m ρ c main_arg5 (by decide)
    _ = Bd0 m ρ c (Proc.devRef .tc main_arg5) := StableHlo.after_of_writes_sub hostOps0 _ hostOps0_writes (by decide)
    _ = m ((c : Thread nD τ).loc main_arg5) := rfl
theorem Bd6_arg6 (c : Dev nD) : Bd6 m ρ c (Proc.devRef .tc main_arg6) = m ((c : Thread nD τ).loc main_arg6) :=
  calc Bd6 m ρ c (Proc.devRef .tc main_arg6)
    _ = Bd5 m ρ c (Proc.devRef .tc main_arg6) := Bd6_of_ne m ρ c main_arg6 (by decide)
    _ = Bd4 m ρ c (Proc.devRef .tc main_arg6) := StableHlo.after_of_writes_sub hostOps2 _ hostOps2_writes (by decide)
    _ = Bd3 m ρ c (Proc.devRef .tc main_arg6) := Bd4_of_ne m ρ c main_arg6 (by decide)
    _ = Bd2 m ρ c (Proc.devRef .tc main_arg6) := StableHlo.after_of_writes_sub hostOps1 _ hostOps1_writes (by decide)
    _ = Bd1 m ρ c (Proc.devRef .tc main_arg6) := Bd2_of_ne m ρ c main_arg6 (by decide)
    _ = Bd0 m ρ c (Proc.devRef .tc main_arg6) := StableHlo.after_of_writes_sub hostOps0 _ hostOps0_writes (by decide)
    _ = m ((c : Thread nD τ).loc main_arg6) := rfl
theorem Bd6_arg7 (c : Dev nD) : Bd6 m ρ c (Proc.devRef .tc main_arg7) = m ((c : Thread nD τ).loc main_arg7) :=
  calc Bd6 m ρ c (Proc.devRef .tc main_arg7)
    _ = Bd5 m ρ c (Proc.devRef .tc main_arg7) := Bd6_of_ne m ρ c main_arg7 (by decide)
    _ = Bd4 m ρ c (Proc.devRef .tc main_arg7) := StableHlo.after_of_writes_sub hostOps2 _ hostOps2_writes (by decide)
    _ = Bd3 m ρ c (Proc.devRef .tc main_arg7) := Bd4_of_ne m ρ c main_arg7 (by decide)
    _ = Bd2 m ρ c (Proc.devRef .tc main_arg7) := StableHlo.after_of_writes_sub hostOps1 _ hostOps1_writes (by decide)
    _ = Bd1 m ρ c (Proc.devRef .tc main_arg7) := Bd2_of_ne m ρ c main_arg7 (by decide)
    _ = Bd0 m ρ c (Proc.devRef .tc main_arg7) := StableHlo.after_of_writes_sub hostOps0 _ hostOps0_writes (by decide)
    _ = m ((c : Thread nD τ).loc main_arg7) := rfl
theorem Bd6_arg8 (c : Dev nD) : Bd6 m ρ c (Proc.devRef .tc main_arg8) = m ((c : Thread nD τ).loc main_arg8) :=
  calc Bd6 m ρ c (Proc.devRef .tc main_arg8)
    _ = Bd5 m ρ c (Proc.devRef .tc main_arg8) := Bd6_of_ne m ρ c main_arg8 (by decide)
    _ = Bd4 m ρ c (Proc.devRef .tc main_arg8) := StableHlo.after_of_writes_sub hostOps2 _ hostOps2_writes (by decide)
    _ = Bd3 m ρ c (Proc.devRef .tc main_arg8) := Bd4_of_ne m ρ c main_arg8 (by decide)
    _ = Bd2 m ρ c (Proc.devRef .tc main_arg8) := StableHlo.after_of_writes_sub hostOps1 _ hostOps1_writes (by decide)
    _ = Bd1 m ρ c (Proc.devRef .tc main_arg8) := Bd2_of_ne m ρ c main_arg8 (by decide)
    _ = Bd0 m ρ c (Proc.devRef .tc main_arg8) := StableHlo.after_of_writes_sub hostOps0 _ hostOps0_writes (by decide)
    _ = m ((c : Thread nD τ).loc main_arg8) := rfl
theorem Bd6_arg9 (c : Dev nD) : Bd6 m ρ c (Proc.devRef .tc main_arg9) = m ((c : Thread nD τ).loc main_arg9) :=
  calc Bd6 m ρ c (Proc.devRef .tc main_arg9)
    _ = Bd5 m ρ c (Proc.devRef .tc main_arg9) := Bd6_of_ne m ρ c main_arg9 (by decide)
    _ = Bd4 m ρ c (Proc.devRef .tc main_arg9) := StableHlo.after_of_writes_sub hostOps2 _ hostOps2_writes (by decide)
    _ = Bd3 m ρ c (Proc.devRef .tc main_arg9) := Bd4_of_ne m ρ c main_arg9 (by decide)
    _ = Bd2 m ρ c (Proc.devRef .tc main_arg9) := StableHlo.after_of_writes_sub hostOps1 _ hostOps1_writes (by decide)
    _ = Bd1 m ρ c (Proc.devRef .tc main_arg9) := Bd2_of_ne m ρ c main_arg9 (by decide)
    _ = Bd0 m ρ c (Proc.devRef .tc main_arg9) := StableHlo.after_of_writes_sub hostOps0 _ hostOps0_writes (by decide)
    _ = m ((c : Thread nD τ).loc main_arg9) := rfl
theorem Bd6_arg10 (c : Dev nD) : Bd6 m ρ c (Proc.devRef .tc main_arg10) = m ((c : Thread nD τ).loc main_arg10) :=
  calc Bd6 m ρ c (Proc.devRef .tc main_arg10)
    _ = Bd5 m ρ c (Proc.devRef .tc main_arg10) := Bd6_of_ne m ρ c main_arg10 (by decide)
    _ = Bd4 m ρ c (Proc.devRef .tc main_arg10) := StableHlo.after_of_writes_sub hostOps2 _ hostOps2_writes (by decide)
    _ = Bd3 m ρ c (Proc.devRef .tc main_arg10) := Bd4_of_ne m ρ c main_arg10 (by decide)
    _ = Bd2 m ρ c (Proc.devRef .tc main_arg10) := StableHlo.after_of_writes_sub hostOps1 _ hostOps1_writes (by decide)
    _ = Bd1 m ρ c (Proc.devRef .tc main_arg10) := Bd2_of_ne m ρ c main_arg10 (by decide)
    _ = Bd0 m ρ c (Proc.devRef .tc main_arg10) := StableHlo.after_of_writes_sub hostOps0 _ hostOps0_writes (by decide)
    _ = m ((c : Thread nD τ).loc main_arg10) := rfl

/-- No region has a prefetched table. -/
abbrev admT : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) admT p) c
  | ⟨0, _⟩ => fun c => projData (En1 m ρ) c
  | ⟨1, _⟩ => fun c => dat1 (En3 m ρ) c
  | ⟨2, _⟩ => fun c => dat2 (En5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev Rd (c : Dev nD) : sProp 𝕄 := iprop((∃ r, prngReg c r) ∗ ∃ W, owes (c : Thread nD τ) (0 : CellTallies nD τ sig Unit) W)
/-- A stretch of host operations as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Bd6 m ρ c) ∗ ∃ r, prngReg c r)

set_option backward.isDefEq.respectTransparency.types false in
/-- The projection region as a segment: entered from the contents after the first host stretch, left at its exit contents. Its arrays are split out of the unscoped buffers and put back; the generator register goes into the class invariant and out; nothing owed; no semaphore of the kernel's own. -/
def regProj : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (projObligation (En1 m ρ) c).loose
  hwaits := Pipeline.hwaits_of_owed_zero _ _ _ _ L lv 0 fun _ _ => rfl
  pre c := iprop(StableHlo.held (c : Thread nD τ) (Pipeline.ucRefs τ sig) (Bd1 m ρ c) ∗ Rd c)
  post c := iprop(StableHlo.held (c : Thread nD τ) (Pipeline.ucRefs τ sig) (Bd2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (En1 m ρ c) (Ex2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The first aggregation layer as a segment; its invariant starts as the class's and is given back as the class's at the end (the accumulator's contents forgotten). -/
def regMid : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ L lv 1 fun _ _ => rfl
  pre c := iprop(StableHlo.held (c : Thread nD τ) (Pipeline.ucRefs τ sig) (Bd3 m ρ c) ∗ Rd c)
  post c := iprop(StableHlo.held (c : Thread nD τ) (Pipeline.ucRefs τ sig) (Bd4 m ρ c) ∗ Rd c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (En3 m ρ) c).Φ 0 from rfl]
    refine (?_ : _ ⊢ (Pipeline.ΦA spec1 c : sProp 𝕄)).trans (hin1 (En3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (En3 m ρ) c).Φ (Fin.last cfg1.N) from rfl]
    refine (hout1 (En3 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun _ => rfl)
      (En3 m ρ c) (Ex4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second aggregation layer as a segment, in the same way. -/
def regOut : Pipeline.RegionSeg (pcfgs (F := F)) admT (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ L lv 2 fun _ _ => rfl
  pre c := iprop(StableHlo.held (c : Thread nD τ) (Pipeline.ucRefs τ sig) (Bd5 m ρ c) ∗ Rd c)
  post c := iprop(StableHlo.held (c : Thread nD τ) (Pipeline.ucRefs τ sig) (Bd6 m ρ c) ∗ Rd c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) admT (pdats m ρ) launch2.win launch2.arr_whole c
      ((pdats m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (En5 m ρ) c).Φ 0 from rfl]
    refine (?_ : _ ⊢ (Pipeline.ΦA spec2 c : sProp 𝕄)).trans (hin2 (En5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (En5 m ρ) c).Φ (Fin.last cfg2.N) from rfl]
    refine (hout2 (En5 m ρ) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pdats m ρ) ((pdats m ρ 2 c).share_full fun _ => rfl)
      (En5 m ρ c) (Ex6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six segments in order. -/
abbrev segList : List (Pipeline.Seg (pcfgs (F := F)) admT (pdats m ρ) () defs₀ 𝒱₀ L lv) :=
  [ .host (hostSeg hostOps0 hostOps0_sub hostOps0_fresh (Bd0 m ρ)),
    .region (regProj m ρ),
    .host (hostSeg hostOps1 hostOps1_sub hostOps1_fresh (Bd2 m ρ)),
    .region (regMid m ρ),
    .host (hostSeg hostOps2 hostOps2_sub hostOps2_fresh (Bd4 m ρ)),
    .region (regOut m ρ) ]
theorem main_is_segs (c : Dev nD) : main (F := F) c = Pipeline.Seg.run (segList m ρ) := (main_chain c).trans (by chain_rfl)

set_option backward.isDefEq.respectTransparency.types false in
/-- THE RUN: from any memory with zero counters every weakly fair execution of @main terminates, nothing faulting; the
    result buffer ends at the last boundary's contents and every argument array as launched. -/
theorem run : θ_run defs (onTc (τ := τ) (main (F := F))) ⟨m, fun _ => 0, ρ⟩ (fun r => ∀ c : Dev nD,
      r.2.mem ((c.tc : Thread nD τ).loc main_v54) = Bd6 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) admT (pdats m ρ) () cellOf_inj emb₁ defs₀ 𝒱₀ L lv m ρ main (segList m ρ)
    (fun c Q => by rw [main_is_segs m ρ c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ Rd c)) (Tₙ := Tend m ρ)
    (hch := ⟨fun _ => .rfl, fun _ => .rfl, fun _ => .rfl, fun _ => .rfl, fun _ => .rfl, fun _ => .rfl, fun c => by
      show iprop(StableHlo.held (c : Thread nD τ) (Pipeline.ucRefs τ sig) (Bd6 m ρ c) ∗ Rd c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd6 m ρ c) s')
      isplitl [Hh] <;> iassumption)
    (hQ := fun s h c =>
      ⟨h c _ (mem_uc main_v54 (by decide)),
        (h c _ (mem_uc main_arg0 (by decide))).trans (Bd6_arg0 m ρ c),
        (h c _ (mem_uc main_arg1 (by decide))).trans (Bd6_arg1 m ρ c),
        (h c _ (mem_uc main_arg2 (by decide))).trans (Bd6_arg2 m ρ c),
        (h c _ (mem_uc main_arg3 (by decide))).trans (Bd6_arg3 m ρ c),
        (h c _ (mem_uc main_arg4 (by decide))).trans (Bd6_arg4 m ρ c),
        (h c _ (mem_uc main_arg5 (by decide))).trans (Bd6_arg5 m ρ c),
        (h c _ (mem_uc main_arg6 (by decide))).trans (Bd6_arg6 m ρ c),
        (h c _ (mem_uc main_arg7 (by decide))).trans (Bd6_arg7 m ρ c),
        (h c _ (mem_uc main_arg8 (by decide))).trans (Bd6_arg8 m ρ c),
        (h c _ (mem_uc main_arg9 (by decide))).trans (Bd6_arg9 m ρ c),
        (h c _ (mem_uc main_arg10 (by decide))).trans (Bd6_arg10 m ρ c)⟩)

end Cert.KernelIdeal.Frame

end
-- ==== Proof.Spec.lean ====
/-
  The specification of the result, as ONE function of the eleven argument arrays, index by index, on the extended
  reals: two layers of a bidirectional graph convolution over two relations with a residual connection.

  For a layer `l` and node features `h : [4096, 512]`:
    * `proj h W l r`            is `h @ W[l, r]`                                  ([4096, 256]);
    * `agg adj h W b l r`       is `adj @ (h @ W[l, r]) + b[l, r]`                ([4096, 256]);
    * `outs … l r`              is relation `r`'s output, the backward aggregate in columns 0 … 255 and the forward
                                 aggregate in columns 256 … 511 (`cat`)            ([4096, 512]);
    * `pre … l`                 is the sum of the two relations' outputs, relation 0 first;
    * `layer … l h`             is `relu (pre) @ W_lin[l] + b_lin[l] + h`.
  `G` is layer 1 after layer 0. Every sum is written in the order the reference adds: the contraction first, then the
  bias; relation 0 before relation 1; the linear map, then its bias, then the residual. No law of the extended reals
  is used here; the laws that regroup these sums (all of them consequences of commutativity and associativity of
  addition) are in the module of sum laws.

  Arrays are functions from the literal index type to the extended reals; indices are built from literal-size
  coordinates by `ix2`, `ix3`, `ix4`.
-/
import Idealize.ShloMosaic.PureOps.Ideal
import Idealize.ShloMosaic.Lib.ValueIdx

noncomputable section

namespace Cert.Spec

open Idealize.ShloMosaic Idealize.ShloMosaic.ValueIdx
open scoped BigOperators

/-- Node features, `[4096, 512]`. -/
abbrev Feat : Type := (⟨2, ![4096, 512]⟩ : Shape).Idx → EReal
/-- An adjacency matrix, `[4096, 4096]`. -/
abbrev Adj : Type := (⟨2, ![4096, 4096]⟩ : Shape).Idx → EReal
/-- The directional weights, `[layer, relation, 512, 256]`. -/
abbrev WDir : Type := (⟨4, ![2, 2, 512, 256]⟩ : Shape).Idx → EReal
/-- The directional biases, `[layer, relation, 256]`. -/
abbrev BDir : Type := (⟨3, ![2, 2, 256]⟩ : Shape).Idx → EReal
/-- The linear map's weights, `[layer, 512, 512]`. -/
abbrev WLin : Type := (⟨3, ![2, 512, 512]⟩ : Shape).Idx → EReal
/-- The linear map's biases, `[layer, 512]`. -/
abbrev BLin : Type := (⟨2, ![2, 512]⟩ : Shape).Idx → EReal

/-- `(h @ W[l, r]) [n, e]`: the contraction over the 512 features. -/
def proj (h : Feat) (W : WDir) (l r : Fin 2) (n : Fin 4096) (e : Fin 256) : EReal :=
  ∑ k : Fin 512, h (ix2 n k) * W (ix4 l r k e)

/-- `(adj @ (h @ W[l, r]) + b[l, r]) [n, e]`: the contraction over the 4096 nodes, then the bias. -/
def agg (adj : Adj) (h : Feat) (W : WDir) (b : BDir) (l r : Fin 2) (n : Fin 4096) (e : Fin 256) : EReal :=
  (∑ j : Fin 4096, adj (ix2 n j) * proj h W l r j e) + b (ix3 l r e)

/-- Two rows of 256 laid end to end: column `c` of the 512 reads the first row below 256 and the second, 256 less,
    from 256 on. -/
def cat (lo hi : Fin 256 → EReal) (c : Fin 512) : EReal :=
  if hc : c.val < 256 then lo ⟨c.val, hc⟩ else hi ⟨c.val - 256, by have := c.isLt; omega⟩

/-- A column of the first half reads the first row. -/
theorem cat_lo (lo hi : Fin 256 → EReal) (e : Fin 256) :
    cat lo hi ⟨e.val, by have := e.isLt; omega⟩ = lo e := by
  unfold cat; rw [dif_pos (show (⟨e.val, _⟩ : Fin 512).val < 256 from e.isLt)]

/-- A column of the second half reads the second row, 256 less. -/
theorem cat_hi (lo hi : Fin 256 → EReal) (e : Fin 256) :
    cat lo hi ⟨e.val + 256, by have := e.isLt; omega⟩ = hi e := by
  unfold cat
  rw [dif_neg (show ¬ (⟨e.val + 256, _⟩ : Fin 512).val < 256 from by show ¬ e.val + 256 < 256; omega)]
  exact congrArg hi (Fin.ext (by show e.val + 256 - 256 = e.val; omega))

/-- Every column is of one of the two forms. -/
theorem col_cases (c : Fin 512) :
    (∃ e : Fin 256, c = ⟨e.val, by have := e.isLt; omega⟩) ∨ (∃ e : Fin 256, c = ⟨e.val + 256, by have := e.isLt; omega⟩) := by
  by_cases hc : c.val < 256
  · exact .inl ⟨⟨c.val, hc⟩, rfl⟩
  · exact .inr ⟨⟨c.val - 256, by have := c.isLt; omega⟩, Fin.ext (by show c.val = c.val - 256 + 256; omega)⟩

/-- Adding two such rows adds their halves. -/
theorem cat_add (lo hi lo' hi' : Fin 256 → EReal) (c : Fin 512) :
    cat lo hi c + cat lo' hi' c = cat (fun e => lo e + lo' e) (fun e => hi e + hi' e) c := by
  unfold cat; by_cases hc : c.val < 256
  · rw [dif_pos hc, dif_pos hc, dif_pos hc]
  · rw [dif_neg hc, dif_neg hc, dif_neg hc]

/-- Relation `r`'s output at layer `l`, `concat([bw_r, fw_r], axis = -1) [n, c]`: the backward aggregate in the first 256
    columns, the forward aggregate in the last 256. -/
def outs (fwAdj bwAdj : Adj) (h : Feat) (Wfw : WDir) (bfw : BDir) (Wbw : WDir) (bbw : BDir) (l r : Fin 2)
    (n : Fin 4096) (c : Fin 512) : EReal :=
  cat (agg bwAdj h Wbw bbw l r n) (agg fwAdj h Wfw bfw l r n) c

/-- The pre-activation of layer `l` at `[n, c]`: relation 0's output plus relation 1's. -/
def pre (fw0 fw1 bw0 bw1 : Adj) (Wfw : WDir) (bfw : BDir) (Wbw : WDir) (bbw : BDir) (l : Fin 2) (h : Feat)
    (n : Fin 4096) (c : Fin 512) : EReal :=
  outs fw0 bw0 h Wfw bfw Wbw bbw l 0 n c + outs fw1 bw1 h Wfw bfw Wbw bbw l 1 n c

/-- The pre-activation by halves: the two relations' backward aggregates added in the first 256 columns, their forward
    aggregates added in the last 256. -/
theorem pre_eq_cat (fw0 fw1 bw0 bw1 : Adj) (Wfw : WDir) (bfw : BDir) (Wbw : WDir) (bbw : BDir) (l : Fin 2) (h : Feat)
    (n : Fin 4096) (c : Fin 512) :
    pre fw0 fw1 bw0 bw1 Wfw bfw Wbw bbw l h n c
      = cat (fun e => agg bw0 h Wbw bbw l 0 n e + agg bw1 h Wbw bbw l 1 n e)
          (fun e => agg fw0 h Wfw bfw l 0 n e + agg fw1 h Wfw bfw l 1 n e) c := by
  unfold pre outs
  exact cat_add _ _ _ _ c

/-- The rectifier: the larger of the value and the zero word. -/
def relu (x : EReal) : EReal := max x (Ideal.ofBits .f32 0x00000000#32)

/-- Layer `l` at `[n, c]`: `(relu (pre) @ W_lin[l]) [n, c] + b_lin[l, c] + h [n, c]`. -/
def layerAt (fw0 fw1 bw0 bw1 : Adj) (Wfw : WDir) (bfw : BDir) (Wbw : WDir) (bbw : BDir) (Wlin : WLin) (blin : BLin)
    (l : Fin 2) (h : Feat) (n : Fin 4096) (c : Fin 512) : EReal :=
  ((∑ k : Fin 512, relu (pre fw0 fw1 bw0 bw1 Wfw bfw Wbw bbw l h n k) * Wlin (ix3 l k c)) + blin (ix2 l c)) + h (ix2 n c)

/-- Layer `l` as a map of the node features. -/
def layer (fw0 fw1 bw0 bw1 : Adj) (Wfw : WDir) (bfw : BDir) (Wbw : WDir) (bbw : BDir) (Wlin : WLin) (blin : BLin)
    (l : Fin 2) (h : Feat) : Feat :=
  fun i => layerAt fw0 fw1 bw0 bw1 Wfw bfw Wbw bbw Wlin blin l h (i 0) (i 1)

/-- A layer at an index given by its coordinates. -/
theorem layer_ix2 (fw0 fw1 bw0 bw1 : Adj) (Wfw : WDir) (bfw : BDir) (Wbw : WDir) (bbw : BDir) (Wlin : WLin) (blin : BLin)
    (l : Fin 2) (h : Feat) (n : Fin 4096) (c : Fin 512) :
    layer fw0 fw1 bw0 bw1 Wfw bfw Wbw bbw Wlin blin l h (ix2 n c)
      = layerAt fw0 fw1 bw0 bw1 Wfw bfw Wbw bbw Wlin blin l h n c := rfl

/-- The result: layer 1 of layer 0 of the embeddings. The arguments come in the order of the program's:
    the embeddings, the two forward and the two backward adjacencies, the forward weights and biases, the backward
    weights and biases, the linear weights and biases. -/
def G (embs : Feat) (fw0 fw1 bw0 bw1 : Adj) (Wfw : WDir) (bfw : BDir) (Wbw : WDir) (bbw : BDir) (Wlin : WLin)
    (blin : BLin) : Feat :=
  layer fw0 fw1 bw0 bw1 Wfw bfw Wbw bbw Wlin blin 1 (layer fw0 fw1 bw0 bw1 Wfw bfw Wbw bbw Wlin blin 0 embs)

end Cert.Spec

end
-- ==== Proof.SumLaws.lean ====
/-
  Laws of finite sums in a commutative additive monoid — the extended reals are one — that join the two arrangements
  of the result: the contraction over the 4096 nodes in one sum against the same contraction in 16 blocks of 256; two
  contractions added term by term against their two sums added; two biased sums added against the two sums added and
  then the two biases added. Every law is a consequence of commutativity and associativity of addition alone: none
  distributes a product, cancels, or asks a term to be finite.
-/
import Mathlib.Algebra.BigOperators.Fin
import Mathlib.Algebra.BigOperators.Group.Finset.Basic
import Mathlib.Data.EReal.Basic
import Mathlib.Logic.Equiv.Fin.Basic

namespace Cert.SumLaws

open scoped BigOperators

variable {M : Type} [AddCommMonoid M]

/-- Node `t` of block `kb`, of the 16 blocks of 256 nodes: node `kb * 256 + t`. -/
def node (kb : Fin 16) (t : Fin 256) : Fin 4096 :=
  ⟨kb.val * 256 + t.val, by have := kb.isLt; have := t.isLt; omega⟩

@[simp] theorem node_val (kb : Fin 16) (t : Fin 256) : (node kb t).val = kb.val * 256 + t.val := rfl

/-- (a) A sum over the 4096 nodes is the sum over the 16 blocks of the sums over each block's 256 nodes. -/
theorem sum_blocks (f : Fin 4096 → M) :
    ∑ j : Fin 4096, f j = ∑ kb : Fin 16, ∑ t : Fin 256, f (node kb t) := by
  have e : ∑ j : Fin 4096, f j = ∑ p : Fin 16 × Fin 256, f (node p.1 p.2) := by
    refine (Fintype.sum_equiv (finProdFinEquiv (m := 16) (n := 256)) (fun p => f (node p.1 p.2)) f ?_).symm
    rintro ⟨kb, t⟩
    refine congrArg f (Fin.ext ?_)
    show kb.val * 256 + t.val = t.val + 256 * kb.val
    omega
  rw [e, Fintype.sum_prod_type]

/-- (b) A sum of sums, term by term, is the sum of the two sums. -/
theorem sum_add (ι : Type) [Fintype ι] (a b : ι → M) : ∑ k, (a k + b k) = ∑ k, a k + ∑ k, b k :=
  Finset.sum_add_distrib

/-- (c) Two biased sums added: the sums together, the biases together. -/
theorem add_bias (A B b0 b1 : M) : (A + b0) + (B + b1) = (A + B) + (b0 + b1) :=
  add_add_add_comm A b0 B b1

/-- A sum that starts from zero is the sum. -/
theorem zero_start (x : M) : 0 + x = x := zero_add x

/-- The sum over the two relations, relation 0 first. -/
theorem sum_two (f : Fin 2 → M) : ∑ r : Fin 2, f r = f 0 + f 1 := Fin.sum_univ_two f

/-- The two arrangements of one half of a pre-activation. On the left the reference's: each relation's contraction
    over all the nodes, then its bias, the two relations added. On the right the blocked one: in each of the 16 blocks
    the two relations' contractions over the block's 256 nodes added, the blocks summed, and the two biases, added
    to each other, added last. -/
theorem two_relations_blocked (a0 a1 : Fin 4096 → M) (b0 b1 : M) :
    ((∑ j : Fin 4096, a0 j) + b0) + ((∑ j : Fin 4096, a1 j) + b1)
      = (∑ kb : Fin 16, ((∑ t : Fin 256, a0 (node kb t)) + (∑ t : Fin 256, a1 (node kb t)))) + (b0 + b1) := by
  rw [add_bias, sum_blocks a0, sum_blocks a1, ← Finset.sum_add_distrib]

/-- The same with the two relations' terms added node by node inside each block. -/
theorem two_relations_blocked_termwise (a0 a1 : Fin 4096 → M) (b0 b1 : M) :
    ((∑ j : Fin 4096, a0 j) + b0) + ((∑ j : Fin 4096, a1 j) + b1)
      = (∑ kb : Fin 16, ∑ t : Fin 256, (a0 (node kb t) + a1 (node kb t))) + (b0 + b1) := by
  rw [two_relations_blocked]
  refine congrArg (· + (b0 + b1)) (Finset.sum_congr rfl fun kb _ => ?_)
  rw [Finset.sum_add_distrib]

/-- A running total over the blocks: `acc 0 = z`, `acc (kb + 1) = acc kb + term kb`; after all 16 blocks it is `z` plus the
    sum of the terms. Stated for any number of blocks. -/
theorem running_total (n : Nat) (z : M) (term : Fin n → M) (acc : Nat → M) (h0 : acc 0 = z)
    (hs : ∀ kb : Fin n, acc (kb.val + 1) = acc kb.val + term kb) :
    acc n = z + ∑ kb : Fin n, term kb := by
  induction n with
  | zero => simp [h0]
  | succ n ih =>
    have h := ih (fun kb => term kb.castSucc) (fun kb => by simpa using hs kb.castSucc)
    have hl := hs (Fin.last n)
    rw [Fin.sum_univ_castSucc, ← add_assoc, ← h]
    simpa using hl

end Cert.SumLaws
-- ==== Proof.LayerBridge.lean ====
/-
  From the blocked arrangement of one layer to the specification's.

  For a node `n` of a layer, the blocked arrangement gives an accumulator row of 512 entries — in its first 256
  columns, starting from zero, the sum over the 16 blocks of 256 nodes of the two relations' backward contractions
  over the block, added; in its last 256 columns the same with the forward adjacencies and weights — and a bias row,
  the two relations' biases added, backward in the first 256 columns and forward in the last. Their sum is the
  specification's pre-activation, and the rectified row times the linear weights, plus the linear bias, plus the
  residual, is the specification's layer. Only commutativity and associativity of addition and `0 + x = x` are used.
-/
import proofs.«161264_g10471130268016_week1_w2_219_12_alg».proof.Proof.Spec
import proofs.«161264_g10471130268016_week1_w2_219_12_alg».proof.Proof.SumLaws

noncomputable section

open scoped BigOperators

namespace Cert.Bridge

open Cert.Spec Cert.SumLaws Idealize.ShloMosaic Idealize.ShloMosaic.ValueIdx

/-- One half of a pre-activation at column `q` of the half: the blocked sum from zero of the two relations'
    contractions, plus the two biases added, is the two relations' biased contractions over all the nodes, added. -/
theorem half_of_blocks (adj0 adj1 : Adj) (W : WDir) (b : BDir) (l : Fin 2) (h : Feat) (n : Fin 4096) (q : Fin 256)
    (x y : EReal)
    (hx : x = 0 + ∑ kb : Fin 16, ((∑ t : Fin 256, adj0 (ix2 n (node kb t)) * proj h W l 0 (node kb t) q)
        + (∑ t : Fin 256, adj1 (ix2 n (node kb t)) * proj h W l 1 (node kb t) q)))
    (hy : y = b (ix3 l 0 q) + b (ix3 l 1 q)) :
    x + y = agg adj0 h W b l 0 n q + agg adj1 h W b l 1 n q := by
  rw [hx, hy, zero_add]
  unfold agg
  exact (two_relations_blocked (fun j => adj0 (ix2 n j) * proj h W l 0 j q)
    (fun j => adj1 (ix2 n j) * proj h W l 1 j q) _ _).symm

/-- The accumulator row plus the bias row is the specification's pre-activation, column by column. -/
theorem pre_of_blocks (fw0 fw1 bw0 bw1 : Adj) (Wfw : WDir) (bfw : BDir) (Wbw : WDir) (bbw : BDir) (l : Fin 2) (h : Feat)
    (n : Fin 4096) (acc bpre : Fin 512 → EReal)
    (hL : ∀ q : Fin 256, acc (⟨q.val, by have := q.isLt; omega⟩ : Fin 512)
      = 0 + ∑ kb : Fin 16, ((∑ t : Fin 256, bw0 (ix2 n (node kb t)) * proj h Wbw l 0 (node kb t) q)
          + (∑ t : Fin 256, bw1 (ix2 n (node kb t)) * proj h Wbw l 1 (node kb t) q)))
    (hR : ∀ q : Fin 256, acc (⟨256 + q.val, by have := q.isLt; omega⟩ : Fin 512)
      = 0 + ∑ kb : Fin 16, ((∑ t : Fin 256, fw0 (ix2 n (node kb t)) * proj h Wfw l 0 (node kb t) q)
          + (∑ t : Fin 256, fw1 (ix2 n (node kb t)) * proj h Wfw l 1 (node kb t) q)))
    (hbL : ∀ q : Fin 256, bpre (⟨q.val, by have := q.isLt; omega⟩ : Fin 512) = bbw (ix3 l 0 q) + bbw (ix3 l 1 q))
    (hbR : ∀ q : Fin 256, bpre (⟨256 + q.val, by have := q.isLt; omega⟩ : Fin 512) = bfw (ix3 l 0 q) + bfw (ix3 l 1 q))
    (e : Fin 512) :
    acc e + bpre e = Cert.Spec.pre fw0 fw1 bw0 bw1 Wfw bfw Wbw bbw l h n e := by
  rw [pre_eq_cat]
  rcases col_cases e with ⟨q, rfl⟩ | ⟨q, rfl⟩
  · rw [cat_lo]
    exact half_of_blocks bw0 bw1 Wbw bbw l h n q _ _ (hL q) (hbL q)
  · rw [cat_hi]
    have he : (⟨q.val + 256, by have := q.isLt; omega⟩ : Fin 512) = ⟨256 + q.val, by have := q.isLt; omega⟩ :=
      Fin.ext (Nat.add_comm _ _)
    rw [he]
    exact half_of_blocks fw0 fw1 Wfw bfw l h n q _ _ (hR q) (hbR q)

/-- The rectified row times the linear weights, plus the linear bias, plus the residual, is the specification's
    layer at `(n, c)`. -/
theorem layerAt_of_blocks (fw0 fw1 bw0 bw1 : Adj) (Wfw : WDir) (bfw : BDir) (Wbw : WDir) (bbw : BDir) (Wlin : WLin)
    (blin : BLin) (l : Fin 2) (h : Feat) (n : Fin 4096) (acc bpre : Fin 512 → EReal)
    (hL : ∀ q : Fin 256, acc (⟨q.val, by have := q.isLt; omega⟩ : Fin 512)
      = 0 + ∑ kb : Fin 16, ((∑ t : Fin 256, bw0 (ix2 n (node kb t)) * proj h Wbw l 0 (node kb t) q)
          + (∑ t : Fin 256, bw1 (ix2 n (node kb t)) * proj h Wbw l 1 (node kb t) q)))
    (hR : ∀ q : Fin 256, acc (⟨256 + q.val, by have := q.isLt; omega⟩ : Fin 512)
      = 0 + ∑ kb : Fin 16, ((∑ t : Fin 256, fw0 (ix2 n (node kb t)) * proj h Wfw l 0 (node kb t) q)
          + (∑ t : Fin 256, fw1 (ix2 n (node kb t)) * proj h Wfw l 1 (node kb t) q)))
    (hbL : ∀ q : Fin 256, bpre (⟨q.val, by have := q.isLt; omega⟩ : Fin 512) = bbw (ix3 l 0 q) + bbw (ix3 l 1 q))
    (hbR : ∀ q : Fin 256, bpre (⟨256 + q.val, by have := q.isLt; omega⟩ : Fin 512) = bfw (ix3 l 0 q) + bfw (ix3 l 1 q))
    (c : Fin 512) :
    ((∑ e : Fin 512, max (acc e + bpre e) (Ideal.ofBits .f32 0x00000000#32) * Wlin (ix3 l e c)) + blin (ix2 l c))
        + h (ix2 n c)
      = Cert.Spec.layerAt fw0 fw1 bw0 bw1 Wfw bfw Wbw bbw Wlin blin l h n c := by
  unfold layerAt relu
  refine congrArg (· + h (ix2 n c)) (congrArg (· + blin (ix2 l c)) (Finset.sum_congr rfl fun e _ => ?_))
  rw [pre_of_blocks fw0 fw1 bw0 bw1 Wfw bfw Wbw bbw l h n acc bpre hL hR hbL hbR e]

end Cert.Bridge

end
-- ==== Proof.HostValues.lean ====
/-
  The arrays the host operations write before each launch, read at an index.

  Before the first launch the host cuts the directional weights and biases by layer and relation, lays the four weight
  matrices of a layer side by side (backward relation 0, backward relation 1, forward relation 0, forward relation 1:
  1024 columns), adds the two relations' biases and lays the backward sum before the forward sum (512 columns, one
  row), and cuts the linear bias by layer (one row). Before each later launch it cuts the linear weights by layer.
  Each of these arrays is read here at an index built from literal-size coordinates, in terms of the argument arrays,
  from any contents of the buffers.
-/
import proofs.«161264_g10471130268016_week1_w2_219_12_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

open scoped BigOperators

namespace Cert.KernelIdeal.HostVal

open Cert.KernelIdeal Cert.KernelIdeal.Gen Idealize.ShloMosaic Idealize.ShloMosaic.ValueIdx Idealize.SL.Sem
open Idealize.ShloMosaic.StableHlo

variable (Vl : Valuation τ sig (Elt Ideal))

/-! ## Layout operations at an index given by coordinates -/

section Layout
variable {α : Type}

/-- A rank-3 array cut to its member `o` along the leading axis reads, at `(u, a, b)`, the source at `(l, a, b)`
    with `l = o`. -/
theorem slice3_member_apply {n0 n1 n2 : Nat} (o : Nat) (X : (⟨3, ![n0, n1, n2]⟩ : Shape).Idx → α)
    (h : (⟨3, ![n0, n1, n2]⟩ : Shape).Slices ![o, 0, 0] ⟨3, ![1, n1, n2]⟩)
    (u : Fin 1) (a : Fin n1) (b : Fin n2) (l : Fin n0) (hl : l.val = o) :
    extractStridedSlice ⟨3, ![1, n1, n2]⟩ ![o, 0, 0] X h (ix3 u a b) = X (ix3 l a b) :=
  extractStridedSlice_apply _ _ _ _ _ (fun ax => by
    match ax with
    | ⟨0, _⟩ => show l.val = o + u.val; omega
    | ⟨1, _⟩ => exact (Nat.zero_add _).symm
    | ⟨2, _⟩ => exact (Nat.zero_add _).symm)

/-- A rank-3 array cut to its member `(o0, o1)` along the two leading axes reads, at `(u, v, e)`, the source at
    `(l, r, e)` with `l = o0` and `r = o1`. -/
theorem slice3_member2_apply {n0 n1 n2 : Nat} (o0 o1 : Nat) (X : (⟨3, ![n0, n1, n2]⟩ : Shape).Idx → α)
    (h : (⟨3, ![n0, n1, n2]⟩ : Shape).Slices ![o0, o1, 0] ⟨3, ![1, 1, n2]⟩)
    (u v : Fin 1) (e : Fin n2) (l : Fin n0) (r : Fin n1) (hl : l.val = o0) (hr : r.val = o1) :
    extractStridedSlice ⟨3, ![1, 1, n2]⟩ ![o0, o1, 0] X h (ix3 u v e) = X (ix3 l r e) :=
  extractStridedSlice_apply _ _ _ _ _ (fun ax => by
    match ax with
    | ⟨0, _⟩ => show l.val = o0 + u.val; omega
    | ⟨1, _⟩ => show r.val = o1 + v.val; omega
    | ⟨2, _⟩ => exact (Nat.zero_add _).symm)

/-- A rank-4 array cut to its member `(o0, o1)` along the two leading axes reads, at `(u, v, a, b)`, the source at
    `(l, r, a, b)` with `l = o0` and `r = o1`. -/
theorem slice4_member2_apply {n0 n1 n2 n3 : Nat} (o0 o1 : Nat) (X : (⟨4, ![n0, n1, n2, n3]⟩ : Shape).Idx → α)
    (h : (⟨4, ![n0, n1, n2, n3]⟩ : Shape).Slices ![o0, o1, 0, 0] ⟨4, ![1, 1, n2, n3]⟩)
    (u v : Fin 1) (a : Fin n2) (b : Fin n3) (l : Fin n0) (r : Fin n1) (hl : l.val = o0) (hr : r.val = o1) :
    extractStridedSlice ⟨4, ![1, 1, n2, n3]⟩ ![o0, o1, 0, 0] X h (ix4 u v a b) = X (ix4 l r a b) :=
  extractStridedSlice_apply _ _ _ _ _ (fun ax => by
    match ax with
    | ⟨0, _⟩ => show l.val = o0 + u.val; omega
    | ⟨1, _⟩ => show r.val = o1 + v.val; omega
    | ⟨2, _⟩ => exact (Nat.zero_add _).symm
    | ⟨3, _⟩ => exact (Nat.zero_add _).symm)

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

end Layout

/-! ## Four matrices side by side, and a matrix cut out of a stack of stacks -/

section Side
variable {α : Type}

/-- Member `(l, r)` of a `[2, 2, 512, 256]` stack, cut out and cast to a matrix, at `(d, e)`. -/
theorem member_apply (X : S2x2x512x256.Idx → α) (o0 o1 : Nat) (h : S2x2x512x256.Slices ![o0, o1, 0, 0] S1x1x512x256)
    (h' : S1x1x512x256.ShapeCasts S512x256) (l r : Fin 2) (hl : l.val = o0) (hr : r.val = o1) (d : Fin 512) (e : Fin 256) :
    shapeCast S512x256 (extractStridedSlice S1x1x512x256 ![o0, o1, 0, 0] X h) h' (ix2 d e) = X (ix4 l r d e) :=
  (shapeCast_11ab_ab_apply _ _ d e).trans (slice4_member2_apply o0 o1 X h 0 0 d e l r hl hr)

/-- Four `[512, 256]` matrices side by side: piece `k` at column `e` is column `256 k + e` of the whole. -/
theorem side4_apply (x0 x1 x2 x3 : S512x256.Idx → α)
    (h : Shape.Concatenates [S512x256, S512x256, S512x256, S512x256] S512x1024 1)
    (k : Nat) (hk : k < 4) (x : S512x256.Idx → α)
    (hx : ([⟨S512x256, x0⟩, ⟨S512x256, x1⟩, ⟨S512x256, x2⟩, ⟨S512x256, x3⟩] : List ((s : Shape) × (s.Idx → α)))[k]'hk = ⟨S512x256, x⟩)
    (d : Fin 512) (e : Fin 256) (c : Fin 1024) (hc : c.val = 256 * k + e.val) :
    concatenate S512x1024 1 [⟨S512x256, x0⟩, ⟨S512x256, x1⟩, ⟨S512x256, x2⟩, ⟨S512x256, x3⟩] h (ix2 d c) = x (ix2 d e) := by
  refine concatenate_apply_piece (1 : Fin S512x1024.rank)
    ([⟨S512x256, x0⟩, ⟨S512x256, x1⟩, ⟨S512x256, x2⟩, ⟨S512x256, x3⟩] : List ((s : Shape) × (s.Idx → α)))
    h (ix2 d c) k hk S512x256 x hx rfl (256 * k) ?_ (ix2 d e) ?_ ?_
  · interval_cases k <;> rfl
  · intro b hb
    match b with
    | ⟨0, _⟩ => rfl
    | ⟨1, _⟩ => exact absurd rfl hb
  · show 256 * k + e.val = c.val
    omega

end Side

/-! ## A row over a vector, two vectors end to end, a vector cut out of a stack of stacks -/

section Rows
variable {α : Type}

/-- A `[512]` vector laid as the one row of a `[1, 512]` array reads, at `(u, c)`, the vector at `c`. -/
theorem row_apply (x : S512.Idx → α) (h : S512.BroadcastsInDim S1x512 (![1] : Fin 1 → Fin S1x512.rank)) (u : Fin 1) (c : Fin 512) :
    broadcastInDim S1x512 ![1] h x (ix2 u c) = x (ix1 c) :=
  broadcastInDim_apply _ h x _ (ix1 c) (fun a => by
    match a with
    | ⟨0, _⟩ => rfl)

/-- Two `[256]` vectors end to end: the first 256 entries are the first vector. -/
theorem cat2_lo_apply (a b : S256.Idx → α) (h : Shape.Concatenates [S256, S256] S512 0) (e : Fin 256) :
    concatenate S512 0 [⟨S256, a⟩, ⟨S256, b⟩] h (ix1 (⟨e.val, by have := e.isLt; omega⟩ : Fin 512)) = a (ix1 e) :=
  concatenate_pair_apply_left (0 : Fin S512.rank) a b h _ rfl (ix1 e) (fun c => by
    match c with
    | ⟨0, _⟩ => rfl)

/-- Two `[256]` vectors end to end: the last 256 entries are the second vector. -/
theorem cat2_hi_apply (a b : S256.Idx → α) (h : Shape.Concatenates [S256, S256] S512 0) (e : Fin 256) :
    concatenate S512 0 [⟨S256, a⟩, ⟨S256, b⟩] h (ix1 (⟨256 + e.val, by have := e.isLt; omega⟩ : Fin 512)) = b (ix1 e) :=
  concatenate_pair_apply_right (0 : Fin S512.rank) a b h _ rfl rfl (ix1 e)
    (fun c hc => by
      match c with
      | ⟨0, _⟩ => exact absurd rfl hc)
    (by show e.val + 256 = 256 + e.val; omega)

/-- Member `(l, r)` of a `[2, 2, 256]` stack, cut out and cast to a vector, at `e`. -/
theorem bmember_apply (X : S2x2x256.Idx → α) (o0 o1 : Nat) (h : S2x2x256.Slices ![o0, o1, 0] S1x1x256)
    (h' : S1x1x256.ShapeCasts S256) (l r : Fin 2) (hl : l.val = o0) (hr : r.val = o1) (e : Fin 256) :
    shapeCast S256 (extractStridedSlice S1x1x256 ![o0, o1, 0] X h) h' (ix1 e) = X (ix3 l r e) :=
  (shapeCast_11a_a_apply _ _ e).trans (slice3_member2_apply o0 o1 X h 0 0 e l r hl hr)

/-- Row `l` of a `[2, 512]` array, cut out and cast to a vector, at `c`. -/
theorem lrow_apply (X : S2x512.Idx → α) (o : Nat) (h : S2x512.Slices ![o, 0] S1x512) (h' : S1x512.ShapeCasts S512)
    (l : Fin 2) (hl : l.val = o) (c : Fin 512) :
    shapeCast S512 (extractStridedSlice S1x512 ![o, 0] X h) h' (ix1 c) = X (ix2 l c) :=
  (shapeCast_1a_a_apply _ _ c).trans (slice2_axis0_apply o X h 0 c l (by show l.val = o + 0; omega))

end Rows

/-! ## The linear weights of a layer, cut before the second and the third launch -/

/-- The array the second launch reads as linear weights, as a term of the argument. -/
theorem v50_term :
    (StableHlo.after (hostOps1 (F := Ideal)) Vl (Proc.devRef .tc main_v50) : S512x512.Idx → EReal)
      = shapeCast S512x512 (extractStridedSlice S1x512x512 ![0, 0, 0] (Vl (Proc.devRef .tc main_arg9) : S2x512x512.Idx → EReal)
          slices_S2x512x512_S1x512x512_0_0_0) shapeCasts_S1x512x512_S512x512 := by
  after_results
  rfl

/-- It is layer 0 of the linear weights. -/
theorem v50_apply (k c : Fin 512) :
    (StableHlo.after (hostOps1 (F := Ideal)) Vl (Proc.devRef .tc main_v50) : S512x512.Idx → EReal) (ix2 k c)
      = (Vl (Proc.devRef .tc main_arg9) : S2x512x512.Idx → EReal) (ix3 (0 : Fin 2) k c) := by
  rw [v50_term]
  exact (shapeCast_1ab_ab_apply _ _ k c).trans (slice3_member_apply 0 _ _ 0 k c 0 rfl)

/-- The array the third launch reads as linear weights, as a term of the argument. -/
theorem v53_term :
    (StableHlo.after (hostOps2 (F := Ideal)) Vl (Proc.devRef .tc main_v53) : S512x512.Idx → EReal)
      = shapeCast S512x512 (extractStridedSlice S1x512x512 ![1, 0, 0] (Vl (Proc.devRef .tc main_arg9) : S2x512x512.Idx → EReal)
          slices_S2x512x512_S1x512x512_1_0_0) shapeCasts_S1x512x512_S512x512 := by
  after_results
  rfl

/-- It is layer 1 of the linear weights. -/
theorem v53_apply (k c : Fin 512) :
    (StableHlo.after (hostOps2 (F := Ideal)) Vl (Proc.devRef .tc main_v53) : S512x512.Idx → EReal) (ix2 k c)
      = (Vl (Proc.devRef .tc main_arg9) : S2x512x512.Idx → EReal) (ix3 (1 : Fin 2) k c) := by
  rw [v53_term]
  exact (shapeCast_1ab_ab_apply _ _ k c).trans (slice3_member_apply 1 _ _ 0 k c 1 rfl)

/-! ## The weight matrix of layer 0: four direction-and-relation blocks side by side -/

/-- The weight matrix the first aggregation reads, as a term of the arguments. -/
theorem v8_term :
    (StableHlo.after (hostOps0 (F := Ideal)) Vl (Proc.devRef .tc main_v8) : S512x1024.Idx → EReal)
      = concatenate S512x1024 1
          [⟨S512x256, shapeCast S512x256 (extractStridedSlice S1x1x512x256 ![0, 0, 0, 0] (Vl (Proc.devRef .tc main_arg7) : S2x2x512x256.Idx → EReal)
              slices_S2x2x512x256_S1x1x512x256_0_0_0_0) shapeCasts_S1x1x512x256_S512x256⟩,
           ⟨S512x256, shapeCast S512x256 (extractStridedSlice S1x1x512x256 ![0, 1, 0, 0] (Vl (Proc.devRef .tc main_arg7) : S2x2x512x256.Idx → EReal)
              slices_S2x2x512x256_S1x1x512x256_0_1_0_0) shapeCasts_S1x1x512x256_S512x256⟩,
           ⟨S512x256, shapeCast S512x256 (extractStridedSlice S1x1x512x256 ![0, 0, 0, 0] (Vl (Proc.devRef .tc main_arg5) : S2x2x512x256.Idx → EReal)
              slices_S2x2x512x256_S1x1x512x256_0_0_0_0) shapeCasts_S1x1x512x256_S512x256⟩,
           ⟨S512x256, shapeCast S512x256 (extractStridedSlice S1x1x512x256 ![0, 1, 0, 0] (Vl (Proc.devRef .tc main_arg5) : S2x2x512x256.Idx → EReal)
              slices_S2x2x512x256_S1x1x512x256_0_1_0_0) shapeCasts_S1x1x512x256_S512x256⟩]
          concatenates_S512x256_S512x256_S512x256_S512x256_S512x1024_d1 := by
  after_results_simp
  rfl

/-- Columns 0 … 255 of it are the backward relation 0 weights of layer 0. -/
theorem v8_apply_0 (d : Fin 512) (e : Fin 256) :
    (StableHlo.after (hostOps0 (F := Ideal)) Vl (Proc.devRef .tc main_v8) : S512x1024.Idx → EReal)
        (ix2 d (⟨e.val, by have := e.isLt; omega⟩ : Fin 1024))
      = (Vl (Proc.devRef .tc main_arg7) : S2x2x512x256.Idx → EReal) (ix4 (0 : Fin 2) (0 : Fin 2) d e) := by
  rw [v8_term]
  exact (side4_apply _ _ _ _ _ 0 (by decide) _ rfl d e _ (by show e.val = 256 * 0 + e.val; omega)).trans
    (member_apply _ 0 0 _ _ 0 0 rfl rfl d e)

/-- Columns 256 … 511 of it are the backward relation 1 weights of layer 0. -/
theorem v8_apply_1 (d : Fin 512) (e : Fin 256) :
    (StableHlo.after (hostOps0 (F := Ideal)) Vl (Proc.devRef .tc main_v8) : S512x1024.Idx → EReal)
        (ix2 d (⟨256 + e.val, by have := e.isLt; omega⟩ : Fin 1024))
      = (Vl (Proc.devRef .tc main_arg7) : S2x2x512x256.Idx → EReal) (ix4 (0 : Fin 2) (1 : Fin 2) d e) := by
  rw [v8_term]
  exact (side4_apply _ _ _ _ _ 1 (by decide) _ rfl d e _ (by show 256 + e.val = 256 * 1 + e.val; omega)).trans
    (member_apply _ 0 1 _ _ 0 1 rfl rfl d e)

/-- Columns 512 … 767 of it are the forward relation 0 weights of layer 0. -/
theorem v8_apply_2 (d : Fin 512) (e : Fin 256) :
    (StableHlo.after (hostOps0 (F := Ideal)) Vl (Proc.devRef .tc main_v8) : S512x1024.Idx → EReal)
        (ix2 d (⟨512 + e.val, by have := e.isLt; omega⟩ : Fin 1024))
      = (Vl (Proc.devRef .tc main_arg5) : S2x2x512x256.Idx → EReal) (ix4 (0 : Fin 2) (0 : Fin 2) d e) := by
  rw [v8_term]
  exact (side4_apply _ _ _ _ _ 2 (by decide) _ rfl d e _ (by show 512 + e.val = 256 * 2 + e.val; omega)).trans
    (member_apply _ 0 0 _ _ 0 0 rfl rfl d e)

/-- Columns 768 … 1023 of it are the forward relation 1 weights of layer 0. -/
theorem v8_apply_3 (d : Fin 512) (e : Fin 256) :
    (StableHlo.after (hostOps0 (F := Ideal)) Vl (Proc.devRef .tc main_v8) : S512x1024.Idx → EReal)
        (ix2 d (⟨768 + e.val, by have := e.isLt; omega⟩ : Fin 1024))
      = (Vl (Proc.devRef .tc main_arg5) : S2x2x512x256.Idx → EReal) (ix4 (0 : Fin 2) (1 : Fin 2) d e) := by
  rw [v8_term]
  exact (side4_apply _ _ _ _ _ 3 (by decide) _ rfl d e _ (by show 768 + e.val = 256 * 3 + e.val; omega)).trans
    (member_apply _ 0 1 _ _ 0 1 rfl rfl d e)

/-! ## The weight matrix of layer 1: four direction-and-relation blocks side by side -/

/-- The weight matrix the second aggregation reads, as a term of the arguments. -/
theorem v17_term :
    (StableHlo.after (hostOps0 (F := Ideal)) Vl (Proc.devRef .tc main_v17) : S512x1024.Idx → EReal)
      = concatenate S512x1024 1
          [⟨S512x256, shapeCast S512x256 (extractStridedSlice S1x1x512x256 ![1, 0, 0, 0] (Vl (Proc.devRef .tc main_arg7) : S2x2x512x256.Idx → EReal)
              slices_S2x2x512x256_S1x1x512x256_1_0_0_0) shapeCasts_S1x1x512x256_S512x256⟩,
           ⟨S512x256, shapeCast S512x256 (extractStridedSlice S1x1x512x256 ![1, 1, 0, 0] (Vl (Proc.devRef .tc main_arg7) : S2x2x512x256.Idx → EReal)
              slices_S2x2x512x256_S1x1x512x256_1_1_0_0) shapeCasts_S1x1x512x256_S512x256⟩,
           ⟨S512x256, shapeCast S512x256 (extractStridedSlice S1x1x512x256 ![1, 0, 0, 0] (Vl (Proc.devRef .tc main_arg5) : S2x2x512x256.Idx → EReal)
              slices_S2x2x512x256_S1x1x512x256_1_0_0_0) shapeCasts_S1x1x512x256_S512x256⟩,
           ⟨S512x256, shapeCast S512x256 (extractStridedSlice S1x1x512x256 ![1, 1, 0, 0] (Vl (Proc.devRef .tc main_arg5) : S2x2x512x256.Idx → EReal)
              slices_S2x2x512x256_S1x1x512x256_1_1_0_0) shapeCasts_S1x1x512x256_S512x256⟩]
          concatenates_S512x256_S512x256_S512x256_S512x256_S512x1024_d1 := by
  after_results_simp
  rfl

/-- Columns 0 … 255 of it are the backward relation 0 weights of layer 1. -/
theorem v17_apply_0 (d : Fin 512) (e : Fin 256) :
    (StableHlo.after (hostOps0 (F := Ideal)) Vl (Proc.devRef .tc main_v17) : S512x1024.Idx → EReal)
        (ix2 d (⟨e.val, by have := e.isLt; omega⟩ : Fin 1024))
      = (Vl (Proc.devRef .tc main_arg7) : S2x2x512x256.Idx → EReal) (ix4 (1 : Fin 2) (0 : Fin 2) d e) := by
  rw [v17_term]
  exact (side4_apply _ _ _ _ _ 0 (by decide) _ rfl d e _ (by show e.val = 256 * 0 + e.val; omega)).trans
    (member_apply _ 1 0 _ _ 1 0 rfl rfl d e)

/-- Columns 256 … 511 of it are the backward relation 1 weights of layer 1. -/
theorem v17_apply_1 (d : Fin 512) (e : Fin 256) :
    (StableHlo.after (hostOps0 (F := Ideal)) Vl (Proc.devRef .tc main_v17) : S512x1024.Idx → EReal)
        (ix2 d (⟨256 + e.val, by have := e.isLt; omega⟩ : Fin 1024))
      = (Vl (Proc.devRef .tc main_arg7) : S2x2x512x256.Idx → EReal) (ix4 (1 : Fin 2) (1 : Fin 2) d e) := by
  rw [v17_term]
  exact (side4_apply _ _ _ _ _ 1 (by decide) _ rfl d e _ (by show 256 + e.val = 256 * 1 + e.val; omega)).trans
    (member_apply _ 1 1 _ _ 1 1 rfl rfl d e)

/-- Columns 512 … 767 of it are the forward relation 0 weights of layer 1. -/
theorem v17_apply_2 (d : Fin 512) (e : Fin 256) :
    (StableHlo.after (hostOps0 (F := Ideal)) Vl (Proc.devRef .tc main_v17) : S512x1024.Idx → EReal)
        (ix2 d (⟨512 + e.val, by have := e.isLt; omega⟩ : Fin 1024))
      = (Vl (Proc.devRef .tc main_arg5) : S2x2x512x256.Idx → EReal) (ix4 (1 : Fin 2) (0 : Fin 2) d e) := by
  rw [v17_term]
  exact (side4_apply _ _ _ _ _ 2 (by decide) _ rfl d e _ (by show 512 + e.val = 256 * 2 + e.val; omega)).trans
    (member_apply _ 1 0 _ _ 1 0 rfl rfl d e)

/-- Columns 768 … 1023 of it are the forward relation 1 weights of layer 1. -/
theorem v17_apply_3 (d : Fin 512) (e : Fin 256) :
    (StableHlo.after (hostOps0 (F := Ideal)) Vl (Proc.devRef .tc main_v17) : S512x1024.Idx → EReal)
        (ix2 d (⟨768 + e.val, by have := e.isLt; omega⟩ : Fin 1024))
      = (Vl (Proc.devRef .tc main_arg5) : S2x2x512x256.Idx → EReal) (ix4 (1 : Fin 2) (1 : Fin 2) d e) := by
  rw [v17_term]
  exact (side4_apply _ _ _ _ _ 3 (by decide) _ rfl d e _ (by show 768 + e.val = 256 * 3 + e.val; omega)).trans
    (member_apply _ 1 1 _ _ 1 1 rfl rfl d e)

/-! ## The bias row of layer 0: the two relations' biases added, backward before forward -/

/-- The bias row the first aggregation reads, as a term of the arguments. -/
theorem v29_term :
    (StableHlo.after (hostOps0 (F := Ideal)) Vl (Proc.devRef .tc main_v29) : S1x512.Idx → EReal)
      = broadcastInDim S1x512 ![1] bcast_S512_S1x512_1
          (concatenate S512 0
            [⟨S256, addf (F := Ideal) (φ := .f32)
              (shapeCast S256 (extractStridedSlice S1x1x256 ![0, 0, 0] (Vl (Proc.devRef .tc main_arg8) : S2x2x256.Idx → EReal)
                slices_S2x2x256_S1x1x256_0_0_0) shapeCasts_S1x1x256_S256)
              (shapeCast S256 (extractStridedSlice S1x1x256 ![0, 1, 0] (Vl (Proc.devRef .tc main_arg8) : S2x2x256.Idx → EReal)
                slices_S2x2x256_S1x1x256_0_1_0) shapeCasts_S1x1x256_S256)⟩,
             ⟨S256, addf (F := Ideal) (φ := .f32)
              (shapeCast S256 (extractStridedSlice S1x1x256 ![0, 0, 0] (Vl (Proc.devRef .tc main_arg6) : S2x2x256.Idx → EReal)
                slices_S2x2x256_S1x1x256_0_0_0) shapeCasts_S1x1x256_S256)
              (shapeCast S256 (extractStridedSlice S1x1x256 ![0, 1, 0] (Vl (Proc.devRef .tc main_arg6) : S2x2x256.Idx → EReal)
                slices_S2x2x256_S1x1x256_0_1_0) shapeCasts_S1x1x256_S256)⟩]
            concatenates_S256_S256_S512_d0) := by
  after_results_simp
  rfl

/-- Its first 256 entries: the backward biases `b` of the two relations added, relation 0 first. -/
theorem v29_apply_lo (b : S2x2x256.Idx → EReal) (hb : (Vl (Proc.devRef .tc main_arg8) : S2x2x256.Idx → EReal) = b)
    (e : Fin 256) :
    (StableHlo.after (hostOps0 (F := Ideal)) Vl (Proc.devRef .tc main_v29) : S1x512.Idx → EReal)
        (ix2 (0 : Fin 1) (⟨e.val, by have := e.isLt; omega⟩ : Fin 512))
      = b (ix3 (0 : Fin 2) (0 : Fin 2) e) + b (ix3 (0 : Fin 2) (1 : Fin 2) e) := by
  subst hb
  rw [v29_term]
  refine (row_apply _ _ 0 _).trans ((cat2_lo_apply _ _ _ e).trans ?_)
  exact congrArg₂ (· + ·) (bmember_apply _ 0 0 _ _ 0 0 rfl rfl e) (bmember_apply _ 0 1 _ _ 0 1 rfl rfl e)

/-- Its last 256 entries: the forward biases `b` of the two relations added, relation 0 first. -/
theorem v29_apply_hi (b : S2x2x256.Idx → EReal) (hb : (Vl (Proc.devRef .tc main_arg6) : S2x2x256.Idx → EReal) = b)
    (e : Fin 256) :
    (StableHlo.after (hostOps0 (F := Ideal)) Vl (Proc.devRef .tc main_v29) : S1x512.Idx → EReal)
        (ix2 (0 : Fin 1) (⟨256 + e.val, by have := e.isLt; omega⟩ : Fin 512))
      = b (ix3 (0 : Fin 2) (0 : Fin 2) e) + b (ix3 (0 : Fin 2) (1 : Fin 2) e) := by
  subst hb
  rw [v29_term]
  refine (row_apply _ _ 0 _).trans ((cat2_hi_apply _ _ _ e).trans ?_)
  exact congrArg₂ (· + ·) (bmember_apply _ 0 0 _ _ 0 0 rfl rfl e) (bmember_apply _ 0 1 _ _ 0 1 rfl rfl e)

/-! ## The bias row of layer 1: the two relations' biases added, backward before forward -/

/-- The bias row the second aggregation reads, as a term of the arguments. -/
theorem v41_term :
    (StableHlo.after (hostOps0 (F := Ideal)) Vl (Proc.devRef .tc main_v41) : S1x512.Idx → EReal)
      = broadcastInDim S1x512 ![1] bcast_S512_S1x512_1
          (concatenate S512 0
            [⟨S256, addf (F := Ideal) (φ := .f32)
              (shapeCast S256 (extractStridedSlice S1x1x256 ![1, 0, 0] (Vl (Proc.devRef .tc main_arg8) : S2x2x256.Idx → EReal)
                slices_S2x2x256_S1x1x256_1_0_0) shapeCasts_S1x1x256_S256)
              (shapeCast S256 (extractStridedSlice S1x1x256 ![1, 1, 0] (Vl (Proc.devRef .tc main_arg8) : S2x2x256.Idx → EReal)
                slices_S2x2x256_S1x1x256_1_1_0) shapeCasts_S1x1x256_S256)⟩,
             ⟨S256, addf (F := Ideal) (φ := .f32)
              (shapeCast S256 (extractStridedSlice S1x1x256 ![1, 0, 0] (Vl (Proc.devRef .tc main_arg6) : S2x2x256.Idx → EReal)
                slices_S2x2x256_S1x1x256_1_0_0) shapeCasts_S1x1x256_S256)
              (shapeCast S256 (extractStridedSlice S1x1x256 ![1, 1, 0] (Vl (Proc.devRef .tc main_arg6) : S2x2x256.Idx → EReal)
                slices_S2x2x256_S1x1x256_1_1_0) shapeCasts_S1x1x256_S256)⟩]
            concatenates_S256_S256_S512_d0) := by
  after_results_simp
  rfl

/-- Its first 256 entries: the backward biases `b` of the two relations added, relation 0 first. -/
theorem v41_apply_lo (b : S2x2x256.Idx → EReal) (hb : (Vl (Proc.devRef .tc main_arg8) : S2x2x256.Idx → EReal) = b)
    (e : Fin 256) :
    (StableHlo.after (hostOps0 (F := Ideal)) Vl (Proc.devRef .tc main_v41) : S1x512.Idx → EReal)
        (ix2 (0 : Fin 1) (⟨e.val, by have := e.isLt; omega⟩ : Fin 512))
      = b (ix3 (1 : Fin 2) (0 : Fin 2) e) + b (ix3 (1 : Fin 2) (1 : Fin 2) e) := by
  subst hb
  rw [v41_term]
  refine (row_apply _ _ 0 _).trans ((cat2_lo_apply _ _ _ e).trans ?_)
  exact congrArg₂ (· + ·) (bmember_apply _ 1 0 _ _ 1 0 rfl rfl e) (bmember_apply _ 1 1 _ _ 1 1 rfl rfl e)

/-- Its last 256 entries: the forward biases `b` of the two relations added, relation 0 first. -/
theorem v41_apply_hi (b : S2x2x256.Idx → EReal) (hb : (Vl (Proc.devRef .tc main_arg6) : S2x2x256.Idx → EReal) = b)
    (e : Fin 256) :
    (StableHlo.after (hostOps0 (F := Ideal)) Vl (Proc.devRef .tc main_v41) : S1x512.Idx → EReal)
        (ix2 (0 : Fin 1) (⟨256 + e.val, by have := e.isLt; omega⟩ : Fin 512))
      = b (ix3 (1 : Fin 2) (0 : Fin 2) e) + b (ix3 (1 : Fin 2) (1 : Fin 2) e) := by
  subst hb
  rw [v41_term]
  refine (row_apply _ _ 0 _).trans ((cat2_hi_apply _ _ _ e).trans ?_)
  exact congrArg₂ (· + ·) (bmember_apply _ 1 0 _ _ 1 0 rfl rfl e) (bmember_apply _ 1 1 _ _ 1 1 rfl rfl e)

/-! ## The linear bias row of layer 0 -/

/-- The linear bias row the first aggregation reads, as a term of the argument. -/
theorem v44_term :
    (StableHlo.after (hostOps0 (F := Ideal)) Vl (Proc.devRef .tc main_v44) : S1x512.Idx → EReal)
      = broadcastInDim S1x512 ![1] bcast_S512_S1x512_1
          (shapeCast S512 (extractStridedSlice S1x512 ![0, 0] (Vl (Proc.devRef .tc main_arg10) : S2x512.Idx → EReal)
            slices_S2x512_S1x512_0_0) shapeCasts_S1x512_S512) := by
  after_results_simp
  rfl

/-- It is row 0 of the linear biases. -/
theorem v44_apply (c : Fin 512) :
    (StableHlo.after (hostOps0 (F := Ideal)) Vl (Proc.devRef .tc main_v44) : S1x512.Idx → EReal) (ix2 (0 : Fin 1) c)
      = (Vl (Proc.devRef .tc main_arg10) : S2x512.Idx → EReal) (ix2 (0 : Fin 2) c) := by
  rw [v44_term]
  exact (row_apply _ _ 0 c).trans (lrow_apply _ 0 _ _ 0 rfl c)

/-! ## The linear bias row of layer 1 -/

/-- The linear bias row the second aggregation reads, as a term of the argument. -/
theorem v47_term :
    (StableHlo.after (hostOps0 (F := Ideal)) Vl (Proc.devRef .tc main_v47) : S1x512.Idx → EReal)
      = broadcastInDim S1x512 ![1] bcast_S512_S1x512_1
          (shapeCast S512 (extractStridedSlice S1x512 ![1, 0] (Vl (Proc.devRef .tc main_arg10) : S2x512.Idx → EReal)
            slices_S2x512_S1x512_1_0) shapeCasts_S1x512_S512) := by
  after_results_simp
  rfl

/-- It is row 1 of the linear biases. -/
theorem v47_apply (c : Fin 512) :
    (StableHlo.after (hostOps0 (F := Ideal)) Vl (Proc.devRef .tc main_v47) : S1x512.Idx → EReal) (ix2 (0 : Fin 1) c)
      = (Vl (Proc.devRef .tc main_arg10) : S2x512.Idx → EReal) (ix2 (1 : Fin 2) c) := by
  rw [v47_term]
  exact (row_apply _ _ 0 c).trans (lrow_apply _ 1 _ _ 1 rfl c)

end Cert.KernelIdeal.HostVal

end
-- ==== Proof.Payloads.lean ====
/-
  The kernels' payloads read at an index, at the ideal values.

  Every float is an extended real; a change of float format and a shape cast to the same shape are the identity; a
  block product into the zero accumulator is the plain sum over the contracted axis; a slice of columns reads the
  source at the shifted column; a one-row broadcast reads the row. Each payload of the generated skeleton is read here
  at an index `ix2 p q` whose coordinates have literal extents.
-/
import proofs.«161264_g10471130268016_week1_w2_219_12_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Idealize.SL.Sem

/-! ## The three block products at an index -/

theorem mm_512_1024_lhs0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide),
    dif_pos (show (0 : Fin S2048x512.rank) ∈ dot_S2048x512_S512x1024_S2048x1024_1_0_0_1_n_n.lhsNonContracting by decide)]
  rfl
theorem mm_512_1024_rhs1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide),
    dif_pos (show (1 : Fin S512x1024.rank) ∈ dot_S2048x512_S512x1024_S2048x1024_1_0_0_1_n_n.rhsNonContracting by decide)]
  rfl
/-- A [2048,512] × [512,1024] block product into the zero accumulator, at `(p, j)`: the sum over the 512 contracted
    positions of row `p` of the left factor times column `j` of the right. -/
theorem mm_512_1024_apply {φ₁ φ₂ : FTy} (lhs : FVec Ideal S2048x512 φ₁) (rhs : FVec Ideal S512x1024 φ₂)
    (p : Fin 2048) (j : Fin 1024) :
    matmul dot_S2048x512_S512x1024_S2048x1024_1_0_0_1_n_n none lhs rhs (constant (F := Ideal) S2048x1024 .f32 0x00000000#32) (ix2 p j)
      = ∑ d : Fin 512, lhs (ix2 p d) * rhs (ix2 d j) := by
  simp only [matmul]
  rw [Ideal.matmul_constant_zero_apply,
    ← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p j) ((contrEquiv1 dot_S2048x512_S512x1024_S2048x1024_1_0_0_1_n_n 512 rfl rfl).symm k) = ix2 p k :=
    funext fun a => Fin.ext (by
      match a with
      | ⟨0, _⟩ => exact mm_512_1024_lhs0 _ _
      | ⟨1, _⟩ => exact (dot_S2048x512_S512x1024_S2048x1024_1_0_0_1_n_n.lhsIdx_val_of_single rfl _ _).trans hk)
  have er : dot_S2048x512_S512x1024_S2048x1024_1_0_0_1_n_n.rhsIdx (ix2 p j) ((contrEquiv1 dot_S2048x512_S512x1024_S2048x1024_1_0_0_1_n_n 512 rfl rfl).symm k) = ix2 k j :=
    funext fun a => Fin.ext (by
      match a with
      | ⟨0, _⟩ => exact (dot_S2048x512_S512x1024_S2048x1024_1_0_0_1_n_n.rhsIdx_val_of_single rfl _ _).trans hk
      | ⟨1, _⟩ => exact mm_512_1024_rhs1 _ _)
  rw [el, er]

theorem mm_256_256_lhs0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem mm_256_256_rhs1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl
/-- A [2048,256] × [256,256] block product into the zero accumulator, at `(p, j)`: the sum over the 256 contracted
    positions of row `p` of the left factor times column `j` of the right. -/
theorem mm_256_256_apply {φ₁ φ₂ : FTy} (lhs : FVec Ideal S2048x256 φ₁) (rhs : FVec Ideal S256x256 φ₂)
    (p : Fin 2048) (j : Fin 256) :
    matmul dot_S2048x256_S256x256_S2048x256_1_0_0_1_n_n none lhs rhs (constant (F := Ideal) S2048x256 .f32 0x00000000#32) (ix2 p j)
      = ∑ d : Fin 256, lhs (ix2 p d) * rhs (ix2 d j) := by
  simp only [matmul]
  rw [Ideal.matmul_constant_zero_apply,
    ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p j) ((contrEquiv1 dot_S2048x256_S256x256_S2048x256_1_0_0_1_n_n 256 rfl rfl).symm k) = ix2 p k :=
    funext fun a => Fin.ext (by
      match a with
      | ⟨0, _⟩ => exact mm_256_256_lhs0 _ _
      | ⟨1, _⟩ => exact (dot_S2048x256_S256x256_S2048x256_1_0_0_1_n_n.lhsIdx_val_of_single rfl _ _).trans hk)
  have er : dot_S2048x256_S256x256_S2048x256_1_0_0_1_n_n.rhsIdx (ix2 p j) ((contrEquiv1 dot_S2048x256_S256x256_S2048x256_1_0_0_1_n_n 256 rfl rfl).symm k) = ix2 k j :=
    funext fun a => Fin.ext (by
      match a with
      | ⟨0, _⟩ => exact (dot_S2048x256_S256x256_S2048x256_1_0_0_1_n_n.rhsIdx_val_of_single rfl _ _).trans hk
      | ⟨1, _⟩ => exact mm_256_256_rhs1 _ _)
  rw [el, er]

theorem mm_512_512_lhs0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem mm_512_512_rhs1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl
/-- A [2048,512] × [512,512] block product into the zero accumulator, at `(p, j)`: the sum over the 512 contracted
    positions of row `p` of the left factor times column `j` of the right. -/
theorem mm_512_512_apply {φ₁ φ₂ : FTy} (lhs : FVec Ideal S2048x512 φ₁) (rhs : FVec Ideal S512x512 φ₂)
    (p : Fin 2048) (j : Fin 512) :
    matmul dot_S2048x512_S512x512_S2048x512_1_0_0_1_n_n none lhs rhs (constant (F := Ideal) S2048x512 .f32 0x00000000#32) (ix2 p j)
      = ∑ d : Fin 512, lhs (ix2 p d) * rhs (ix2 d j) := by
  simp only [matmul]
  rw [Ideal.matmul_constant_zero_apply,
    ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p j) ((contrEquiv1 dot_S2048x512_S512x512_S2048x512_1_0_0_1_n_n 512 rfl rfl).symm k) = ix2 p k :=
    funext fun a => Fin.ext (by
      match a with
      | ⟨0, _⟩ => exact mm_512_512_lhs0 _ _
      | ⟨1, _⟩ => exact (dot_S2048x512_S512x512_S2048x512_1_0_0_1_n_n.lhsIdx_val_of_single rfl _ _).trans hk)
  have er : dot_S2048x512_S512x512_S2048x512_1_0_0_1_n_n.rhsIdx (ix2 p j) ((contrEquiv1 dot_S2048x512_S512x512_S2048x512_1_0_0_1_n_n 512 rfl rfl).symm k) = ix2 k j :=
    funext fun a => Fin.ext (by
      match a with
      | ⟨0, _⟩ => exact (dot_S2048x512_S512x512_S2048x512_1_0_0_1_n_n.rhsIdx_val_of_single rfl _ _).trans hk
      | ⟨1, _⟩ => exact mm_512_512_rhs1 _ _)
  rw [el, er]

/-! ## The projection kernel -/

/-- The projection's payload at `(p, j)`: row `p` of the block times column `j` of the weights. -/
theorem k0_pay1_apply (v0 : Vec Ideal S2048x512 .f32) (v2 : Vec Ideal S512x1024 .f32) (p : Fin 2048) (j : Fin 1024) :
    k0_pay1 v0 v2 (ix2 p j) = ∑ d : Fin 512, v0 (ix2 p d) * v2 (ix2 d j) := by
  unfold k0_pay1
  simp only [truncf_apply]
  rw [mm_512_1024_apply]
  simp only [truncf_apply, shapeCast_self]

/-! ## The first aggregation layer -/

/-- A shape cast to the same shape is the identity. -/
theorem k1_pay1_eq (v29 : FVec Ideal S2048x256 .f32) : k1_pay1 v29 = v29 := by
  unfold k1_pay1
  exact shapeCast_self _ _

/-- The block of weights under a shape cast to the same shape is the block. -/
theorem k1_pay5_eq (v3 : Vec Ideal S256x1024 .bf16) : k1_pay5 v3 = v3 := by
  unfold k1_pay5
  exact shapeCast_self _ _

/-- The accumulator's first contents: the zero word's value everywhere. -/
theorem k1_pay4_apply (p : Fin 2048) (e : Fin 512) :
    k1_pay4 (F := Ideal) (ix2 p e) = Ideal.ofBits .f32 0x00000000#32 := by
  unfold k1_pay4
  rw [shapeCast_self]
  rfl

/-- The same as the extended real `0`. -/
theorem k1_pay4_apply_zero (p : Fin 2048) (e : Fin 512) : k1_pay4 (F := Ideal) (ix2 p e) = 0 :=
  (k1_pay4_apply p e).trans Ideal.ofBits_zero_f32

/-- The first accumulator update at `(p, q)`: the old value plus the two block products against the column blocks
    of the weights at offsets 0 and 256. -/
theorem k1_pay6_apply (v3 : Vec Ideal S256x1024 .bf16) (v5 v7 v13 : Vec Ideal S2048x256 .f32) (p : Fin 2048) (q : Fin 256) :
    k1_pay6 v3 v5 v7 v13 (ix2 p q)
      = v13 (ix2 p q)
        + ((∑ k : Fin 256, v5 (ix2 p k) * v3 (ix2 k (⟨q.val, by have := q.isLt; omega⟩ : Fin 1024)))
          + (∑ k : Fin 256, v7 (ix2 p k) * v3 (ix2 k (⟨256 + q.val, by have := q.isLt; omega⟩ : Fin 1024)))) := by
  unfold k1_pay6
  rw [k1_pay5_eq]
  simp only [shapeCast_self, addf_apply]
  rw [mm_256_256_apply, mm_256_256_apply]
  simp only [truncf_apply]
  refine congrArg (v13 (ix2 p q) + ·) (congrArg₂ (· + ·) (Finset.sum_congr rfl fun k _ => ?_) (Finset.sum_congr rfl fun k _ => ?_))
  · exact congrArg (v5 (ix2 p k) * ·) (slice2_axis1_apply 0 v3 _ k q ⟨q.val, _⟩ (Nat.zero_add _).symm)
  · exact congrArg (v7 (ix2 p k) * ·) (slice2_axis1_apply 256 v3 _ k q ⟨256 + q.val, _⟩ rfl)

/-- The second accumulator update at `(p, q)`: the old value plus the two block products against the column blocks
    of the weights at offsets 512 and 768. -/
theorem k1_pay7_apply (v3 : Vec Ideal S256x1024 .bf16) (v9 v11 v23 : Vec Ideal S2048x256 .f32) (p : Fin 2048) (q : Fin 256) :
    k1_pay7 v3 v9 v11 v23 (ix2 p q)
      = v23 (ix2 p q)
        + ((∑ k : Fin 256, v9 (ix2 p k) * v3 (ix2 k (⟨512 + q.val, by have := q.isLt; omega⟩ : Fin 1024)))
          + (∑ k : Fin 256, v11 (ix2 p k) * v3 (ix2 k (⟨768 + q.val, by have := q.isLt; omega⟩ : Fin 1024)))) := by
  unfold k1_pay7
  rw [k1_pay5_eq]
  simp only [addf_apply]
  rw [mm_256_256_apply, mm_256_256_apply]
  simp only [truncf_apply]
  refine congrArg (v23 (ix2 p q) + ·) (congrArg₂ (· + ·) (Finset.sum_congr rfl fun k _ => ?_) (Finset.sum_congr rfl fun k _ => ?_))
  · exact congrArg (v9 (ix2 p k) * ·) (slice2_axis1_apply 512 v3 _ k q ⟨512 + q.val, _⟩ rfl)
  · exact congrArg (v11 (ix2 p k) * ·) (slice2_axis1_apply 768 v3 _ k q ⟨768 + q.val, _⟩ rfl)

/-- The layer's output at `(p, j)`: the rectified sum of the accumulator and the bias row, times the linear weights,
    plus the linear bias row, plus the residual. -/
theorem k1_pay2_apply (v36 : Vec Ideal S2048x512 .f32) (v37 : Vec Ideal S1x512 .f32) (v44 : Vec Ideal S512x512 .f32)
    (v48 : Vec Ideal S1x512 .f32) (v52 : Vec Ideal S2048x512 .f32) (p : Fin 2048) (j : Fin 512) :
    k1_pay2 v36 v37 v44 v48 v52 (ix2 p j)
      = ((∑ e : Fin 512, max (v36 (ix2 p e) + v37 (ix2 (0 : Fin 1) e)) (Ideal.ofBits .f32 0x00000000#32) * v44 (ix2 e j))
          + v48 (ix2 (0 : Fin 1) j)) + v52 (ix2 p j) := by
  unfold k1_pay2
  simp only [shapeCast_self, addf_apply]
  rw [mm_512_512_apply, broadcastTo_1b_ab_apply]
  simp only [truncf_apply, maximumf_apply, addf_apply, broadcast_apply, broadcastTo_1b_ab_apply]
  rfl

/-- The next projection at `(p, j)`: row `p` of the layer's output times column `j` of the weights. -/
theorem k1_pay3_apply (v36 : Vec Ideal S2048x512 .f32) (v37 : Vec Ideal S1x512 .f32) (v44 : Vec Ideal S512x512 .f32)
    (v48 : Vec Ideal S1x512 .f32) (v52 : Vec Ideal S2048x512 .f32) (v56 : Vec Ideal S512x1024 .f32) (p : Fin 2048) (j : Fin 1024) :
    k1_pay3 v36 v37 v44 v48 v52 v56 (ix2 p j)
      = ∑ d : Fin 512, (k1_pay2 v36 v37 v44 v48 v52) (ix2 p d) * v56 (ix2 d j) := by
  unfold k1_pay3
  simp only [truncf_apply]
  rw [mm_512_1024_apply]
  simp only [truncf_apply, shapeCast_self]

/-! ## The second aggregation layer -/

/-- A shape cast to the same shape is the identity. -/
theorem k2_pay1_eq (v29 : FVec Ideal S2048x256 .f32) : k2_pay1 v29 = v29 := by
  unfold k2_pay1
  exact shapeCast_self _ _

/-- The block of weights under a shape cast to the same shape is the block. -/
theorem k2_pay4_eq (v3 : Vec Ideal S256x1024 .bf16) : k2_pay4 v3 = v3 := by
  unfold k2_pay4
  exact shapeCast_self _ _

/-- The accumulator's first contents: the zero word's value everywhere. -/
theorem k2_pay3_apply (p : Fin 2048) (e : Fin 512) :
    k2_pay3 (F := Ideal) (ix2 p e) = Ideal.ofBits .f32 0x00000000#32 := by
  unfold k2_pay3
  rw [shapeCast_self]
  rfl

/-- The same as the extended real `0`. -/
theorem k2_pay3_apply_zero (p : Fin 2048) (e : Fin 512) : k2_pay3 (F := Ideal) (ix2 p e) = 0 :=
  (k2_pay3_apply p e).trans Ideal.ofBits_zero_f32

/-- The first accumulator update at `(p, q)`: the old value plus the two block products against the column blocks
    of the weights at offsets 0 and 256. -/
theorem k2_pay5_apply (v3 : Vec Ideal S256x1024 .bf16) (v5 v7 v13 : Vec Ideal S2048x256 .f32) (p : Fin 2048) (q : Fin 256) :
    k2_pay5 v3 v5 v7 v13 (ix2 p q)
      = v13 (ix2 p q)
        + ((∑ k : Fin 256, v5 (ix2 p k) * v3 (ix2 k (⟨q.val, by have := q.isLt; omega⟩ : Fin 1024)))
          + (∑ k : Fin 256, v7 (ix2 p k) * v3 (ix2 k (⟨256 + q.val, by have := q.isLt; omega⟩ : Fin 1024)))) := by
  unfold k2_pay5
  rw [k2_pay4_eq]
  simp only [shapeCast_self, addf_apply]
  rw [mm_256_256_apply, mm_256_256_apply]
  simp only [truncf_apply]
  refine congrArg (v13 (ix2 p q) + ·) (congrArg₂ (· + ·) (Finset.sum_congr rfl fun k _ => ?_) (Finset.sum_congr rfl fun k _ => ?_))
  · exact congrArg (v5 (ix2 p k) * ·) (slice2_axis1_apply 0 v3 _ k q ⟨q.val, _⟩ (Nat.zero_add _).symm)
  · exact congrArg (v7 (ix2 p k) * ·) (slice2_axis1_apply 256 v3 _ k q ⟨256 + q.val, _⟩ rfl)

/-- The second accumulator update at `(p, q)`: the old value plus the two block products against the column blocks
    of the weights at offsets 512 and 768. -/
theorem k2_pay6_apply (v3 : Vec Ideal S256x1024 .bf16) (v9 v11 v23 : Vec Ideal S2048x256 .f32) (p : Fin 2048) (q : Fin 256) :
    k2_pay6 v3 v9 v11 v23 (ix2 p q)
      = v23 (ix2 p q)
        + ((∑ k : Fin 256, v9 (ix2 p k) * v3 (ix2 k (⟨512 + q.val, by have := q.isLt; omega⟩ : Fin 1024)))
          + (∑ k : Fin 256, v11 (ix2 p k) * v3 (ix2 k (⟨768 + q.val, by have := q.isLt; omega⟩ : Fin 1024)))) := by
  unfold k2_pay6
  rw [k2_pay4_eq]
  simp only [addf_apply]
  rw [mm_256_256_apply, mm_256_256_apply]
  simp only [truncf_apply]
  refine congrArg (v23 (ix2 p q) + ·) (congrArg₂ (· + ·) (Finset.sum_congr rfl fun k _ => ?_) (Finset.sum_congr rfl fun k _ => ?_))
  · exact congrArg (v9 (ix2 p k) * ·) (slice2_axis1_apply 512 v3 _ k q ⟨512 + q.val, _⟩ rfl)
  · exact congrArg (v11 (ix2 p k) * ·) (slice2_axis1_apply 768 v3 _ k q ⟨768 + q.val, _⟩ rfl)

/-- The layer's output at `(p, j)`: the rectified sum of the accumulator and the bias row, times the linear weights,
    plus the linear bias row, plus the residual. -/
theorem k2_pay2_apply (v36 : Vec Ideal S2048x512 .f32) (v37 : Vec Ideal S1x512 .f32) (v44 : Vec Ideal S512x512 .f32)
    (v48 : Vec Ideal S1x512 .f32) (v52 : Vec Ideal S2048x512 .f32) (p : Fin 2048) (j : Fin 512) :
    k2_pay2 v36 v37 v44 v48 v52 (ix2 p j)
      = ((∑ e : Fin 512, max (v36 (ix2 p e) + v37 (ix2 (0 : Fin 1) e)) (Ideal.ofBits .f32 0x00000000#32) * v44 (ix2 e j))
          + v48 (ix2 (0 : Fin 1) j)) + v52 (ix2 p j) := by
  unfold k2_pay2
  simp only [shapeCast_self, addf_apply]
  rw [mm_512_512_apply, broadcastTo_1b_ab_apply]
  simp only [truncf_apply, maximumf_apply, addf_apply, broadcast_apply, broadcastTo_1b_ab_apply]
  rfl

end Cert.KernelIdeal.Pay

end
-- ==== Proof.ValI.ProjValue.lean ====
/- The value of the projection region at the extended reals: every 2048-row block the region writes back is the block of ONE
   whole-array function — the node features times the weight matrix, contracted over the 512 feature columns — and the
   blocks cover the array, so the array ends holding that product. -/
import proofs.«161264_g10471130268016_week1_w2_219_12_alg».proof.Proof.FrameI.Proj
import proofs.«161264_g10471130268016_week1_w2_219_12_alg».proof.Proof.Payloads
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame

variable (V : (c : Dev nD) → (b : Ref sig .tc) → Buf (Elt Ideal) ((c : Thread nD τ).loc b))

theorem hz2 : (![0, 0] : Fin 2 → Nat) = fun _ => 0 := funext fun a => by fin_cases a <;> rfl

/-- Features times weights: entry (n, col) is the sum over the feature index d of features (n, d) · weights (d, col). -/
def matProd (a0 : S4096x512.Idx → Elt Ideal .f32) (a1 : S512x1024.Idx → Elt Ideal .f32) : S4096x1024.Idx → Elt Ideal .bf16 :=
  fun i => ∑ d : Fin 512, a0 (ix2 (i 0) d) * a1 (ix2 d (i 1))

/-- The body's one store covers its buffer from offset zero, so what it leaves is its payload on the whole blocks. -/
theorem projOut_eq (x0 : Vec Ideal S2048x512 .f32) (x1 : Vec Ideal S512x1024 .f32) : projOut x0 x1 = k0_pay1 x0 x1 := by
  unfold projOut
  rw [View.canon_unit_zero hz2]
  simp only [View.ld_unit_zero (S := S2048x512) hz2, View.ld_unit_zero (S := S512x1024) hz2]

/-- The printed index maps over the two grid points: the feature window moves with the output window along the rows, the
    weight window does not move, and nothing moves along the columns. -/
theorem projIdx : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 1 :=
  (by decide +kernel : ∀ t : Fin grid0.N, _)
/-- Each of the two row blocks is some point's. -/
theorem projOnto : ∀ q0 : Fin 2, ∃ t : Fin cfg0.N, win0_2.index t = ![q0.val, 0] :=
  (by decide +kernel : ∀ q0 : Fin 2, ∃ t : Fin grid0.N, win0_2.index t = ![q0.val, 0])

/-- What point `t` writes back is block `t` of the product of the arrays as the region finds them. -/
theorem projFlushed (c : Dev nD) (t : Fin cfg0.N) :
    (projData V c).flushed 2 t = ((cfg0.win 2).blk t).view.read (Elt Ideal) (matProd (V c main_arg0) (V c main_v8)) := by
  show (cfg0.win 2).cut (grid0.coords t) ((projData V c).after 2 t) = _
  rw [projAfter_2, projOut_eq]
  obtain ⟨e0, e1, e2, e3, e4, e5⟩ := projIdx t
  funext j
  show k0_pay1 (pblk V c 0 t) (pblk V c 1 t) j = matProd (V c main_arg0) (V c main_v8) (((cfg0.win 2).blk t).view.emb j)
  obtain ⟨p, q, rfl⟩ : ∃ (p : Fin 2048) (q : Fin 1024), j = ix2 p q := ⟨j 0, j 1, eq_ix2 j⟩
  rw [Pay.k0_pay1_apply]
  unfold matProd
  refine Finset.sum_congr rfl fun d _ => ?_
  congr 1
  · show V c main_arg0 (((cfg0.win 0).blk t).view.emb (ix2 p d)) = V c main_arg0 (ix2 ((((cfg0.win 2).blk t).view.emb (ix2 p q)) 0) d)
    congr 1; funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 512 + 1 * d.val = d.val; omega
  · show V c main_v8 (((cfg0.win 1).blk t).view.emb (ix2 d q)) = V c main_v8 (ix2 d ((((cfg0.win 2).blk t).view.emb (ix2 p q)) 1))
    congr 1; funext a; apply Fin.ext
    match a with
    | ⟨0, _⟩ => show win0_1.index t (0 : Fin 2) * 512 + 1 * d.val = d.val; omega
    | ⟨1, _⟩ => show win0_1.index t (1 : Fin 2) * 1024 + 1 * q.val = win0_2.index t (1 : Fin 2) * 1024 + 1 * q.val; omega

/-- An index of the array is in point `t`'s block iff each coordinate is in the block's range on its axis. -/
theorem projMem (t : Fin cfg0.N) (i : S4096x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v48).slice (win0_2.rect t)).set ↔ _
  rw [View.set_slice_whole, Rect.mem_set_unit]
  exact Iff.rfl

/-- Every index of the array is in some point's block: the point whose row block holds the index's row. -/
theorem projCovers (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ := projOnto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [projMem]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- The projection's array after the region: the product of the features and weights the region found. -/
theorem projFinal (c : Dev nD) : (projData V c).arrAt 2 cfg0.N = matProd (V c main_arg0) (V c main_v8) :=
  (projData V c).arrAt_eq_of_cover 2 _ (fun t _ => projFlushed V c t) (projCovers)

end Cert.KernelIdeal.Val

end
-- ==== Proof.ValI.Halves.lean ====
/- Two facts about a 2048×512 buffer written in its two 2048×256 column halves (the right half last): what the canonical
   contents of such a list of stores are at an index of either half, and what a load through either half reads. -/
import proofs.«161264_g10471130268016_week1_w2_219_12_alg».proof.Proof.Gen.KernelIdeal
import Idealize.ShloMosaic.Lib.Pipeline.FrameBody
import Idealize.ShloMosaic.Lib.Pipeline.Value
import Idealize.ShloMosaic.Lib.ValueIdx

set_option maxRecDepth 16384

noncomputable section

namespace Cert.KernelIdeal.Val

open Idealize.ShloMosaic Idealize.ShloMosaic.ValueIdx
open Cert.KernelIdeal Cert.KernelIdeal.Gen

variable {Val : EltTy → Type} [∀ e, Nonempty (Val e)]

/-- The left and right column halves of the buffer. -/
abbrev rLeft : Rect S2048x512 := Rect.unit (s := S2048x512) ![0, 0] S2048x256.size inb_S2048x512_S2048x256_0_0
abbrev rRight : Rect S2048x512 := Rect.unit (s := S2048x512) ![0, 256] S2048x256.size inb_S2048x512_S2048x256_0_256

/-- Column `q` of the left half, and of the right half, as columns of the buffer. -/
abbrev colL (q : Fin 256) : Fin 512 := ⟨q.val, by have := q.isLt; omega⟩
abbrev colR (q : Fin 256) : Fin 512 := ⟨256 + q.val, by have := q.isLt; omega⟩

theorem emb_left (p : Fin 2048) (q : Fin 256) : rLeft.emb (ix2 p q) = ix2 p (colL q) := by
  funext a; apply Fin.ext
  match a with
  | ⟨0, _⟩ => show 0 + 1 * p.val = p.val; omega
  | ⟨1, _⟩ => show 0 + 1 * q.val = q.val; omega
theorem emb_right (p : Fin 2048) (q : Fin 256) : rRight.emb (ix2 p q) = ix2 p (colR q) := by
  funext a; apply Fin.ext
  match a with
  | ⟨0, _⟩ => show 0 + 1 * p.val = p.val; omega
  | ⟨1, _⟩ => show 256 + 1 * q.val = 256 + q.val; omega

/-- An index of the left half is not in the right half. -/
theorem not_mem_right (p : Fin 2048) (q : Fin 256) : (ix2 p (colL q) : S2048x512.Idx) ∉ rRight.set := by
  rw [Rect.mem_set_unit]
  intro h
  have h1 := (h 1).1
  have hq := q.isLt
  change 256 ≤ q.val at h1
  omega

/-- Under a last store into the right half, the canonical contents at a right-half index are that store's value; -/
theorem canon_right (wR : rRight.shape.Idx → Val .f32) (L : List (View.Piece Val S2048x512 .f32)) (p : Fin 2048) (q : Fin 256) :
    View.canon (⟨rRight, wR⟩ :: L) (ix2 p (colR q)) = wR (ix2 p q) := by
  rw [← emb_right]; exact View.canon_cons_emb _ _ _ _
/-- and at a left-half index, the value of the store into the left half made before it. -/
theorem canon_left (wR : rRight.shape.Idx → Val .f32) (wL : rLeft.shape.Idx → Val .f32) (L : List (View.Piece Val S2048x512 .f32))
    (p : Fin 2048) (q : Fin 256) :
    View.canon (⟨rRight, wR⟩ :: ⟨rLeft, wL⟩ :: L) (ix2 p (colL q)) = wL (ix2 p q) := by
  refine (View.canon_cons_of_not_mem (⟨rRight, wR⟩ : View.Piece Val S2048x512 .f32) (⟨rLeft, wL⟩ :: L)
    (y := (ix2 p (colL q) : S2048x512.Idx)) (not_mem_right p q)).trans ?_
  rw [← emb_left]; exact View.canon_cons_emb _ _ _ _

/-- An index of the right half is not in the left half. -/
theorem not_mem_left (p : Fin 2048) (q : Fin 256) : (ix2 p (colR q) : S2048x512.Idx) ∉ rLeft.set := by
  rw [Rect.mem_set_unit]
  intro h
  have h1 := (h 1).2
  have hq := q.isLt
  change 256 + q.val < 0 + 256 at h1
  omega
/-- At a right-half index a store into the left half is not seen. -/
theorem canon_skip_left (wL : rLeft.shape.Idx → Val .f32) (L : List (View.Piece Val S2048x512 .f32)) (p : Fin 2048) (q : Fin 256) :
    View.canon (⟨rLeft, wL⟩ :: L) (ix2 p (colR q)) = View.canon L (ix2 p (colR q)) :=
  View.canon_cons_of_not_mem (⟨rLeft, wL⟩ : View.Piece Val S2048x512 .f32) L (y := (ix2 p (colR q) : S2048x512.Idx)) (not_mem_left p q)

theorem hzero2 : (![0, 0] : Fin 2 → Nat) = fun _ => 0 := funext fun a => by fin_cases a <;> rfl

/-- A load through a half reads the buffer at the half's columns. -/
theorem ld_left (X : S2048x512.Idx → Val .f32) (p : Fin 2048) (q : Fin 256) : View.ld X rLeft (ix2 p q) = X (ix2 p (colL q)) := by
  show X (rLeft.emb (ix2 p q)) = _; rw [emb_left]
theorem ld_right (X : S2048x512.Idx → Val .f32) (p : Fin 2048) (q : Fin 256) : View.ld X rRight (ix2 p q) = X (ix2 p (colR q)) := by
  show X (rRight.emb (ix2 p q)) = _; rw [emb_right]

/-- Every column of the buffer is a column of one half. -/
theorem col_cases (e : Fin 512) : (∃ q : Fin 256, e = colL q) ∨ (∃ q : Fin 256, e = colR q) := by
  by_cases h : e.val < 256
  · exact .inl ⟨⟨e.val, h⟩, Fin.ext rfl⟩
  · exact .inr ⟨⟨e.val - 256, by have := e.isLt; omega⟩, Fin.ext (by show e.val = 256 + (e.val - 256); omega)⟩

end Cert.KernelIdeal.Val

end
-- ==== Proof.ValI.AggMidAcc.lean ====
/- The first aggregation layer's accumulator, read at an index at the extended reals. One grid point adds to each column half
   the products of two adjacency blocks with two column strips of the projected features: the left half takes the two
   backward relations' strips, the right half the two forward relations'. A first point adds them to zero. -/
import proofs.«161264_g10471130268016_week1_w2_219_12_alg».proof.Proof.FrameI.AggMid
import proofs.«161264_g10471130268016_week1_w2_219_12_alg».proof.Proof.Payloads
import proofs.«161264_g10471130268016_week1_w2_219_12_alg».proof.Proof.ValI.Halves
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame

variable (V : (c : Dev nD) → (b : Ref sig .tc) → Buf (Elt Ideal) ((c : Thread nD τ).loc b))

/-- One contraction block's contribution to an entry of the left half: two adjacency blocks against the first two column strips. -/
def termL (b0 b1 : Vec Ideal S2048x256 .f32) (xw : Vec Ideal S256x1024 .bf16) (p : Fin 2048) (q : Fin 256) : EReal :=
  (∑ k : Fin 256, b0 (ix2 p k) * xw (ix2 k (⟨q.val, by have := q.isLt; omega⟩ : Fin 1024)))
    + (∑ k : Fin 256, b1 (ix2 p k) * xw (ix2 k (⟨256 + q.val, by have := q.isLt; omega⟩ : Fin 1024)))
/-- and to an entry of the right half: the other two adjacency blocks against the last two column strips. -/
def termR (b2 b3 : Vec Ideal S2048x256 .f32) (xw : Vec Ideal S256x1024 .bf16) (p : Fin 2048) (q : Fin 256) : EReal :=
  (∑ k : Fin 256, b2 (ix2 p k) * xw (ix2 k (⟨512 + q.val, by have := q.isLt; omega⟩ : Fin 1024)))
    + (∑ k : Fin 256, b3 (ix2 p k) * xw (ix2 k (⟨768 + q.val, by have := q.isLt; omega⟩ : Fin 1024)))

/-- The zero fill is zero everywhere. -/
theorem fill_zero (y : S2048x512.Idx) : k1_pay4 (F := Ideal) y = 0 := by
  obtain ⟨p, e, rfl⟩ : ∃ (p : Fin 2048) (e : Fin 512), y = ix2 p e := ⟨y 0, y 1, eq_ix2 y⟩
  exact Pay.k1_pay4_apply_zero p e

/-- A middle point: each half is what was there plus the block's contribution. -/
theorem accMiddle_left (c : Dev nD) (t : Fin cfg1.N) (h0 : ¬t.val % 16 = 0) (h1 : ¬t.val % 16 = 15) (xs : Vec Ideal S2048x512 .f32)
    (p : Fin 2048) (q : Fin 256) :
    accMiddle V c t h0 h1 xs (ix2 p (colL q)) = xs (ix2 p (colL q)) + termL (mblk V c 0 t) (mblk V c 1 t) (mblk V c 4 t) p q := by
  unfold accMiddle
  rw [View.read_writes_junk_eq_canon]
  unfold runMiddle1
  dsimp only
  sl_unfold_words
  rw [canon_left]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k1_pay6_apply, ld_left]
  exact congrArg₂ (· + ·) (congrFun ((Memref.isWhole_whole cc1_scratch0).read_unread xs) _) rfl
theorem accMiddle_right (c : Dev nD) (t : Fin cfg1.N) (h0 : ¬t.val % 16 = 0) (h1 : ¬t.val % 16 = 15) (xs : Vec Ideal S2048x512 .f32)
    (p : Fin 2048) (q : Fin 256) :
    accMiddle V c t h0 h1 xs (ix2 p (colR q)) = xs (ix2 p (colR q)) + termR (mblk V c 2 t) (mblk V c 3 t) (mblk V c 4 t) p q := by
  unfold accMiddle
  rw [View.read_writes_junk_eq_canon]
  unfold runMiddle1
  dsimp only
  sl_unfold_words
  rw [canon_right]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k1_pay1_eq, Pay.k1_pay7_apply, ld_right]
  exact congrArg₂ (· + ·) (congrFun ((Memref.isWhole_whole cc1_scratch0).read_unread xs) _) rfl

/-- A last point adds to the accumulator exactly as a middle point does. -/
theorem accLast_left (c : Dev nD) (t : Fin cfg1.N) (h0 : ¬t.val % 16 = 0) (h1 : t.val % 16 = 15) (xs : Vec Ideal S2048x512 .f32)
    (p : Fin 2048) (q : Fin 256) :
    accLast V c t h0 h1 xs (ix2 p (colL q)) = xs (ix2 p (colL q)) + termL (mblk V c 0 t) (mblk V c 1 t) (mblk V c 4 t) p q := by
  unfold accLast
  rw [View.read_writes_junk_eq_canon]
  unfold runLast1
  dsimp only
  sl_unfold_words
  rw [canon_left]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k1_pay6_apply, ld_left]
  exact congrArg₂ (· + ·) (congrFun ((Memref.isWhole_whole cc1_scratch0).read_unread xs) _) rfl
theorem accLast_right (c : Dev nD) (t : Fin cfg1.N) (h0 : ¬t.val % 16 = 0) (h1 : t.val % 16 = 15) (xs : Vec Ideal S2048x512 .f32)
    (p : Fin 2048) (q : Fin 256) :
    accLast V c t h0 h1 xs (ix2 p (colR q)) = xs (ix2 p (colR q)) + termR (mblk V c 2 t) (mblk V c 3 t) (mblk V c 4 t) p q := by
  unfold accLast
  rw [View.read_writes_junk_eq_canon]
  unfold runLast1
  dsimp only
  sl_unfold_words
  rw [canon_right]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k1_pay1_eq, Pay.k1_pay7_apply, ld_right]
  exact congrArg₂ (· + ·) (congrFun ((Memref.isWhole_whole cc1_scratch0).read_unread xs) _) rfl

/-- A first point adds the block's contribution to the zero fill. -/
theorem accFirst_left (c : Dev nD) (t : Fin cfg1.N) (h0 : t.val % 16 = 0) (h1 : ¬t.val % 16 = 15) (p : Fin 2048) (q : Fin 256) :
    accFirst V c t h0 h1 (ix2 p (colL q)) = 0 + termL (mblk V c 0 t) (mblk V c 1 t) (mblk V c 4 t) p q := by
  unfold accFirst
  rw [View.read_writes_junk_eq_canon]
  unfold runFirst1
  dsimp only
  sl_unfold_words
  rw [canon_left]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k1_pay6_apply, View.readCov_eq_canon']
  dsimp only
  rw [View.canon_unit_zero hzero2, fill_zero]
  rfl
theorem accFirst_right (c : Dev nD) (t : Fin cfg1.N) (h0 : t.val % 16 = 0) (h1 : ¬t.val % 16 = 15) (p : Fin 2048) (q : Fin 256) :
    accFirst V c t h0 h1 (ix2 p (colR q)) = 0 + termR (mblk V c 2 t) (mblk V c 3 t) (mblk V c 4 t) p q := by
  unfold accFirst
  rw [View.read_writes_junk_eq_canon]
  unfold runFirst1
  dsimp only
  sl_unfold_words
  rw [canon_right]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k1_pay1_eq, Pay.k1_pay7_apply, View.readCov_eq_canon']
  dsimp only
  have e : (rRight : LoadRect S2048x512).idx (ix2 p q) = ix2 p (colR q) := emb_right p q
  rw [e, canon_skip_left, View.canon_unit_zero hzero2, fill_zero]
  rfl

/-- A load of the whole accumulator after its two half stores reads their canonical contents. -/
theorem whole_idx (j : S2048x512.Idx) :
    ((Rect.unit (s := S2048x512) ![0, 0] S2048x512.size inb_S2048x512_S2048x512_0_0 : Rect S2048x512) : LoadRect S2048x512).idx j = j := by
  funext a; apply Fin.ext
  match a with
  | ⟨0, _⟩ => show 0 + 1 * (j 0).val = (j 0).val; omega
  | ⟨1, _⟩ => show 0 + 1 * (j 1).val = (j 1).val; omega

/-- At a last point the first output's buffer is the epilogue applied to the finished accumulator: rectified pre-activation
    times the linear weights, plus the linear bias, plus the layer's input block; -/
theorem outLast10_eq (c : Dev nD) (t : Fin cfg1.N) (h0 : ¬t.val % 16 = 0) (h1 : t.val % 16 = 15) (xs : Vec Ideal S2048x512 .f32) :
    outLast10 V c t h0 h1 xs = k1_pay2 (accLast V c t h0 h1 xs) (mblk V c 6 t) (mblk V c 5 t) (mblk V c 7 t) (mblk V c 8 t) := by
  unfold outLast10 accLast
  rw [View.read_writes_junk_eq_canon, View.read_writes_junk_eq_canon]
  unfold runLast1
  dsimp only
  sl_unfold_words
  rw [View.canon_unit_zero hzero2]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [View.readCov_eq_canon']
  refine congrArg (fun z => k1_pay2 z (mblk V c 6 t) (mblk V c 5 t) (mblk V c 7 t) (mblk V c 8 t)) ?_
  funext j
  exact congrArg _ (whole_idx j)
/-- and the second output's buffer is that result times the next layer's weight matrix. -/
theorem outLast11_eq (c : Dev nD) (t : Fin cfg1.N) (h0 : ¬t.val % 16 = 0) (h1 : t.val % 16 = 15) (xs : Vec Ideal S2048x512 .f32) :
    outLast11 V c t h0 h1 xs = k1_pay3 (accLast V c t h0 h1 xs) (mblk V c 6 t) (mblk V c 5 t) (mblk V c 7 t) (mblk V c 8 t) (mblk V c 9 t) := by
  unfold outLast11 accLast
  rw [View.read_writes_junk_eq_canon, View.read_writes_junk_eq_canon]
  unfold runLast1
  dsimp only
  sl_unfold_words
  rw [View.canon_unit_zero hzero2]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [View.readCov_eq_canon']
  refine congrArg (fun z => k1_pay3 z (mblk V c 6 t) (mblk V c 5 t) (mblk V c 7 t) (mblk V c 8 t) (mblk V c 9 t)) ?_
  funext j
  exact congrArg _ (whole_idx j)

end Cert.KernelIdeal.Val

end
-- ==== Proof.ValI.Blocks1.lean ====
/-
  The blocks of the first aggregation region's windows read at array indices, and the covers of its outputs.

  The region's grid has 2 row blocks of 2048 rows and 16 contraction blocks of 256 nodes; point `16 i + kb` is row
  block `i` at contraction block `kb`. An adjacency window's block at that point is rows `2048 i + p` and columns
  `256 kb + k` of its array; the projected features' block is rows `256 kb + k`; the residual's and the outputs' blocks
  are rows `2048 i + p`; the weights' and biases' windows are whole arrays. A block's coordinate is always the block
  index times the block size plus the coordinate inside the block. The outputs are written back at the last contraction
  block of each row block, and those blocks cover the arrays.
-/
import proofs.«161264_g10471130268016_week1_w2_219_12_alg».proof.Proof.FrameI.AggMid
import proofs.«161264_g10471130268016_week1_w2_219_12_alg».proof.Proof.SumLaws
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame
open Cert.SumLaws (node node_val)

variable (V : (c : Dev nD) → (b : Ref sig .tc) → Buf (Elt Ideal) ((c : Thread nD τ).loc b))

/-! ## Points and rows -/

/-- The grid point of row block `i` at contraction block `kb`. -/
def pt1 (i : Fin 2) (kb : Fin 16) : Fin cfg1.N :=
  ⟨16 * i.val + kb.val, by have hN : cfg1.N = 32 := N_1; have := i.isLt; have := kb.isLt; omega⟩

@[simp] theorem pt1_val (i : Fin 2) (kb : Fin 16) : (pt1 i kb).val = 16 * i.val + kb.val := rfl

/-- Every grid point is of that form. -/
theorem eq_pt1 (t : Fin cfg1.N) :
    t = pt1 ⟨t.val / 16, by have hN : cfg1.N = 32 := N_1; have := t.isLt; omega⟩ ⟨t.val % 16, Nat.mod_lt _ (by decide)⟩ :=
  Fin.ext (by show t.val = 16 * (t.val / 16) + t.val % 16; omega)

/-- Row `p` of row block `i`. -/
def row (i : Fin 2) (p : Fin 2048) : Fin 4096 := ⟨2048 * i.val + p.val, by have := i.isLt; have := p.isLt; omega⟩

@[simp] theorem row_val (i : Fin 2) (p : Fin 2048) : (row i p).val = 2048 * i.val + p.val := rfl

/-! ## The printed index maps over the 32 grid points -/

/-- Window 0's block indices at point `t`. -/
theorem win1_idx_0 : ∀ t : Fin cfg1.N, win1_0.index t (0 : Fin 2) = t.val / 16 ∧ win1_0.index t (1 : Fin 2) = t.val % 16 :=
  (by decide +kernel : ∀ t : Fin grid1.N, _)

/-- Window 1's block indices at point `t`. -/
theorem win1_idx_1 : ∀ t : Fin cfg1.N, win1_1.index t (0 : Fin 2) = t.val / 16 ∧ win1_1.index t (1 : Fin 2) = t.val % 16 :=
  (by decide +kernel : ∀ t : Fin grid1.N, _)

/-- Window 2's block indices at point `t`. -/
theorem win1_idx_2 : ∀ t : Fin cfg1.N, win1_2.index t (0 : Fin 2) = t.val / 16 ∧ win1_2.index t (1 : Fin 2) = t.val % 16 :=
  (by decide +kernel : ∀ t : Fin grid1.N, _)

/-- Window 3's block indices at point `t`. -/
theorem win1_idx_3 : ∀ t : Fin cfg1.N, win1_3.index t (0 : Fin 2) = t.val / 16 ∧ win1_3.index t (1 : Fin 2) = t.val % 16 :=
  (by decide +kernel : ∀ t : Fin grid1.N, _)

/-- Window 4's block indices at point `t`. -/
theorem win1_idx_4 : ∀ t : Fin cfg1.N, win1_4.index t (0 : Fin 2) = t.val % 16 ∧ win1_4.index t (1 : Fin 2) = 0 :=
  (by decide +kernel : ∀ t : Fin grid1.N, _)

/-- Window 5's block indices at point `t`. -/
theorem win1_idx_5 : ∀ t : Fin cfg1.N, win1_5.index t (0 : Fin 2) = 0 ∧ win1_5.index t (1 : Fin 2) = 0 :=
  (by decide +kernel : ∀ t : Fin grid1.N, _)

/-- Window 6's block indices at point `t`. -/
theorem win1_idx_6 : ∀ t : Fin cfg1.N, win1_6.index t (0 : Fin 2) = 0 ∧ win1_6.index t (1 : Fin 2) = 0 :=
  (by decide +kernel : ∀ t : Fin grid1.N, _)

/-- Window 7's block indices at point `t`. -/
theorem win1_idx_7 : ∀ t : Fin cfg1.N, win1_7.index t (0 : Fin 2) = 0 ∧ win1_7.index t (1 : Fin 2) = 0 :=
  (by decide +kernel : ∀ t : Fin grid1.N, _)

/-- Window 8's block indices at point `t`. -/
theorem win1_idx_8 : ∀ t : Fin cfg1.N, win1_8.index t (0 : Fin 2) = t.val / 16 ∧ win1_8.index t (1 : Fin 2) = 0 :=
  (by decide +kernel : ∀ t : Fin grid1.N, _)

/-- Window 9's block indices at point `t`. -/
theorem win1_idx_9 : ∀ t : Fin cfg1.N, win1_9.index t (0 : Fin 2) = 0 ∧ win1_9.index t (1 : Fin 2) = 0 :=
  (by decide +kernel : ∀ t : Fin grid1.N, _)

/-- Window 10's block indices at point `t`. -/
theorem win1_idx_10 : ∀ t : Fin cfg1.N, win1_10.index t (0 : Fin 2) = t.val / 16 ∧ win1_10.index t (1 : Fin 2) = 0 :=
  (by decide +kernel : ∀ t : Fin grid1.N, _)

/-- Window 11's block indices at point `t`. -/
theorem win1_idx_11 : ∀ t : Fin cfg1.N, win1_11.index t (0 : Fin 2) = t.val / 16 ∧ win1_11.index t (1 : Fin 2) = 0 :=
  (by decide +kernel : ∀ t : Fin grid1.N, _)

/-! ## The input windows' blocks at array indices -/

/-- Window 0's block at point `16 i + kb`: rows `2048 i + p`, columns `256 kb + k` of its array. -/
theorem mblk_0 (c : Dev nD) (i : Fin 2) (kb : Fin 16) (p : Fin 2048) (k : Fin 256) :
    (mblk V c 0 (pt1 i kb) : S2048x256.Idx → EReal) (ix2 p k)
      = (V c main_arg3 : S4096x4096.Idx → EReal) (ix2 (row i p) (node kb k)) := by
  obtain ⟨e0, e1⟩ := win1_idx_0 (pt1 i kb)
  have hi := i.isLt
  have hk := kb.isLt
  have e0' : win1_0.index (pt1 i kb) (0 : Fin 2) = (16 * i.val + kb.val) / 16 := e0
  have e1' : win1_0.index (pt1 i kb) (1 : Fin 2) = (16 * i.val + kb.val) % 16 := e1
  show V c main_arg3 (((cfg1.win 0).blk (pt1 i kb)).view.emb (ix2 p k)) = V c main_arg3 (ix2 (row i p) (node kb k))
  congr 1; funext a; apply Fin.ext
  match a with
  | ⟨0, _⟩ => show win1_0.index (pt1 i kb) (0 : Fin 2) * 2048 + 1 * p.val = 2048 * i.val + p.val; omega
  | ⟨1, _⟩ => show win1_0.index (pt1 i kb) (1 : Fin 2) * 256 + 1 * k.val = kb.val * 256 + k.val; omega

/-- Window 1's block at point `16 i + kb`: rows `2048 i + p`, columns `256 kb + k` of its array. -/
theorem mblk_1 (c : Dev nD) (i : Fin 2) (kb : Fin 16) (p : Fin 2048) (k : Fin 256) :
    (mblk V c 1 (pt1 i kb) : S2048x256.Idx → EReal) (ix2 p k)
      = (V c main_arg4 : S4096x4096.Idx → EReal) (ix2 (row i p) (node kb k)) := by
  obtain ⟨e0, e1⟩ := win1_idx_1 (pt1 i kb)
  have hi := i.isLt
  have hk := kb.isLt
  have e0' : win1_1.index (pt1 i kb) (0 : Fin 2) = (16 * i.val + kb.val) / 16 := e0
  have e1' : win1_1.index (pt1 i kb) (1 : Fin 2) = (16 * i.val + kb.val) % 16 := e1
  show V c main_arg4 (((cfg1.win 1).blk (pt1 i kb)).view.emb (ix2 p k)) = V c main_arg4 (ix2 (row i p) (node kb k))
  congr 1; funext a; apply Fin.ext
  match a with
  | ⟨0, _⟩ => show win1_1.index (pt1 i kb) (0 : Fin 2) * 2048 + 1 * p.val = 2048 * i.val + p.val; omega
  | ⟨1, _⟩ => show win1_1.index (pt1 i kb) (1 : Fin 2) * 256 + 1 * k.val = kb.val * 256 + k.val; omega

/-- Window 2's block at point `16 i + kb`: rows `2048 i + p`, columns `256 kb + k` of its array. -/
theorem mblk_2 (c : Dev nD) (i : Fin 2) (kb : Fin 16) (p : Fin 2048) (k : Fin 256) :
    (mblk V c 2 (pt1 i kb) : S2048x256.Idx → EReal) (ix2 p k)
      = (V c main_arg1 : S4096x4096.Idx → EReal) (ix2 (row i p) (node kb k)) := by
  obtain ⟨e0, e1⟩ := win1_idx_2 (pt1 i kb)
  have hi := i.isLt
  have hk := kb.isLt
  have e0' : win1_2.index (pt1 i kb) (0 : Fin 2) = (16 * i.val + kb.val) / 16 := e0
  have e1' : win1_2.index (pt1 i kb) (1 : Fin 2) = (16 * i.val + kb.val) % 16 := e1
  show V c main_arg1 (((cfg1.win 2).blk (pt1 i kb)).view.emb (ix2 p k)) = V c main_arg1 (ix2 (row i p) (node kb k))
  congr 1; funext a; apply Fin.ext
  match a with
  | ⟨0, _⟩ => show win1_2.index (pt1 i kb) (0 : Fin 2) * 2048 + 1 * p.val = 2048 * i.val + p.val; omega
  | ⟨1, _⟩ => show win1_2.index (pt1 i kb) (1 : Fin 2) * 256 + 1 * k.val = kb.val * 256 + k.val; omega

/-- Window 3's block at point `16 i + kb`: rows `2048 i + p`, columns `256 kb + k` of its array. -/
theorem mblk_3 (c : Dev nD) (i : Fin 2) (kb : Fin 16) (p : Fin 2048) (k : Fin 256) :
    (mblk V c 3 (pt1 i kb) : S2048x256.Idx → EReal) (ix2 p k)
      = (V c main_arg2 : S4096x4096.Idx → EReal) (ix2 (row i p) (node kb k)) := by
  obtain ⟨e0, e1⟩ := win1_idx_3 (pt1 i kb)
  have hi := i.isLt
  have hk := kb.isLt
  have e0' : win1_3.index (pt1 i kb) (0 : Fin 2) = (16 * i.val + kb.val) / 16 := e0
  have e1' : win1_3.index (pt1 i kb) (1 : Fin 2) = (16 * i.val + kb.val) % 16 := e1
  show V c main_arg2 (((cfg1.win 3).blk (pt1 i kb)).view.emb (ix2 p k)) = V c main_arg2 (ix2 (row i p) (node kb k))
  congr 1; funext a; apply Fin.ext
  match a with
  | ⟨0, _⟩ => show win1_3.index (pt1 i kb) (0 : Fin 2) * 2048 + 1 * p.val = 2048 * i.val + p.val; omega
  | ⟨1, _⟩ => show win1_3.index (pt1 i kb) (1 : Fin 2) * 256 + 1 * k.val = kb.val * 256 + k.val; omega

/-- Window 4's block at point `16 i + kb`: rows `256 kb + k` of its array. -/
theorem mblk_4 (c : Dev nD) (i : Fin 2) (kb : Fin 16) (k : Fin 256) (col : Fin 1024) :
    (mblk V c 4 (pt1 i kb) : S256x1024.Idx → EReal) (ix2 k col)
      = (V c main_v48 : S4096x1024.Idx → EReal) (ix2 (node kb k) (col)) := by
  obtain ⟨e0, e1⟩ := win1_idx_4 (pt1 i kb)
  have hi := i.isLt
  have hk := kb.isLt
  have e0' : win1_4.index (pt1 i kb) (0 : Fin 2) = (16 * i.val + kb.val) % 16 := e0
  have e1' : win1_4.index (pt1 i kb) (1 : Fin 2) = 0 := e1
  show V c main_v48 (((cfg1.win 4).blk (pt1 i kb)).view.emb (ix2 k col)) = V c main_v48 (ix2 (node kb k) (col))
  congr 1; funext a; apply Fin.ext
  match a with
  | ⟨0, _⟩ => show win1_4.index (pt1 i kb) (0 : Fin 2) * 256 + 1 * k.val = kb.val * 256 + k.val; omega
  | ⟨1, _⟩ => show win1_4.index (pt1 i kb) (1 : Fin 2) * 1024 + 1 * col.val = col.val; omega

/-- Window 5 is its whole array. -/
theorem mblk_5 (c : Dev nD) (t : Fin cfg1.N) :
    (mblk V c 5 t : S512x512.Idx → EReal) = (V c main_v50 : S512x512.Idx → EReal) := by
  obtain ⟨e0, e1⟩ := win1_idx_5 t
  funext j
  obtain ⟨p, q, rfl⟩ : ∃ (p : Fin 512) (q : Fin 512), j = ix2 p q := ⟨j 0, j 1, eq_ix2 j⟩
  show V c main_v50 (((cfg1.win 5).blk t).view.emb (ix2 p q)) = V c main_v50 (ix2 p q)
  congr 1; funext a; apply Fin.ext
  match a with
  | ⟨0, _⟩ => show win1_5.index t (0 : Fin 2) * 512 + 1 * p.val = p.val; omega
  | ⟨1, _⟩ => show win1_5.index t (1 : Fin 2) * 512 + 1 * q.val = q.val; omega

/-- Window 6 is its whole array. -/
theorem mblk_6 (c : Dev nD) (t : Fin cfg1.N) :
    (mblk V c 6 t : S1x512.Idx → EReal) = (V c main_v29 : S1x512.Idx → EReal) := by
  obtain ⟨e0, e1⟩ := win1_idx_6 t
  funext j
  obtain ⟨p, q, rfl⟩ : ∃ (p : Fin 1) (q : Fin 512), j = ix2 p q := ⟨j 0, j 1, eq_ix2 j⟩
  show V c main_v29 (((cfg1.win 6).blk t).view.emb (ix2 p q)) = V c main_v29 (ix2 p q)
  congr 1; funext a; apply Fin.ext
  match a with
  | ⟨0, _⟩ => show win1_6.index t (0 : Fin 2) * 1 + 1 * p.val = p.val; omega
  | ⟨1, _⟩ => show win1_6.index t (1 : Fin 2) * 512 + 1 * q.val = q.val; omega

/-- Window 7 is its whole array. -/
theorem mblk_7 (c : Dev nD) (t : Fin cfg1.N) :
    (mblk V c 7 t : S1x512.Idx → EReal) = (V c main_v44 : S1x512.Idx → EReal) := by
  obtain ⟨e0, e1⟩ := win1_idx_7 t
  funext j
  obtain ⟨p, q, rfl⟩ : ∃ (p : Fin 1) (q : Fin 512), j = ix2 p q := ⟨j 0, j 1, eq_ix2 j⟩
  show V c main_v44 (((cfg1.win 7).blk t).view.emb (ix2 p q)) = V c main_v44 (ix2 p q)
  congr 1; funext a; apply Fin.ext
  match a with
  | ⟨0, _⟩ => show win1_7.index t (0 : Fin 2) * 1 + 1 * p.val = p.val; omega
  | ⟨1, _⟩ => show win1_7.index t (1 : Fin 2) * 512 + 1 * q.val = q.val; omega

/-- Window 8's block at point `16 i + kb`: rows `2048 i + p` of its array. -/
theorem mblk_8 (c : Dev nD) (i : Fin 2) (kb : Fin 16) (p : Fin 2048) (j : Fin 512) :
    (mblk V c 8 (pt1 i kb) : S2048x512.Idx → EReal) (ix2 p j)
      = (V c main_arg0 : S4096x512.Idx → EReal) (ix2 (row i p) (j)) := by
  obtain ⟨e0, e1⟩ := win1_idx_8 (pt1 i kb)
  have hi := i.isLt
  have hk := kb.isLt
  have e0' : win1_8.index (pt1 i kb) (0 : Fin 2) = (16 * i.val + kb.val) / 16 := e0
  have e1' : win1_8.index (pt1 i kb) (1 : Fin 2) = 0 := e1
  show V c main_arg0 (((cfg1.win 8).blk (pt1 i kb)).view.emb (ix2 p j)) = V c main_arg0 (ix2 (row i p) (j))
  congr 1; funext a; apply Fin.ext
  match a with
  | ⟨0, _⟩ => show win1_8.index (pt1 i kb) (0 : Fin 2) * 2048 + 1 * p.val = 2048 * i.val + p.val; omega
  | ⟨1, _⟩ => show win1_8.index (pt1 i kb) (1 : Fin 2) * 512 + 1 * j.val = j.val; omega

/-- Window 9 is its whole array. -/
theorem mblk_9 (c : Dev nD) (t : Fin cfg1.N) :
    (mblk V c 9 t : S512x1024.Idx → EReal) = (V c main_v17 : S512x1024.Idx → EReal) := by
  obtain ⟨e0, e1⟩ := win1_idx_9 t
  funext j
  obtain ⟨p, q, rfl⟩ : ∃ (p : Fin 512) (q : Fin 1024), j = ix2 p q := ⟨j 0, j 1, eq_ix2 j⟩
  show V c main_v17 (((cfg1.win 9).blk t).view.emb (ix2 p q)) = V c main_v17 (ix2 p q)
  congr 1; funext a; apply Fin.ext
  match a with
  | ⟨0, _⟩ => show win1_9.index t (0 : Fin 2) * 512 + 1 * p.val = p.val; omega
  | ⟨1, _⟩ => show win1_9.index t (1 : Fin 2) * 1024 + 1 * q.val = q.val; omega

/-! ## The outputs: a block coordinate in the array, membership, cover -/

/-- Output window 10's block at the last contraction block of row block `i` sits at rows `2048 i + p` of its array. -/
theorem win1_emb_10 (i : Fin 2) (p : Fin 2048) (j : Fin 512) :
    ((cfg1.win 10).blk (pt1 i 15)).view.emb (ix2 p j) = (ix2 (row i p) j : S4096x512.Idx) := by
  obtain ⟨e0, e1⟩ := win1_idx_10 (pt1 i 15)
  have hi := i.isLt
  have e0' : win1_10.index (pt1 i 15) (0 : Fin 2) = (16 * i.val + 15) / 16 := e0
  funext a; apply Fin.ext
  match a with
  | ⟨0, _⟩ => show win1_10.index (pt1 i 15) (0 : Fin 2) * 2048 + 1 * p.val = 2048 * i.val + p.val; omega
  | ⟨1, _⟩ => show win1_10.index (pt1 i 15) (1 : Fin 2) * 512 + 1 * j.val = j.val; omega

/-- An index of the array is in point `t`'s block of output window 10 iff each coordinate is in the block's range on its axis. -/
theorem win1_mem_10 (t : Fin cfg1.N) (x : S4096x512.Idx) :
    x ∈ ((cfg1.win 10).blk t).view.set ↔ ∀ a : Fin 2, win1_10.index t a * S2048x512.size a ≤ (x a).val ∧ (x a).val < win1_10.index t a * S2048x512.size a + S2048x512.size a := by
  show x ∈ ((View.whole main_v51_0).slice (win1_10.rect t)).set ↔ _
  rw [View.set_slice_whole, Rect.mem_set_unit]
  exact Iff.rfl

/-- Every index of the array is in a block that is written back: the last contraction block of the row block that holds
    the index's row. -/
theorem win1_covers_10 (x : S4096x512.Idx) : ∃ t : Fin cfg1.N, (cfg1.win 10).flush t = true ∧ x ∈ ((cfg1.win 10).blk t).view.set := by
  have hx0 : (x 0).val < 4096 := (x 0).isLt
  have hx1 : (x 1).val < 512 := (x 1).isLt
  obtain ⟨e0, e1⟩ := win1_idx_10 (pt1 ⟨(x 0).val / 2048, by omega⟩ 15)
  have e0' : win1_10.index (pt1 ⟨(x 0).val / 2048, by omega⟩ 15) (0 : Fin 2) = (16 * ((x 0).val / 2048) + 15) / 16 := e0
  refine ⟨pt1 ⟨(x 0).val / 2048, by omega⟩ 15, (flush1_10 _).mpr (by show (16 * ((x 0).val / 2048) + 15) % 16 = 15; omega), ?_⟩
  rw [win1_mem_10]
  intro a
  match a with
  | ⟨0, _⟩ => show win1_10.index _ (0 : Fin 2) * 2048 ≤ (x 0).val ∧ (x 0).val < win1_10.index _ (0 : Fin 2) * 2048 + 2048; omega
  | ⟨1, _⟩ => show win1_10.index _ (1 : Fin 2) * 512 ≤ (x 1).val ∧ (x 1).val < win1_10.index _ (1 : Fin 2) * 512 + 512; omega

/-- Output window 11's block at the last contraction block of row block `i` sits at rows `2048 i + p` of its array. -/
theorem win1_emb_11 (i : Fin 2) (p : Fin 2048) (j : Fin 1024) :
    ((cfg1.win 11).blk (pt1 i 15)).view.emb (ix2 p j) = (ix2 (row i p) j : S4096x1024.Idx) := by
  obtain ⟨e0, e1⟩ := win1_idx_11 (pt1 i 15)
  have hi := i.isLt
  have e0' : win1_11.index (pt1 i 15) (0 : Fin 2) = (16 * i.val + 15) / 16 := e0
  funext a; apply Fin.ext
  match a with
  | ⟨0, _⟩ => show win1_11.index (pt1 i 15) (0 : Fin 2) * 2048 + 1 * p.val = 2048 * i.val + p.val; omega
  | ⟨1, _⟩ => show win1_11.index (pt1 i 15) (1 : Fin 2) * 1024 + 1 * j.val = j.val; omega

/-- An index of the array is in point `t`'s block of output window 11 iff each coordinate is in the block's range on its axis. -/
theorem win1_mem_11 (t : Fin cfg1.N) (x : S4096x1024.Idx) :
    x ∈ ((cfg1.win 11).blk t).view.set ↔ ∀ a : Fin 2, win1_11.index t a * S2048x1024.size a ≤ (x a).val ∧ (x a).val < win1_11.index t a * S2048x1024.size a + S2048x1024.size a := by
  show x ∈ ((View.whole main_v51_1).slice (win1_11.rect t)).set ↔ _
  rw [View.set_slice_whole, Rect.mem_set_unit]
  exact Iff.rfl

/-- Every index of the array is in a block that is written back: the last contraction block of the row block that holds
    the index's row. -/
theorem win1_covers_11 (x : S4096x1024.Idx) : ∃ t : Fin cfg1.N, (cfg1.win 11).flush t = true ∧ x ∈ ((cfg1.win 11).blk t).view.set := by
  have hx0 : (x 0).val < 4096 := (x 0).isLt
  have hx1 : (x 1).val < 1024 := (x 1).isLt
  obtain ⟨e0, e1⟩ := win1_idx_11 (pt1 ⟨(x 0).val / 2048, by omega⟩ 15)
  have e0' : win1_11.index (pt1 ⟨(x 0).val / 2048, by omega⟩ 15) (0 : Fin 2) = (16 * ((x 0).val / 2048) + 15) / 16 := e0
  refine ⟨pt1 ⟨(x 0).val / 2048, by omega⟩ 15, (flush1_11 _).mpr (by show (16 * ((x 0).val / 2048) + 15) % 16 = 15; omega), ?_⟩
  rw [win1_mem_11]
  intro a
  match a with
  | ⟨0, _⟩ => show win1_11.index _ (0 : Fin 2) * 2048 ≤ (x 0).val ∧ (x 0).val < win1_11.index _ (0 : Fin 2) * 2048 + 2048; omega
  | ⟨1, _⟩ => show win1_11.index _ (1 : Fin 2) * 1024 ≤ (x 1).val ∧ (x 1).val < win1_11.index _ (1 : Fin 2) * 1024 + 1024; omega

end Cert.KernelIdeal.Val

end
-- ==== Proof.ValI.AggMidValue.lean ====
/- The first aggregation layer's value at the extended reals. The accumulator after the last contraction block of a row block is
   zero plus the sum, over the sixteen contraction blocks in order, of each block's contribution; the epilogue turns it into the
   layer's output block and the next layer's projection block; the row blocks cover the two output arrays. -/
import proofs.«161264_g10471130268016_week1_w2_219_12_alg».proof.Proof.FrameI.AggMid
import proofs.«161264_g10471130268016_week1_w2_219_12_alg».proof.Proof.Payloads
import proofs.«161264_g10471130268016_week1_w2_219_12_alg».proof.Proof.SumLaws
import proofs.«161264_g10471130268016_week1_w2_219_12_alg».proof.Proof.ValI.Halves
import proofs.«161264_g10471130268016_week1_w2_219_12_alg».proof.Proof.ValI.AggMidAcc
import proofs.«161264_g10471130268016_week1_w2_219_12_alg».proof.Proof.ValI.Blocks1
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame

variable (V : (c : Dev nD) → (b : Ref sig .tc) → Buf (Elt Ideal) ((c : Thread nD τ).loc b))

/-- The accumulator after position `n` (zero past the grid). -/
def accN (c : Dev nD) (n : ℕ) : Vec Ideal S2048x512 .f32 := if h : n < cfg1.N then (accAt V c n h).2.2 else fun _ => 0
theorem accN_of_lt (c : Dev nD) (n : ℕ) (h : n < cfg1.N) : accN V c n = (accAt V c n h).2.2 := dif_pos h

/-- Point `t`'s contribution to an entry of the left half, and of the right half. -/
def contribL (c : Dev nD) (t : Fin cfg1.N) (p : Fin 2048) (q : Fin 256) : EReal := termL (mblk V c 0 t) (mblk V c 1 t) (mblk V c 4 t) p q
def contribR (c : Dev nD) (t : Fin cfg1.N) (p : Fin 2048) (q : Fin 256) : EReal := termR (mblk V c 2 t) (mblk V c 3 t) (mblk V c 4 t) p q

theorem accN_first_left (c : Dev nD) (t : Fin cfg1.N) (h0 : t.val % 16 = 0) (p : Fin 2048) (q : Fin 256) :
    accN V c t.val (ix2 p (colL q)) = 0 + contribL V c t p q := by
  have h1 : ¬t.val % 16 = 15 := by omega
  rw [accN_of_lt V c t.val t.isLt, accAt_first V c t h0 h1]
  dsimp only
  unfold contribL
  exact accFirst_left V c t h0 h1 p q
theorem accN_first_right (c : Dev nD) (t : Fin cfg1.N) (h0 : t.val % 16 = 0) (p : Fin 2048) (q : Fin 256) :
    accN V c t.val (ix2 p (colR q)) = 0 + contribR V c t p q := by
  have h1 : ¬t.val % 16 = 15 := by omega
  rw [accN_of_lt V c t.val t.isLt, accAt_first V c t h0 h1]
  dsimp only
  unfold contribR
  exact accFirst_right V c t h0 h1 p q
theorem accN_step_left (c : Dev nD) (t : Fin cfg1.N) (h0 : ¬t.val % 16 = 0) (p : Fin 2048) (q : Fin 256) :
    accN V c t.val (ix2 p (colL q)) = accN V c (t.val - 1) (ix2 p (colL q)) + contribL V c t p q := by
  have hp : t.val - 1 < cfg1.N := Nat.lt_of_le_of_lt (Nat.sub_le _ _) t.isLt
  rw [accN_of_lt V c t.val t.isLt, accN_of_lt V c (t.val - 1) hp]
  by_cases h1 : t.val % 16 = 15
  · rw [accAt_last V c t h0 h1]; dsimp only; unfold contribL; exact accLast_left V c t h0 h1 _ p q
  · rw [accAt_middle V c t h0 h1]; dsimp only; unfold contribL; exact accMiddle_left V c t h0 h1 _ p q
theorem accN_step_right (c : Dev nD) (t : Fin cfg1.N) (h0 : ¬t.val % 16 = 0) (p : Fin 2048) (q : Fin 256) :
    accN V c t.val (ix2 p (colR q)) = accN V c (t.val - 1) (ix2 p (colR q)) + contribR V c t p q := by
  have hp : t.val - 1 < cfg1.N := Nat.lt_of_le_of_lt (Nat.sub_le _ _) t.isLt
  rw [accN_of_lt V c t.val t.isLt, accN_of_lt V c (t.val - 1) hp]
  by_cases h1 : t.val % 16 = 15
  · rw [accAt_last V c t h0 h1]; dsimp only; unfold contribR; exact accLast_right V c t h0 h1 _ p q
  · rw [accAt_middle V c t h0 h1]; dsimp only; unfold contribR; exact accMiddle_right V c t h0 h1 _ p q

/-- The running total over a row block's sixteen points, for any per-point contribution that starts from zero at the first
    point and is added at each later one. -/
theorem total_of_steps (c : Dev nD) (i : Fin 2) (y : S2048x512.Idx) (term : Fin cfg1.N → EReal)
    (hfirst : ∀ t : Fin cfg1.N, t.val % 16 = 0 → accN V c t.val y = 0 + term t)
    (hstep : ∀ t : Fin cfg1.N, ¬t.val % 16 = 0 → accN V c t.val y = accN V c (t.val - 1) y + term t) :
    accN V c (16 * i.val + 15) y = 0 + ∑ kb : Fin 16, term (pt1 i kb) := by
  have hN : cfg1.N = 32 := N_1
  have hi := i.isLt
  have key := Cert.SumLaws.running_total 16 (0 : EReal) (fun kb => term (pt1 i kb))
    (fun j => if j = 0 then 0 else accN V c (16 * i.val + (j - 1)) y) rfl (fun kb => by
      have hk := kb.isLt
      have hv : (pt1 i kb).val = 16 * i.val + kb.val := pt1_val i kb
      by_cases hz : kb.val = 0
      · have h0 : (pt1 i kb).val % 16 = 0 := by rw [hv, hz]; omega
        have := hfirst (pt1 i kb) h0
        rw [hv, hz] at this
        simp only [hz, Nat.zero_add, Nat.add_zero, if_true, if_false, Nat.one_ne_zero, Nat.sub_self] at this ⊢
        exact this
      · have h0 : ¬(pt1 i kb).val % 16 = 0 := by rw [hv]; omega
        have := hstep (pt1 i kb) h0
        rw [hv] at this
        rw [if_neg (Nat.succ_ne_zero _), if_neg hz, Nat.add_sub_cancel]
        rw [show 16 * i.val + kb.val - 1 = 16 * i.val + (kb.val - 1) from by omega] at this
        exact this)
  rw [if_neg (by decide)] at key
  exact key

theorem acc_total_left (c : Dev nD) (i : Fin 2) (p : Fin 2048) (q : Fin 256) :
    accN V c (16 * i.val + 15) (ix2 p (colL q)) = 0 + ∑ kb : Fin 16, contribL V c (pt1 i kb) p q :=
  total_of_steps V c i _ (fun t => contribL V c t p q) (fun t h => accN_first_left V c t h p q) (fun t h => accN_step_left V c t h p q)
theorem acc_total_right (c : Dev nD) (i : Fin 2) (p : Fin 2048) (q : Fin 256) :
    accN V c (16 * i.val + 15) (ix2 p (colR q)) = 0 + ∑ kb : Fin 16, contribR V c (pt1 i kb) p q :=
  total_of_steps V c i _ (fun t => contribR V c t p q) (fun t h => accN_first_right V c t h p q) (fun t h => accN_step_right V c t h p q)

end Cert.KernelIdeal.Val

end
-- ==== Proof.ValI.AggMidOut.lean ====
/- The first aggregation layer's two output arrays at the extended reals. For node n the finished accumulator row is the blocked sum
   of the two backward relations' products (left half) and of the two forward relations' (right half); the layer's output at
   (n, j) is the rectified (accumulator + summed biases) row times the linear weights' column j, plus the linear bias, plus the
   layer's input; the next layer's projection is that output times the next weight matrix. Each 2048-row block written back at
   the last contraction block is a block of those two whole-array functions, and the row blocks cover the arrays. -/
import proofs.«161264_g10471130268016_week1_w2_219_12_alg».proof.Proof.FrameI.AggMid
import proofs.«161264_g10471130268016_week1_w2_219_12_alg».proof.Proof.Payloads
import proofs.«161264_g10471130268016_week1_w2_219_12_alg».proof.Proof.SumLaws
import proofs.«161264_g10471130268016_week1_w2_219_12_alg».proof.Proof.ValI.Halves
import proofs.«161264_g10471130268016_week1_w2_219_12_alg».proof.Proof.ValI.AggMidAcc
import proofs.«161264_g10471130268016_week1_w2_219_12_alg».proof.Proof.ValI.Blocks1
import proofs.«161264_g10471130268016_week1_w2_219_12_alg».proof.Proof.ValI.AggMidValue
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame

open Cert.SumLaws (node node_val)

variable (V : (c : Dev nD) → (b : Ref sig .tc) → Buf (Elt Ideal) ((c : Thread nD τ).loc b))

/-- The arrays the region finds, each at its literal type. -/
abbrev aBw0 (c : Dev nD) : S4096x4096.Idx → EReal := V c main_arg3
abbrev aBw1 (c : Dev nD) : S4096x4096.Idx → EReal := V c main_arg4
abbrev aFw0 (c : Dev nD) : S4096x4096.Idx → EReal := V c main_arg1
abbrev aFw1 (c : Dev nD) : S4096x4096.Idx → EReal := V c main_arg2
abbrev aXW (c : Dev nD) : S4096x1024.Idx → EReal := V c main_v48
abbrev aBpre (c : Dev nD) : S1x512.Idx → EReal := V c main_v29
abbrev aWlin (c : Dev nD) : S512x512.Idx → EReal := V c main_v50
abbrev aBlin (c : Dev nD) : S1x512.Idx → EReal := V c main_v44
abbrev aH (c : Dev nD) : S4096x512.Idx → EReal := V c main_arg0
abbrev aWnext (c : Dev nD) : S512x1024.Idx → EReal := V c main_v17

/-- The finished accumulator row of node `n`: the accumulator after the last contraction block of the node's row block, at the
    node's row. -/
def rowAcc (c : Dev nD) (n : Fin 4096) (e : Fin 512) : EReal :=
  accN V c (16 * (n.val / 2048) + 15) (ix2 (⟨n.val % 2048, Nat.mod_lt _ (by decide)⟩ : Fin 2048) e)

theorem rowAcc_row (c : Dev nD) (i : Fin 2) (p : Fin 2048) (e : Fin 512) :
    rowAcc V c (row i p) e = accN V c (16 * i.val + 15) (ix2 p e) := by
  unfold rowAcc
  have hp := p.isLt
  have h1 : (row i p).val / 2048 = i.val := by rw [row_val]; omega
  have h2 : (⟨(row i p).val % 2048, Nat.mod_lt _ (by decide)⟩ : Fin 2048) = p := Fin.ext (by show (row i p).val % 2048 = p.val; rw [row_val]; omega)
  rw [h1, h2]

/-- Every node is a row of a row block. -/
theorem eq_row (n : Fin 4096) : n = row ⟨n.val / 2048, by have := n.isLt; omega⟩ ⟨n.val % 2048, Nat.mod_lt _ (by decide)⟩ :=
  Fin.ext (by show n.val = 2048 * (n.val / 2048) + n.val % 2048; omega)

/-- The finished row in terms of the arrays: sixteen blocks of 256 nodes, each contributing two adjacency rows against two
    column strips of the projected features. -/
theorem rowAcc_left (c : Dev nD) (n : Fin 4096) (q : Fin 256) :
    rowAcc V c n (colL q) = 0 + ∑ kb : Fin 16,
      ((∑ k : Fin 256, aBw0 V c (ix2 n (node kb k)) * aXW V c (ix2 (node kb k) (⟨q.val, by have := q.isLt; omega⟩ : Fin 1024)))
        + (∑ k : Fin 256, aBw1 V c (ix2 n (node kb k)) * aXW V c (ix2 (node kb k) (⟨256 + q.val, by have := q.isLt; omega⟩ : Fin 1024)))) := by
  rw [eq_row n, rowAcc_row, acc_total_left]
  unfold contribL termL
  simp only [mblk_0, mblk_1, mblk_4]
  try rfl
theorem rowAcc_right (c : Dev nD) (n : Fin 4096) (q : Fin 256) :
    rowAcc V c n (colR q) = 0 + ∑ kb : Fin 16,
      ((∑ k : Fin 256, aFw0 V c (ix2 n (node kb k)) * aXW V c (ix2 (node kb k) (⟨512 + q.val, by have := q.isLt; omega⟩ : Fin 1024)))
        + (∑ k : Fin 256, aFw1 V c (ix2 n (node kb k)) * aXW V c (ix2 (node kb k) (⟨768 + q.val, by have := q.isLt; omega⟩ : Fin 1024)))) := by
  rw [eq_row n, rowAcc_row, acc_total_right]
  unfold contribR termR
  simp only [mblk_2, mblk_3, mblk_4]
  try rfl

/-- The layer's output array, and the next layer's projection array, as functions of the arrays the region finds. -/
def layerOut (c : Dev nD) : S4096x512.Idx → Elt Ideal .f32 := fun idx =>
  ((∑ e : Fin 512, max (rowAcc V c (idx 0) e + aBpre V c (ix2 (0 : Fin 1) e)) (Ideal.ofBits .f32 0x00000000#32)
        * aWlin V c (ix2 e (idx 1)))
      + aBlin V c (ix2 (0 : Fin 1) (idx 1)))
    + aH V c (ix2 (idx 0) (idx 1))
def nextProj (c : Dev nD) : S4096x1024.Idx → Elt Ideal .bf16 := fun idx =>
  ∑ d : Fin 512, layerOut V c (ix2 (idx 0) d) * aWnext V c (ix2 d (idx 1))

/-- The accumulator a last point leaves is the accumulator after that point. -/
theorem accLast_eq_accN (c : Dev nD) (t : Fin cfg1.N) (h0 : ¬t.val % 16 = 0) (h15 : t.val % 16 = 15) :
    accLast V c t h0 h15 (accAt V c (t.val - 1) (Nat.lt_of_le_of_lt (Nat.sub_le _ _) t.isLt)).2.2 = accN V c t.val := by
  rw [accN_of_lt V c t.val t.isLt, accAt_last V c t h0 h15]
theorem pt1_15 (i : Fin 2) : (pt1 i 15).val = 16 * i.val + 15 := rfl

/-- The epilogue's value at an index of the row block, in terms of the arrays. -/
theorem epilogue_apply (c : Dev nD) (i : Fin 2) (h0 : ¬(pt1 i 15).val % 16 = 0) (h15 : (pt1 i 15).val % 16 = 15) (p : Fin 2048) (j : Fin 512) :
    k1_pay2 (accLast V c (pt1 i 15) h0 h15 (accAt V c ((pt1 i 15).val - 1) (Nat.lt_of_le_of_lt (Nat.sub_le _ _) (pt1 i 15).isLt)).2.2)
        (mblk V c 6 (pt1 i 15)) (mblk V c 5 (pt1 i 15)) (mblk V c 7 (pt1 i 15)) (mblk V c 8 (pt1 i 15)) (ix2 p j)
      = layerOut V c (ix2 (row i p) j) := by
  refine (Pay.k1_pay2_apply _ _ _ _ _ p j).trans ?_
  rw [accLast_eq_accN V c (pt1 i 15) h0 h15, pt1_15 i, mblk_5 V c (pt1 i 15), mblk_6 V c (pt1 i 15), mblk_7 V c (pt1 i 15), mblk_8 V c i 15 p j]
  unfold layerOut
  simp only [← rowAcc_row V c i p]
  try rfl

/-- What a last point writes back to the first output is its block of the layer's output array; -/
theorem flushed10 (c : Dev nD) (t : Fin cfg1.N) (hf : (cfg1.win 10).flush t = true) :
    (dat1 V c).flushed 10 t = ((cfg1.win 10).blk t).view.read (Elt Ideal) (layerOut V c) := by
  have hN : cfg1.N = 32 := N_1
  have h15 : t.val % 16 = 15 := (flush1_10 t).mp hf
  have h0 : ¬t.val % 16 = 0 := by omega
  obtain ⟨i, rfl⟩ : ∃ i : Fin 2, t = pt1 i 15 :=
    ⟨⟨t.val / 16, by have := t.isLt; omega⟩, Fin.ext (by show t.val = 16 * (t.val / 16) + 15; omega)⟩
  show (cfg1.win 10).cut (grid1.coords (pt1 i 15)) ((dat1 V c).after 10 (pt1 i 15)) = _
  rw [after1_10, accAt_last V c (pt1 i 15) h0 h15]
  dsimp only
  rw [outLast10_eq]
  funext j
  obtain ⟨p, jj, rfl⟩ : ∃ (p : Fin 2048) (jj : Fin 512), j = ix2 p jj := ⟨j 0, j 1, eq_ix2 j⟩
  refine (epilogue_apply V c i h0 h15 p jj).trans ?_
  show layerOut V c (ix2 (row i p) jj) = layerOut V c (((cfg1.win 10).blk (pt1 i 15)).view.emb (ix2 p jj))
  rw [win1_emb_10 i p jj]
/-- and to the second output, its block of the next projection's array. -/
theorem flushed11 (c : Dev nD) (t : Fin cfg1.N) (hf : (cfg1.win 11).flush t = true) :
    (dat1 V c).flushed 11 t = ((cfg1.win 11).blk t).view.read (Elt Ideal) (nextProj V c) := by
  have hN : cfg1.N = 32 := N_1
  have h15 : t.val % 16 = 15 := (flush1_11 t).mp hf
  have h0 : ¬t.val % 16 = 0 := by omega
  obtain ⟨i, rfl⟩ : ∃ i : Fin 2, t = pt1 i 15 :=
    ⟨⟨t.val / 16, by have := t.isLt; omega⟩, Fin.ext (by show t.val = 16 * (t.val / 16) + 15; omega)⟩
  show (cfg1.win 11).cut (grid1.coords (pt1 i 15)) ((dat1 V c).after 11 (pt1 i 15)) = _
  rw [after1_11, accAt_last V c (pt1 i 15) h0 h15]
  dsimp only
  rw [outLast11_eq]
  funext j
  obtain ⟨p, col, rfl⟩ : ∃ (p : Fin 2048) (col : Fin 1024), j = ix2 p col := ⟨j 0, j 1, eq_ix2 j⟩
  show k1_pay3 (accLast V c (pt1 i 15) h0 h15 (accAt V c ((pt1 i 15).val - 1) (Nat.lt_of_le_of_lt (Nat.sub_le _ _) (pt1 i 15).isLt)).2.2)
      (mblk V c 6 (pt1 i 15)) (mblk V c 5 (pt1 i 15)) (mblk V c 7 (pt1 i 15)) (mblk V c 8 (pt1 i 15)) (mblk V c 9 (pt1 i 15)) (ix2 p col)
    = nextProj V c (((cfg1.win 11).blk (pt1 i 15)).view.emb (ix2 p col))
  refine (Pay.k1_pay3_apply _ _ _ _ _ _ p col).trans ?_
  rw [win1_emb_11 i p col, mblk_9 V c (pt1 i 15)]
  unfold nextProj
  refine Finset.sum_congr rfl fun d _ => ?_
  rw [epilogue_apply V c i h0 h15 p d]
  try rfl

/-- The two arrays after the region. -/
theorem final10 (c : Dev nD) : (dat1 V c).arrAt 10 cfg1.N = layerOut V c :=
  (dat1 V c).arrAt_eq_of_cover 10 _ (fun t hf => flushed10 V c t hf) win1_covers_10
theorem final11 (c : Dev nD) : (dat1 V c).arrAt 11 cfg1.N = nextProj V c :=
  (dat1 V c).arrAt_eq_of_cover 11 _ (fun t hf => flushed11 V c t hf) win1_covers_11

end Cert.KernelIdeal.Val

end
-- ==== Proof.ValI.AggOutAcc.lean ====
/- The second aggregation layer's accumulator, read at an index at the extended reals. One grid point adds to each column half
   the products of two adjacency blocks with two column strips of the projected features: the left half takes the two
   backward relations' strips, the right half the two forward relations'. A first point adds them to zero. -/
import proofs.«161264_g10471130268016_week1_w2_219_12_alg».proof.Proof.FrameI.AggOut
import proofs.«161264_g10471130268016_week1_w2_219_12_alg».proof.Proof.Payloads
import proofs.«161264_g10471130268016_week1_w2_219_12_alg».proof.Proof.ValI.Halves
import proofs.«161264_g10471130268016_week1_w2_219_12_alg».proof.Proof.ValI.AggMidAcc
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame

variable (V : (c : Dev nD) → (b : Ref sig .tc) → Buf (Elt Ideal) ((c : Thread nD τ).loc b))

/-- The zero fill is zero everywhere. -/
theorem fill_zero2 (y : S2048x512.Idx) : k2_pay3 (F := Ideal) y = 0 := by
  obtain ⟨p, e, rfl⟩ : ∃ (p : Fin 2048) (e : Fin 512), y = ix2 p e := ⟨y 0, y 1, eq_ix2 y⟩
  exact Pay.k2_pay3_apply_zero p e

/-- A middle point: each half is what was there plus the block's contribution. -/
theorem accMiddle2_left (c : Dev nD) (t : Fin cfg2.N) (h0 : ¬t.val % 16 = 0) (h1 : ¬t.val % 16 = 15) (xs : Vec Ideal S2048x512 .f32)
    (p : Fin 2048) (q : Fin 256) :
    accMiddle2 V c t h0 h1 xs (ix2 p (colL q)) = xs (ix2 p (colL q)) + termL (oblk V c 0 t) (oblk V c 1 t) (oblk V c 4 t) p q := by
  unfold accMiddle2
  rw [View.read_writes_junk_eq_canon]
  unfold runMiddle2
  dsimp only
  sl_unfold_words
  rw [canon_left]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k2_pay5_apply, ld_left]
  exact congrArg₂ (· + ·) (congrFun ((Memref.isWhole_whole cc2_scratch0).read_unread xs) _) rfl
theorem accMiddle2_right (c : Dev nD) (t : Fin cfg2.N) (h0 : ¬t.val % 16 = 0) (h1 : ¬t.val % 16 = 15) (xs : Vec Ideal S2048x512 .f32)
    (p : Fin 2048) (q : Fin 256) :
    accMiddle2 V c t h0 h1 xs (ix2 p (colR q)) = xs (ix2 p (colR q)) + termR (oblk V c 2 t) (oblk V c 3 t) (oblk V c 4 t) p q := by
  unfold accMiddle2
  rw [View.read_writes_junk_eq_canon]
  unfold runMiddle2
  dsimp only
  sl_unfold_words
  rw [canon_right]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k2_pay1_eq, Pay.k2_pay6_apply, ld_right]
  exact congrArg₂ (· + ·) (congrFun ((Memref.isWhole_whole cc2_scratch0).read_unread xs) _) rfl

/-- A last point adds to the accumulator exactly as a middle point does. -/
theorem accLast2_left (c : Dev nD) (t : Fin cfg2.N) (h0 : ¬t.val % 16 = 0) (h1 : t.val % 16 = 15) (xs : Vec Ideal S2048x512 .f32)
    (p : Fin 2048) (q : Fin 256) :
    accLast2 V c t h0 h1 xs (ix2 p (colL q)) = xs (ix2 p (colL q)) + termL (oblk V c 0 t) (oblk V c 1 t) (oblk V c 4 t) p q := by
  unfold accLast2
  rw [View.read_writes_junk_eq_canon]
  unfold runLast2
  dsimp only
  sl_unfold_words
  rw [canon_left]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k2_pay5_apply, ld_left]
  exact congrArg₂ (· + ·) (congrFun ((Memref.isWhole_whole cc2_scratch0).read_unread xs) _) rfl
theorem accLast2_right (c : Dev nD) (t : Fin cfg2.N) (h0 : ¬t.val % 16 = 0) (h1 : t.val % 16 = 15) (xs : Vec Ideal S2048x512 .f32)
    (p : Fin 2048) (q : Fin 256) :
    accLast2 V c t h0 h1 xs (ix2 p (colR q)) = xs (ix2 p (colR q)) + termR (oblk V c 2 t) (oblk V c 3 t) (oblk V c 4 t) p q := by
  unfold accLast2
  rw [View.read_writes_junk_eq_canon]
  unfold runLast2
  dsimp only
  sl_unfold_words
  rw [canon_right]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k2_pay1_eq, Pay.k2_pay6_apply, ld_right]
  exact congrArg₂ (· + ·) (congrFun ((Memref.isWhole_whole cc2_scratch0).read_unread xs) _) rfl

/-- A first point adds the block's contribution to the zero fill. -/
theorem accFirst2_left (c : Dev nD) (t : Fin cfg2.N) (h0 : t.val % 16 = 0) (h1 : ¬t.val % 16 = 15) (p : Fin 2048) (q : Fin 256) :
    accFirst2 V c t h0 h1 (ix2 p (colL q)) = 0 + termL (oblk V c 0 t) (oblk V c 1 t) (oblk V c 4 t) p q := by
  unfold accFirst2
  rw [View.read_writes_junk_eq_canon]
  unfold runFirst2
  dsimp only
  sl_unfold_words
  rw [canon_left]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k2_pay5_apply, View.readCov_eq_canon']
  dsimp only
  rw [View.canon_unit_zero hzero2, fill_zero2]
  rfl
theorem accFirst2_right (c : Dev nD) (t : Fin cfg2.N) (h0 : t.val % 16 = 0) (h1 : ¬t.val % 16 = 15) (p : Fin 2048) (q : Fin 256) :
    accFirst2 V c t h0 h1 (ix2 p (colR q)) = 0 + termR (oblk V c 2 t) (oblk V c 3 t) (oblk V c 4 t) p q := by
  unfold accFirst2
  rw [View.read_writes_junk_eq_canon]
  unfold runFirst2
  dsimp only
  sl_unfold_words
  rw [canon_right]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [Pay.k2_pay1_eq, Pay.k2_pay6_apply, View.readCov_eq_canon']
  dsimp only
  have e : (rRight : LoadRect S2048x512).idx (ix2 p q) = ix2 p (colR q) := emb_right p q
  rw [e, canon_skip_left, View.canon_unit_zero hzero2, fill_zero2]
  rfl

/-- At a last point the first output's buffer is the epilogue applied to the finished accumulator: rectified pre-activation
    times the linear weights, plus the linear bias, plus the layer's input block; -/
theorem outLast2_9_eq (c : Dev nD) (t : Fin cfg2.N) (h0 : ¬t.val % 16 = 0) (h1 : t.val % 16 = 15) (xs : Vec Ideal S2048x512 .f32) :
    outLast2_9 V c t h0 h1 xs = k2_pay2 (accLast2 V c t h0 h1 xs) (oblk V c 6 t) (oblk V c 5 t) (oblk V c 7 t) (oblk V c 8 t) := by
  unfold outLast2_9 accLast2
  rw [View.read_writes_junk_eq_canon, View.read_writes_junk_eq_canon]
  unfold runLast2
  dsimp only
  sl_unfold_words
  rw [View.canon_unit_zero hzero2]
  simp only [View.readAt_eq_ld, Memref.IsWhole.read_unread, View.ld_unit_zero (S := S256x1024) hzero2, View.ld_unit_zero (S := S2048x256) hzero2, View.ld_unit_zero (S := S2048x512) hzero2, View.ld_unit_zero (S := S512x512) hzero2, View.ld_unit_zero (S := S1x512) hzero2, View.ld_unit_zero (S := S512x1024) hzero2]
  rw [View.readCov_eq_canon']
  refine congrArg (fun z => k2_pay2 z (oblk V c 6 t) (oblk V c 5 t) (oblk V c 7 t) (oblk V c 8 t)) ?_
  funext j
  exact congrArg _ (whole_idx j)

end Cert.KernelIdeal.Val

end
-- ==== Proof.ValI.Blocks2.lean ====
/-
  The blocks of the second aggregation region's windows read at array indices, and the covers of its outputs.

  The region's grid has 2 row blocks of 2048 rows and 16 contraction blocks of 256 nodes; point `16 i + kb` is row
  block `i` at contraction block `kb`. An adjacency window's block at that point is rows `2048 i + p` and columns
  `256 kb + k` of its array; the projected features' block is rows `256 kb + k`; the residual's and the outputs' blocks
  are rows `2048 i + p`; the weights' and biases' windows are whole arrays. A block's coordinate is always the block
  index times the block size plus the coordinate inside the block. The outputs are written back at the last contraction
  block of each row block, and those blocks cover the arrays.
-/
import proofs.«161264_g10471130268016_week1_w2_219_12_alg».proof.Proof.FrameI.AggOut
import proofs.«161264_g10471130268016_week1_w2_219_12_alg».proof.Proof.ValI.Blocks1
import proofs.«161264_g10471130268016_week1_w2_219_12_alg».proof.Proof.SumLaws
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame
open Cert.SumLaws (node node_val)

variable (V : (c : Dev nD) → (b : Ref sig .tc) → Buf (Elt Ideal) ((c : Thread nD τ).loc b))

/-! ## Points and rows -/

/-- The grid point of row block `i` at contraction block `kb`. -/
def pt2 (i : Fin 2) (kb : Fin 16) : Fin cfg2.N :=
  ⟨16 * i.val + kb.val, by have hN : cfg2.N = 32 := N_2; have := i.isLt; have := kb.isLt; omega⟩

@[simp] theorem pt2_val (i : Fin 2) (kb : Fin 16) : (pt2 i kb).val = 16 * i.val + kb.val := rfl

/-- Every grid point is of that form. -/
theorem eq_pt2 (t : Fin cfg2.N) :
    t = pt2 ⟨t.val / 16, by have hN : cfg2.N = 32 := N_2; have := t.isLt; omega⟩ ⟨t.val % 16, Nat.mod_lt _ (by decide)⟩ :=
  Fin.ext (by show t.val = 16 * (t.val / 16) + t.val % 16; omega)

/-! ## The printed index maps over the 32 grid points -/

/-- Window 0's block indices at point `t`. -/
theorem win2_idx_0 : ∀ t : Fin cfg2.N, win2_0.index t (0 : Fin 2) = t.val / 16 ∧ win2_0.index t (1 : Fin 2) = t.val % 16 :=
  (by decide +kernel : ∀ t : Fin grid2.N, _)

/-- Window 1's block indices at point `t`. -/
theorem win2_idx_1 : ∀ t : Fin cfg2.N, win2_1.index t (0 : Fin 2) = t.val / 16 ∧ win2_1.index t (1 : Fin 2) = t.val % 16 :=
  (by decide +kernel : ∀ t : Fin grid2.N, _)

/-- Window 2's block indices at point `t`. -/
theorem win2_idx_2 : ∀ t : Fin cfg2.N, win2_2.index t (0 : Fin 2) = t.val / 16 ∧ win2_2.index t (1 : Fin 2) = t.val % 16 :=
  (by decide +kernel : ∀ t : Fin grid2.N, _)

/-- Window 3's block indices at point `t`. -/
theorem win2_idx_3 : ∀ t : Fin cfg2.N, win2_3.index t (0 : Fin 2) = t.val / 16 ∧ win2_3.index t (1 : Fin 2) = t.val % 16 :=
  (by decide +kernel : ∀ t : Fin grid2.N, _)

/-- Window 4's block indices at point `t`. -/
theorem win2_idx_4 : ∀ t : Fin cfg2.N, win2_4.index t (0 : Fin 2) = t.val % 16 ∧ win2_4.index t (1 : Fin 2) = 0 :=
  (by decide +kernel : ∀ t : Fin grid2.N, _)

/-- Window 5's block indices at point `t`. -/
theorem win2_idx_5 : ∀ t : Fin cfg2.N, win2_5.index t (0 : Fin 2) = 0 ∧ win2_5.index t (1 : Fin 2) = 0 :=
  (by decide +kernel : ∀ t : Fin grid2.N, _)

/-- Window 6's block indices at point `t`. -/
theorem win2_idx_6 : ∀ t : Fin cfg2.N, win2_6.index t (0 : Fin 2) = 0 ∧ win2_6.index t (1 : Fin 2) = 0 :=
  (by decide +kernel : ∀ t : Fin grid2.N, _)

/-- Window 7's block indices at point `t`. -/
theorem win2_idx_7 : ∀ t : Fin cfg2.N, win2_7.index t (0 : Fin 2) = 0 ∧ win2_7.index t (1 : Fin 2) = 0 :=
  (by decide +kernel : ∀ t : Fin grid2.N, _)

/-- Window 8's block indices at point `t`. -/
theorem win2_idx_8 : ∀ t : Fin cfg2.N, win2_8.index t (0 : Fin 2) = t.val / 16 ∧ win2_8.index t (1 : Fin 2) = 0 :=
  (by decide +kernel : ∀ t : Fin grid2.N, _)

/-- Window 9's block indices at point `t`. -/
theorem win2_idx_9 : ∀ t : Fin cfg2.N, win2_9.index t (0 : Fin 2) = t.val / 16 ∧ win2_9.index t (1 : Fin 2) = 0 :=
  (by decide +kernel : ∀ t : Fin grid2.N, _)

/-! ## The input windows' blocks at array indices -/

/-- Window 0's block at point `16 i + kb`: rows `2048 i + p`, columns `256 kb + k` of its array. -/
theorem oblk_0 (c : Dev nD) (i : Fin 2) (kb : Fin 16) (p : Fin 2048) (k : Fin 256) :
    (oblk V c 0 (pt2 i kb) : S2048x256.Idx → EReal) (ix2 p k)
      = (V c main_arg3 : S4096x4096.Idx → EReal) (ix2 (row i p) (node kb k)) := by
  obtain ⟨e0, e1⟩ := win2_idx_0 (pt2 i kb)
  have hi := i.isLt
  have hk := kb.isLt
  have e0' : win2_0.index (pt2 i kb) (0 : Fin 2) = (16 * i.val + kb.val) / 16 := e0
  have e1' : win2_0.index (pt2 i kb) (1 : Fin 2) = (16 * i.val + kb.val) % 16 := e1
  show V c main_arg3 (((cfg2.win 0).blk (pt2 i kb)).view.emb (ix2 p k)) = V c main_arg3 (ix2 (row i p) (node kb k))
  congr 1; funext a; apply Fin.ext
  match a with
  | ⟨0, _⟩ => show win2_0.index (pt2 i kb) (0 : Fin 2) * 2048 + 1 * p.val = 2048 * i.val + p.val; omega
  | ⟨1, _⟩ => show win2_0.index (pt2 i kb) (1 : Fin 2) * 256 + 1 * k.val = kb.val * 256 + k.val; omega

/-- Window 1's block at point `16 i + kb`: rows `2048 i + p`, columns `256 kb + k` of its array. -/
theorem oblk_1 (c : Dev nD) (i : Fin 2) (kb : Fin 16) (p : Fin 2048) (k : Fin 256) :
    (oblk V c 1 (pt2 i kb) : S2048x256.Idx → EReal) (ix2 p k)
      = (V c main_arg4 : S4096x4096.Idx → EReal) (ix2 (row i p) (node kb k)) := by
  obtain ⟨e0, e1⟩ := win2_idx_1 (pt2 i kb)
  have hi := i.isLt
  have hk := kb.isLt
  have e0' : win2_1.index (pt2 i kb) (0 : Fin 2) = (16 * i.val + kb.val) / 16 := e0
  have e1' : win2_1.index (pt2 i kb) (1 : Fin 2) = (16 * i.val + kb.val) % 16 := e1
  show V c main_arg4 (((cfg2.win 1).blk (pt2 i kb)).view.emb (ix2 p k)) = V c main_arg4 (ix2 (row i p) (node kb k))
  congr 1; funext a; apply Fin.ext
  match a with
  | ⟨0, _⟩ => show win2_1.index (pt2 i kb) (0 : Fin 2) * 2048 + 1 * p.val = 2048 * i.val + p.val; omega
  | ⟨1, _⟩ => show win2_1.index (pt2 i kb) (1 : Fin 2) * 256 + 1 * k.val = kb.val * 256 + k.val; omega

/-- Window 2's block at point `16 i + kb`: rows `2048 i + p`, columns `256 kb + k` of its array. -/
theorem oblk_2 (c : Dev nD) (i : Fin 2) (kb : Fin 16) (p : Fin 2048) (k : Fin 256) :
    (oblk V c 2 (pt2 i kb) : S2048x256.Idx → EReal) (ix2 p k)
      = (V c main_arg1 : S4096x4096.Idx → EReal) (ix2 (row i p) (node kb k)) := by
  obtain ⟨e0, e1⟩ := win2_idx_2 (pt2 i kb)
  have hi := i.isLt
  have hk := kb.isLt
  have e0' : win2_2.index (pt2 i kb) (0 : Fin 2) = (16 * i.val + kb.val) / 16 := e0
  have e1' : win2_2.index (pt2 i kb) (1 : Fin 2) = (16 * i.val + kb.val) % 16 := e1
  show V c main_arg1 (((cfg2.win 2).blk (pt2 i kb)).view.emb (ix2 p k)) = V c main_arg1 (ix2 (row i p) (node kb k))
  congr 1; funext a; apply Fin.ext
  match a with
  | ⟨0, _⟩ => show win2_2.index (pt2 i kb) (0 : Fin 2) * 2048 + 1 * p.val = 2048 * i.val + p.val; omega
  | ⟨1, _⟩ => show win2_2.index (pt2 i kb) (1 : Fin 2) * 256 + 1 * k.val = kb.val * 256 + k.val; omega

/-- Window 3's block at point `16 i + kb`: rows `2048 i + p`, columns `256 kb + k` of its array. -/
theorem oblk_3 (c : Dev nD) (i : Fin 2) (kb : Fin 16) (p : Fin 2048) (k : Fin 256) :
    (oblk V c 3 (pt2 i kb) : S2048x256.Idx → EReal) (ix2 p k)
      = (V c main_arg2 : S4096x4096.Idx → EReal) (ix2 (row i p) (node kb k)) := by
  obtain ⟨e0, e1⟩ := win2_idx_3 (pt2 i kb)
  have hi := i.isLt
  have hk := kb.isLt
  have e0' : win2_3.index (pt2 i kb) (0 : Fin 2) = (16 * i.val + kb.val) / 16 := e0
  have e1' : win2_3.index (pt2 i kb) (1 : Fin 2) = (16 * i.val + kb.val) % 16 := e1
  show V c main_arg2 (((cfg2.win 3).blk (pt2 i kb)).view.emb (ix2 p k)) = V c main_arg2 (ix2 (row i p) (node kb k))
  congr 1; funext a; apply Fin.ext
  match a with
  | ⟨0, _⟩ => show win2_3.index (pt2 i kb) (0 : Fin 2) * 2048 + 1 * p.val = 2048 * i.val + p.val; omega
  | ⟨1, _⟩ => show win2_3.index (pt2 i kb) (1 : Fin 2) * 256 + 1 * k.val = kb.val * 256 + k.val; omega

/-- Window 4's block at point `16 i + kb`: rows `256 kb + k` of its array. -/
theorem oblk_4 (c : Dev nD) (i : Fin 2) (kb : Fin 16) (k : Fin 256) (col : Fin 1024) :
    (oblk V c 4 (pt2 i kb) : S256x1024.Idx → EReal) (ix2 k col)
      = (V c main_v51_1 : S4096x1024.Idx → EReal) (ix2 (node kb k) (col)) := by
  obtain ⟨e0, e1⟩ := win2_idx_4 (pt2 i kb)
  have hi := i.isLt
  have hk := kb.isLt
  have e0' : win2_4.index (pt2 i kb) (0 : Fin 2) = (16 * i.val + kb.val) % 16 := e0
  have e1' : win2_4.index (pt2 i kb) (1 : Fin 2) = 0 := e1
  show V c main_v51_1 (((cfg2.win 4).blk (pt2 i kb)).view.emb (ix2 k col)) = V c main_v51_1 (ix2 (node kb k) (col))
  congr 1; funext a; apply Fin.ext
  match a with
  | ⟨0, _⟩ => show win2_4.index (pt2 i kb) (0 : Fin 2) * 256 + 1 * k.val = kb.val * 256 + k.val; omega
  | ⟨1, _⟩ => show win2_4.index (pt2 i kb) (1 : Fin 2) * 1024 + 1 * col.val = col.val; omega

/-- Window 5 is its whole array. -/
theorem oblk_5 (c : Dev nD) (t : Fin cfg2.N) :
    (oblk V c 5 t : S512x512.Idx → EReal) = (V c main_v53 : S512x512.Idx → EReal) := by
  obtain ⟨e0, e1⟩ := win2_idx_5 t
  funext j
  obtain ⟨p, q, rfl⟩ : ∃ (p : Fin 512) (q : Fin 512), j = ix2 p q := ⟨j 0, j 1, eq_ix2 j⟩
  show V c main_v53 (((cfg2.win 5).blk t).view.emb (ix2 p q)) = V c main_v53 (ix2 p q)
  congr 1; funext a; apply Fin.ext
  match a with
  | ⟨0, _⟩ => show win2_5.index t (0 : Fin 2) * 512 + 1 * p.val = p.val; omega
  | ⟨1, _⟩ => show win2_5.index t (1 : Fin 2) * 512 + 1 * q.val = q.val; omega

/-- Window 6 is its whole array. -/
theorem oblk_6 (c : Dev nD) (t : Fin cfg2.N) :
    (oblk V c 6 t : S1x512.Idx → EReal) = (V c main_v41 : S1x512.Idx → EReal) := by
  obtain ⟨e0, e1⟩ := win2_idx_6 t
  funext j
  obtain ⟨p, q, rfl⟩ : ∃ (p : Fin 1) (q : Fin 512), j = ix2 p q := ⟨j 0, j 1, eq_ix2 j⟩
  show V c main_v41 (((cfg2.win 6).blk t).view.emb (ix2 p q)) = V c main_v41 (ix2 p q)
  congr 1; funext a; apply Fin.ext
  match a with
  | ⟨0, _⟩ => show win2_6.index t (0 : Fin 2) * 1 + 1 * p.val = p.val; omega
  | ⟨1, _⟩ => show win2_6.index t (1 : Fin 2) * 512 + 1 * q.val = q.val; omega

/-- Window 7 is its whole array. -/
theorem oblk_7 (c : Dev nD) (t : Fin cfg2.N) :
    (oblk V c 7 t : S1x512.Idx → EReal) = (V c main_v47 : S1x512.Idx → EReal) := by
  obtain ⟨e0, e1⟩ := win2_idx_7 t
  funext j
  obtain ⟨p, q, rfl⟩ : ∃ (p : Fin 1) (q : Fin 512), j = ix2 p q := ⟨j 0, j 1, eq_ix2 j⟩
  show V c main_v47 (((cfg2.win 7).blk t).view.emb (ix2 p q)) = V c main_v47 (ix2 p q)
  congr 1; funext a; apply Fin.ext
  match a with
  | ⟨0, _⟩ => show win2_7.index t (0 : Fin 2) * 1 + 1 * p.val = p.val; omega
  | ⟨1, _⟩ => show win2_7.index t (1 : Fin 2) * 512 + 1 * q.val = q.val; omega

/-- Window 8's block at point `16 i + kb`: rows `2048 i + p` of its array. -/
theorem oblk_8 (c : Dev nD) (i : Fin 2) (kb : Fin 16) (p : Fin 2048) (j : Fin 512) :
    (oblk V c 8 (pt2 i kb) : S2048x512.Idx → EReal) (ix2 p j)
      = (V c main_v51_0 : S4096x512.Idx → EReal) (ix2 (row i p) (j)) := by
  obtain ⟨e0, e1⟩ := win2_idx_8 (pt2 i kb)
  have hi := i.isLt
  have hk := kb.isLt
  have e0' : win2_8.index (pt2 i kb) (0 : Fin 2) = (16 * i.val + kb.val) / 16 := e0
  have e1' : win2_8.index (pt2 i kb) (1 : Fin 2) = 0 := e1
  show V c main_v51_0 (((cfg2.win 8).blk (pt2 i kb)).view.emb (ix2 p j)) = V c main_v51_0 (ix2 (row i p) (j))
  congr 1; funext a; apply Fin.ext
  match a with
  | ⟨0, _⟩ => show win2_8.index (pt2 i kb) (0 : Fin 2) * 2048 + 1 * p.val = 2048 * i.val + p.val; omega
  | ⟨1, _⟩ => show win2_8.index (pt2 i kb) (1 : Fin 2) * 512 + 1 * j.val = j.val; omega

/-! ## The outputs: a block coordinate in the array, membership, cover -/

/-- Output window 9's block at the last contraction block of row block `i` sits at rows `2048 i + p` of its array. -/
theorem win2_emb_9 (i : Fin 2) (p : Fin 2048) (j : Fin 512) :
    ((cfg2.win 9).blk (pt2 i 15)).view.emb (ix2 p j) = (ix2 (row i p) j : S4096x512.Idx) := by
  obtain ⟨e0, e1⟩ := win2_idx_9 (pt2 i 15)
  have hi := i.isLt
  have e0' : win2_9.index (pt2 i 15) (0 : Fin 2) = (16 * i.val + 15) / 16 := e0
  funext a; apply Fin.ext
  match a with
  | ⟨0, _⟩ => show win2_9.index (pt2 i 15) (0 : Fin 2) * 2048 + 1 * p.val = 2048 * i.val + p.val; omega
  | ⟨1, _⟩ => show win2_9.index (pt2 i 15) (1 : Fin 2) * 512 + 1 * j.val = j.val; omega

/-- An index of the array is in point `t`'s block of output window 9 iff each coordinate is in the block's range on its axis. -/
theorem win2_mem_9 (t : Fin cfg2.N) (x : S4096x512.Idx) :
    x ∈ ((cfg2.win 9).blk t).view.set ↔ ∀ a : Fin 2, win2_9.index t a * S2048x512.size a ≤ (x a).val ∧ (x a).val < win2_9.index t a * S2048x512.size a + S2048x512.size a := by
  show x ∈ ((View.whole main_v54).slice (win2_9.rect t)).set ↔ _
  rw [View.set_slice_whole, Rect.mem_set_unit]
  exact Iff.rfl

/-- Every index of the array is in a block that is written back: the last contraction block of the row block that holds
    the index's row. -/
theorem win2_covers_9 (x : S4096x512.Idx) : ∃ t : Fin cfg2.N, (cfg2.win 9).flush t = true ∧ x ∈ ((cfg2.win 9).blk t).view.set := by
  have hx0 : (x 0).val < 4096 := (x 0).isLt
  have hx1 : (x 1).val < 512 := (x 1).isLt
  obtain ⟨e0, e1⟩ := win2_idx_9 (pt2 ⟨(x 0).val / 2048, by omega⟩ 15)
  have e0' : win2_9.index (pt2 ⟨(x 0).val / 2048, by omega⟩ 15) (0 : Fin 2) = (16 * ((x 0).val / 2048) + 15) / 16 := e0
  refine ⟨pt2 ⟨(x 0).val / 2048, by omega⟩ 15, (flush2_9 _).mpr (by show (16 * ((x 0).val / 2048) + 15) % 16 = 15; omega), ?_⟩
  rw [win2_mem_9]
  intro a
  match a with
  | ⟨0, _⟩ => show win2_9.index _ (0 : Fin 2) * 2048 ≤ (x 0).val ∧ (x 0).val < win2_9.index _ (0 : Fin 2) * 2048 + 2048; omega
  | ⟨1, _⟩ => show win2_9.index _ (1 : Fin 2) * 512 ≤ (x 1).val ∧ (x 1).val < win2_9.index _ (1 : Fin 2) * 512 + 512; omega

end Cert.KernelIdeal.Val

end
-- ==== Proof.ValI.AggOutValue.lean ====
/- The second aggregation layer's value at the extended reals. The accumulator after the last contraction block of a row block is
   zero plus the sum, over the sixteen contraction blocks in order, of each block's contribution; the epilogue turns it into the
   layer's output block and the next layer's projection block; the row blocks cover the two output arrays. -/
import proofs.«161264_g10471130268016_week1_w2_219_12_alg».proof.Proof.FrameI.AggOut
import proofs.«161264_g10471130268016_week1_w2_219_12_alg».proof.Proof.Payloads
import proofs.«161264_g10471130268016_week1_w2_219_12_alg».proof.Proof.SumLaws
import proofs.«161264_g10471130268016_week1_w2_219_12_alg».proof.Proof.ValI.Halves
import proofs.«161264_g10471130268016_week1_w2_219_12_alg».proof.Proof.ValI.AggOutAcc
import proofs.«161264_g10471130268016_week1_w2_219_12_alg».proof.Proof.ValI.Blocks2
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame

variable (V : (c : Dev nD) → (b : Ref sig .tc) → Buf (Elt Ideal) ((c : Thread nD τ).loc b))

/-- The accumulator after position `n` (zero past the grid). -/
def accN2 (c : Dev nD) (n : ℕ) : Vec Ideal S2048x512 .f32 := if h : n < cfg2.N then (accAt2 V c n h).2 else fun _ => 0
theorem accN2_of_lt (c : Dev nD) (n : ℕ) (h : n < cfg2.N) : accN2 V c n = (accAt2 V c n h).2 := dif_pos h

/-- Point `t`'s contribution to an entry of the left half, and of the right half. -/
def contribL2 (c : Dev nD) (t : Fin cfg2.N) (p : Fin 2048) (q : Fin 256) : EReal := termL (oblk V c 0 t) (oblk V c 1 t) (oblk V c 4 t) p q
def contribR2 (c : Dev nD) (t : Fin cfg2.N) (p : Fin 2048) (q : Fin 256) : EReal := termR (oblk V c 2 t) (oblk V c 3 t) (oblk V c 4 t) p q

theorem accN2_first_left (c : Dev nD) (t : Fin cfg2.N) (h0 : t.val % 16 = 0) (p : Fin 2048) (q : Fin 256) :
    accN2 V c t.val (ix2 p (colL q)) = 0 + contribL2 V c t p q := by
  have h1 : ¬t.val % 16 = 15 := by omega
  rw [accN2_of_lt V c t.val t.isLt, accAt2_first V c t h0 h1]
  dsimp only
  unfold contribL2
  exact accFirst2_left V c t h0 h1 p q
theorem accN2_first_right (c : Dev nD) (t : Fin cfg2.N) (h0 : t.val % 16 = 0) (p : Fin 2048) (q : Fin 256) :
    accN2 V c t.val (ix2 p (colR q)) = 0 + contribR2 V c t p q := by
  have h1 : ¬t.val % 16 = 15 := by omega
  rw [accN2_of_lt V c t.val t.isLt, accAt2_first V c t h0 h1]
  dsimp only
  unfold contribR2
  exact accFirst2_right V c t h0 h1 p q
theorem accN2_step_left (c : Dev nD) (t : Fin cfg2.N) (h0 : ¬t.val % 16 = 0) (p : Fin 2048) (q : Fin 256) :
    accN2 V c t.val (ix2 p (colL q)) = accN2 V c (t.val - 1) (ix2 p (colL q)) + contribL2 V c t p q := by
  have hp : t.val - 1 < cfg2.N := Nat.lt_of_le_of_lt (Nat.sub_le _ _) t.isLt
  rw [accN2_of_lt V c t.val t.isLt, accN2_of_lt V c (t.val - 1) hp]
  by_cases h1 : t.val % 16 = 15
  · rw [accAt2_last V c t h0 h1]; dsimp only; unfold contribL2; exact accLast2_left V c t h0 h1 _ p q
  · rw [accAt2_middle V c t h0 h1]; dsimp only; unfold contribL2; exact accMiddle2_left V c t h0 h1 _ p q
theorem accN2_step_right (c : Dev nD) (t : Fin cfg2.N) (h0 : ¬t.val % 16 = 0) (p : Fin 2048) (q : Fin 256) :
    accN2 V c t.val (ix2 p (colR q)) = accN2 V c (t.val - 1) (ix2 p (colR q)) + contribR2 V c t p q := by
  have hp : t.val - 1 < cfg2.N := Nat.lt_of_le_of_lt (Nat.sub_le _ _) t.isLt
  rw [accN2_of_lt V c t.val t.isLt, accN2_of_lt V c (t.val - 1) hp]
  by_cases h1 : t.val % 16 = 15
  · rw [accAt2_last V c t h0 h1]; dsimp only; unfold contribR2; exact accLast2_right V c t h0 h1 _ p q
  · rw [accAt2_middle V c t h0 h1]; dsimp only; unfold contribR2; exact accMiddle2_right V c t h0 h1 _ p q

/-- The running total over a row block's sixteen points, for any per-point contribution that starts from zero at the first
    point and is added at each later one. -/
theorem total_of_steps2 (c : Dev nD) (i : Fin 2) (y : S2048x512.Idx) (term : Fin cfg2.N → EReal)
    (hfirst : ∀ t : Fin cfg2.N, t.val % 16 = 0 → accN2 V c t.val y = 0 + term t)
    (hstep : ∀ t : Fin cfg2.N, ¬t.val % 16 = 0 → accN2 V c t.val y = accN2 V c (t.val - 1) y + term t) :
    accN2 V c (16 * i.val + 15) y = 0 + ∑ kb : Fin 16, term (pt2 i kb) := by
  have hN : cfg2.N = 32 := N_2
  have hi := i.isLt
  have key := Cert.SumLaws.running_total 16 (0 : EReal) (fun kb => term (pt2 i kb))
    (fun j => if j = 0 then 0 else accN2 V c (16 * i.val + (j - 1)) y) rfl (fun kb => by
      have hk := kb.isLt
      have hv : (pt2 i kb).val = 16 * i.val + kb.val := pt2_val i kb
      by_cases hz : kb.val = 0
      · have h0 : (pt2 i kb).val % 16 = 0 := by rw [hv, hz]; omega
        have := hfirst (pt2 i kb) h0
        rw [hv, hz] at this
        simp only [hz, Nat.zero_add, Nat.add_zero, if_true, if_false, Nat.one_ne_zero, Nat.sub_self] at this ⊢
        exact this
      · have h0 : ¬(pt2 i kb).val % 16 = 0 := by rw [hv]; omega
        have := hstep (pt2 i kb) h0
        rw [hv] at this
        rw [if_neg (Nat.succ_ne_zero _), if_neg hz, Nat.add_sub_cancel]
        rw [show 16 * i.val + kb.val - 1 = 16 * i.val + (kb.val - 1) from by omega] at this
        exact this)
  rw [if_neg (by decide)] at key
  exact key

theorem acc_total_left2 (c : Dev nD) (i : Fin 2) (p : Fin 2048) (q : Fin 256) :
    accN2 V c (16 * i.val + 15) (ix2 p (colL q)) = 0 + ∑ kb : Fin 16, contribL2 V c (pt2 i kb) p q :=
  total_of_steps2 V c i _ (fun t => contribL2 V c t p q) (fun t h => accN2_first_left V c t h p q) (fun t h => accN2_step_left V c t h p q)
theorem acc_total_right2 (c : Dev nD) (i : Fin 2) (p : Fin 2048) (q : Fin 256) :
    accN2 V c (16 * i.val + 15) (ix2 p (colR q)) = 0 + ∑ kb : Fin 16, contribR2 V c (pt2 i kb) p q :=
  total_of_steps2 V c i _ (fun t => contribR2 V c t p q) (fun t h => accN2_first_right V c t h p q) (fun t h => accN2_step_right V c t h p q)

end Cert.KernelIdeal.Val

end
-- ==== Proof.ValI.AggOutOut.lean ====
/- The second aggregation layer's output array at the extended reals. For node n the finished accumulator row is the blocked sum
   of the two backward relations' products (left half) and of the two forward relations' (right half); the layer's output at
   (n, j) is the rectified (accumulator + summed biases) row times the linear weights' column j, plus the linear bias, plus the
   layer's input. Each 2048-row block written back at the last contraction block is a block of that whole-array function, and
   the row blocks cover the array. -/
import proofs.«161264_g10471130268016_week1_w2_219_12_alg».proof.Proof.FrameI.AggOut
import proofs.«161264_g10471130268016_week1_w2_219_12_alg».proof.Proof.Payloads
import proofs.«161264_g10471130268016_week1_w2_219_12_alg».proof.Proof.SumLaws
import proofs.«161264_g10471130268016_week1_w2_219_12_alg».proof.Proof.ValI.Halves
import proofs.«161264_g10471130268016_week1_w2_219_12_alg».proof.Proof.ValI.AggOutAcc
import proofs.«161264_g10471130268016_week1_w2_219_12_alg».proof.Proof.ValI.Blocks2
import proofs.«161264_g10471130268016_week1_w2_219_12_alg».proof.Proof.ValI.AggOutValue
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame

open Cert.SumLaws (node node_val)

variable (V : (c : Dev nD) → (b : Ref sig .tc) → Buf (Elt Ideal) ((c : Thread nD τ).loc b))

/-- The arrays the region finds, each at its literal type. -/
abbrev bBw0 (c : Dev nD) : S4096x4096.Idx → EReal := V c main_arg3
abbrev bBw1 (c : Dev nD) : S4096x4096.Idx → EReal := V c main_arg4
abbrev bFw0 (c : Dev nD) : S4096x4096.Idx → EReal := V c main_arg1
abbrev bFw1 (c : Dev nD) : S4096x4096.Idx → EReal := V c main_arg2
abbrev bXW (c : Dev nD) : S4096x1024.Idx → EReal := V c main_v51_1
abbrev bBpre (c : Dev nD) : S1x512.Idx → EReal := V c main_v41
abbrev bWlin (c : Dev nD) : S512x512.Idx → EReal := V c main_v53
abbrev bBlin (c : Dev nD) : S1x512.Idx → EReal := V c main_v47
abbrev bH (c : Dev nD) : S4096x512.Idx → EReal := V c main_v51_0

/-- The finished accumulator row of node `n`: the accumulator after the last contraction block of the node's row block, at the
    node's row. -/
def rowAcc2 (c : Dev nD) (n : Fin 4096) (e : Fin 512) : EReal :=
  accN2 V c (16 * (n.val / 2048) + 15) (ix2 (⟨n.val % 2048, Nat.mod_lt _ (by decide)⟩ : Fin 2048) e)

theorem rowAcc2_row (c : Dev nD) (i : Fin 2) (p : Fin 2048) (e : Fin 512) :
    rowAcc2 V c (row i p) e = accN2 V c (16 * i.val + 15) (ix2 p e) := by
  unfold rowAcc2
  have hp := p.isLt
  have h1 : (row i p).val / 2048 = i.val := by rw [row_val]; omega
  have h2 : (⟨(row i p).val % 2048, Nat.mod_lt _ (by decide)⟩ : Fin 2048) = p := Fin.ext (by show (row i p).val % 2048 = p.val; rw [row_val]; omega)
  rw [h1, h2]

/-- Every node is a row of a row block. -/
theorem eq_row2 (n : Fin 4096) : n = row ⟨n.val / 2048, by have := n.isLt; omega⟩ ⟨n.val % 2048, Nat.mod_lt _ (by decide)⟩ :=
  Fin.ext (by show n.val = 2048 * (n.val / 2048) + n.val % 2048; omega)

/-- The finished row in terms of the arrays: sixteen blocks of 256 nodes, each contributing two adjacency rows against two
    column strips of the projected features. -/
theorem rowAcc2_left (c : Dev nD) (n : Fin 4096) (q : Fin 256) :
    rowAcc2 V c n (colL q) = 0 + ∑ kb : Fin 16,
      ((∑ k : Fin 256, bBw0 V c (ix2 n (node kb k)) * bXW V c (ix2 (node kb k) (⟨q.val, by have := q.isLt; omega⟩ : Fin 1024)))
        + (∑ k : Fin 256, bBw1 V c (ix2 n (node kb k)) * bXW V c (ix2 (node kb k) (⟨256 + q.val, by have := q.isLt; omega⟩ : Fin 1024)))) := by
  rw [eq_row2 n, rowAcc2_row, acc_total_left2]
  unfold contribL2 termL
  simp only [oblk_0, oblk_1, oblk_4]
  try rfl
theorem rowAcc2_right (c : Dev nD) (n : Fin 4096) (q : Fin 256) :
    rowAcc2 V c n (colR q) = 0 + ∑ kb : Fin 16,
      ((∑ k : Fin 256, bFw0 V c (ix2 n (node kb k)) * bXW V c (ix2 (node kb k) (⟨512 + q.val, by have := q.isLt; omega⟩ : Fin 1024)))
        + (∑ k : Fin 256, bFw1 V c (ix2 n (node kb k)) * bXW V c (ix2 (node kb k) (⟨768 + q.val, by have := q.isLt; omega⟩ : Fin 1024)))) := by
  rw [eq_row2 n, rowAcc2_row, acc_total_right2]
  unfold contribR2 termR
  simp only [oblk_2, oblk_3, oblk_4]
  try rfl

/-- The layer's output array, and the next layer's projection array, as functions of the arrays the region finds. -/
def layerOut2 (c : Dev nD) : S4096x512.Idx → Elt Ideal .f32 := fun idx =>
  ((∑ e : Fin 512, max (rowAcc2 V c (idx 0) e + bBpre V c (ix2 (0 : Fin 1) e)) (Ideal.ofBits .f32 0x00000000#32)
        * bWlin V c (ix2 e (idx 1)))
      + bBlin V c (ix2 (0 : Fin 1) (idx 1)))
    + bH V c (ix2 (idx 0) (idx 1))

/-- The accumulator a last point leaves is the accumulator after that point. -/
theorem accLast2_eq_accN (c : Dev nD) (t : Fin cfg2.N) (h0 : ¬t.val % 16 = 0) (h15 : t.val % 16 = 15) :
    accLast2 V c t h0 h15 (accAt2 V c (t.val - 1) (Nat.lt_of_le_of_lt (Nat.sub_le _ _) t.isLt)).2 = accN2 V c t.val := by
  rw [accN2_of_lt V c t.val t.isLt, accAt2_last V c t h0 h15]
theorem pt2_15 (i : Fin 2) : (pt2 i 15).val = 16 * i.val + 15 := rfl

/-- The epilogue's value at an index of the row block, in terms of the arrays. -/
theorem epilogue_apply2 (c : Dev nD) (i : Fin 2) (h0 : ¬(pt2 i 15).val % 16 = 0) (h15 : (pt2 i 15).val % 16 = 15) (p : Fin 2048) (j : Fin 512) :
    k2_pay2 (accLast2 V c (pt2 i 15) h0 h15 (accAt2 V c ((pt2 i 15).val - 1) (Nat.lt_of_le_of_lt (Nat.sub_le _ _) (pt2 i 15).isLt)).2)
        (oblk V c 6 (pt2 i 15)) (oblk V c 5 (pt2 i 15)) (oblk V c 7 (pt2 i 15)) (oblk V c 8 (pt2 i 15)) (ix2 p j)
      = layerOut2 V c (ix2 (row i p) j) := by
  refine (Pay.k2_pay2_apply _ _ _ _ _ p j).trans ?_
  rw [accLast2_eq_accN V c (pt2 i 15) h0 h15, pt2_15 i, oblk_5 V c (pt2 i 15), oblk_6 V c (pt2 i 15), oblk_7 V c (pt2 i 15), oblk_8 V c i 15 p j]
  unfold layerOut2
  simp only [← rowAcc2_row V c i p]
  try rfl

/-- What a last point writes back is its block of the layer's output array. -/
theorem flushed9 (c : Dev nD) (t : Fin cfg2.N) (hf : (cfg2.win 9).flush t = true) :
    (dat2 V c).flushed 9 t = ((cfg2.win 9).blk t).view.read (Elt Ideal) (layerOut2 V c) := by
  have hN : cfg2.N = 32 := N_2
  have h15 : t.val % 16 = 15 := (flush2_9 t).mp hf
  have h0 : ¬t.val % 16 = 0 := by omega
  obtain ⟨i, rfl⟩ : ∃ i : Fin 2, t = pt2 i 15 :=
    ⟨⟨t.val / 16, by have := t.isLt; omega⟩, Fin.ext (by show t.val = 16 * (t.val / 16) + 15; omega)⟩
  show (cfg2.win 9).cut (grid2.coords (pt2 i 15)) ((dat2 V c).after 9 (pt2 i 15)) = _
  rw [after2_9, accAt2_last V c (pt2 i 15) h0 h15]
  dsimp only
  rw [outLast2_9_eq]
  funext j
  obtain ⟨p, jj, rfl⟩ : ∃ (p : Fin 2048) (jj : Fin 512), j = ix2 p jj := ⟨j 0, j 1, eq_ix2 j⟩
  refine (epilogue_apply2 V c i h0 h15 p jj).trans ?_
  show layerOut2 V c (ix2 (row i p) jj) = layerOut2 V c (((cfg2.win 9).blk (pt2 i 15)).view.emb (ix2 p jj))
  rw [win2_emb_9 i p jj]
/-- The array after the region. -/
theorem final9 (c : Dev nD) : (dat2 V c).arrAt 9 cfg2.N = layerOut2 V c :=
  (dat2 V c).arrAt_eq_of_cover 9 _ (fun t hf => flushed9 V c t hf) win2_covers_9

end Cert.KernelIdeal.Val

end
-- ==== Proof.ValI.Trace.lean ====
/-
  Which contents each kernel region finds in each buffer it reads, traced through the fold of boundary contents: an
  argument array is as launched (no host operation writes one, and a region that stages one only reads it); an array a
  host stretch computes is that stretch's result from the contents it started from; an array a region writes is what
  the region's write-backs left.
-/
import proofs.«161264_g10471130268016_week1_w2_219_12_alg».proof.Proof.FrameI.Run

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Frame

variable {F : FTy → Type} [FloatOps F]

variable (m : (ℓ : Loc nD τ sig) → Buf (Elt F) ℓ) (ρ : Dev nD → PrngReg)

/-! ## What the projection region finds -/

/-- The node features, as launched. -/
theorem En1_arg0 (c : Dev nD) : En1 m ρ c main_arg0 = m ((c : Thread nD τ).loc main_arg0) :=
  calc En1 m ρ c main_arg0
    _ = Bd0 m ρ c (Proc.devRef .tc main_arg0) := StableHlo.after_of_writes_sub hostOps0 _ hostOps0_writes (by decide)
    _ = m ((c : Thread nD τ).loc main_arg0) := rfl

/-- The first layer's weight matrix, as the first host stretch leaves it from the launch contents. -/
theorem En1_v8 (c : Dev nD) : En1 m ρ c main_v8 = StableHlo.after hostOps0 (Bd0 m ρ c) (Proc.devRef .tc main_v8) := rfl

/-! ## What the first aggregation region finds -/

/-- Argument 0, as launched. -/
theorem En3_arg0 (c : Dev nD) : En3 m ρ c main_arg0 = m ((c : Thread nD τ).loc main_arg0) :=
  calc En3 m ρ c main_arg0
    _ = Bd2 m ρ c (Proc.devRef .tc main_arg0) := StableHlo.after_of_writes_sub hostOps1 _ hostOps1_writes (by decide)
    _ = Bd1 m ρ c (Proc.devRef .tc main_arg0) := (Bd2_arr m ρ c 0).trans (((projData (En1 m ρ) c).arrAt_in 0 rfl _).trans (projA_eq (En1 m ρ) c 0))
    _ = Bd0 m ρ c (Proc.devRef .tc main_arg0) := StableHlo.after_of_writes_sub hostOps0 _ hostOps0_writes (by decide)
    _ = m ((c : Thread nD τ).loc main_arg0) := rfl

/-- Argument 1, as launched. -/
theorem En3_arg1 (c : Dev nD) : En3 m ρ c main_arg1 = m ((c : Thread nD τ).loc main_arg1) :=
  calc En3 m ρ c main_arg1
    _ = Bd2 m ρ c (Proc.devRef .tc main_arg1) := StableHlo.after_of_writes_sub hostOps1 _ hostOps1_writes (by decide)
    _ = Bd1 m ρ c (Proc.devRef .tc main_arg1) := Bd2_of_ne m ρ c main_arg1 (by decide)
    _ = Bd0 m ρ c (Proc.devRef .tc main_arg1) := StableHlo.after_of_writes_sub hostOps0 _ hostOps0_writes (by decide)
    _ = m ((c : Thread nD τ).loc main_arg1) := rfl

/-- Argument 2, as launched. -/
theorem En3_arg2 (c : Dev nD) : En3 m ρ c main_arg2 = m ((c : Thread nD τ).loc main_arg2) :=
  calc En3 m ρ c main_arg2
    _ = Bd2 m ρ c (Proc.devRef .tc main_arg2) := StableHlo.after_of_writes_sub hostOps1 _ hostOps1_writes (by decide)
    _ = Bd1 m ρ c (Proc.devRef .tc main_arg2) := Bd2_of_ne m ρ c main_arg2 (by decide)
    _ = Bd0 m ρ c (Proc.devRef .tc main_arg2) := StableHlo.after_of_writes_sub hostOps0 _ hostOps0_writes (by decide)
    _ = m ((c : Thread nD τ).loc main_arg2) := rfl

/-- Argument 3, as launched. -/
theorem En3_arg3 (c : Dev nD) : En3 m ρ c main_arg3 = m ((c : Thread nD τ).loc main_arg3) :=
  calc En3 m ρ c main_arg3
    _ = Bd2 m ρ c (Proc.devRef .tc main_arg3) := StableHlo.after_of_writes_sub hostOps1 _ hostOps1_writes (by decide)
    _ = Bd1 m ρ c (Proc.devRef .tc main_arg3) := Bd2_of_ne m ρ c main_arg3 (by decide)
    _ = Bd0 m ρ c (Proc.devRef .tc main_arg3) := StableHlo.after_of_writes_sub hostOps0 _ hostOps0_writes (by decide)
    _ = m ((c : Thread nD τ).loc main_arg3) := rfl

/-- Argument 4, as launched. -/
theorem En3_arg4 (c : Dev nD) : En3 m ρ c main_arg4 = m ((c : Thread nD τ).loc main_arg4) :=
  calc En3 m ρ c main_arg4
    _ = Bd2 m ρ c (Proc.devRef .tc main_arg4) := StableHlo.after_of_writes_sub hostOps1 _ hostOps1_writes (by decide)
    _ = Bd1 m ρ c (Proc.devRef .tc main_arg4) := Bd2_of_ne m ρ c main_arg4 (by decide)
    _ = Bd0 m ρ c (Proc.devRef .tc main_arg4) := StableHlo.after_of_writes_sub hostOps0 _ hostOps0_writes (by decide)
    _ = m ((c : Thread nD τ).loc main_arg4) := rfl

/-- The projected features: what the projection region's write-backs left. -/
theorem En3_v48 (c : Dev nD) : En3 m ρ c main_v48 = (projData (En1 m ρ) c).arrAt 2 cfg0.N :=
  calc En3 m ρ c main_v48
    _ = Bd2 m ρ c (Proc.devRef .tc main_v48) := StableHlo.after_of_writes_sub hostOps1 _ hostOps1_writes (by decide)
    _ = (projData (En1 m ρ) c).arrAt 2 cfg0.N := Bd2_arr m ρ c 2

/-- The first layer's linear weights, as the second host stretch leaves them from the projection region's exit. -/
theorem En3_v50 (c : Dev nD) : En3 m ρ c main_v50 = StableHlo.after hostOps1 (Bd2 m ρ c) (Proc.devRef .tc main_v50) := rfl

/-- At the projection region's exit the linear weights' argument is as launched. -/
theorem Bd2_arg9 (c : Dev nD) : Bd2 m ρ c (Proc.devRef .tc main_arg9) = m ((c : Thread nD τ).loc main_arg9) :=
  calc Bd2 m ρ c (Proc.devRef .tc main_arg9)
    _ = Bd1 m ρ c (Proc.devRef .tc main_arg9) := Bd2_of_ne m ρ c main_arg9 (by decide)
    _ = Bd0 m ρ c (Proc.devRef .tc main_arg9) := StableHlo.after_of_writes_sub hostOps0 _ hostOps0_writes (by decide)
    _ = m ((c : Thread nD τ).loc main_arg9) := rfl

/-- The first layer's bias row, as the first host stretch leaves it from the launch contents. -/
theorem En3_v29 (c : Dev nD) : En3 m ρ c main_v29 = StableHlo.after hostOps0 (Bd0 m ρ c) (Proc.devRef .tc main_v29) :=
  calc En3 m ρ c main_v29
    _ = Bd2 m ρ c (Proc.devRef .tc main_v29) := StableHlo.after_of_writes_sub hostOps1 _ hostOps1_writes (by decide)
    _ = Bd1 m ρ c (Proc.devRef .tc main_v29) := Bd2_of_ne m ρ c main_v29 (by decide)
    _ = StableHlo.after hostOps0 (Bd0 m ρ c) (Proc.devRef .tc main_v29) := rfl

/-- The first layer's linear bias row, as the first host stretch leaves it from the launch contents. -/
theorem En3_v44 (c : Dev nD) : En3 m ρ c main_v44 = StableHlo.after hostOps0 (Bd0 m ρ c) (Proc.devRef .tc main_v44) :=
  calc En3 m ρ c main_v44
    _ = Bd2 m ρ c (Proc.devRef .tc main_v44) := StableHlo.after_of_writes_sub hostOps1 _ hostOps1_writes (by decide)
    _ = Bd1 m ρ c (Proc.devRef .tc main_v44) := Bd2_of_ne m ρ c main_v44 (by decide)
    _ = StableHlo.after hostOps0 (Bd0 m ρ c) (Proc.devRef .tc main_v44) := rfl

/-- The second layer's weight matrix, as the first host stretch leaves it from the launch contents. -/
theorem En3_v17 (c : Dev nD) : En3 m ρ c main_v17 = StableHlo.after hostOps0 (Bd0 m ρ c) (Proc.devRef .tc main_v17) :=
  calc En3 m ρ c main_v17
    _ = Bd2 m ρ c (Proc.devRef .tc main_v17) := StableHlo.after_of_writes_sub hostOps1 _ hostOps1_writes (by decide)
    _ = Bd1 m ρ c (Proc.devRef .tc main_v17) := Bd2_of_ne m ρ c main_v17 (by decide)
    _ = StableHlo.after hostOps0 (Bd0 m ρ c) (Proc.devRef .tc main_v17) := rfl

/-! ## What the second aggregation region finds -/

/-- Argument 1, as launched. -/
theorem En5_arg1 (c : Dev nD) : En5 m ρ c main_arg1 = m ((c : Thread nD τ).loc main_arg1) :=
  calc En5 m ρ c main_arg1
    _ = Bd4 m ρ c (Proc.devRef .tc main_arg1) := StableHlo.after_of_writes_sub hostOps2 _ hostOps2_writes (by decide)
    _ = Bd3 m ρ c (Proc.devRef .tc main_arg1) := (Bd4_arr m ρ c 2).trans (((dat1 (En3 m ρ) c).arrAt_in 2 rfl _).trans (A_eq1 (En3 m ρ) c 2))
    _ = m ((c : Thread nD τ).loc main_arg1) := En3_arg1 m ρ c

/-- Argument 2, as launched. -/
theorem En5_arg2 (c : Dev nD) : En5 m ρ c main_arg2 = m ((c : Thread nD τ).loc main_arg2) :=
  calc En5 m ρ c main_arg2
    _ = Bd4 m ρ c (Proc.devRef .tc main_arg2) := StableHlo.after_of_writes_sub hostOps2 _ hostOps2_writes (by decide)
    _ = Bd3 m ρ c (Proc.devRef .tc main_arg2) := (Bd4_arr m ρ c 3).trans (((dat1 (En3 m ρ) c).arrAt_in 3 rfl _).trans (A_eq1 (En3 m ρ) c 3))
    _ = m ((c : Thread nD τ).loc main_arg2) := En3_arg2 m ρ c

/-- Argument 3, as launched. -/
theorem En5_arg3 (c : Dev nD) : En5 m ρ c main_arg3 = m ((c : Thread nD τ).loc main_arg3) :=
  calc En5 m ρ c main_arg3
    _ = Bd4 m ρ c (Proc.devRef .tc main_arg3) := StableHlo.after_of_writes_sub hostOps2 _ hostOps2_writes (by decide)
    _ = Bd3 m ρ c (Proc.devRef .tc main_arg3) := (Bd4_arr m ρ c 0).trans (((dat1 (En3 m ρ) c).arrAt_in 0 rfl _).trans (A_eq1 (En3 m ρ) c 0))
    _ = m ((c : Thread nD τ).loc main_arg3) := En3_arg3 m ρ c

/-- Argument 4, as launched. -/
theorem En5_arg4 (c : Dev nD) : En5 m ρ c main_arg4 = m ((c : Thread nD τ).loc main_arg4) :=
  calc En5 m ρ c main_arg4
    _ = Bd4 m ρ c (Proc.devRef .tc main_arg4) := StableHlo.after_of_writes_sub hostOps2 _ hostOps2_writes (by decide)
    _ = Bd3 m ρ c (Proc.devRef .tc main_arg4) := (Bd4_arr m ρ c 1).trans (((dat1 (En3 m ρ) c).arrAt_in 1 rfl _).trans (A_eq1 (En3 m ρ) c 1))
    _ = m ((c : Thread nD τ).loc main_arg4) := En3_arg4 m ρ c

/-- The first layer's output: what the first aggregation region's write-backs left. -/
theorem En5_v51_0 (c : Dev nD) : En5 m ρ c main_v51_0 = (dat1 (En3 m ρ) c).arrAt 10 cfg1.N :=
  calc En5 m ρ c main_v51_0
    _ = Bd4 m ρ c (Proc.devRef .tc main_v51_0) := StableHlo.after_of_writes_sub hostOps2 _ hostOps2_writes (by decide)
    _ = (dat1 (En3 m ρ) c).arrAt 10 cfg1.N := Bd4_arr m ρ c 10

/-- The first layer's output projected: what the first aggregation region's write-backs left. -/
theorem En5_v51_1 (c : Dev nD) : En5 m ρ c main_v51_1 = (dat1 (En3 m ρ) c).arrAt 11 cfg1.N :=
  calc En5 m ρ c main_v51_1
    _ = Bd4 m ρ c (Proc.devRef .tc main_v51_1) := StableHlo.after_of_writes_sub hostOps2 _ hostOps2_writes (by decide)
    _ = (dat1 (En3 m ρ) c).arrAt 11 cfg1.N := Bd4_arr m ρ c 11

/-- The second layer's linear weights, as the third host stretch leaves them from the first aggregation region's exit. -/
theorem En5_v53 (c : Dev nD) : En5 m ρ c main_v53 = StableHlo.after hostOps2 (Bd4 m ρ c) (Proc.devRef .tc main_v53) := rfl

/-- At the first aggregation region's exit the linear weights' argument is as launched. -/
theorem Bd4_arg9 (c : Dev nD) : Bd4 m ρ c (Proc.devRef .tc main_arg9) = m ((c : Thread nD τ).loc main_arg9) :=
  calc Bd4 m ρ c (Proc.devRef .tc main_arg9)
    _ = Bd3 m ρ c (Proc.devRef .tc main_arg9) := Bd4_of_ne m ρ c main_arg9 (by decide)
    _ = Bd2 m ρ c (Proc.devRef .tc main_arg9) := StableHlo.after_of_writes_sub hostOps1 _ hostOps1_writes (by decide)
    _ = m ((c : Thread nD τ).loc main_arg9) := Bd2_arg9 m ρ c

/-- The second layer's bias row, as the first host stretch leaves it from the launch contents. -/
theorem En5_v41 (c : Dev nD) : En5 m ρ c main_v41 = StableHlo.after hostOps0 (Bd0 m ρ c) (Proc.devRef .tc main_v41) :=
  calc En5 m ρ c main_v41
    _ = Bd4 m ρ c (Proc.devRef .tc main_v41) := StableHlo.after_of_writes_sub hostOps2 _ hostOps2_writes (by decide)
    _ = Bd3 m ρ c (Proc.devRef .tc main_v41) := Bd4_of_ne m ρ c main_v41 (by decide)
    _ = Bd2 m ρ c (Proc.devRef .tc main_v41) := StableHlo.after_of_writes_sub hostOps1 _ hostOps1_writes (by decide)
    _ = Bd1 m ρ c (Proc.devRef .tc main_v41) := Bd2_of_ne m ρ c main_v41 (by decide)
    _ = StableHlo.after hostOps0 (Bd0 m ρ c) (Proc.devRef .tc main_v41) := rfl

/-- The second layer's linear bias row, as the first host stretch leaves it from the launch contents. -/
theorem En5_v47 (c : Dev nD) : En5 m ρ c main_v47 = StableHlo.after hostOps0 (Bd0 m ρ c) (Proc.devRef .tc main_v47) :=
  calc En5 m ρ c main_v47
    _ = Bd4 m ρ c (Proc.devRef .tc main_v47) := StableHlo.after_of_writes_sub hostOps2 _ hostOps2_writes (by decide)
    _ = Bd3 m ρ c (Proc.devRef .tc main_v47) := Bd4_of_ne m ρ c main_v47 (by decide)
    _ = Bd2 m ρ c (Proc.devRef .tc main_v47) := StableHlo.after_of_writes_sub hostOps1 _ hostOps1_writes (by decide)
    _ = Bd1 m ρ c (Proc.devRef .tc main_v47) := Bd2_of_ne m ρ c main_v47 (by decide)
    _ = StableHlo.after hostOps0 (Bd0 m ρ c) (Proc.devRef .tc main_v47) := rfl

/-! ## The result, and the launch contents of the weights and biases -/

/-- The result array: what the second aggregation region's write-backs left. -/
theorem Bd6_v54 (c : Dev nD) : Bd6 m ρ c (Proc.devRef .tc main_v54) = (dat2 (En5 m ρ) c).arrAt 9 cfg2.N := Bd6_arr m ρ c 9

/-- Argument 5 at launch. -/
theorem Bd0_arg5 (c : Dev nD) : Bd0 m ρ c (Proc.devRef .tc main_arg5) = m ((c : Thread nD τ).loc main_arg5) := rfl

/-- Argument 6 at launch. -/
theorem Bd0_arg6 (c : Dev nD) : Bd0 m ρ c (Proc.devRef .tc main_arg6) = m ((c : Thread nD τ).loc main_arg6) := rfl

/-- Argument 7 at launch. -/
theorem Bd0_arg7 (c : Dev nD) : Bd0 m ρ c (Proc.devRef .tc main_arg7) = m ((c : Thread nD τ).loc main_arg7) := rfl

/-- Argument 8 at launch. -/
theorem Bd0_arg8 (c : Dev nD) : Bd0 m ρ c (Proc.devRef .tc main_arg8) = m ((c : Thread nD τ).loc main_arg8) := rfl

/-- Argument 9 at launch. -/
theorem Bd0_arg9 (c : Dev nD) : Bd0 m ρ c (Proc.devRef .tc main_arg9) = m ((c : Thread nD τ).loc main_arg9) := rfl

/-- Argument 10 at launch. -/
theorem Bd0_arg10 (c : Dev nD) : Bd0 m ρ c (Proc.devRef .tc main_arg10) = m ((c : Thread nD τ).loc main_arg10) := rfl

end Cert.KernelIdeal.Val

end
-- ==== Proof.ValI.Compose.lean ====
/-
  The composition: the result array is the specification's function of the launch arguments.

  The projection region leaves the embeddings times the first layer's weight matrix, whose four column strips are the
  four directional projections of layer 0. The first aggregation region, finding that product, the adjacencies, the
  summed biases, the linear weights and bias and the embeddings, leaves layer 0 of the specification and its product
  with the second layer's weight matrix, whose strips are the directional projections of layer 1 of layer 0's output.
  The second aggregation region, finding those, leaves layer 1 of layer 0: the specification's result.
-/
import proofs.«161264_g10471130268016_week1_w2_219_12_alg».proof.Proof.Spec
import proofs.«161264_g10471130268016_week1_w2_219_12_alg».proof.Proof.SumLaws
import proofs.«161264_g10471130268016_week1_w2_219_12_alg».proof.Proof.LayerBridge
import proofs.«161264_g10471130268016_week1_w2_219_12_alg».proof.Proof.HostValues
import proofs.«161264_g10471130268016_week1_w2_219_12_alg».proof.Proof.ValI.ProjValue
import proofs.«161264_g10471130268016_week1_w2_219_12_alg».proof.Proof.ValI.AggMidOut
import proofs.«161264_g10471130268016_week1_w2_219_12_alg».proof.Proof.ValI.AggOutOut
import proofs.«161264_g10471130268016_week1_w2_219_12_alg».proof.Proof.ValI.Trace

set_option maxRecDepth 16384

noncomputable section

open scoped BigOperators

namespace Cert.KernelIdeal.Val

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Frame Cert.KernelIdeal.HostVal
open Cert.SumLaws (node node_val)

/-! ## One layer from the arrays a region finds -/

section Core

open Cert.Spec Cert.SumLaws

/-- A strip of a product of features and a weight matrix whose columns `col q` hold the directional weights of layer `l`,
    relation `r`, is that direction's projection of the features. -/
theorem proj_of_strip (h : Feat) (w : (⟨2, ![512, 1024]⟩ : Shape).Idx → EReal) (W : WDir) (l r : Fin 2) (col : Fin 256 → Fin 1024)
    (hw : ∀ (d : Fin 512) (q : Fin 256), w (ix2 d (col q)) = W (ix4 l r d q)) (n : Fin 4096) (q : Fin 256) :
    ∑ d : Fin 512, h (ix2 n d) * w (ix2 d (col q)) = proj h W l r n q := by
  unfold proj
  exact Finset.sum_congr rfl fun d _ => by rw [hw d q]

/-- One layer at `(n, j)` from the arrays an aggregation region finds: the adjacencies, the strips of projected features,
    the bias row, the linear weights and bias row, the layer's input, and the finished accumulator rows in their blocked
    form. -/
theorem layerAt_of_arrays (fw0 fw1 bw0 bw1 : Adj) (Wfw : WDir) (bfw : BDir) (Wbw : WDir) (bbw : BDir) (Wlin : WLin)
    (blin : BLin) (l : Fin 2) (h : Feat)
    (abw0 abw1 afw0 afw1 : (⟨2, ![4096, 4096]⟩ : Shape).Idx → EReal)
    (xw : (⟨2, ![4096, 1024]⟩ : Shape).Idx → EReal) (bpre : (⟨2, ![1, 512]⟩ : Shape).Idx → EReal)
    (wl : (⟨2, ![512, 512]⟩ : Shape).Idx → EReal) (bl : (⟨2, ![1, 512]⟩ : Shape).Idx → EReal)
    (ah : (⟨2, ![4096, 512]⟩ : Shape).Idx → EReal) (racc : Fin 4096 → Fin 512 → EReal)
    (e0 : abw0 = bw0) (e1 : abw1 = bw1) (e2 : afw0 = fw0) (e3 : afw1 = fw1)
    (hX0 : ∀ (n : Fin 4096) (q : Fin 256), xw (ix2 n (⟨q.val, by have := q.isLt; omega⟩ : Fin 1024)) = proj h Wbw l 0 n q)
    (hX1 : ∀ (n : Fin 4096) (q : Fin 256), xw (ix2 n (⟨256 + q.val, by have := q.isLt; omega⟩ : Fin 1024)) = proj h Wbw l 1 n q)
    (hX2 : ∀ (n : Fin 4096) (q : Fin 256), xw (ix2 n (⟨512 + q.val, by have := q.isLt; omega⟩ : Fin 1024)) = proj h Wfw l 0 n q)
    (hX3 : ∀ (n : Fin 4096) (q : Fin 256), xw (ix2 n (⟨768 + q.val, by have := q.isLt; omega⟩ : Fin 1024)) = proj h Wfw l 1 n q)
    (hL : ∀ (n : Fin 4096) (q : Fin 256), racc n (⟨q.val, by have := q.isLt; omega⟩ : Fin 512) = 0 + ∑ kb : Fin 16,
      ((∑ k : Fin 256, abw0 (ix2 n (node kb k)) * xw (ix2 (node kb k) (⟨q.val, by have := q.isLt; omega⟩ : Fin 1024)))
        + (∑ k : Fin 256, abw1 (ix2 n (node kb k)) * xw (ix2 (node kb k) (⟨256 + q.val, by have := q.isLt; omega⟩ : Fin 1024)))))
    (hR : ∀ (n : Fin 4096) (q : Fin 256), racc n (⟨256 + q.val, by have := q.isLt; omega⟩ : Fin 512) = 0 + ∑ kb : Fin 16,
      ((∑ k : Fin 256, afw0 (ix2 n (node kb k)) * xw (ix2 (node kb k) (⟨512 + q.val, by have := q.isLt; omega⟩ : Fin 1024)))
        + (∑ k : Fin 256, afw1 (ix2 n (node kb k)) * xw (ix2 (node kb k) (⟨768 + q.val, by have := q.isLt; omega⟩ : Fin 1024)))))
    (hbL : ∀ q : Fin 256, bpre (ix2 (0 : Fin 1) (⟨q.val, by have := q.isLt; omega⟩ : Fin 512)) = bbw (ix3 l 0 q) + bbw (ix3 l 1 q))
    (hbR : ∀ q : Fin 256, bpre (ix2 (0 : Fin 1) (⟨256 + q.val, by have := q.isLt; omega⟩ : Fin 512)) = bfw (ix3 l 0 q) + bfw (ix3 l 1 q))
    (hW : ∀ e c : Fin 512, wl (ix2 e c) = Wlin (ix3 l e c))
    (hB : ∀ c : Fin 512, bl (ix2 (0 : Fin 1) c) = blin (ix2 l c))
    (hH : ah = h)
    (n : Fin 4096) (j : Fin 512) :
    ((∑ e : Fin 512, max (racc n e + bpre (ix2 (0 : Fin 1) e)) (Ideal.ofBits .f32 0x00000000#32) * wl (ix2 e j))
        + bl (ix2 (0 : Fin 1) j)) + ah (ix2 n j)
      = layerAt fw0 fw1 bw0 bw1 Wfw bfw Wbw bbw Wlin blin l h n j := by
  subst e0 e1 e2 e3 hH
  refine Eq.trans ?_ (Cert.Bridge.layerAt_of_blocks afw0 afw1 abw0 abw1 Wfw bfw Wbw bbw Wlin blin l ah n (racc n)
    (fun e => bpre (ix2 (0 : Fin 1) e)) ?_ ?_ hbL hbR j)
  · simp only [hW, hB]
  · intro q
    rw [hL n q]
    simp only [hX0, hX1]
  · intro q
    rw [hR n q]
    simp only [hX2, hX3]

end Core

/-! ## The launch arguments, and two host arrays, at the specification's types -/

section Compose

variable (m : (ℓ : Loc nD τ sig) → Buf (Elt Ideal) ℓ) (ρ : Dev nD → PrngReg) (c : Dev nD)

/-- The embeddings, the two forward and the two backward adjacencies, the forward weights and biases, the backward
    weights and biases, the linear weights and biases, as launched. -/
abbrev LEmbs : Cert.Spec.Feat := m ((c : Thread nD τ).loc main_arg0)
abbrev LFw0 : Cert.Spec.Adj := m ((c : Thread nD τ).loc main_arg1)
abbrev LFw1 : Cert.Spec.Adj := m ((c : Thread nD τ).loc main_arg2)
abbrev LBw0 : Cert.Spec.Adj := m ((c : Thread nD τ).loc main_arg3)
abbrev LBw1 : Cert.Spec.Adj := m ((c : Thread nD τ).loc main_arg4)
abbrev LWfw : Cert.Spec.WDir := m ((c : Thread nD τ).loc main_arg5)
abbrev LBfw : Cert.Spec.BDir := m ((c : Thread nD τ).loc main_arg6)
abbrev LWbw : Cert.Spec.WDir := m ((c : Thread nD τ).loc main_arg7)
abbrev LBbw : Cert.Spec.BDir := m ((c : Thread nD τ).loc main_arg8)
abbrev LWlin : Cert.Spec.WLin := m ((c : Thread nD τ).loc main_arg9)
abbrev LBlin : Cert.Spec.BLin := m ((c : Thread nD τ).loc main_arg10)

/-- The weight matrices of the two layers, as the first host stretch leaves them from the launch contents. -/
abbrev W8 : S512x1024.Idx → EReal := StableHlo.after hostOps0 (Bd0 m ρ c) (Proc.devRef .tc main_v8)
abbrev W17 : S512x1024.Idx → EReal := StableHlo.after hostOps0 (Bd0 m ρ c) (Proc.devRef .tc main_v17)

/-- Layer 0 of the specification, of the launch arguments. -/
abbrev L0 : Cert.Spec.Feat := Cert.Spec.layer (LFw0 m c) (LFw1 m c) (LBw0 m c) (LBw1 m c) (LWfw m c) (LBfw m c) (LWbw m c) (LBbw m c) (LWlin m c) (LBlin m c) 0 (LEmbs m c)

/-! ## The first layer -/

/-- The projected features the first aggregation region finds: the embeddings times the first weight matrix. -/
theorem xw0_eq : aXW (En3 m ρ) c = matProd (LEmbs m c) (W8 m ρ c) :=
  (En3_v48 m ρ c).trans ((projFinal (En1 m ρ) c).trans
    (congrArg (fun a => matProd a (En1 m ρ c main_v8)) (En1_arg0 m ρ c)))

/-- A column strip of them is a directional projection of layer 0 of the embeddings. -/
theorem strip0 (W : Cert.Spec.WDir) (r : Fin 2) (col : Fin 256 → Fin 1024)
    (hw : ∀ (d : Fin 512) (q : Fin 256), W8 m ρ c (ix2 d (col q)) = W (ix4 (0 : Fin 2) r d q)) (n : Fin 4096) (q : Fin 256) :
    aXW (En3 m ρ) c (ix2 n (col q)) = Cert.Spec.proj (LEmbs m c) W 0 r n q :=
  (congrFun (xw0_eq m ρ c) _).trans (proj_of_strip (LEmbs m c) (W8 m ρ c) W 0 r col hw n q)

/-- The first aggregation region's output array is layer 0 of the specification. -/
theorem layer0_value : (layerOut (En3 m ρ) c : S4096x512.Idx → EReal) = L0 m c := by
  funext idx
  obtain ⟨n, j, rfl⟩ : ∃ (n : Fin 4096) (j : Fin 512), idx = ix2 n j := ⟨idx 0, idx 1, eq_ix2 idx⟩
  have hbp : aBpre (En3 m ρ) c = (StableHlo.after hostOps0 (Bd0 m ρ c) (Proc.devRef .tc main_v29) : S1x512.Idx → EReal) :=
    En3_v29 m ρ c
  have hbl : aBlin (En3 m ρ) c = (StableHlo.after hostOps0 (Bd0 m ρ c) (Proc.devRef .tc main_v44) : S1x512.Idx → EReal) :=
    En3_v44 m ρ c
  have h9 : (Bd2 m ρ c (Proc.devRef .tc main_arg9) : S2x512x512.Idx → EReal) = LWlin m c := Bd2_arg9 m ρ c
  exact layerAt_of_arrays (LFw0 m c) (LFw1 m c) (LBw0 m c) (LBw1 m c) (LWfw m c) (LBfw m c) (LWbw m c) (LBbw m c) (LWlin m c) (LBlin m c) 0 (LEmbs m c)
    (aBw0 (En3 m ρ) c) (aBw1 (En3 m ρ) c) (aFw0 (En3 m ρ) c) (aFw1 (En3 m ρ) c) (aXW (En3 m ρ) c) (aBpre (En3 m ρ) c)
    (aWlin (En3 m ρ) c) (aBlin (En3 m ρ) c) (aH (En3 m ρ) c) (rowAcc (En3 m ρ) c)
    (En3_arg3 m ρ c) (En3_arg4 m ρ c) (En3_arg1 m ρ c) (En3_arg2 m ρ c)
    (strip0 m ρ c (LWbw m c) 0 _ (fun d q => v8_apply_0 (Bd0 m ρ c) d q))
    (strip0 m ρ c (LWbw m c) 1 _ (fun d q => v8_apply_1 (Bd0 m ρ c) d q))
    (strip0 m ρ c (LWfw m c) 0 _ (fun d q => v8_apply_2 (Bd0 m ρ c) d q))
    (strip0 m ρ c (LWfw m c) 1 _ (fun d q => v8_apply_3 (Bd0 m ρ c) d q))
    (rowAcc_left (En3 m ρ) c) (rowAcc_right (En3 m ρ) c)
    (fun q => (congrFun hbp _).trans (v29_apply_lo (Bd0 m ρ c) (LBbw m c) rfl q))
    (fun q => (congrFun hbp _).trans (v29_apply_hi (Bd0 m ρ c) (LBfw m c) rfl q))
    (fun e j => (v50_apply (Bd2 m ρ c) e j).trans (congrFun h9 _))
    (fun j => (congrFun hbl _).trans (v44_apply (Bd0 m ρ c) j))
    (En3_arg0 m ρ c) n j

end Compose

/-! ## The second layer -/

section Compose2

variable (m : (ℓ : Loc nD τ sig) → Buf (Elt Ideal) ℓ) (ρ : Dev nD → PrngReg) (c : Dev nD)

/-- The projected features the second aggregation region finds: layer 0 times the second weight matrix. -/
theorem xw1_apply (n : Fin 4096) (col : Fin 1024) :
    bXW (En5 m ρ) c (ix2 n col) = ∑ d : Fin 512, L0 m c (ix2 n d) * W17 m ρ c (ix2 d col) := by
  have hbx : bXW (En5 m ρ) c = nextProj (En3 m ρ) c := (En5_v51_1 m ρ c).trans (final11 (En3 m ρ) c)
  have hw17 : aWnext (En3 m ρ) c = W17 m ρ c := En3_v17 m ρ c
  rw [hbx]
  show ∑ d : Fin 512, layerOut (En3 m ρ) c (ix2 n d) * aWnext (En3 m ρ) c (ix2 d col) = _
  rw [layer0_value m ρ c, hw17]

/-- A column strip of them is a directional projection of layer 1 of layer 0. -/
theorem strip1 (W : Cert.Spec.WDir) (r : Fin 2) (col : Fin 256 → Fin 1024)
    (hw : ∀ (d : Fin 512) (q : Fin 256), W17 m ρ c (ix2 d (col q)) = W (ix4 (1 : Fin 2) r d q)) (n : Fin 4096) (q : Fin 256) :
    bXW (En5 m ρ) c (ix2 n (col q)) = Cert.Spec.proj (L0 m c) W 1 r n q :=
  (xw1_apply m ρ c n (col q)).trans (proj_of_strip (L0 m c) (W17 m ρ c) W 1 r col hw n q)

/-- The second aggregation region's output array is layer 1 of layer 0 of the specification. -/
theorem layer1_value : (layerOut2 (En5 m ρ) c : S4096x512.Idx → EReal)
    = Cert.Spec.layer (LFw0 m c) (LFw1 m c) (LBw0 m c) (LBw1 m c) (LWfw m c) (LBfw m c) (LWbw m c) (LBbw m c) (LWlin m c) (LBlin m c) 1 (L0 m c) := by
  funext idx
  obtain ⟨n, j, rfl⟩ : ∃ (n : Fin 4096) (j : Fin 512), idx = ix2 n j := ⟨idx 0, idx 1, eq_ix2 idx⟩
  have hbp : bBpre (En5 m ρ) c = (StableHlo.after hostOps0 (Bd0 m ρ c) (Proc.devRef .tc main_v41) : S1x512.Idx → EReal) :=
    En5_v41 m ρ c
  have hbl : bBlin (En5 m ρ) c = (StableHlo.after hostOps0 (Bd0 m ρ c) (Proc.devRef .tc main_v47) : S1x512.Idx → EReal) :=
    En5_v47 m ρ c
  have h9 : (Bd4 m ρ c (Proc.devRef .tc main_arg9) : S2x512x512.Idx → EReal) = LWlin m c := Bd4_arg9 m ρ c
  have hH : bH (En5 m ρ) c = L0 m c :=
    (En5_v51_0 m ρ c).trans ((final10 (En3 m ρ) c).trans (layer0_value m ρ c))
  exact layerAt_of_arrays (LFw0 m c) (LFw1 m c) (LBw0 m c) (LBw1 m c) (LWfw m c) (LBfw m c) (LWbw m c) (LBbw m c) (LWlin m c) (LBlin m c) 1 (L0 m c)
    (bBw0 (En5 m ρ) c) (bBw1 (En5 m ρ) c) (bFw0 (En5 m ρ) c) (bFw1 (En5 m ρ) c) (bXW (En5 m ρ) c) (bBpre (En5 m ρ) c)
    (bWlin (En5 m ρ) c) (bBlin (En5 m ρ) c) (bH (En5 m ρ) c) (rowAcc2 (En5 m ρ) c)
    (En5_arg3 m ρ c) (En5_arg4 m ρ c) (En5_arg1 m ρ c) (En5_arg2 m ρ c)
    (strip1 m ρ c (LWbw m c) 0 _ (fun d q => v17_apply_0 (Bd0 m ρ c) d q))
    (strip1 m ρ c (LWbw m c) 1 _ (fun d q => v17_apply_1 (Bd0 m ρ c) d q))
    (strip1 m ρ c (LWfw m c) 0 _ (fun d q => v17_apply_2 (Bd0 m ρ c) d q))
    (strip1 m ρ c (LWfw m c) 1 _ (fun d q => v17_apply_3 (Bd0 m ρ c) d q))
    (rowAcc2_left (En5 m ρ) c) (rowAcc2_right (En5 m ρ) c)
    (fun q => (congrFun hbp _).trans (v41_apply_lo (Bd0 m ρ c) (LBbw m c) rfl q))
    (fun q => (congrFun hbp _).trans (v41_apply_hi (Bd0 m ρ c) (LBfw m c) rfl q))
    (fun e j => (v53_apply (Bd4 m ρ c) e j).trans (congrFun h9 _))
    (fun j => (congrFun hbl _).trans (v47_apply (Bd0 m ρ c) j))
    hH n j

/-! ## The result -/

/-- The result array after the run is the specification's function of the launch arguments. -/
theorem kernel_value :
    (Bd6 m ρ c (Proc.devRef .tc main_v54) : S4096x512.Idx → EReal)
      = Cert.Spec.G (LEmbs m c) (LFw0 m c) (LFw1 m c) (LBw0 m c) (LBw1 m c) (LWfw m c) (LBfw m c) (LWbw m c) (LBbw m c) (LWlin m c) (LBlin m c) :=
  (Bd6_v54 m ρ c).trans ((final9 (En5 m ρ) c).trans (layer1_value m ρ c))

end Compose2

end Cert.KernelIdeal.Val

end
-- ==== Proof.RefLayer.lean ====
/-
  The reference's layer, as its operations compose it, is the specification's layer.

  One layer of the reference is the same composition of operations at both depths: for each relation and direction a
  product of the node features with a slice of the weights, a product of an adjacency with that, a broadcast slice of
  the biases added; the two directions joined along the columns; the two relations stacked and summed from the zero
  word; the rectifier; the linear map, its bias, and the residual. This module names that composition
  (`aggOp`, `relOp`, `preOp`, `actOp`, `layerOp`) over arbitrary operand arrays, reads each operation at an index, and
  proves `layerOp … = Cert.Spec.layer …` under the hypotheses that say which entries of the parameter arrays the sliced
  operands hold. The only law of the extended reals used is `0 + x = x`, for the sum's initial value.

  The contraction lemmas read the host's contraction at an index through the contraction index's one coordinate,
  with the coordinate facts the generated reading module proves for these dimension numbers.
-/
import proofs.«161264_g10471130268016_week1_w2_219_12_alg».proof.Proof.RefReadP
import proofs.«161264_g10471130268016_week1_w2_219_12_alg».proof.Proof.Spec

noncomputable section

namespace Cert.RefLayer

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- An array of the reference program, at the ideal values. -/
abbrev Arr (S : Shape) : Type := FVec Ideal S .f32

/-! ## The operations read at an index -/

/-- A host contraction of a [N, K] array with a [K, C] array over the one axis of size K, at `[n, c]`: the sum over
    that axis of the products. The four coordinate facts say which coordinates of the operands' indices the
    dimension numbers take from the output index and which from the contraction index; the contraction's sum is
    re-indexed by the contraction index's one coordinate. -/
theorem contraction_at {N K C : Nat} (D : DotDims ⟨2, ![N, K]⟩ ⟨2, ![K, C]⟩ ⟨2, ![N, C]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : (⟨2, ![N, K]⟩ : Shape).Idx → EReal) (y : (⟨2, ![K, C]⟩ : Shape).Idx → EReal) (n : Fin N) (c : Fin C) :
    (Host.dotGeneral (F := Ideal) (φ₁ := .f32) (φ₂ := .f32) D none x y) (ix2 n c)
      = ∑ k : Fin K, x (ix2 n k) * y (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 n c) ((contrEquiv1 D K hr hs).symm k) = ix2 n k :=
    funext fun a => Fin.ext (by
      match a with
      | ⟨0, _⟩ => exact hl0 _ _
      | ⟨1, _⟩ => exact (hl1 _ _).trans hk)
  have er : D.rhsIdx (ix2 n c) ((contrEquiv1 D K hr hs).symm k) = ix2 k c :=
    funext fun a => Fin.ext (by
      match a with
      | ⟨0, _⟩ => exact (hr0 _ _).trans hk
      | ⟨1, _⟩ => exact hr1 _ _)
  rw [el, er]

/-- The product of the node features with a [512, 256] weight at `[n, e]`: the sum over the 512 features. -/
theorem proj_at (x : Arr S4096x512) (y : Arr S512x256) (n : Fin 4096) (e : Fin 256) :
    (Host.dotGeneral (F := Ideal) dot_S4096x512_S512x256_S4096x256_1_0_0_1_n_n none x y : Arr S4096x256) (ix2 n e)
      = ∑ k : Fin 512, x (ix2 n k) * y (ix2 k e) :=
  contraction_at dot_S4096x512_S512x256_S4096x256_1_0_0_1_n_n rfl rfl lhs_main_v2_0 lhs_main_v2_1 rhs_main_v2_0 rhs_main_v2_1 x y n e

/-- The product of an adjacency with a [4096, 256] array at `[n, e]`: the sum over the 4096 nodes. -/
theorem adj_at (x : Arr S4096x4096) (y : Arr S4096x256) (n : Fin 4096) (e : Fin 256) :
    (Host.dotGeneral (F := Ideal) dot_S4096x4096_S4096x256_S4096x256_1_0_0_1_n_n none x y : Arr S4096x256) (ix2 n e)
      = ∑ j : Fin 4096, x (ix2 n j) * y (ix2 j e) :=
  contraction_at dot_S4096x4096_S4096x256_S4096x256_1_0_0_1_n_n rfl rfl lhs_main_v3_0 lhs_main_v3_1 rhs_main_v3_0 rhs_main_v3_1 x y n e

/-- The product of the node features with a [512, 512] weight at `[n, c]`: the sum over the 512 features. -/
theorem lin_at (x : Arr S4096x512) (y : Arr S512x512) (n : Fin 4096) (c : Fin 512) :
    (Host.dotGeneral (F := Ideal) dot_S4096x512_S512x512_S4096x512_1_0_0_1_n_n none x y : Arr S4096x512) (ix2 n c)
      = ∑ k : Fin 512, x (ix2 n k) * y (ix2 k c) :=
  contraction_at dot_S4096x512_S512x512_S4096x512_1_0_0_1_n_n rfl rfl lhs_main_v45_0 lhs_main_v45_1 rhs_main_v45_0 rhs_main_v45_1 x y n c

/-- The sum over the stacked axis of a [2, 4096, 512] array from an initial value, at `[n, c]`. -/
theorem stack_sum_at (x : Arr S2x4096x512) (init : Arr S_) (n : Fin 4096) (c : Fin 512) :
    (Host.reduceAdd (F := Ideal) (φ := .f32) x init reducesTo_S2x4096x512_S4096x512_d0 h_S_ : Arr S4096x512) (ix2 n c)
      = init (Shape.Idx.first h_S_) + ∑ r : Fin 2, x (ix3 r n c) := by
  simp only [Host.reduceAdd, Ideal.hostReduceAdd_def]
  rw [Ideal.hostReduceAdd_single reducesTo_S2x4096x512_S4096x512_d0 (by decide)]
  refine congrArg (_ + ·) (Finset.sum_congr rfl fun r _ => ?_)
  exact congrArg x (funext fun a => Fin.ext (by match a with | ⟨0, _⟩ => rfl | ⟨1, _⟩ => rfl | ⟨2, _⟩ => rfl))

/-- A [4096, 512] array under a leading unit axis reads the array. -/
theorem lead_at (x : Arr S4096x512) (n : Fin 4096) (c : Fin 512) :
    (broadcastInDim S1x4096x512 ![1, 2] bcast_S4096x512_S1x4096x512_1_2 x : Arr S1x4096x512) (ix3 (0 : Fin 1) n c)
      = x (ix2 n c) :=
  broadcastInDim_apply _ bcast_S4096x512_S1x4096x512_1_2 x _ (ix2 n c) (fun a => match a with
    | ⟨0, _⟩ => by show n.val = if (4096 : Nat) = 1 then 0 else n.val; rw [if_neg (by decide)]
    | ⟨1, _⟩ => by show c.val = if (512 : Nat) = 1 then 0 else c.val; rw [if_neg (by decide)])

/-- Two [4096, 256] arrays joined along the columns, at `[n, c]`: row `n` of the first below column 256, row `n` of the
    second, 256 less, from there on. -/
theorem join_cols_at (a b : Arr S4096x256) (n : Fin 4096) (c : Fin 512) :
    (concatenate S4096x512 1 [⟨S4096x256, a⟩, ⟨S4096x256, b⟩] concatenates_S4096x256_S4096x256_S4096x512_d1 : Arr S4096x512)
        (ix2 n c)
      = Cert.Spec.cat (fun e => a (ix2 n e)) (fun e => b (ix2 n e)) c := by
  unfold Cert.Spec.cat
  by_cases hc : c.val < 256
  · rw [dif_pos hc]
    exact concatenate_pair_apply_left (t := S4096x512) (s₁ := S4096x256) (s₂ := S4096x256) 1 a b
      concatenates_S4096x256_S4096x256_S4096x512_d1 (ix2 n c) rfl (ix2 n ⟨c.val, hc⟩) (fun d => by
      match d with
      | ⟨0, _⟩ => rfl
      | ⟨1, _⟩ => rfl)
  · rw [dif_neg hc]
    have hc' : c.val - 256 < 256 := by have := c.isLt; omega
    exact concatenate_pair_apply_right (t := S4096x512) (s₁ := S4096x256) (s₂ := S4096x256) 1 a b
      concatenates_S4096x256_S4096x256_S4096x512_d1 (ix2 n c) rfl rfl (ix2 n ⟨c.val - 256, hc'⟩)
      (fun d hd => by
        match d with
        | ⟨0, _⟩ => rfl
        | ⟨1, _⟩ => exact absurd rfl hd)
      (by show c.val - 256 + 256 = c.val; omega)

/-- Two arrays with a leading unit axis stacked: member 0 is the first. -/
theorem stack_at0 (a b : Arr S1x4096x512) (n : Fin 4096) (c : Fin 512) :
    (concatenate S2x4096x512 0 [⟨S1x4096x512, a⟩, ⟨S1x4096x512, b⟩] concatenates_S1x4096x512_S1x4096x512_S2x4096x512_d0
        : Arr S2x4096x512) (ix3 (0 : Fin 2) n c)
      = a (ix3 (0 : Fin 1) n c) :=
  concatenate_pair_apply_left (t := S2x4096x512) (s₁ := S1x4096x512) (s₂ := S1x4096x512) 0 a b
    concatenates_S1x4096x512_S1x4096x512_S2x4096x512_d0 (ix3 (0 : Fin 2) n c) rfl (ix3 (0 : Fin 1) n c) (fun d => by
    match d with
    | ⟨0, _⟩ => rfl
    | ⟨1, _⟩ => rfl
    | ⟨2, _⟩ => rfl)

/-- Two arrays with a leading unit axis stacked: member 1 is the second. -/
theorem stack_at1 (a b : Arr S1x4096x512) (n : Fin 4096) (c : Fin 512) :
    (concatenate S2x4096x512 0 [⟨S1x4096x512, a⟩, ⟨S1x4096x512, b⟩] concatenates_S1x4096x512_S1x4096x512_S2x4096x512_d0
        : Arr S2x4096x512) (ix3 (1 : Fin 2) n c)
      = b (ix3 (0 : Fin 1) n c) :=
  concatenate_pair_apply_right (t := S2x4096x512) (s₁ := S1x4096x512) (s₂ := S1x4096x512) 0 a b
    concatenates_S1x4096x512_S1x4096x512_S2x4096x512_d0 (ix3 (1 : Fin 2) n c) rfl rfl (ix3 (0 : Fin 1) n c)
    (fun d hd => by
      match d with
      | ⟨0, _⟩ => exact absurd rfl hd
      | ⟨1, _⟩ => rfl
      | ⟨2, _⟩ => rfl)
    rfl

/-- The zero word broadcast over [4096, 512] is the zero word at every index. -/
theorem zeros_at (i : S4096x512.Idx) :
    (broadcastInDim S4096x512 ![] bcast_S_S4096x512 (constant (F := Ideal) S_ .f32 0x00000000#32) : Arr S4096x512) i
      = Ideal.ofBits .f32 0x00000000#32 :=
  broadcastInDim_apply _ bcast_S_S4096x512 (constant (F := Ideal) S_ .f32 0x00000000#32) i (fun a => a.elim0)
    (fun a => a.elim0)

/-! ## The layer's composition, named -/

/-- One direction's aggregate: the adjacency times (the features times the weight), plus the bias array. -/
def aggOp (adj : Arr S4096x4096) (h : Arr S4096x512) (Ws : Arr S512x256) (bs : Arr S4096x256) : Arr S4096x256 :=
  addf (Host.dotGeneral (F := Ideal) dot_S4096x4096_S4096x256_S4096x256_1_0_0_1_n_n none adj
    (Host.dotGeneral (F := Ideal) dot_S4096x512_S512x256_S4096x256_1_0_0_1_n_n none h Ws : Arr S4096x256) : Arr S4096x256) bs

/-- One relation's output: the backward aggregate and the forward aggregate joined along the columns. -/
def relOp (fwAdj bwAdj : Arr S4096x4096) (h : Arr S4096x512) (Wf Wb : Arr S512x256) (bf bb : Arr S4096x256) :
    Arr S4096x512 :=
  concatenate S4096x512 1 [⟨S4096x256, aggOp bwAdj h Wb bb⟩, ⟨S4096x256, aggOp fwAdj h Wf bf⟩]
    concatenates_S4096x256_S4096x256_S4096x512_d1

/-- The two relations' outputs stacked and summed over the stack from the zero word. -/
def preOp (o0 o1 : Arr S4096x512) : Arr S4096x512 :=
  Host.reduceAdd (F := Ideal) (φ := .f32)
    (concatenate S2x4096x512 0
      [⟨S1x4096x512, (broadcastInDim S1x4096x512 ![1, 2] bcast_S4096x512_S1x4096x512_1_2 o0 : Arr S1x4096x512)⟩,
       ⟨S1x4096x512, (broadcastInDim S1x4096x512 ![1, 2] bcast_S4096x512_S1x4096x512_1_2 o1 : Arr S1x4096x512)⟩]
      concatenates_S1x4096x512_S1x4096x512_S2x4096x512_d0 : Arr S2x4096x512)
    (constant (F := Ideal) S_ .f32 0x00000000#32) reducesTo_S2x4096x512_S4096x512_d0 h_S_

/-- The rectifier: the maximum with the zero word broadcast. -/
def actOp (s : Arr S4096x512) : Arr S4096x512 :=
  maximumf s (broadcastInDim S4096x512 ![] bcast_S_S4096x512 (constant (F := Ideal) S_ .f32 0x00000000#32) : Arr S4096x512)

/-- The layer: the rectified pre-activation times the linear weight, plus the bias array, plus the features. -/
def layerOp (fw0 fw1 bw0 bw1 : Arr S4096x4096) (h : Arr S4096x512) (Wf0 Wf1 Wb0 Wb1 : Arr S512x256)
    (bf0 bf1 bb0 bb1 : Arr S4096x256) (Wl : Arr S512x512) (bl : Arr S4096x512) : Arr S4096x512 :=
  addf (addf (Host.dotGeneral (F := Ideal) dot_S4096x512_S512x512_S4096x512_1_0_0_1_n_n none
      (actOp (preOp (relOp fw0 bw0 h Wf0 Wb0 bf0 bb0) (relOp fw1 bw1 h Wf1 Wb1 bf1 bb1))) Wl : Arr S4096x512) bl) h

/-! ## The composition is the specification -/

section
variable (W : Cert.Spec.WDir) (b : Cert.Spec.BDir) (l r : Fin 2)

/-- One direction's aggregate at `[n, e]`, when the weight operand is slice `[l, r]` of the weights and the bias operand
    row `[l, r]` of the biases on every node. -/
theorem aggOp_at (adj : Arr S4096x4096) (h : Arr S4096x512) (Ws : Arr S512x256) (bs : Arr S4096x256)
    (hW : ∀ (k : Fin 512) (e : Fin 256), Ws (ix2 k e) = W (ix4 l r k e))
    (hb : ∀ (n : Fin 4096) (e : Fin 256), bs (ix2 n e) = b (ix3 l r e)) (n : Fin 4096) (e : Fin 256) :
    aggOp adj h Ws bs (ix2 n e) = Cert.Spec.agg adj h W b l r n e := by
  unfold aggOp Cert.Spec.agg Cert.Spec.proj
  show (Host.dotGeneral (F := Ideal) dot_S4096x4096_S4096x256_S4096x256_1_0_0_1_n_n none adj
      (Host.dotGeneral (F := Ideal) dot_S4096x512_S512x256_S4096x256_1_0_0_1_n_n none h Ws : Arr S4096x256) : Arr S4096x256) (ix2 n e) + bs (ix2 n e) = _
  rw [adj_at, hb]
  refine congrArg (· + _) (Finset.sum_congr rfl fun j _ => ?_)
  rw [proj_at]
  exact congrArg (_ * ·) (Finset.sum_congr rfl fun k _ => by rw [hW])

end

/-- One relation's output at `[n, c]`. -/
theorem relOp_at (Wfw : Cert.Spec.WDir) (bfw : Cert.Spec.BDir) (Wbw : Cert.Spec.WDir) (bbw : Cert.Spec.BDir) (l r : Fin 2)
    (fwAdj bwAdj : Arr S4096x4096) (h : Arr S4096x512) (Wf Wb : Arr S512x256) (bf bb : Arr S4096x256)
    (hWf : ∀ (k : Fin 512) (e : Fin 256), Wf (ix2 k e) = Wfw (ix4 l r k e))
    (hWb : ∀ (k : Fin 512) (e : Fin 256), Wb (ix2 k e) = Wbw (ix4 l r k e))
    (hbf : ∀ (n : Fin 4096) (e : Fin 256), bf (ix2 n e) = bfw (ix3 l r e))
    (hbb : ∀ (n : Fin 4096) (e : Fin 256), bb (ix2 n e) = bbw (ix3 l r e)) (n : Fin 4096) (c : Fin 512) :
    relOp fwAdj bwAdj h Wf Wb bf bb (ix2 n c) = Cert.Spec.outs fwAdj bwAdj h Wfw bfw Wbw bbw l r n c := by
  unfold relOp Cert.Spec.outs
  rw [join_cols_at]
  exact congrArg₂ (fun lo hi => Cert.Spec.cat lo hi c)
    (funext fun e => aggOp_at Wbw bbw l r bwAdj h Wb bb hWb hbb n e)
    (funext fun e => aggOp_at Wfw bfw l r fwAdj h Wf bf hWf hbf n e)

/-- The sum of the two stacked outputs from the zero word is their sum. -/
theorem preOp_at (o0 o1 : Arr S4096x512) (n : Fin 4096) (c : Fin 512) :
    preOp o0 o1 (ix2 n c) = o0 (ix2 n c) + o1 (ix2 n c) := by
  unfold preOp
  rw [stack_sum_at, Fin.sum_univ_two, stack_at0, stack_at1, lead_at, lead_at]
  have z : (constant (F := Ideal) S_ .f32 0x00000000#32 : Arr S_) (Shape.Idx.first h_S_) = 0 := Ideal.ofBits_zero_f32
  rw [z, zero_add]

/-- The rectifier at an index. -/
theorem actOp_at (s : Arr S4096x512) (i : S4096x512.Idx) : actOp s i = Cert.Spec.relu (s i) := by
  unfold actOp Cert.Spec.relu
  show max (s i) ((broadcastInDim S4096x512 ![] bcast_S_S4096x512 (constant (F := Ideal) S_ .f32 0x00000000#32)
    : Arr S4096x512) i) = _
  rw [zeros_at]

/-- The reference's layer is the specification's: `l` is the layer whose slices the parameter operands are. -/
theorem layerOp_eq (Wfw : Cert.Spec.WDir) (bfw : Cert.Spec.BDir) (Wbw : Cert.Spec.WDir) (bbw : Cert.Spec.BDir)
    (Wlin : Cert.Spec.WLin) (blin : Cert.Spec.BLin) (l : Fin 2)
    (fw0 fw1 bw0 bw1 : Arr S4096x4096) (h : Arr S4096x512) (Wf0 Wf1 Wb0 Wb1 : Arr S512x256)
    (bf0 bf1 bb0 bb1 : Arr S4096x256) (Wl : Arr S512x512) (bl : Arr S4096x512)
    (hWf0 : ∀ (k : Fin 512) (e : Fin 256), Wf0 (ix2 k e) = Wfw (ix4 l 0 k e))
    (hWf1 : ∀ (k : Fin 512) (e : Fin 256), Wf1 (ix2 k e) = Wfw (ix4 l 1 k e))
    (hWb0 : ∀ (k : Fin 512) (e : Fin 256), Wb0 (ix2 k e) = Wbw (ix4 l 0 k e))
    (hWb1 : ∀ (k : Fin 512) (e : Fin 256), Wb1 (ix2 k e) = Wbw (ix4 l 1 k e))
    (hbf0 : ∀ (n : Fin 4096) (e : Fin 256), bf0 (ix2 n e) = bfw (ix3 l 0 e))
    (hbf1 : ∀ (n : Fin 4096) (e : Fin 256), bf1 (ix2 n e) = bfw (ix3 l 1 e))
    (hbb0 : ∀ (n : Fin 4096) (e : Fin 256), bb0 (ix2 n e) = bbw (ix3 l 0 e))
    (hbb1 : ∀ (n : Fin 4096) (e : Fin 256), bb1 (ix2 n e) = bbw (ix3 l 1 e))
    (hWl : ∀ (k c : Fin 512), Wl (ix2 k c) = Wlin (ix3 l k c))
    (hbl : ∀ (n : Fin 4096) (c : Fin 512), bl (ix2 n c) = blin (ix2 l c)) :
    layerOp fw0 fw1 bw0 bw1 h Wf0 Wf1 Wb0 Wb1 bf0 bf1 bb0 bb1 Wl bl
      = Cert.Spec.layer fw0 fw1 bw0 bw1 Wfw bfw Wbw bbw Wlin blin l h := by
  funext i
  obtain ⟨n, c, rfl⟩ : ∃ (n : Fin 4096) (c : Fin 512), i = ix2 n c := ⟨i 0, i 1, eq_ix2 i⟩
  rw [Cert.Spec.layer_ix2]
  unfold layerOp Cert.Spec.layerAt
  show ((Host.dotGeneral (F := Ideal) dot_S4096x512_S512x512_S4096x512_1_0_0_1_n_n none
      (actOp (preOp (relOp fw0 bw0 h Wf0 Wb0 bf0 bb0) (relOp fw1 bw1 h Wf1 Wb1 bf1 bb1))) Wl : Arr S4096x512) (ix2 n c)
      + bl (ix2 n c)) + h (ix2 n c) = _
  rw [lin_at, hbl]
  refine congrArg (· + _) (congrArg (· + _) (Finset.sum_congr rfl fun k _ => ?_))
  rw [actOp_at, preOp_at, relOp_at Wfw bfw Wbw bbw l 0 fw0 bw0 h Wf0 Wb0 bf0 bb0 hWf0 hWb0 hbf0 hbb0,
    relOp_at Wfw bfw Wbw bbw l 1 fw1 bw1 h Wf1 Wb1 bf1 bb1 hWf1 hWb1 hbf1 hbb1, hWl]
  rfl

end Cert.RefLayer

end
-- ==== Proof.RefValue.lean ====
/-
  The reference's side of the certificate: what the reference computes is the specification `Cert.Spec.G` of its
  arguments.

  The generated reading of the reference names each operation's value as a stage of the arguments. Both layers are one
  composition of operations (`Cert.RefLayer.layerOp`) — layer 0 of the embeddings, layer 1 of layer 0's result — whose
  parameter operands are slices of the parameter arrays: slice `[l, r]` of the directional weights reshaped to
  [512, 256], row `[l, r]` of the directional biases broadcast over the nodes, slice `[l]` of the linear weights, row `[l]`
  of the linear biases broadcast over the nodes. The slice lemmas read those operands at an index; with them the
  last stage is `G` (`ref_is_G`), the reference's run ends with `G` of the arguments in its result and the
  arguments unchanged (`ref_run`; `ref_side` from a memory that agrees with another program's on the arguments), and the
  reference's frame is its run with the result dropped (`ref_frame`).
-/
import proofs.«161264_g10471130268016_week1_w2_219_12_alg».proof.Defs
import proofs.«161264_g10471130268016_week1_w2_219_12_alg».proof.Proof.Gen.ReferenceIdeal
import proofs.«161264_g10471130268016_week1_w2_219_12_alg».proof.Proof.Gen.Pre_finite_inputs
import proofs.«161264_g10471130268016_week1_w2_219_12_alg».proof.Proof.RefRunP
import proofs.«161264_g10471130268016_week1_w2_219_12_alg».proof.Proof.RefReadP
import proofs.«161264_g10471130268016_week1_w2_219_12_alg».proof.Proof.Spec
import proofs.«161264_g10471130268016_week1_w2_219_12_alg».proof.Proof.RefLayer

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.RefLayer
open scoped BigOperators

/-! ## The parameter operands are slices of the parameter arrays

Each operand is read through its stages (a slice, a reshape that drops the unit axes, for a bias two broadcasts); what
is left is that the composed index is the slice's: coordinate by coordinate, the unit axes by computation and the
reshaped axes by the arithmetic of row-major order (`(k * 256 + e) / 256 % 512 = k`, `(k * 256 + e) % 256 = e`). -/

/-- A directional weight's operand: a slice `[l, r, :, :]` reshaped to [512, 256]. -/
local macro "w_slice" r:ident s:ident x:ident k:ident e:ident : tactic =>
  `(tactic| (
    rw [$r:ident, $s:ident]
    refine congrArg $x (funext fun a => Fin.ext ?_)
    have hk := Fin.isLt $k
    have he := Fin.isLt $e
    match a with
    | ⟨0, _⟩ => rfl
    | ⟨1, _⟩ => rfl
    | ⟨2, _⟩ => (show ((Fin.val $k:ident) * 256 + (Fin.val $e:ident)) / 256 % 512 = (Fin.val $k:ident); omega)
    | ⟨3, _⟩ => (show ((Fin.val $k:ident) * 256 + (Fin.val $e:ident)) % 256 = (Fin.val $e:ident); omega)))

/-- A directional bias's operand: a slice `[l, r, :]` reshaped to [256], as a row, broadcast over the nodes. -/
local macro "b_slice" b2:ident b1:ident r:ident s:ident x:ident e:ident : tactic =>
  `(tactic| (
    rw [$b2:ident, $b1:ident, $r:ident, $s:ident]
    refine congrArg $x (funext fun a => Fin.ext ?_)
    have he := Fin.isLt $e
    match a with
    | ⟨0, _⟩ => rfl
    | ⟨1, _⟩ => rfl
    | ⟨2, _⟩ => (show (Fin.val $e:ident) % 256 = (Fin.val $e:ident); omega)))

/-- The weight operand of layer 0, relation 0 (forward) is slice `[0, 0]` of the weights. -/
theorem Wfw_l0_r0 (x : Arr S2x2x512x256) (k : Fin 512) (e : Fin 256) :
    val_main_v1 (F := Ideal) x (ix2 k e) = x (ix4 (0 : Fin 2) (0 : Fin 2) k e) := by
  w_slice val_main_v1_apply val_main_v0_apply x k e

/-- The weight operand of layer 0, relation 0 (backward) is slice `[0, 0]` of the weights. -/
theorem Wbw_l0_r0 (x : Arr S2x2x512x256) (k : Fin 512) (e : Fin 256) :
    val_main_v10 (F := Ideal) x (ix2 k e) = x (ix4 (0 : Fin 2) (0 : Fin 2) k e) := by
  w_slice val_main_v10_apply val_main_v9_apply x k e

/-- The weight operand of layer 0, relation 1 (forward) is slice `[0, 1]` of the weights. -/
theorem Wfw_l0_r1 (x : Arr S2x2x512x256) (k : Fin 512) (e : Fin 256) :
    val_main_v20 (F := Ideal) x (ix2 k e) = x (ix4 (0 : Fin 2) (1 : Fin 2) k e) := by
  w_slice val_main_v20_apply val_main_v19_apply x k e

/-- The weight operand of layer 0, relation 1 (backward) is slice `[0, 1]` of the weights. -/
theorem Wbw_l0_r1 (x : Arr S2x2x512x256) (k : Fin 512) (e : Fin 256) :
    val_main_v29 (F := Ideal) x (ix2 k e) = x (ix4 (0 : Fin 2) (1 : Fin 2) k e) := by
  w_slice val_main_v29_apply val_main_v28_apply x k e

/-- The weight operand of layer 1, relation 0 (forward) is slice `[1, 0]` of the weights. -/
theorem Wfw_l1_r0 (x : Arr S2x2x512x256) (k : Fin 512) (e : Fin 256) :
    val_main_v53 (F := Ideal) x (ix2 k e) = x (ix4 (1 : Fin 2) (0 : Fin 2) k e) := by
  w_slice val_main_v53_apply val_main_v52_apply x k e

/-- The weight operand of layer 1, relation 0 (backward) is slice `[1, 0]` of the weights. -/
theorem Wbw_l1_r0 (x : Arr S2x2x512x256) (k : Fin 512) (e : Fin 256) :
    val_main_v62 (F := Ideal) x (ix2 k e) = x (ix4 (1 : Fin 2) (0 : Fin 2) k e) := by
  w_slice val_main_v62_apply val_main_v61_apply x k e

/-- The weight operand of layer 1, relation 1 (forward) is slice `[1, 1]` of the weights. -/
theorem Wfw_l1_r1 (x : Arr S2x2x512x256) (k : Fin 512) (e : Fin 256) :
    val_main_v72 (F := Ideal) x (ix2 k e) = x (ix4 (1 : Fin 2) (1 : Fin 2) k e) := by
  w_slice val_main_v72_apply val_main_v71_apply x k e

/-- The weight operand of layer 1, relation 1 (backward) is slice `[1, 1]` of the weights. -/
theorem Wbw_l1_r1 (x : Arr S2x2x512x256) (k : Fin 512) (e : Fin 256) :
    val_main_v81 (F := Ideal) x (ix2 k e) = x (ix4 (1 : Fin 2) (1 : Fin 2) k e) := by
  w_slice val_main_v81_apply val_main_v80_apply x k e

/-- The bias operand of layer 0, relation 0 (forward) is row `[0, 0]` of the biases on every node. -/
theorem bfw_l0_r0 (x : Arr S2x2x256) (n : Fin 4096) (e : Fin 256) :
    val_main_v7 (F := Ideal) x (ix2 n e) = x (ix3 (0 : Fin 2) (0 : Fin 2) e) := by
  b_slice val_main_v7_apply val_main_v6_apply val_main_v5_apply val_main_v4_apply x e

/-- The bias operand of layer 0, relation 0 (backward) is row `[0, 0]` of the biases on every node. -/
theorem bbw_l0_r0 (x : Arr S2x2x256) (n : Fin 4096) (e : Fin 256) :
    val_main_v16 (F := Ideal) x (ix2 n e) = x (ix3 (0 : Fin 2) (0 : Fin 2) e) := by
  b_slice val_main_v16_apply val_main_v15_apply val_main_v14_apply val_main_v13_apply x e

/-- The bias operand of layer 0, relation 1 (forward) is row `[0, 1]` of the biases on every node. -/
theorem bfw_l0_r1 (x : Arr S2x2x256) (n : Fin 4096) (e : Fin 256) :
    val_main_v26 (F := Ideal) x (ix2 n e) = x (ix3 (0 : Fin 2) (1 : Fin 2) e) := by
  b_slice val_main_v26_apply val_main_v25_apply val_main_v24_apply val_main_v23_apply x e

/-- The bias operand of layer 0, relation 1 (backward) is row `[0, 1]` of the biases on every node. -/
theorem bbw_l0_r1 (x : Arr S2x2x256) (n : Fin 4096) (e : Fin 256) :
    val_main_v35 (F := Ideal) x (ix2 n e) = x (ix3 (0 : Fin 2) (1 : Fin 2) e) := by
  b_slice val_main_v35_apply val_main_v34_apply val_main_v33_apply val_main_v32_apply x e

/-- The bias operand of layer 1, relation 0 (forward) is row `[1, 0]` of the biases on every node. -/
theorem bfw_l1_r0 (x : Arr S2x2x256) (n : Fin 4096) (e : Fin 256) :
    val_main_v59 (F := Ideal) x (ix2 n e) = x (ix3 (1 : Fin 2) (0 : Fin 2) e) := by
  b_slice val_main_v59_apply val_main_v58_apply val_main_v57_apply val_main_v56_apply x e

/-- The bias operand of layer 1, relation 0 (backward) is row `[1, 0]` of the biases on every node. -/
theorem bbw_l1_r0 (x : Arr S2x2x256) (n : Fin 4096) (e : Fin 256) :
    val_main_v68 (F := Ideal) x (ix2 n e) = x (ix3 (1 : Fin 2) (0 : Fin 2) e) := by
  b_slice val_main_v68_apply val_main_v67_apply val_main_v66_apply val_main_v65_apply x e

/-- The bias operand of layer 1, relation 1 (forward) is row `[1, 1]` of the biases on every node. -/
theorem bfw_l1_r1 (x : Arr S2x2x256) (n : Fin 4096) (e : Fin 256) :
    val_main_v78 (F := Ideal) x (ix2 n e) = x (ix3 (1 : Fin 2) (1 : Fin 2) e) := by
  b_slice val_main_v78_apply val_main_v77_apply val_main_v76_apply val_main_v75_apply x e

/-- The bias operand of layer 1, relation 1 (backward) is row `[1, 1]` of the biases on every node. -/
theorem bbw_l1_r1 (x : Arr S2x2x256) (n : Fin 4096) (e : Fin 256) :
    val_main_v87 (F := Ideal) x (ix2 n e) = x (ix3 (1 : Fin 2) (1 : Fin 2) e) := by
  b_slice val_main_v87_apply val_main_v86_apply val_main_v85_apply val_main_v84_apply x e

/-- The linear weight's operand at layer 0: slice `[0]` reshaped to [512, 512]. -/
theorem Wlin_l0 (x : Arr S2x512x512) (k c : Fin 512) :
    val_main_v44 (F := Ideal) x (ix2 k c) = x (ix3 (0 : Fin 2) k c) := by
  rw [val_main_v44_apply, val_main_v43_apply]
  refine congrArg x (funext fun a => Fin.ext ?_)
  have hk := k.isLt
  have hc := c.isLt
  match a with
  | ⟨0, _⟩ => rfl
  | ⟨1, _⟩ => show (k.val * 512 + c.val) / 512 % 512 = k.val; omega
  | ⟨2, _⟩ => show (k.val * 512 + c.val) % 512 = c.val; omega

/-- The linear weight's operand at layer 1: slice `[1]` reshaped to [512, 512]. -/
theorem Wlin_l1 (x : Arr S2x512x512) (k c : Fin 512) :
    val_main_v96 (F := Ideal) x (ix2 k c) = x (ix3 (1 : Fin 2) k c) := by
  rw [val_main_v96_apply, val_main_v95_apply]
  refine congrArg x (funext fun a => Fin.ext ?_)
  have hk := k.isLt
  have hc := c.isLt
  match a with
  | ⟨0, _⟩ => rfl
  | ⟨1, _⟩ => show (k.val * 512 + c.val) / 512 % 512 = k.val; omega
  | ⟨2, _⟩ => show (k.val * 512 + c.val) % 512 = c.val; omega

/-- The linear bias's operand at layer 0: row `[0]` on every node. -/
theorem blin_l0 (x : Arr S2x512) (n : Fin 4096) (c : Fin 512) :
    val_main_v49 (F := Ideal) x (ix2 n c) = x (ix2 (0 : Fin 2) c) := by
  rw [val_main_v49_apply, val_main_v48_apply, val_main_v47_apply, val_main_v46_apply]
  refine congrArg x (funext fun a => Fin.ext ?_)
  have hc := c.isLt
  match a with
  | ⟨0, _⟩ => rfl
  | ⟨1, _⟩ => show c.val % 512 = c.val; omega

/-- The linear bias's operand at layer 1: row `[1]` on every node. -/
theorem blin_l1 (x : Arr S2x512) (n : Fin 4096) (c : Fin 512) :
    val_main_v101 (F := Ideal) x (ix2 n c) = x (ix2 (1 : Fin 2) c) := by
  rw [val_main_v101_apply, val_main_v100_apply, val_main_v99_apply, val_main_v98_apply]
  refine congrArg x (funext fun a => Fin.ext ?_)
  have hc := c.isLt
  match a with
  | ⟨0, _⟩ => rfl
  | ⟨1, _⟩ => show c.val % 512 = c.val; omega

/-! ## The two layers -/

/-- Layer 0's stage is the layer's composition of the embeddings and the layer-0 operands. -/
theorem stage_layer0 (x0 : Arr S4096x512) (x1 x2 x3 x4 : Arr S4096x4096) (x5 : Arr S2x2x512x256) (x6 : Arr S2x2x256)
    (x7 : Arr S2x2x512x256) (x8 : Arr S2x2x256) (x9 : Arr S2x512x512) (x10 : Arr S2x512) :
    val_main_v51 (F := Ideal) x0 x1 x2 x3 x4 x5 x6 x7 x8 x9 x10
      = layerOp x1 x2 x3 x4 x0 (val_main_v1 (F := Ideal) x5) (val_main_v20 (F := Ideal) x5) (val_main_v10 (F := Ideal) x7)
          (val_main_v29 (F := Ideal) x7) (val_main_v7 (F := Ideal) x6) (val_main_v26 (F := Ideal) x6)
          (val_main_v16 (F := Ideal) x8) (val_main_v35 (F := Ideal) x8) (val_main_v44 (F := Ideal) x9)
          (val_main_v49 (F := Ideal) x10) := rfl

/-- The last stage is the layer's composition of layer 0's stage and the layer-1 operands. -/
theorem stage_layer1 (x0 : Arr S4096x512) (x1 x2 x3 x4 : Arr S4096x4096) (x5 : Arr S2x2x512x256) (x6 : Arr S2x2x256)
    (x7 : Arr S2x2x512x256) (x8 : Arr S2x2x256) (x9 : Arr S2x512x512) (x10 : Arr S2x512) :
    val_main_v103 (F := Ideal) x0 x1 x2 x3 x4 x5 x6 x7 x8 x9 x10
      = layerOp x1 x2 x3 x4 (val_main_v51 (F := Ideal) x0 x1 x2 x3 x4 x5 x6 x7 x8 x9 x10) (val_main_v53 (F := Ideal) x5)
          (val_main_v72 (F := Ideal) x5) (val_main_v62 (F := Ideal) x7) (val_main_v81 (F := Ideal) x7)
          (val_main_v59 (F := Ideal) x6) (val_main_v78 (F := Ideal) x6) (val_main_v68 (F := Ideal) x8)
          (val_main_v87 (F := Ideal) x8) (val_main_v96 (F := Ideal) x9) (val_main_v101 (F := Ideal) x10) := rfl

/-- Layer 0's stage is the specification's layer 0 of the embeddings. -/
theorem layer0_eq (x0 : Arr S4096x512) (x1 x2 x3 x4 : Arr S4096x4096) (x5 : Arr S2x2x512x256) (x6 : Arr S2x2x256)
    (x7 : Arr S2x2x512x256) (x8 : Arr S2x2x256) (x9 : Arr S2x512x512) (x10 : Arr S2x512) :
    val_main_v51 (F := Ideal) x0 x1 x2 x3 x4 x5 x6 x7 x8 x9 x10 = Cert.Spec.layer x1 x2 x3 x4 x5 x6 x7 x8 x9 x10 0 x0 :=
  (stage_layer0 x0 x1 x2 x3 x4 x5 x6 x7 x8 x9 x10).trans
    (layerOp_eq x5 x6 x7 x8 x9 x10 0 x1 x2 x3 x4 x0 _ _ _ _ _ _ _ _ _ _
      (Wfw_l0_r0 x5) (Wfw_l0_r1 x5) (Wbw_l0_r0 x7) (Wbw_l0_r1 x7) (bfw_l0_r0 x6) (bfw_l0_r1 x6) (bbw_l0_r0 x8)
      (bbw_l0_r1 x8) (Wlin_l0 x9) (blin_l0 x10))

/-- The reference is `G`: its last stage, of any argument arrays, is the specification of them. -/
theorem ref_is_G (x0 : Arr S4096x512) (x1 x2 x3 x4 : Arr S4096x4096) (x5 : Arr S2x2x512x256) (x6 : Arr S2x2x256)
    (x7 : Arr S2x2x512x256) (x8 : Arr S2x2x256) (x9 : Arr S2x512x512) (x10 : Arr S2x512) :
    val_main_v103 (F := Ideal) x0 x1 x2 x3 x4 x5 x6 x7 x8 x9 x10 = Cert.Spec.G x0 x1 x2 x3 x4 x5 x6 x7 x8 x9 x10 := by
  rw [stage_layer1,
    layerOp_eq x5 x6 x7 x8 x9 x10 1 x1 x2 x3 x4 (val_main_v51 (F := Ideal) x0 x1 x2 x3 x4 x5 x6 x7 x8 x9 x10) _ _ _ _ _ _ _ _ _ _
      (Wfw_l1_r0 x5) (Wfw_l1_r1 x5) (Wbw_l1_r0 x7) (Wbw_l1_r1 x7) (bfw_l1_r0 x6) (bfw_l1_r1 x6) (bbw_l1_r0 x8)
      (bbw_l1_r1 x8) (Wlin_l1 x9) (blin_l1 x10),
    layer0_eq]
  rfl

/-! ## The reference's run -/

/-- From any memory with zero counters the reference terminates with `G` of its arguments' launch contents in its
    result and its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v103)
        = Cert.Spec.G (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono
    (fun _ h c => ⟨(h c).1.trans ((val_main_v103_eq m c).trans (ref_is_G _ _ _ _ _ _ _ _ _ _ _)), (h c).2⟩)
    (Cert.ReferenceIdeal.Value.run (F := Ideal) m ρ)

/-- The same from a memory that agrees on the arguments with a memory of the idealized kernel: the result is `G` of
    the kernel's arguments. This is the reference's conjunct of the algebraic claim with the witness `G` of the
    kernel's arguments. -/
theorem ref_side (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v103)
          = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)) :=
  (θ_run Cert.ReferenceIdeal.defs _ _).mono
    (fun _ h c => ⟨(h c).1.trans (by
        have ha := hagree c
        rw [ha.1, ha.2.1, ha.2.2.1, ha.2.2.2.1, ha.2.2.2.2.1, ha.2.2.2.2.2.1, ha.2.2.2.2.2.2.1, ha.2.2.2.2.2.2.2.1,
          ha.2.2.2.2.2.2.2.2.1, ha.2.2.2.2.2.2.2.2.2.1, ha.2.2.2.2.2.2.2.2.2.2]), (h c).2⟩)
    (ref_run m' g')

/-- The reference's frame: its run with the result dropped. -/
theorem ref_frame : Cert.frame_ReferenceIdeal := fun m ρ _ =>
  (θ_run Cert.ReferenceIdeal.defs _ _).mono (fun _ h c => (h c).2) (Cert.ReferenceIdeal.Value.run (F := Ideal) m ρ)

end Cert.RefValue

end
-- ==== Proof.lean ====
/- The certificate of a two-layer bidirectional graph convolution (4096 nodes, 512 features, two relation types per direction).
   The reference computes, per layer, for each relation r: fw_r = fw_adj_r · (h · W_fw[l,r]) + b_fw[l,r] and the same for bw,
   joins [bw_r | fw_r] along the columns, sums the two relations, rectifies, applies the linear map W_lin[l], b_lin[l] and adds h.
   The kernel has three regions: a projection h · [W_bw0 | W_bw1 | W_fw0 | W_fw1]; then per layer an aggregation that
   walks the 4096 contraction nodes in sixteen blocks of 256, adding into a 2048×512 accumulator the two backward relations'
   products (left 256 columns) and the two forward relations' (right 256 columns), and at the last block adds the summed biases,
   rectifies, applies the linear map and the residual (and, in the first layer, projects the result for the second).
   Over the extended reals the two are the same function: the only laws used are commutativity and associativity of + (a sum
   over 4096 nodes is the sum over its sixteen blocks; a sum of pairwise sums is the sum of the sums; the biases may be added
   at the end), so the precondition (finite inputs) is never opened.

   Frames: each kernel region's body is run at each of its kinds of grid point (first, middle, last contraction block), the
   accumulator carried in the region's invariant, and the three regions are chained through the several-region launch; that one
   run, stated at any float interpretation, gives the word-level program's frame, the idealized program's frame and, with the
   result buffer's contents read off it, the kernel half of the value claim. The reference's run is read back operation by
   operation. The idealization pass rewrote nothing, so `preserves` is `True`. -/
import proofs.«161264_g10471130268016_week1_w2_219_12_alg».proof.Defs
import proofs.«161264_g10471130268016_week1_w2_219_12_alg».proof.Proof.Gen.Kernel
import proofs.«161264_g10471130268016_week1_w2_219_12_alg».proof.Proof.Gen.KernelIdeal
import proofs.«161264_g10471130268016_week1_w2_219_12_alg».proof.Proof.Gen.ReferenceIdeal
import proofs.«161264_g10471130268016_week1_w2_219_12_alg».proof.Proof.Gen.Pre_finite_inputs
import proofs.«161264_g10471130268016_week1_w2_219_12_alg».proof.Proof.FrameB.Run
import proofs.«161264_g10471130268016_week1_w2_219_12_alg».proof.Proof.FrameI.Run
import proofs.«161264_g10471130268016_week1_w2_219_12_alg».proof.Proof.ValI.Compose
import proofs.«161264_g10471130268016_week1_w2_219_12_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level program's frame: its run, the result's contents dropped
  fun m g _ => (θ_run (Cert.Kernel.defs (F := Bits)) _ _).mono (fun _ h c => (h c).2) (Cert.Kernel.Frame.run (F := Bits) m g),
  -- the idealized program's frame, likewise
  fun m g _ => (θ_run (Cert.KernelIdeal.defs (F := Ideal)) _ _).mono (fun _ h c => (h c).2) (Cert.KernelIdeal.Frame.run (F := Ideal) m g),
  -- the reference's frame: its run with the result dropped
  Cert.RefValue.ref_frame,
  -- the idealization rewrote nothing
  trivial,
  -- both programs end with the specification's function of the arguments
  fun m g m' g' _ hagree =>
    ⟨fun (c : Dev Cert.KernelIdeal.nD) => Cert.Spec.G
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)),
      (θ_run (Cert.KernelIdeal.defs (F := Ideal)) _ _).mono
        (fun _ h c => ⟨(h c).1.trans (Cert.KernelIdeal.Val.kernel_value m g c), (h c).2⟩)
        (Cert.KernelIdeal.Frame.run (F := Ideal) m g),
      Cert.RefValue.ref_side m m' g' hagree⟩⟩

end Cert.Proof

end
